-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x784 : Shape := ⟨2, ![4096, 784]⟩
abbrev S200000 : Shape := ⟨1, ![200000]⟩
abbrev S2x200000 : Shape := ⟨2, ![2, 200000]⟩
abbrev S_ : Shape := ⟨0, ![]⟩

class Facts : Prop where
  bcast_S_S4096x784 : S_.BroadcastsInDim S4096x784 (![] : Fin 0 → Fin S4096x784.rank)
  reducesTo_S4096x784_S_d0_1 : S4096x784.ReducesTo [0, 1] S_
  h_S_ : 0 < S_.numel
  bcast_S_S200000 : S_.BroadcastsInDim S200000 (![] : Fin 0 → Fin S200000.rank)
  reducesTo_S200000_S_d0 : S200000.ReducesTo [0] S_

variable [Facts]

def fn {F : FTy → Type} [FloatOps F] (main_arg0 : FVec F S4096x784 .f32) (main_arg1 : FVec F S200000 .f32) (main_arg2 : IVec S2x200000 32) : IVec S_ 1 :=
  let main_v0 : FVec F S4096x784 .f32 := Host.absf main_arg0
  let main_cst : FVec F S_ .f32 := constant S_ .f32 0x7F800000#32
  let main_v1 : FVec F S4096x784 .f32 := broadcastInDim S4096x784 ![] bcast_S_S4096x784 main_cst
  let main_v2 : IVec S4096x784 1 := cmpf .olt main_v0 main_v1
  let main_c : IVec S_ 1 := constantI S_ 1 1#1
  let main_v3 : IVec S_ 1 := (fun x v => Host.reduce IntOp.andi x v reducesTo_S4096x784_S_d0_1 h_S_) main_v2 main_c
  let main_v4 : FVec F S200000 .f32 := Host.absf main_arg1
  let main_cst_0 : FVec F S_ .f32 := constant S_ .f32 0x7F800000#32
  let main_v5 : FVec F S200000 .f32 := broadcastInDim S200000 ![] bcast_S_S200000 main_cst_0
  let main_v6 : IVec S200000 1 := cmpf .olt main_v4 main_v5
  let main_c_1 : IVec S_ 1 := constantI S_ 1 1#1
  let main_v7 : IVec S_ 1 := (fun x v => Host.reduce IntOp.andi x v reducesTo_S200000_S_d0 h_S_) main_v6 main_c_1
  let main_v8 : IVec S_ 1 := andi main_v3 main_v7
  main_v8
-- ==== Kernel.lean ====
abbrev S4096x784 : Shape := ⟨2, ![4096, 784]⟩
abbrev S200000 : Shape := ⟨1, ![200000]⟩
abbrev S2x200000 : Shape := ⟨2, ![2, 200000]⟩
abbrev S_ : Shape := ⟨0, ![]⟩
abbrev S4096x4096 : Shape := ⟨2, ![4096, 4096]⟩
abbrev S1x200000 : Shape := ⟨2, ![1, 200000]⟩
abbrev S200000x1 : Shape := ⟨2, ![200000, 1]⟩
abbrev S200000x2 : Shape := ⟨2, ![200000, 2]⟩
abbrev S1 : Shape := ⟨1, ![1]⟩
abbrev S1x4096 : Shape := ⟨2, ![1, 4096]⟩
abbrev S1x10 : Shape := ⟨2, ![1, 10]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩
abbrev S4096x10 : Shape := ⟨2, ![4096, 10]⟩

abbrev nBuf : Space → Nat
  | .hbm => 53
  | .vmem => 45
  | .smem => 0
  | _ => 0

abbrev bufTy : (tb : Table) → Fin (tcTables nBuf tb) → BufTy
  | .hbm, ⟨0, _⟩ => ⟨S4096x784, .f32⟩
  | .hbm, ⟨1, _⟩ => ⟨S200000, .f32⟩
  | .hbm, ⟨2, _⟩ => ⟨S2x200000, .i32⟩
  | .hbm, ⟨3, _⟩ => ⟨S_, .f32⟩
  | .hbm, ⟨4, _⟩ => ⟨S4096x4096, .f32⟩
  | .hbm, ⟨5, _⟩ => ⟨S1x200000, .i32⟩
  | .hbm, ⟨6, _⟩ => ⟨S200000, .i32⟩
  | .hbm, ⟨7, _⟩ => ⟨S1x200000, .i32⟩
  | .hbm, ⟨8, _⟩ => ⟨S200000, .i32⟩
  | .hbm, ⟨9, _⟩ => ⟨S_, .i32⟩
  | .hbm, ⟨10, _⟩ => ⟨S200000, .i32⟩
  | .hbm, ⟨11, _⟩ => ⟨S200000, .i1⟩
  | .hbm, ⟨12, _⟩ => ⟨S_, .i32⟩
  | .hbm, ⟨13, _⟩ => ⟨S200000, .i32⟩
  | .hbm, ⟨14, _⟩ => ⟨S200000, .i32⟩
  | .hbm, ⟨15, _⟩ => ⟨S200000, .i32⟩
  | .hbm, ⟨16, _⟩ => ⟨S_, .i32⟩
  | .hbm, ⟨17, _⟩ => ⟨S200000, .i32⟩
  | .hbm, ⟨18, _⟩ => ⟨S200000, .i1⟩
  | .hbm, ⟨19, _⟩ => ⟨S_, .i32⟩
  | .hbm, ⟨20, _⟩ => ⟨S200000, .i32⟩
  | .hbm, ⟨21, _⟩ => ⟨S200000, .i32⟩
  | .hbm, ⟨22, _⟩ => ⟨S200000, .i32⟩
  | .hbm, ⟨23, _⟩ => ⟨S200000x1, .i32⟩
  | .hbm, ⟨24, _⟩ => ⟨S200000x1, .i32⟩
  | .hbm, ⟨25, _⟩ => ⟨S200000x2, .i32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S_, .i32⟩
  | .hbm, ⟨30, _⟩ => ⟨S1, .i32⟩
  | .hbm, ⟨31, _⟩ => ⟨S4096x4096, .f32⟩
  | .hbm, ⟨32, _⟩ => ⟨S_, .f32⟩
  | .hbm, ⟨33, _⟩ => ⟨S1x4096, .f32⟩
  | .hbm, ⟨34, _⟩ => ⟨S_, .i32⟩
  | .hbm, ⟨35, _⟩ => ⟨S1, .i32⟩
  | .hbm, ⟨36, _⟩ => ⟨S_, .f32⟩
  | .hbm, ⟨37, _⟩ => ⟨S1x10, .f32⟩
  | .hbm, ⟨38, _⟩ => ⟨S1x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x10, .f32⟩
  | .hbm, ⟨45, _⟩ => ⟨S4096x10, .f32⟩
  | .hbm, ⟨46, _⟩ => ⟨S4096x10, .f32⟩
  | .hbm, ⟨47, _⟩ => ⟨S_, .f32⟩
  | .hbm, ⟨48, _⟩ => ⟨S4096x10, .f32⟩
  | .hbm, ⟨49, _⟩ => ⟨S4096x10, .f32⟩
  | .hbm, ⟨50, _⟩ => ⟨S_, .f32⟩
  | .hbm, ⟨51, _⟩ => ⟨S4096x10, .f32⟩
  | .hbm, ⟨52, _⟩ => ⟨S4096x10, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x512, .f32⟩
  | .local _ .vmem, ⟨10, _⟩ => ⟨S1024x512, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x512, .f32⟩
  | .local _ .vmem, ⟨19, _⟩ => ⟨S1024x512, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S1x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x512, .f32⟩
  | .local _ .vmem, ⟨28, _⟩ => ⟨S1024x512, .f32⟩
  | .local _ .vmem, ⟨29, _⟩ => ⟨S512x1024, .f32⟩
  | .local _ .vmem, ⟨30, _⟩ => ⟨S512x1024, .f32⟩
  | .local _ .vmem, ⟨31, _⟩ => ⟨S1x1024, .f32⟩
  | .local _ .vmem, ⟨32, _⟩ => ⟨S1x1024, .f32⟩
  | .local _ .vmem, ⟨33, _⟩ => ⟨S1024x1024, .f32⟩
  | .local _ .vmem, ⟨34, _⟩ => ⟨S1024x1024, .f32⟩
  | .local _ .vmem, ⟨35, _⟩ => ⟨S1024x1024, .f32⟩
  | .local _ .vmem, ⟨36, _⟩ => ⟨S1024x512, .f32⟩
  | .local _ .vmem, ⟨37, _⟩ => ⟨S1024x512, .f32⟩
  | .local _ .vmem, ⟨38, _⟩ => ⟨S512x1024, .f32⟩
  | .local _ .vmem, ⟨39, _⟩ => ⟨S512x1024, .f32⟩
  | .local _ .vmem, ⟨40, _⟩ => ⟨S1x1024, .f32⟩
  | .local _ .vmem, ⟨41, _⟩ => ⟨S1x1024, .f32⟩
  | .local _ .vmem, ⟨42, _⟩ => ⟨S1024x1024, .f32⟩
  | .local _ .vmem, ⟨43, _⟩ => ⟨S1024x1024, .f32⟩
  | .local _ .vmem, ⟨44, _⟩ => ⟨S1024x1024, .f32⟩
  | _, _ => ⟨S4096x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 4, 8], ![false, false, false]⟩

def k2_cond2 (i : grid2.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 4, 8], ![false, false, false]⟩

def k3_cond2 (i : grid3.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![4, 4, 8], ![false, false, false]⟩

def k4_cond2 (i : grid4.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

class Facts₀ : Prop where
  bcast_S_S4096x4096 : S_.BroadcastsInDim S4096x4096 (![] : Fin 0 → Fin S4096x4096.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  bcast_S_S1 : S_.BroadcastsInDim S1 (![] : Fin 0 → Fin S1.rank)
  bcast_S_S1x4096 : S_.BroadcastsInDim S1x4096 (![] : Fin 0 → Fin S1x4096.rank)
  bcast_S_S1x10 : S_.BroadcastsInDim S1x10 (![] : Fin 0 → Fin S1x10.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S4096x4096_S4096x10_0_4086 : S4096x4096.Slices ![0, 4086] S4096x10
  bcast_S_S4096x10 : S_.BroadcastsInDim S4096x10 (![] : Fin 0 → Fin S4096x10.rank)
  scatter_S4096x4096_S200000x2_S200000_n_01_01_1_wf : ScatterDims.WF S4096x4096 S200000x2 S200000 [] [0, 1] [0, 1] 1
  scatter_S4096x4096_S1_S4096x784_01_n_1_0_wf : ScatterDims.WF S4096x4096 S1 S4096x784 [0, 1] [] [1] 0
  scatter_S1x4096_S1_S1x10_01_n_1_0_wf : ScatterDims.WF S1x4096 S1 S1x10 [0, 1] [] [1] 0
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x4096.size a
  hwx1_0 : ∀ i : grid1.Coords, EltTy.bits .f32 = 32 ∨ (Rect.block (s := S4096x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .f32 = 32 ∨ (Rect.block (s := S4096x4096) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x4096.size a
  hwx2_0 : ∀ i : grid2.Coords, EltTy.bits .f32 = 32 ∨ (Rect.block (s := S4096x4096) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x4096.size a
  hwx2_1 : ∀ i : grid2.Coords, EltTy.bits .f32 = 32 ∨ (Rect.block (s := S4096x4096) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x4096.size a
  hwx2_3 : ∀ i : grid2.Coords, EltTy.bits .f32 = 32 ∨ (Rect.block (s := S4096x4096) S1024x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S4096x4096.size a
  hwx3_0 : ∀ i : grid3.Coords, EltTy.bits .f32 = 32 ∨ (Rect.block (s := S4096x4096) S1024x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x1024.size a ≤ S4096x4096.size a
  hwx3_1 : ∀ i : grid3.Coords, EltTy.bits .f32 = 32 ∨ (Rect.block (s := S4096x4096) S512x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S4096x4096.size a
  hwx3_3 : ∀ i : grid3.Coords, EltTy.bits .f32 = 32 ∨ (Rect.block (s := S4096x4096) S1024x1024.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S4096x4096.size a
  hwx4_0 : ∀ i : grid4.Coords, EltTy.bits .f32 = 32 ∨ (Rect.block (s := S4096x4096) S1024x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x1024.size a ≤ S4096x4096.size a
  hwx4_1 : ∀ i : grid4.Coords, EltTy.bits .f32 = 32 ∨ (Rect.block (s := S4096x4096) S512x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x4096.size a
  hwx4_2 : ∀ i : grid4.Coords, EltTy.bits .f32 = 32 ∨ (Rect.block (s := S1x4096) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S4096x4096.size a
  hwx4_3 : ∀ i : grid4.Coords, EltTy.bits .f32 = 32 ∨ (Rect.block (s := S4096x4096) S1024x1024.size (cc4_transform_3 i) (hinb4_3 i)).WholeWords (EltTy.packing .f32)

variable [Facts₀]

def scatter_S4096x4096_S200000x2_S200000_n_01_01_1 : ScatterDims S4096x4096 S200000x2 S200000 where
  updateWindowDims := []
  insertedWindowDims := [0, 1]
  scatterDimsToOperandDims := [0, 1]
  indexVectorDim := 1
  wf := scatter_S4096x4096_S200000x2_S200000_n_01_01_1_wf
def scatter_S4096x4096_S1_S4096x784_01_n_1_0 : ScatterDims S4096x4096 S1 S4096x784 where
  updateWindowDims := [0, 1]
  insertedWindowDims := []
  scatterDimsToOperandDims := [1]
  indexVectorDim := 0
  wf := scatter_S4096x4096_S1_S4096x784_01_n_1_0_wf
def scatter_S1x4096_S1_S1x10_01_n_1_0 : ScatterDims S1x4096 S1 S1x10 where
  updateWindowDims := [0, 1]
  insertedWindowDims := []
  scatterDimsToOperandDims := [1]
  indexVectorDim := 0
  wf := scatter_S1x4096_S1_S1x10_01_n_1_0_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v21) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v26) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v27) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v28) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v29) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v18) S512x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v25) S1x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v30) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S4096x784 : Shape := ⟨2, ![4096, 784]⟩
abbrev S200000 : Shape := ⟨1, ![200000]⟩
abbrev S2x200000 : Shape := ⟨2, ![2, 200000]⟩
abbrev S_ : Shape := ⟨0, ![]⟩
abbrev S4096x4096 : Shape := ⟨2, ![4096, 4096]⟩
abbrev S1x200000 : Shape := ⟨2, ![1, 200000]⟩
abbrev S200000x1 : Shape := ⟨2, ![200000, 1]⟩
abbrev S200000x2 : Shape := ⟨2, ![200000, 2]⟩
abbrev S1 : Shape := ⟨1, ![1]⟩
abbrev S4096 : Shape := ⟨1, ![4096]⟩
abbrev S10 : Shape := ⟨1, ![10]⟩
abbrev S1x4096 : Shape := ⟨2, ![1, 4096]⟩
abbrev S4096x10 : Shape := ⟨2, ![4096, 10]⟩

abbrev nBuf : Space → Nat
  | .hbm => 118
  | .vmem => 0
  | .smem => 0
  | _ => 0

abbrev bufTy : (tb : Table) → Fin (tcTables nBuf tb) → BufTy
  | .hbm, ⟨0, _⟩ => ⟨S4096x784, .f32⟩
  | .hbm, ⟨1, _⟩ => ⟨S200000, .f32⟩
  | .hbm, ⟨2, _⟩ => ⟨S2x200000, .i32⟩
  | .hbm, ⟨3, _⟩ => ⟨S_, .f32⟩
  | .hbm, ⟨4, _⟩ => ⟨S4096x4096, .f32⟩
  | .hbm, ⟨5, _⟩ => ⟨S1x200000, .i32⟩
  | .hbm, ⟨6, _⟩ => ⟨S200000, .i32⟩
  | .hbm, ⟨7, _⟩ => ⟨S1x200000, .i32⟩
  | .hbm, ⟨8, _⟩ => ⟨S200000, .i32⟩
  | .hbm, ⟨9, _⟩ => ⟨S_, .i32⟩
  | .hbm, ⟨10, _⟩ => ⟨S200000, .i32⟩
  | .hbm, ⟨11, _⟩ => ⟨S200000, .i1⟩
  | .hbm, ⟨12, _⟩ => ⟨S_, .i32⟩
  | .hbm, ⟨13, _⟩ => ⟨S200000, .i32⟩
  | .hbm, ⟨14, _⟩ => ⟨S200000, .i32⟩
  | .hbm, ⟨15, _⟩ => ⟨S200000, .i32⟩
  | .hbm, ⟨16, _⟩ => ⟨S_, .i32⟩
  | .hbm, ⟨17, _⟩ => ⟨S200000, .i32⟩
  | .hbm, ⟨18, _⟩ => ⟨S200000, .i1⟩
  | .hbm, ⟨19, _⟩ => ⟨S_, .i32⟩
  | .hbm, ⟨20, _⟩ => ⟨S200000, .i32⟩
  | .hbm, ⟨21, _⟩ => ⟨S200000, .i32⟩
  | .hbm, ⟨22, _⟩ => ⟨S200000, .i32⟩
  | .hbm, ⟨23, _⟩ => ⟨S200000x1, .i32⟩
  | .hbm, ⟨24, _⟩ => ⟨S200000x1, .i32⟩
  | .hbm, ⟨25, _⟩ => ⟨S200000x2, .i32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S_, .i32⟩
  | .hbm, ⟨30, _⟩ => ⟨S1, .i32⟩
  | .hbm, ⟨31, _⟩ => ⟨S4096x4096, .f32⟩
  | .hbm, ⟨32, _⟩ => ⟨S_, .f32⟩
  | .hbm, ⟨33, _⟩ => ⟨S4096, .f32⟩
  | .hbm, ⟨34, _⟩ => ⟨S_, .i32⟩
  | .hbm, ⟨35, _⟩ => ⟨S1, .i32⟩
  | .hbm, ⟨36, _⟩ => ⟨S_, .f32⟩
  | .hbm, ⟨37, _⟩ => ⟨S10, .f32⟩
  | .hbm, ⟨38, _⟩ => ⟨S4096, .f32⟩
  | .hbm, ⟨39, _⟩ => ⟨S4096x4096, .f32⟩
  | .hbm, ⟨40, _⟩ => ⟨S1x4096, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S1x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096x4096, .f32⟩
  | .hbm, ⟨54, _⟩ => ⟨S1x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S1x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S1x4096, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S1x4096, .f32⟩
  | .hbm, ⟨78, _⟩ => ⟨S4096x4096, .f32⟩
  | .hbm, ⟨79, _⟩ => ⟨S4096x4096, .f32⟩
  | .hbm, ⟨80, _⟩ => ⟨S4096x4096, .f32⟩
  | .hbm, ⟨81, _⟩ => ⟨S4096x4096, .f32⟩
  | .hbm, ⟨82, _⟩ => ⟨S1x4096, .f32⟩
  | .hbm, ⟨83, _⟩ => ⟨S4096x4096, .f32⟩
  | .hbm, ⟨84, _⟩ => ⟨S4096x4096, .f32⟩
  | .hbm, ⟨85, _⟩ => ⟨S_, .f32⟩
  | .hbm, ⟨86, _⟩ => ⟨S4096, .f32⟩
  | .hbm, ⟨87, _⟩ => ⟨S4096, .f32⟩
  | .hbm, ⟨88, _⟩ => ⟨S_, .f32⟩
  | .hbm, ⟨89, _⟩ => ⟨S4096x4096, .f32⟩
  | .hbm, ⟨90, _⟩ => ⟨S4096x4096, .f32⟩
  | .hbm, ⟨91, _⟩ => ⟨S1x4096, .f32⟩
  | .hbm, ⟨92, _⟩ => ⟨S4096x4096, .f32⟩
  | .hbm, ⟨93, _⟩ => ⟨S4096x4096, .f32⟩
  | .hbm, ⟨94, _⟩ => ⟨S4096x4096, .f32⟩
  | .hbm, ⟨95, _⟩ => ⟨S4096x4096, .f32⟩
  | .hbm, ⟨96, _⟩ => ⟨S1x4096, .f32⟩
  | .hbm, ⟨97, _⟩ => ⟨S4096x4096, .f32⟩
  | .hbm, ⟨98, _⟩ => ⟨S4096x4096, .f32⟩
  | .hbm, ⟨99, _⟩ => ⟨S_, .f32⟩
  | .hbm, ⟨100, _⟩ => ⟨S4096, .f32⟩
  | .hbm, ⟨101, _⟩ => ⟨S4096, .f32⟩
  | .hbm, ⟨102, _⟩ => ⟨S_, .f32⟩
  | .hbm, ⟨103, _⟩ => ⟨S4096x4096, .f32⟩
  | .hbm, ⟨104, _⟩ => ⟨S4096x4096, .f32⟩
  | .hbm, ⟨105, _⟩ => ⟨S1x4096, .f32⟩
  | .hbm, ⟨106, _⟩ => ⟨S4096x4096, .f32⟩
  | .hbm, ⟨107, _⟩ => ⟨S4096x4096, .f32⟩
  | .hbm, ⟨108, _⟩ => ⟨S4096x4096, .f32⟩
  | .hbm, ⟨109, _⟩ => ⟨S4096x10, .f32⟩
  | .hbm, ⟨110, _⟩ => ⟨S4096x10, .f32⟩
  | .hbm, ⟨111, _⟩ => ⟨S4096x10, .f32⟩
  | .hbm, ⟨112, _⟩ => ⟨S_, .f32⟩
  | .hbm, ⟨113, _⟩ => ⟨S4096x10, .f32⟩
  | .hbm, ⟨114, _⟩ => ⟨S4096x10, .f32⟩
  | .hbm, ⟨115, _⟩ => ⟨S_, .f32⟩
  | .hbm, ⟨116, _⟩ => ⟨S4096x10, .f32⟩
  | .hbm, ⟨117, _⟩ => ⟨S4096x10, .f32⟩
  | _, _ => ⟨S4096x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_call0_cst : Ref sig .tc := ⟨.hbm, 46, rfl⟩
abbrev main_call0_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_call1_cst : Ref sig .tc := ⟨.hbm, 60, rfl⟩
abbrev main_call1_v0 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_call2_cst : Ref sig .tc := ⟨.hbm, 74, rfl⟩
abbrev main_call2_v0 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_call3_cst : Ref sig .tc := ⟨.hbm, 88, rfl⟩
abbrev main_call3_v0 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_v75 : Ref sig .tc := ⟨.hbm, 101, rfl⟩
abbrev main_call4_cst : Ref sig .tc := ⟨.hbm, 102, rfl⟩
abbrev main_call4_v0 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_13 : Ref sig .tc := ⟨.hbm, 112, rfl⟩
abbrev main_v84 : Ref sig .tc := ⟨.hbm, 113, rfl⟩
abbrev main_v85 : Ref sig .tc := ⟨.hbm, 114, rfl⟩
abbrev main_cst_14 : Ref sig .tc := ⟨.hbm, 115, rfl⟩
abbrev main_v86 : Ref sig .tc := ⟨.hbm, 116, rfl⟩
abbrev main_v87 : Ref sig .tc := ⟨.hbm, 117, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  bcast_S_S1 : S_.BroadcastsInDim S1 (![] : Fin 0 → Fin S1.rank)
  bcast_S_S4096 : S_.BroadcastsInDim S4096 (![] : Fin 0 → Fin S4096.rank)
  bcast_S_S10 : S_.BroadcastsInDim S10 (![] : Fin 0 → Fin S10.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x10_0_4086 : S4096x4096.Slices ![0, 4086] S4096x10
  bcast_S_S4096x10 : S_.BroadcastsInDim S4096x10 (![] : Fin 0 → Fin S4096x10.rank)
  scatter_S4096x4096_S200000x2_S200000_n_01_01_1_wf : ScatterDims.WF S4096x4096 S200000x2 S200000 [] [0, 1] [0, 1] 1
  scatter_S4096x4096_S1_S4096x784_01_n_1_0_wf : ScatterDims.WF S4096x4096 S1 S4096x784 [0, 1] [] [1] 0
  scatter_S4096_S1_S10_0_n_0_0_wf : ScatterDims.WF S4096 S1 S10 [0] [] [0] 0
  dot_S4096x4096_S4096x4096_S4096x4096_1_0_0_1_n_n_wf : DotDims.WF S4096x4096 S4096x4096 S4096x4096 [1] [0] [0] [1] [] []

variable [Facts₀]

def scatter_S4096x4096_S200000x2_S200000_n_01_01_1 : ScatterDims S4096x4096 S200000x2 S200000 where
  updateWindowDims := []
  insertedWindowDims := [0, 1]
  scatterDimsToOperandDims := [0, 1]
  indexVectorDim := 1
  wf := scatter_S4096x4096_S200000x2_S200000_n_01_01_1_wf
def scatter_S4096x4096_S1_S4096x784_01_n_1_0 : ScatterDims S4096x4096 S1 S4096x784 where
  updateWindowDims := [0, 1]
  insertedWindowDims := []
  scatterDimsToOperandDims := [1]
  indexVectorDim := 0
  wf := scatter_S4096x4096_S1_S4096x784_01_n_1_0_wf
def scatter_S4096_S1_S10_0_n_0_0 : ScatterDims S4096 S1 S10 where
  updateWindowDims := [0]
  insertedWindowDims := []
  scatterDimsToOperandDims := [0]
  indexVectorDim := 0
  wf := scatter_S4096_S1_S10_0_n_0_0_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KB_R0_Defs.lean ====
/-
  Region 0 of the program (the first of its five matrix-product steps): what the body's runs and the proof data are stated over.
  The grid is 4 × 4 × 8: an output block (i, j) of 1024 × 1024 is visited at eight consecutive points k = 0 … 7, one per block of 512
  along the contracted axis. The body zeroes its accumulator where k = 0 (the points ≡ 0 mod 8), adds one block product at every
  point, and stores the masked result into the output block where k = 7 (the points ≡ 7 mod 8); at the other points the output's
  buffer is left as found and is not written back. Here: the two conditions in closed form over the grid, where the output
  window is idle, each window's block of its array at a point (at any contents `V` the region may be entered from), and the
  accumulator split out of the buffers the region does not describe.
-/
import proofs.«119208_j72069551226903_1_alg».proof.Proof.Gen.Kernel.Launch
import proofs.«119208_j72069551226903_1_alg».proof.Proof.Gen.Kernel.Skeleton
import proofs.«119208_j72069551226903_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not (where it is not fetched its
    index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not (where it is not fetched its
    index has not moved), for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not (where it is not fetched its
    index has not moved), for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions, over the grid -/

/-- "k = 0": the accumulator is zeroed here. -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
/-- "k = 7": the output block is stored here. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where k ≠ 7 the body stores nothing into the output block, and the block is not written back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where k = 7 it is stored. -/
theorem liveAt0_3 : ∀ t : Fin cfg0.N, cond0_1 (grid0.coords t) → cfg0.idle 3 (grid0.coords t) = false := by decide +kernel

/-! ## The buffers the body is called with -/

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator: a whole buffer of the kernel's own, kept from point to point. -/
abbrev scM0 : Memref sig .tc .vmem S1024x1024 .f32 := Memref.whole cc0_scratch0
/-- A view through which the accumulator's and the output block's contents are stated. -/
abbrev VS0 : View sig .tc .vmem S1024x1024 .f32 := scM0.view
abbrev VO0 : View sig .tc .vmem S1024x1024 .f32 := (Memref.whole cc0_stg3_0 : Memref sig .tc .vmem S1024x1024 .f32).view

/-- What the region hands the body besides the windows: the accumulator at some contents, every other buffer the region
    does not describe, and the generator register. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.Kernel.Hand

end
-- ==== Proof.KB_R0_RunA.lean ====
/-
  Region 0, the body's run where k = 0 (and k ≠ 7): on whole buffers, the two operand blocks at their contents and the
  accumulator at anything, the body zeroes the accumulator, adds the block product, and stores nothing else. What the
  accumulator ends with is recorded as the pieces its stores wrote, last first; the mask block and the output block are not
  touched.
-/
import proofs.«119208_j72069551226903_1_alg».proof.Proof.KB_R0_Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x512 .f32) (x1 : Vec F S512x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a7 fullShare d)
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc0__matmul_act_kernel i a3 h3 a4 h4 a5 h5 a6 h6 a7 h7) K } := by
  refine ⟨?_, fun E K => ?run⟩
  case run =>
    simp only [cc0__matmul_act_kernel_eq_skeleton]; unfold cc0__matmul_act_kernel_skel
    unfold owns
    iintro ⟨⟨%f0, %hf0, H0⟩, ⟨%f1, %hf1, H1⟩, ⟨%d4, %f4, -, HS⟩, Hk⟩
    obtain rfl := h3.eq_unread hf0; obtain rfl := h4.eq_unread hf1
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.Kernel.Hand

end
-- ==== Proof.KB_R0_RunB.lean ====
/-
  Region 0, the body's run where 0 < k < 7: on whole buffers, the two operand blocks at their contents and the accumulator
  at what the point before left, the body adds the block product to the accumulator and stores nothing else.
-/
import proofs.«119208_j72069551226903_1_alg».proof.Proof.KB_R0_RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x512 .f32) (x1 : Vec F S512x1024 .f32) (xs : Vec F S1024x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a7 fullShare xs
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc0__matmul_act_kernel i a3 h3 a4 h4 a5 h5 a6 h6 a7 h7) K } := by
  refine ⟨?_, fun E K => ?run⟩
  case run =>
    simp only [cc0__matmul_act_kernel_eq_skeleton]; unfold cc0__matmul_act_kernel_skel
    unfold owns
    iintro ⟨⟨%f0, %hf0, H0⟩, ⟨%f1, %hf1, H1⟩, ⟨%fs, %hfs, HS⟩, Hk⟩
    obtain rfl := h3.eq_unread hf0; obtain rfl := h4.eq_unread hf1; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.Kernel.Hand

end
-- ==== Proof.KB_R0_RunC.lean ====
/-
  Region 0, the body's run where k = 7: on whole buffers, the two operand blocks and the mask block at their contents, the
  accumulator at what the point before left and the output block at anything, the body adds the last block product to the
  accumulator and stores the masked result into the output block.
-/
import proofs.«119208_j72069551226903_1_alg».proof.Proof.KB_R0_RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S512x1024 .f32) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ (∃ d, owns (c : Thread nD τ) a6 fullShare d) ∗ owns (c : Thread nD τ) a7 fullShare xs
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L3)
                ∗ (∃ f, a7.view.loc (c : Thread nD τ) ↦[a7.view.set]{fullShare} a7.view.writes (Elt F) f LS)) -∗ K ⟨⟩))
          ⊢ wp frame (wpE (defs₀ (F := F)) Variants.none c none) E (cc0__matmul_act_kernel i a3 h3 a4 h4 a5 h5 a6 h6 a7 h7) K } := by
  refine ⟨?_, ?_, fun E K => ?run⟩
  case run =>
    simp only [cc0__matmul_act_kernel_eq_skeleton]; unfold cc0__matmul_act_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h3.eq_unread hf0; obtain rfl := h4.eq_unread hf1; obtain rfl := h5.eq_unread hf2; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HS

end Cert.Kernel.Hand

end
-- ==== Proof.KB_R0_Frame.lean ====
/-
  Region 0: what the accumulator and the output block hold after each grid point, the proof data of the region's pipeline
  at any entry contents `V`, and the body obligation.
  After a point with k = 0 the accumulator holds what that case's stores wrote over the two operand blocks; after a later
  point, what that case's stores wrote over the operand blocks and over what the point before left (a recursion on the point).
  The output block is stored where k = 7; elsewhere it is idle and what is recorded for it is a placeholder nothing consults.
  The invariant carries the accumulator at the recorded contents from one point to the next, beside the buffers the region
  does not describe and the generator register.
-/
import proofs.«119208_j72069551226903_1_alg».proof.Proof.KB_R0_RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scover0_A (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x512 .f32) (x1 : Vec F S512x1024 .f32) (y : S1024x1024.Idx) :
    ∃ pc ∈ (kernelRun0_A c i a3 h3 a4 h4 a5 h5 a6 h6 a7 h7 hc0 hc1 x0 x1).1, y ∈ pc.1.set :=
  View.cover_of_tiledL (kernelRun0_A c i a3 h3 a4 h4 a5 h5 a6 h6 a7 h7 hc0 hc1 x0 x1).1 S1024x1024.size (by sl_kernel_rfl) y
/-- The accumulator after a point with k = 0. -/
def sout0_A (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x512 .f32) (x1 : Vec F S512x1024 .f32) : Vec F S1024x1024 .f32 :=
  VS0.read (Elt F) (VS0.writes (Elt F) VS0.junk (kernelRun0_A c i a3 h3 a4 h4 a5 h5 a6 h6 a7 h7 hc0 hc1 x0 x1).1)

theorem scover0_B (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x512 .f32) (x1 : Vec F S512x1024 .f32) (xs : Vec F S1024x1024 .f32) (y : S1024x1024.Idx) :
    ∃ pc ∈ (kernelRun0_B c i a3 h3 a4 h4 a5 h5 a6 h6 a7 h7 hc0 hc1 x0 x1 xs).1, y ∈ pc.1.set :=
  View.cover_of_tiledL (kernelRun0_B c i a3 h3 a4 h4 a5 h5 a6 h6 a7 h7 hc0 hc1 x0 x1 xs).1 S1024x1024.size (by sl_kernel_rfl) y
/-- The accumulator after a point with 0 < k < 7, over what the point before left. -/
def sout0_B (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x512 .f32) (x1 : Vec F S512x1024 .f32) (xs : Vec F S1024x1024 .f32) : Vec F S1024x1024 .f32 :=
  VS0.read (Elt F) (VS0.writes (Elt F) VS0.junk (kernelRun0_B c i a3 h3 a4 h4 a5 h5 a6 h6 a7 h7 hc0 hc1 x0 x1 xs).1)

theorem cover0_C (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S512x1024 .f32) (x2 : Vec F S1x1024 .f32) (xs : Vec F S1024x1024 .f32) (y : S1024x1024.Idx) :
    ∃ pc ∈ (kernelRun0_C c i a3 h3 a4 h4 a5 h5 a6 h6 a7 h7 hc0 hc1 x0 x1 x2 xs).1, y ∈ pc.1.set :=
  View.cover_of_tiledL (kernelRun0_C c i a3 h3 a4 h4 a5 h5 a6 h6 a7 h7 hc0 hc1 x0 x1 x2 xs).1 S1024x1024.size (by sl_kernel_rfl) y
/-- The output block after a point with k = 7. -/
def out0_C (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S512x1024 .f32) (x2 : Vec F S1x1024 .f32) (xs : Vec F S1024x1024 .f32) : Vec F S1024x1024 .f32 :=
  VO0.read (Elt F) (VO0.writes (Elt F) VO0.junk (kernelRun0_C c i a3 h3 a4 h4 a5 h5 a6 h6 a7 h7 hc0 hc1 x0 x1 x2 xs).1)
theorem scover0_C (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S512x1024 .f32) (x2 : Vec F S1x1024 .f32) (xs : Vec F S1024x1024 .f32) (y : S1024x1024.Idx) :
    ∃ pc ∈ (kernelRun0_C c i a3 h3 a4 h4 a5 h5 a6 h6 a7 h7 hc0 hc1 x0 x1 x2 xs).2.1, y ∈ pc.1.set :=
  View.cover_of_tiledL (kernelRun0_C c i a3 h3 a4 h4 a5 h5 a6 h6 a7 h7 hc0 hc1 x0 x1 x2 xs).2.1 S1024x1024.size (by sl_kernel_rfl) y
/-- The accumulator after a point with k = 7. -/
def sout0_C (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S512x1024 .f32) (x2 : Vec F S1x1024 .f32) (xs : Vec F S1024x1024 .f32) : Vec F S1024x1024 .f32 :=
  VS0.read (Elt F) (VS0.writes (Elt F) VS0.junk (kernelRun0_C c i a3 h3 a4 h4 a5 h5 a6 h6 a7 h7 hc0 hc1 x0 x1 x2 xs).2.1)

/-- What is recorded for the output block at a point that does not store it: nothing reads it. -/
def idleOut0 : Vec F S1024x1024 .f32 := VO0.read (Elt F) VO0.junk

section
variable (V : (c : Dev nD) → (b : Ref sig .tc) → Buf (Elt F) ((c : Thread nD τ).loc b))

/-! ## Point by point -/

/-- The output block and the accumulator after the body at position `n`: the case the point is in, run on the point's
    operand blocks, the accumulator taken from the point before when k ≠ 0. -/
def outsAt0 (c : Dev nD) : (n : ℕ) → n < cfg0.N → Vec F S1024x1024 .f32 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (idleOut0, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idleOut0, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point, what the region hands the body; afterwards the accumulator at what the point
    before left, the buffers the region does not describe, the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the region finds them; after the body at a point each operand's buffer at its block and the output's at the
    recorded contents; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 128 := lt_of_lt_of_eq t.isLt (show cfg0.N = 128 from N_0)
  by_cases h0 : t.val % 8 = 0
  · by_cases h1 : t.val % 8 = 7
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS, Hrest⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2 Set.univ _)
        isplitl [H0]; · iexact H0
        isplitl [H1]; · iexact H1
        isplitl [HS]; · iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover0_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS, Hrest⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2 Set.univ _)
        isplitl [H0]; · iexact H0
        isplitl [H1]; · iexact H1
        isplitl [HS]; · iexists _; iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover0_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover0_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives back what the region handed in: the accumulator's recorded contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]
    · iexists _; iexact HS
    iexact Hrest
  iexact Hg
theorem hout0 (c : Dev nD) : (dat0 V c).Φ (Fin.last cfg0.N) ⊢ Pipeline.ΦA spec0 c :=
  Phi_out0 V c _ (by rw [Fin.val_last]; have : cfg0.N = 128 := N_0; omega)

end

end Cert.Kernel.Hand

end
-- ==== Proof.KB_R1_Defs.lean ====
/-
  Region 1 of the program (the second of its five matrix-product steps): what the body's runs and the proof data are stated over.
  The grid is 4 × 4 × 8: an output block (i, j) of 1024 × 1024 is visited at eight consecutive points k = 0 … 7, one per block of 512
  along the contracted axis. The body zeroes its accumulator where k = 0 (the points ≡ 0 mod 8), adds one block product at every
  point, and stores the masked result into the output block where k = 7 (the points ≡ 7 mod 8); at the other points the output's
  buffer is left as found and is not written back. Here: the two conditions in closed form over the grid, where the output
  window is idle, each window's block of its array at a point (at any contents `V` the region may be entered from), and the
  accumulator split out of the buffers the region does not describe.
-/
import proofs.«119208_j72069551226903_1_alg».proof.Proof.Gen.Kernel.Launch
import proofs.«119208_j72069551226903_1_alg».proof.Proof.Gen.Kernel.Skeleton
import proofs.«119208_j72069551226903_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not (where it is not fetched its
    index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not (where it is not fetched its
    index has not moved), for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not (where it is not fetched its
    index has not moved), for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, over the grid -/

/-- "k = 0": the accumulator is zeroed here. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- "k = 7": the output block is stored here. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 7 the body stores nothing into the output block, and the block is not written back there. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where k = 7 it is stored. -/
theorem liveAt1_3 : ∀ t : Fin cfg1.N, cond1_1 (grid1.coords t) → cfg1.idle 3 (grid1.coords t) = false := by decide +kernel

/-! ## The buffers the body is called with -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole buffer of the kernel's own, kept from point to point. -/
abbrev scM1 : Memref sig .tc .vmem S1024x1024 .f32 := Memref.whole cc1_scratch0
/-- A view through which the accumulator's and the output block's contents are stated. -/
abbrev VS1 : View sig .tc .vmem S1024x1024 .f32 := scM1.view
abbrev VO1 : View sig .tc .vmem S1024x1024 .f32 := (Memref.whole cc1_stg3_0 : Memref sig .tc .vmem S1024x1024 .f32).view

/-- What the region hands the body besides the windows: the accumulator at some contents, every other buffer the region
    does not describe, and the generator register. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.Kernel.Hand

end
-- ==== Proof.KB_R1_RunA.lean ====
/-
  Region 1, the body's run where k = 0 (and k ≠ 7): on whole buffers, the two operand blocks at their contents and the
  accumulator at anything, the body zeroes the accumulator, adds the block product, and stores nothing else. What the
  accumulator ends with is recorded as the pieces its stores wrote, last first; the mask block and the output block are not
  touched.
-/
import proofs.«119208_j72069551226903_1_alg».proof.Proof.KB_R1_Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond1_0 i) (hc1 : ¬cond1_1 i)
    (x0 : Vec F S1024x512 .f32) (x1 : Vec F S512x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a7 fullShare d)
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc1__matmul_act_kernel i a3 h3 a4 h4 a5 h5 a6 h6 a7 h7) K } := by
  refine ⟨?_, fun E K => ?run⟩
  case run =>
    simp only [cc1__matmul_act_kernel_eq_skeleton]; unfold cc1__matmul_act_kernel_skel
    unfold owns
    iintro ⟨⟨%f0, %hf0, H0⟩, ⟨%f1, %hf1, H1⟩, ⟨%d4, %f4, -, HS⟩, Hk⟩
    obtain rfl := h3.eq_unread hf0; obtain rfl := h4.eq_unread hf1
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.Kernel.Hand

end
-- ==== Proof.KB_R1_RunB.lean ====
/-
  Region 1, the body's run where 0 < k < 7: on whole buffers, the two operand blocks at their contents and the accumulator
  at what the point before left, the body adds the block product to the accumulator and stores nothing else.
-/
import proofs.«119208_j72069551226903_1_alg».proof.Proof.KB_R1_RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : ¬cond1_1 i)
    (x0 : Vec F S1024x512 .f32) (x1 : Vec F S512x1024 .f32) (xs : Vec F S1024x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a7 fullShare xs
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc1__matmul_act_kernel i a3 h3 a4 h4 a5 h5 a6 h6 a7 h7) K } := by
  refine ⟨?_, fun E K => ?run⟩
  case run =>
    simp only [cc1__matmul_act_kernel_eq_skeleton]; unfold cc1__matmul_act_kernel_skel
    unfold owns
    iintro ⟨⟨%f0, %hf0, H0⟩, ⟨%f1, %hf1, H1⟩, ⟨%fs, %hfs, HS⟩, Hk⟩
    obtain rfl := h3.eq_unread hf0; obtain rfl := h4.eq_unread hf1; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.Kernel.Hand

end
-- ==== Proof.KB_R1_RunC.lean ====
/-
  Region 1, the body's run where k = 7: on whole buffers, the two operand blocks and the mask block at their contents, the
  accumulator at what the point before left and the output block at anything, the body adds the last block product to the
  accumulator and stores the masked result into the output block.
-/
import proofs.«119208_j72069551226903_1_alg».proof.Proof.KB_R1_RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x512 .f32) (x1 : Vec F S512x1024 .f32) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ (∃ d, owns (c : Thread nD τ) a6 fullShare d) ∗ owns (c : Thread nD τ) a7 fullShare xs
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L3)
                ∗ (∃ f, a7.view.loc (c : Thread nD τ) ↦[a7.view.set]{fullShare} a7.view.writes (Elt F) f LS)) -∗ K ⟨⟩))
          ⊢ wp frame (wpE (defs₀ (F := F)) Variants.none c none) E (cc1__matmul_act_kernel i a3 h3 a4 h4 a5 h5 a6 h6 a7 h7) K } := by
  refine ⟨?_, ?_, fun E K => ?run⟩
  case run =>
    simp only [cc1__matmul_act_kernel_eq_skeleton]; unfold cc1__matmul_act_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h3.eq_unread hf0; obtain rfl := h4.eq_unread hf1; obtain rfl := h5.eq_unread hf2; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HS

end Cert.Kernel.Hand

end
-- ==== Proof.KB_R1_Frame.lean ====
/-
  Region 1: what the accumulator and the output block hold after each grid point, the proof data of the region's pipeline
  at any entry contents `V`, and the body obligation.
  After a point with k = 0 the accumulator holds what that case's stores wrote over the two operand blocks; after a later
  point, what that case's stores wrote over the operand blocks and over what the point before left (a recursion on the point).
  The output block is stored where k = 7; elsewhere it is idle and what is recorded for it is a placeholder nothing consults.
  The invariant carries the accumulator at the recorded contents from one point to the next, beside the buffers the region
  does not describe and the generator register.
-/
import proofs.«119208_j72069551226903_1_alg».proof.Proof.KB_R1_RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scover1_A (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond1_0 i) (hc1 : ¬cond1_1 i)
    (x0 : Vec F S1024x512 .f32) (x1 : Vec F S512x1024 .f32) (y : S1024x1024.Idx) :
    ∃ pc ∈ (kernelRun1_A c i a3 h3 a4 h4 a5 h5 a6 h6 a7 h7 hc0 hc1 x0 x1).1, y ∈ pc.1.set :=
  View.cover_of_tiledL (kernelRun1_A c i a3 h3 a4 h4 a5 h5 a6 h6 a7 h7 hc0 hc1 x0 x1).1 S1024x1024.size (by sl_kernel_rfl) y
/-- The accumulator after a point with k = 0. -/
def sout1_A (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond1_0 i) (hc1 : ¬cond1_1 i)
    (x0 : Vec F S1024x512 .f32) (x1 : Vec F S512x1024 .f32) : Vec F S1024x1024 .f32 :=
  VS1.read (Elt F) (VS1.writes (Elt F) VS1.junk (kernelRun1_A c i a3 h3 a4 h4 a5 h5 a6 h6 a7 h7 hc0 hc1 x0 x1).1)

theorem scover1_B (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : ¬cond1_1 i)
    (x0 : Vec F S1024x512 .f32) (x1 : Vec F S512x1024 .f32) (xs : Vec F S1024x1024 .f32) (y : S1024x1024.Idx) :
    ∃ pc ∈ (kernelRun1_B c i a3 h3 a4 h4 a5 h5 a6 h6 a7 h7 hc0 hc1 x0 x1 xs).1, y ∈ pc.1.set :=
  View.cover_of_tiledL (kernelRun1_B c i a3 h3 a4 h4 a5 h5 a6 h6 a7 h7 hc0 hc1 x0 x1 xs).1 S1024x1024.size (by sl_kernel_rfl) y
/-- The accumulator after a point with 0 < k < 7, over what the point before left. -/
def sout1_B (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : ¬cond1_1 i)
    (x0 : Vec F S1024x512 .f32) (x1 : Vec F S512x1024 .f32) (xs : Vec F S1024x1024 .f32) : Vec F S1024x1024 .f32 :=
  VS1.read (Elt F) (VS1.writes (Elt F) VS1.junk (kernelRun1_B c i a3 h3 a4 h4 a5 h5 a6 h6 a7 h7 hc0 hc1 x0 x1 xs).1)

theorem cover1_C (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x512 .f32) (x1 : Vec F S512x1024 .f32) (x2 : Vec F S1x1024 .f32) (xs : Vec F S1024x1024 .f32) (y : S1024x1024.Idx) :
    ∃ pc ∈ (kernelRun1_C c i a3 h3 a4 h4 a5 h5 a6 h6 a7 h7 hc0 hc1 x0 x1 x2 xs).1, y ∈ pc.1.set :=
  View.cover_of_tiledL (kernelRun1_C c i a3 h3 a4 h4 a5 h5 a6 h6 a7 h7 hc0 hc1 x0 x1 x2 xs).1 S1024x1024.size (by sl_kernel_rfl) y
/-- The output block after a point with k = 7. -/
def out1_C (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x512 .f32) (x1 : Vec F S512x1024 .f32) (x2 : Vec F S1x1024 .f32) (xs : Vec F S1024x1024 .f32) : Vec F S1024x1024 .f32 :=
  VO1.read (Elt F) (VO1.writes (Elt F) VO1.junk (kernelRun1_C c i a3 h3 a4 h4 a5 h5 a6 h6 a7 h7 hc0 hc1 x0 x1 x2 xs).1)
theorem scover1_C (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x512 .f32) (x1 : Vec F S512x1024 .f32) (x2 : Vec F S1x1024 .f32) (xs : Vec F S1024x1024 .f32) (y : S1024x1024.Idx) :
    ∃ pc ∈ (kernelRun1_C c i a3 h3 a4 h4 a5 h5 a6 h6 a7 h7 hc0 hc1 x0 x1 x2 xs).2.1, y ∈ pc.1.set :=
  View.cover_of_tiledL (kernelRun1_C c i a3 h3 a4 h4 a5 h5 a6 h6 a7 h7 hc0 hc1 x0 x1 x2 xs).2.1 S1024x1024.size (by sl_kernel_rfl) y
/-- The accumulator after a point with k = 7. -/
def sout1_C (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x512 .f32) (x1 : Vec F S512x1024 .f32) (x2 : Vec F S1x1024 .f32) (xs : Vec F S1024x1024 .f32) : Vec F S1024x1024 .f32 :=
  VS1.read (Elt F) (VS1.writes (Elt F) VS1.junk (kernelRun1_C c i a3 h3 a4 h4 a5 h5 a6 h6 a7 h7 hc0 hc1 x0 x1 x2 xs).2.1)

/-- What is recorded for the output block at a point that does not store it: nothing reads it. -/
def idleOut1 : Vec F S1024x1024 .f32 := VO1.read (Elt F) VO1.junk

section
variable (V : (c : Dev nD) → (b : Ref sig .tc) → Buf (Elt F) ((c : Thread nD τ).loc b))

/-! ## Point by point -/

/-- The output block and the accumulator after the body at position `n`: the case the point is in, run on the point's
    operand blocks, the accumulator taken from the point before when k ≠ 0. -/
def outsAt1 (c : Dev nD) : (n : ℕ) → n < cfg1.N → Vec F S1024x1024 .f32 × Vec F S1024x1024 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (idleOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (idleOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point, what the region hands the body; afterwards the accumulator at what the point
    before left, the buffers the region does not describe, the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body at a point each operand's buffer at its block and the output's at the
    recorded contents; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 128 := lt_of_lt_of_eq t.isLt (show cfg1.N = 128 from N_1)
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t)).2 Set.univ _)
        isplitl [H0]; · iexact H0
        isplitl [H1]; · iexact H1
        isplitl [HS]; · iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover1_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t)).2 Set.univ _)
        isplitl [H0]; · iexact H0
        isplitl [H1]; · iexact H1
        isplitl [HS]; · iexists _; iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover1_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives back what the region handed in: the accumulator's recorded contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hrest⟩, Hg⟩
  isplitl [HS Hrest]
  · isplitl [HS]
    · iexists _; iexact HS
    iexact Hrest
  iexact Hg
theorem hout1 (c : Dev nD) : (dat1 V c).Φ (Fin.last cfg1.N) ⊢ Pipeline.ΦA spec1 c :=
  Phi_out1 V c _ (by rw [Fin.val_last]; have : cfg1.N = 128 := N_1; omega)

end

end Cert.Kernel.Hand

end
-- ==== Proof.KB_R2_Defs.lean ====
/-
  Region 2 of the program (the third of its five matrix-product steps): what the body's runs and the proof data are stated over.
  The grid is 4 × 4 × 8: an output block (i, j) of 1024 × 1024 is visited at eight consecutive points k = 0 … 7, one per block of 512
  along the contracted axis. The body zeroes its accumulator where k = 0 (the points ≡ 0 mod 8), adds one block product at every
  point, and stores the masked result into the output block where k = 7 (the points ≡ 7 mod 8); at the other points the output's
  buffer is left as found and is not written back. Here: the two conditions in closed form over the grid, where the output
  window is idle, each window's block of its array at a point (at any contents `V` the region may be entered from), and the
  accumulator split out of the buffers the region does not describe.
-/
import proofs.«119208_j72069551226903_1_alg».proof.Proof.Gen.Kernel.Launch
import proofs.«119208_j72069551226903_1_alg».proof.Proof.Gen.Kernel.Skeleton
import proofs.«119208_j72069551226903_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not (where it is not fetched its
    index has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not (where it is not fetched its
    index has not moved), for any proof data over `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not (where it is not fetched its
    index has not moved), for any proof data over `V` whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

/-! ## The body's two conditions, over the grid -/

/-- "k = 0": the accumulator is zeroed here. -/
abbrev cond2_0 (i : grid2.Coords) : Prop := (Scalar.cmpi .ne (Scalar.extui (Scalar.cmpi .eq (BitVec.ofNat 32 (i 2).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)
/-- "k = 7": the output block is stored here. -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where k ≠ 7 the body stores nothing into the output block, and the block is not written back there. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- Where k = 7 it is stored. -/
theorem liveAt2_3 : ∀ t : Fin cfg2.N, cond2_1 (grid2.coords t) → cfg2.idle 3 (grid2.coords t) = false := by decide +kernel

/-! ## The buffers the body is called with -/

abbrev ms2_0 (t : Fin cfg2.N) : Memref sig .tc .vmem S1024x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: a whole buffer of the kernel's own, kept from point to point. -/
abbrev scM2 : Memref sig .tc .vmem S1024x1024 .f32 := Memref.whole cc2_scratch0
/-- A view through which the accumulator's and the output block's contents are stated. -/
abbrev VS2 : View sig .tc .vmem S1024x1024 .f32 := scM2.view
abbrev VO2 : View sig .tc .vmem S1024x1024 .f32 := (Memref.whole cc2_stg3_0 : Memref sig .tc .vmem S1024x1024 .f32).view

/-- What the region hands the body besides the windows: the accumulator at some contents, every other buffer the region
    does not describe, and the generator register. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.Kernel.Hand

end
-- ==== Proof.KB_R2_RunA.lean ====
/-
  Region 2, the body's run where k = 0 (and k ≠ 7): on whole buffers, the two operand blocks at their contents and the
  accumulator at anything, the body zeroes the accumulator, adds the block product, and stores nothing else. What the
  accumulator ends with is recorded as the pieces its stores wrote, last first; the mask block and the output block are not
  touched.
-/
import proofs.«119208_j72069551226903_1_alg».proof.Proof.KB_R2_Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun2_A (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond2_0 i) (hc1 : ¬cond2_1 i)
    (x0 : Vec F S1024x512 .f32) (x1 : Vec F S512x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a7 fullShare d)
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc2__matmul_act_kernel i a3 h3 a4 h4 a5 h5 a6 h6 a7 h7) K } := by
  refine ⟨?_, fun E K => ?run⟩
  case run =>
    simp only [cc2__matmul_act_kernel_eq_skeleton]; unfold cc2__matmul_act_kernel_skel
    unfold owns
    iintro ⟨⟨%f0, %hf0, H0⟩, ⟨%f1, %hf1, H1⟩, ⟨%d4, %f4, -, HS⟩, Hk⟩
    obtain rfl := h3.eq_unread hf0; obtain rfl := h4.eq_unread hf1
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.Kernel.Hand

end
-- ==== Proof.KB_R2_RunB.lean ====
/-
  Region 2, the body's run where 0 < k < 7: on whole buffers, the two operand blocks at their contents and the accumulator
  at what the point before left, the body adds the block product to the accumulator and stores nothing else.
-/
import proofs.«119208_j72069551226903_1_alg».proof.Proof.KB_R2_RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun2_B (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : ¬cond2_1 i)
    (x0 : Vec F S1024x512 .f32) (x1 : Vec F S512x1024 .f32) (xs : Vec F S1024x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a7 fullShare xs
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc2__matmul_act_kernel i a3 h3 a4 h4 a5 h5 a6 h6 a7 h7) K } := by
  refine ⟨?_, fun E K => ?run⟩
  case run =>
    simp only [cc2__matmul_act_kernel_eq_skeleton]; unfold cc2__matmul_act_kernel_skel
    unfold owns
    iintro ⟨⟨%f0, %hf0, H0⟩, ⟨%f1, %hf1, H1⟩, ⟨%fs, %hfs, HS⟩, Hk⟩
    obtain rfl := h3.eq_unread hf0; obtain rfl := h4.eq_unread hf1; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.Kernel.Hand

end
-- ==== Proof.KB_R2_RunC.lean ====
/-
  Region 2, the body's run where k = 7: on whole buffers, the two operand blocks and the mask block at their contents, the
  accumulator at what the point before left and the output block at anything, the body adds the last block product to the
  accumulator and stores the masked result into the output block.
-/
import proofs.«119208_j72069551226903_1_alg».proof.Proof.KB_R2_RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun2_C (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : cond2_1 i)
    (x0 : Vec F S1024x512 .f32) (x1 : Vec F S512x1024 .f32) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ (∃ d, owns (c : Thread nD τ) a6 fullShare d) ∗ owns (c : Thread nD τ) a7 fullShare xs
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L3)
                ∗ (∃ f, a7.view.loc (c : Thread nD τ) ↦[a7.view.set]{fullShare} a7.view.writes (Elt F) f LS)) -∗ K ⟨⟩))
          ⊢ wp frame (wpE (defs₀ (F := F)) Variants.none c none) E (cc2__matmul_act_kernel i a3 h3 a4 h4 a5 h5 a6 h6 a7 h7) K } := by
  refine ⟨?_, ?_, fun E K => ?run⟩
  case run =>
    simp only [cc2__matmul_act_kernel_eq_skeleton]; unfold cc2__matmul_act_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h3.eq_unread hf0; obtain rfl := h4.eq_unread hf1; obtain rfl := h5.eq_unread hf2; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HS

end Cert.Kernel.Hand

end
-- ==== Proof.KB_R2_Frame.lean ====
/-
  Region 2: what the accumulator and the output block hold after each grid point, the proof data of the region's pipeline
  at any entry contents `V`, and the body obligation.
  After a point with k = 0 the accumulator holds what that case's stores wrote over the two operand blocks; after a later
  point, what that case's stores wrote over the operand blocks and over what the point before left (a recursion on the point).
  The output block is stored where k = 7; elsewhere it is idle and what is recorded for it is a placeholder nothing consults.
  The invariant carries the accumulator at the recorded contents from one point to the next, beside the buffers the region
  does not describe and the generator register.
-/
import proofs.«119208_j72069551226903_1_alg».proof.Proof.KB_R2_RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scover2_A (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond2_0 i) (hc1 : ¬cond2_1 i)
    (x0 : Vec F S1024x512 .f32) (x1 : Vec F S512x1024 .f32) (y : S1024x1024.Idx) :
    ∃ pc ∈ (kernelRun2_A c i a3 h3 a4 h4 a5 h5 a6 h6 a7 h7 hc0 hc1 x0 x1).1, y ∈ pc.1.set :=
  View.cover_of_tiledL (kernelRun2_A c i a3 h3 a4 h4 a5 h5 a6 h6 a7 h7 hc0 hc1 x0 x1).1 S1024x1024.size (by sl_kernel_rfl) y
/-- The accumulator after a point with k = 0. -/
def sout2_A (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond2_0 i) (hc1 : ¬cond2_1 i)
    (x0 : Vec F S1024x512 .f32) (x1 : Vec F S512x1024 .f32) : Vec F S1024x1024 .f32 :=
  VS2.read (Elt F) (VS2.writes (Elt F) VS2.junk (kernelRun2_A c i a3 h3 a4 h4 a5 h5 a6 h6 a7 h7 hc0 hc1 x0 x1).1)

theorem scover2_B (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : ¬cond2_1 i)
    (x0 : Vec F S1024x512 .f32) (x1 : Vec F S512x1024 .f32) (xs : Vec F S1024x1024 .f32) (y : S1024x1024.Idx) :
    ∃ pc ∈ (kernelRun2_B c i a3 h3 a4 h4 a5 h5 a6 h6 a7 h7 hc0 hc1 x0 x1 xs).1, y ∈ pc.1.set :=
  View.cover_of_tiledL (kernelRun2_B c i a3 h3 a4 h4 a5 h5 a6 h6 a7 h7 hc0 hc1 x0 x1 xs).1 S1024x1024.size (by sl_kernel_rfl) y
/-- The accumulator after a point with 0 < k < 7, over what the point before left. -/
def sout2_B (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : ¬cond2_1 i)
    (x0 : Vec F S1024x512 .f32) (x1 : Vec F S512x1024 .f32) (xs : Vec F S1024x1024 .f32) : Vec F S1024x1024 .f32 :=
  VS2.read (Elt F) (VS2.writes (Elt F) VS2.junk (kernelRun2_B c i a3 h3 a4 h4 a5 h5 a6 h6 a7 h7 hc0 hc1 x0 x1 xs).1)

theorem cover2_C (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : cond2_1 i)
    (x0 : Vec F S1024x512 .f32) (x1 : Vec F S512x1024 .f32) (x2 : Vec F S1x1024 .f32) (xs : Vec F S1024x1024 .f32) (y : S1024x1024.Idx) :
    ∃ pc ∈ (kernelRun2_C c i a3 h3 a4 h4 a5 h5 a6 h6 a7 h7 hc0 hc1 x0 x1 x2 xs).1, y ∈ pc.1.set :=
  View.cover_of_tiledL (kernelRun2_C c i a3 h3 a4 h4 a5 h5 a6 h6 a7 h7 hc0 hc1 x0 x1 x2 xs).1 S1024x1024.size (by sl_kernel_rfl) y
/-- The output block after a point with k = 7. -/
def out2_C (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : cond2_1 i)
    (x0 : Vec F S1024x512 .f32) (x1 : Vec F S512x1024 .f32) (x2 : Vec F S1x1024 .f32) (xs : Vec F S1024x1024 .f32) : Vec F S1024x1024 .f32 :=
  VO2.read (Elt F) (VO2.writes (Elt F) VO2.junk (kernelRun2_C c i a3 h3 a4 h4 a5 h5 a6 h6 a7 h7 hc0 hc1 x0 x1 x2 xs).1)
theorem scover2_C (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : cond2_1 i)
    (x0 : Vec F S1024x512 .f32) (x1 : Vec F S512x1024 .f32) (x2 : Vec F S1x1024 .f32) (xs : Vec F S1024x1024 .f32) (y : S1024x1024.Idx) :
    ∃ pc ∈ (kernelRun2_C c i a3 h3 a4 h4 a5 h5 a6 h6 a7 h7 hc0 hc1 x0 x1 x2 xs).2.1, y ∈ pc.1.set :=
  View.cover_of_tiledL (kernelRun2_C c i a3 h3 a4 h4 a5 h5 a6 h6 a7 h7 hc0 hc1 x0 x1 x2 xs).2.1 S1024x1024.size (by sl_kernel_rfl) y
/-- The accumulator after a point with k = 7. -/
def sout2_C (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : cond2_1 i)
    (x0 : Vec F S1024x512 .f32) (x1 : Vec F S512x1024 .f32) (x2 : Vec F S1x1024 .f32) (xs : Vec F S1024x1024 .f32) : Vec F S1024x1024 .f32 :=
  VS2.read (Elt F) (VS2.writes (Elt F) VS2.junk (kernelRun2_C c i a3 h3 a4 h4 a5 h5 a6 h6 a7 h7 hc0 hc1 x0 x1 x2 xs).2.1)

/-- What is recorded for the output block at a point that does not store it: nothing reads it. -/
def idleOut2 : Vec F S1024x1024 .f32 := VO2.read (Elt F) VO2.junk

section
variable (V : (c : Dev nD) → (b : Ref sig .tc) → Buf (Elt F) ((c : Thread nD τ).loc b))

/-! ## Point by point -/

/-- The output block and the accumulator after the body at position `n`: the case the point is in, run on the point's
    operand blocks, the accumulator taken from the point before when k ≠ 0. -/
def outsAt2 (c : Dev nD) : (n : ℕ) → n < cfg2.N → Vec F S1024x1024 .f32 × Vec F S1024x1024 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      if h1 : (n + 1) % 8 = 7 then
        False.elim (by omega)
      else
        (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 8 = 7 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (idleOut2, sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (idleOut2, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point, what the region hands the body; afterwards the accumulator at what the point
    before left, the buffers the region does not describe, the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; after the body at a point each operand's buffer at its block and the output's at the
    recorded contents; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 128 := lt_of_lt_of_eq t.isLt (show cfg2.N = 128 from N_2)
  by_cases h0 : t.val % 8 = 0
  · by_cases h1 : t.val % 8 = 7
    · exfalso; omega
    · rw [Dat.leavesExact_idle (dat2 V c) 3 t (idleAt2_3 t (fun h => h1 ((hcond2_1 t).mp h))) (noFlush2_3 t (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HS, Hrest⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t)).2 Set.univ _)
        isplitl [H0]; · iexact H0
        isplitl [H1]; · iexact H1
        isplitl [HS]; · iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover2_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS, Hrest⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t)).2 Set.univ _)
        isplitl [H0]; · iexact H0
        isplitl [H1]; · iexact H1
        isplitl [HS]; · iexists _; iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover2_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C sout2_C; (try dsimp only)
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover2_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B; (try dsimp only)
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover2_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

/-- After any point but the first the invariant gives back what the region handed in: the accumulator's recorded contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, Hrest⟩, Hg⟩
  isplitl [HS Hrest]
  · isplitl [HS]
    · iexists _; iexact HS
    iexact Hrest
  iexact Hg
theorem hout2 (c : Dev nD) : (dat2 V c).Φ (Fin.last cfg2.N) ⊢ Pipeline.ΦA spec2 c :=
  Phi_out2 V c _ (by rw [Fin.val_last]; have : cfg2.N = 128 := N_2; omega)

end

end Cert.Kernel.Hand

end
-- ==== Proof.KB_R3_Defs.lean ====
/-
  Region 3 of the program (the fourth of its five matrix-product steps): what the body's runs and the proof data are stated over.
  The grid is 4 × 4 × 8: an output block (i, j) of 1024 × 1024 is visited at eight consecutive points k = 0 … 7, one per block of 512
  along the contracted axis. The body zeroes its accumulator where k = 0 (the points ≡ 0 mod 8), adds one block product at every
  point, and stores the masked result into the output block where k = 7 (the points ≡ 7 mod 8); at the other points the output's
  buffer is left as found and is not written back. Here: the two conditions in closed form over the grid, where the output
  window is idle, each window's block of its array at a point (at any contents `V` the region may be entered from), and the
  accumulator split out of the buffers the region does not describe.
-/
import proofs.«119208_j72069551226903_1_alg».proof.Proof.Gen.Kernel.Launch
import proofs.«119208_j72069551226903_1_alg».proof.Proof.Gen.Kernel.Skeleton
import proofs.«119208_j72069551226903_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, fetched there or not (where it is not fetched its
    index has not moved), for any proof data over `V` whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, fetched there or not (where it is not fetched its
    index has not moved), for any proof data over `V` whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, fetched there or not (where it is not fetched its
    index has not moved), for any proof data over `V` whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end

/-! ## The body's two conditions, over the grid -/

/-- "k = 0": the accumulator is zeroed here. -/
abbrev cond3_0 (i : grid3.Coords) : Prop := (Scalar.cmpi .ne (Scalar.extui (Scalar.cmpi .eq (BitVec.ofNat 32 (i 2).val) 0#32)) 0#32) = 1#1
/-- It holds at the points ≡ 0 (mod 8). -/
theorem hcond3_0 : ∀ t : Fin cfg3.N, cond3_0 (grid3.coords t) ↔ t.val % 8 = 0 :=
  (by decide +kernel : ∀ t : Fin grid3.N, cond3_0 (grid3.coords t) ↔ t.val % 8 = 0)
/-- "k = 7": the output block is stored here. -/
abbrev cond3_1 (i : grid3.Coords) : Prop := k3_cond2 i = 1#1
/-- It holds at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where k ≠ 7 the body stores nothing into the output block, and the block is not written back there. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- Where k = 7 it is stored. -/
theorem liveAt3_3 : ∀ t : Fin cfg3.N, cond3_1 (grid3.coords t) → cfg3.idle 3 (grid3.coords t) = false := by decide +kernel

/-! ## The buffers the body is called with -/

abbrev ms3_0 (t : Fin cfg3.N) : Memref sig .tc .vmem S1024x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .f32 := win3_3.stage (cfg3.slots t 3)
abbrev hs3_3 (t : Fin cfg3.N) : (ms3_3 t).IsWhole := hstage3_3 ((cfg3.slots t 3).cast nbuf3_3)
/-- The accumulator: a whole buffer of the kernel's own, kept from point to point. -/
abbrev scM3 : Memref sig .tc .vmem S1024x1024 .f32 := Memref.whole cc3_scratch0
/-- A view through which the accumulator's and the output block's contents are stated. -/
abbrev VS3 : View sig .tc .vmem S1024x1024 .f32 := scM3.view
abbrev VO3 : View sig .tc .vmem S1024x1024 .f32 := (Memref.whole cc3_stg3_0 : Memref sig .tc .vmem S1024x1024 .f32).view

/-- What the region hands the body besides the windows: the accumulator at some contents, every other buffer the region
    does not describe, and the generator register. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.Kernel.Hand

end
-- ==== Proof.KB_R3_RunA.lean ====
/-
  Region 3, the body's run where k = 0 (and k ≠ 7): on whole buffers, the two operand blocks at their contents and the
  accumulator at anything, the body zeroes the accumulator, adds the block product, and stores nothing else. What the
  accumulator ends with is recorded as the pieces its stores wrote, last first; the mask block and the output block are not
  touched.
-/
import proofs.«119208_j72069551226903_1_alg».proof.Proof.KB_R3_Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun3_A (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond3_0 i) (hc1 : ¬cond3_1 i)
    (x0 : Vec F S1024x512 .f32) (x1 : Vec F S512x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a7 fullShare d)
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc3__matmul_act_kernel i a3 h3 a4 h4 a5 h5 a6 h6 a7 h7) K } := by
  refine ⟨?_, fun E K => ?run⟩
  case run =>
    simp only [cc3__matmul_act_kernel_eq_skeleton]; unfold cc3__matmul_act_kernel_skel
    unfold owns
    iintro ⟨⟨%f0, %hf0, H0⟩, ⟨%f1, %hf1, H1⟩, ⟨%d4, %f4, -, HS⟩, Hk⟩
    obtain rfl := h3.eq_unread hf0; obtain rfl := h4.eq_unread hf1
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.Kernel.Hand

end
-- ==== Proof.KB_R3_RunB.lean ====
/-
  Region 3, the body's run where 0 < k < 7: on whole buffers, the two operand blocks at their contents and the accumulator
  at what the point before left, the body adds the block product to the accumulator and stores nothing else.
-/
import proofs.«119208_j72069551226903_1_alg».proof.Proof.KB_R3_RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun3_B (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : ¬cond3_1 i)
    (x0 : Vec F S1024x512 .f32) (x1 : Vec F S512x1024 .f32) (xs : Vec F S1024x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a7 fullShare xs
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc3__matmul_act_kernel i a3 h3 a4 h4 a5 h5 a6 h6 a7 h7) K } := by
  refine ⟨?_, fun E K => ?run⟩
  case run =>
    simp only [cc3__matmul_act_kernel_eq_skeleton]; unfold cc3__matmul_act_kernel_skel
    unfold owns
    iintro ⟨⟨%f0, %hf0, H0⟩, ⟨%f1, %hf1, H1⟩, ⟨%fs, %hfs, HS⟩, Hk⟩
    obtain rfl := h3.eq_unread hf0; obtain rfl := h4.eq_unread hf1; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.Kernel.Hand

end
-- ==== Proof.KB_R3_RunC.lean ====
/-
  Region 3, the body's run where k = 7: on whole buffers, the two operand blocks and the mask block at their contents, the
  accumulator at what the point before left and the output block at anything, the body adds the last block product to the
  accumulator and stores the masked result into the output block.
-/
import proofs.«119208_j72069551226903_1_alg».proof.Proof.KB_R3_RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun3_C (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : cond3_1 i)
    (x0 : Vec F S1024x512 .f32) (x1 : Vec F S512x1024 .f32) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ (∃ d, owns (c : Thread nD τ) a6 fullShare d) ∗ owns (c : Thread nD τ) a7 fullShare xs
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L3)
                ∗ (∃ f, a7.view.loc (c : Thread nD τ) ↦[a7.view.set]{fullShare} a7.view.writes (Elt F) f LS)) -∗ K ⟨⟩))
          ⊢ wp frame (wpE (defs₀ (F := F)) Variants.none c none) E (cc3__matmul_act_kernel i a3 h3 a4 h4 a5 h5 a6 h6 a7 h7) K } := by
  refine ⟨?_, ?_, fun E K => ?run⟩
  case run =>
    simp only [cc3__matmul_act_kernel_eq_skeleton]; unfold cc3__matmul_act_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h3.eq_unread hf0; obtain rfl := h4.eq_unread hf1; obtain rfl := h5.eq_unread hf2; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HS

end Cert.Kernel.Hand

end
-- ==== Proof.KB_R3_Frame.lean ====
/-
  Region 3: what the accumulator and the output block hold after each grid point, the proof data of the region's pipeline
  at any entry contents `V`, and the body obligation.
  After a point with k = 0 the accumulator holds what that case's stores wrote over the two operand blocks; after a later
  point, what that case's stores wrote over the operand blocks and over what the point before left (a recursion on the point).
  The output block is stored where k = 7; elsewhere it is idle and what is recorded for it is a placeholder nothing consults.
  The invariant carries the accumulator at the recorded contents from one point to the next, beside the buffers the region
  does not describe and the generator register.
-/
import proofs.«119208_j72069551226903_1_alg».proof.Proof.KB_R3_RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scover3_A (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond3_0 i) (hc1 : ¬cond3_1 i)
    (x0 : Vec F S1024x512 .f32) (x1 : Vec F S512x1024 .f32) (y : S1024x1024.Idx) :
    ∃ pc ∈ (kernelRun3_A c i a3 h3 a4 h4 a5 h5 a6 h6 a7 h7 hc0 hc1 x0 x1).1, y ∈ pc.1.set :=
  View.cover_of_tiledL (kernelRun3_A c i a3 h3 a4 h4 a5 h5 a6 h6 a7 h7 hc0 hc1 x0 x1).1 S1024x1024.size (by sl_kernel_rfl) y
/-- The accumulator after a point with k = 0. -/
def sout3_A (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond3_0 i) (hc1 : ¬cond3_1 i)
    (x0 : Vec F S1024x512 .f32) (x1 : Vec F S512x1024 .f32) : Vec F S1024x1024 .f32 :=
  VS3.read (Elt F) (VS3.writes (Elt F) VS3.junk (kernelRun3_A c i a3 h3 a4 h4 a5 h5 a6 h6 a7 h7 hc0 hc1 x0 x1).1)

theorem scover3_B (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : ¬cond3_1 i)
    (x0 : Vec F S1024x512 .f32) (x1 : Vec F S512x1024 .f32) (xs : Vec F S1024x1024 .f32) (y : S1024x1024.Idx) :
    ∃ pc ∈ (kernelRun3_B c i a3 h3 a4 h4 a5 h5 a6 h6 a7 h7 hc0 hc1 x0 x1 xs).1, y ∈ pc.1.set :=
  View.cover_of_tiledL (kernelRun3_B c i a3 h3 a4 h4 a5 h5 a6 h6 a7 h7 hc0 hc1 x0 x1 xs).1 S1024x1024.size (by sl_kernel_rfl) y
/-- The accumulator after a point with 0 < k < 7, over what the point before left. -/
def sout3_B (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : ¬cond3_1 i)
    (x0 : Vec F S1024x512 .f32) (x1 : Vec F S512x1024 .f32) (xs : Vec F S1024x1024 .f32) : Vec F S1024x1024 .f32 :=
  VS3.read (Elt F) (VS3.writes (Elt F) VS3.junk (kernelRun3_B c i a3 h3 a4 h4 a5 h5 a6 h6 a7 h7 hc0 hc1 x0 x1 xs).1)

theorem cover3_C (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : cond3_1 i)
    (x0 : Vec F S1024x512 .f32) (x1 : Vec F S512x1024 .f32) (x2 : Vec F S1x1024 .f32) (xs : Vec F S1024x1024 .f32) (y : S1024x1024.Idx) :
    ∃ pc ∈ (kernelRun3_C c i a3 h3 a4 h4 a5 h5 a6 h6 a7 h7 hc0 hc1 x0 x1 x2 xs).1, y ∈ pc.1.set :=
  View.cover_of_tiledL (kernelRun3_C c i a3 h3 a4 h4 a5 h5 a6 h6 a7 h7 hc0 hc1 x0 x1 x2 xs).1 S1024x1024.size (by sl_kernel_rfl) y
/-- The output block after a point with k = 7. -/
def out3_C (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : cond3_1 i)
    (x0 : Vec F S1024x512 .f32) (x1 : Vec F S512x1024 .f32) (x2 : Vec F S1x1024 .f32) (xs : Vec F S1024x1024 .f32) : Vec F S1024x1024 .f32 :=
  VO3.read (Elt F) (VO3.writes (Elt F) VO3.junk (kernelRun3_C c i a3 h3 a4 h4 a5 h5 a6 h6 a7 h7 hc0 hc1 x0 x1 x2 xs).1)
theorem scover3_C (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : cond3_1 i)
    (x0 : Vec F S1024x512 .f32) (x1 : Vec F S512x1024 .f32) (x2 : Vec F S1x1024 .f32) (xs : Vec F S1024x1024 .f32) (y : S1024x1024.Idx) :
    ∃ pc ∈ (kernelRun3_C c i a3 h3 a4 h4 a5 h5 a6 h6 a7 h7 hc0 hc1 x0 x1 x2 xs).2.1, y ∈ pc.1.set :=
  View.cover_of_tiledL (kernelRun3_C c i a3 h3 a4 h4 a5 h5 a6 h6 a7 h7 hc0 hc1 x0 x1 x2 xs).2.1 S1024x1024.size (by sl_kernel_rfl) y
/-- The accumulator after a point with k = 7. -/
def sout3_C (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : cond3_1 i)
    (x0 : Vec F S1024x512 .f32) (x1 : Vec F S512x1024 .f32) (x2 : Vec F S1x1024 .f32) (xs : Vec F S1024x1024 .f32) : Vec F S1024x1024 .f32 :=
  VS3.read (Elt F) (VS3.writes (Elt F) VS3.junk (kernelRun3_C c i a3 h3 a4 h4 a5 h5 a6 h6 a7 h7 hc0 hc1 x0 x1 x2 xs).2.1)

/-- What is recorded for the output block at a point that does not store it: nothing reads it. -/
def idleOut3 : Vec F S1024x1024 .f32 := VO3.read (Elt F) VO3.junk

section
variable (V : (c : Dev nD) → (b : Ref sig .tc) → Buf (Elt F) ((c : Thread nD τ).loc b))

/-! ## Point by point -/

/-- The output block and the accumulator after the body at position `n`: the case the point is in, run on the point's
    operand blocks, the accumulator taken from the point before when k ≠ 0. -/
def outsAt3 (c : Dev nD) : (n : ℕ) → n < cfg3.N → Vec F S1024x1024 .f32 × Vec F S1024x1024 .f32
  | 0, hn => (idleOut3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 8 = 0 then
      if h1 : (n + 1) % 8 = 7 then
        False.elim (by omega)
      else
        (idleOut3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 8 = 7 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2,
         sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (idleOut3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (idleOut3, sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (idleOut3, sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point, what the region hands the body; afterwards the accumulator at what the point
    before left, the buffers the region does not describe, the generator register. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare ((outsAt3 V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body at a point each operand's buffer at its block and the output's at the
    recorded contents; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 128 := lt_of_lt_of_eq t.isLt (show cfg3.N = 128 from N_3)
  by_cases h0 : t.val % 8 = 0
  · by_cases h1 : t.val % 8 = 7
    · exfalso; omega
    · rw [Dat.leavesExact_idle (dat3 V c) 3 t (idleAt3_3 t (fun h => h1 ((hcond3_1 t).mp h))) (noFlush3_3 t (fun h => h1 ((hcond3_1 t).mp h)))]
      rw [outsAt3_A V c t h0 h1]
      unfold sout3_A; (try dsimp only)
      by_cases hz : t.val = 0
      · rw [PhiS3_castSucc V c t, PhiS3_zero V c _ _ hz, PhiA3_eq]
        iintro ⟨⟨⟨HS, Hrest⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t)).2 Set.univ _)
        isplitl [H0]; · iexact H0
        isplitl [H1]; · iexact H1
        isplitl [HS]; · iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover3_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS, Hrest⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t)).2 Set.univ _)
        isplitl [H0]; · iexact H0
        isplitl [H1]; · iexact H1
        isplitl [HS]; · iexists _; iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover3_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C sout3_C; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover3_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover3_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-- After any point but the first the invariant gives back what the region handed in: the accumulator's recorded contents
    are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hrest⟩, Hg⟩
  isplitl [HS Hrest]
  · isplitl [HS]
    · iexists _; iexact HS
    iexact Hrest
  iexact Hg
theorem hout3 (c : Dev nD) : (dat3 V c).Φ (Fin.last cfg3.N) ⊢ Pipeline.ΦA spec3 c :=
  Phi_out3 V c _ (by rw [Fin.val_last]; have : cfg3.N = 128 := N_3; omega)

end

end Cert.Kernel.Hand

end
-- ==== Proof.KB_R4_Defs.lean ====
/-
  Region 4 of the program (the fifth of its five matrix-product steps): what the body's runs and the proof data are stated over.
  The grid is 4 × 4 × 8: an output block (i, j) of 1024 × 1024 is visited at eight consecutive points k = 0 … 7, one per block of 512
  along the contracted axis. The body zeroes its accumulator where k = 0 (the points ≡ 0 mod 8), adds one block product at every
  point, and stores the masked result into the output block where k = 7 (the points ≡ 7 mod 8); at the other points the output's
  buffer is left as found and is not written back. Here: the two conditions in closed form over the grid, where the output
  window is idle, each window's block of its array at a point (at any contents `V` the region may be entered from), and the
  accumulator split out of the buffers the region does not describe.
-/
import proofs.«119208_j72069551226903_1_alg».proof.Proof.Gen.Kernel.Launch
import proofs.«119208_j72069551226903_1_alg».proof.Proof.Gen.Kernel.Skeleton
import proofs.«119208_j72069551226903_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current buffer holds its block at every point, fetched there or not (where it is not fetched its
    index has not moved), for any proof data over `V` whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current buffer holds its block at every point, fetched there or not (where it is not fetched its
    index has not moved), for any proof data over `V` whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current buffer holds its block at every point, fetched there or not (where it is not fetched its
    index has not moved), for any proof data over `V` whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

end

/-! ## The body's two conditions, over the grid -/

/-- "k = 0": the accumulator is zeroed here. -/
abbrev cond4_0 (i : grid4.Coords) : Prop := (Scalar.cmpi .ne (Scalar.extui (Scalar.cmpi .eq (BitVec.ofNat 32 (i 2).val) 0#32)) 0#32) = 1#1
/-- It holds at the points ≡ 0 (mod 8). -/
theorem hcond4_0 : ∀ t : Fin cfg4.N, cond4_0 (grid4.coords t) ↔ t.val % 8 = 0 :=
  (by decide +kernel : ∀ t : Fin grid4.N, cond4_0 (grid4.coords t) ↔ t.val % 8 = 0)
/-- "k = 7": the output block is stored here. -/
abbrev cond4_1 (i : grid4.Coords) : Prop := k4_cond2 i = 1#1
/-- It holds at the points ≡ 7 (mod 8). -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Where k ≠ 7 the body stores nothing into the output block, and the block is not written back there. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
/-- Where k = 7 it is stored. -/
theorem liveAt4_3 : ∀ t : Fin cfg4.N, cond4_1 (grid4.coords t) → cfg4.idle 3 (grid4.coords t) = false := by decide +kernel

/-! ## The buffers the body is called with -/

abbrev ms4_0 (t : Fin cfg4.N) : Memref sig .tc .vmem S1024x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x1024 .f32 := win4_3.stage (cfg4.slots t 3)
abbrev hs4_3 (t : Fin cfg4.N) : (ms4_3 t).IsWhole := hstage4_3 ((cfg4.slots t 3).cast nbuf4_3)
/-- The accumulator: a whole buffer of the kernel's own, kept from point to point. -/
abbrev scM4 : Memref sig .tc .vmem S1024x1024 .f32 := Memref.whole cc4_scratch0
/-- A view through which the accumulator's and the output block's contents are stated. -/
abbrev VS4 : View sig .tc .vmem S1024x1024 .f32 := scM4.view
abbrev VO4 : View sig .tc .vmem S1024x1024 .f32 := (Memref.whole cc4_stg3_0 : Memref sig .tc .vmem S1024x1024 .f32).view

/-- What the region hands the body besides the windows: the accumulator at some contents, every other buffer the region
    does not describe, and the generator register. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

end Cert.Kernel.Hand

end
-- ==== Proof.KB_R4_RunA.lean ====
/-
  Region 4, the body's run where k = 0 (and k ≠ 7): on whole buffers, the two operand blocks at their contents and the
  accumulator at anything, the body zeroes the accumulator, adds the block product, and stores nothing else. What the
  accumulator ends with is recorded as the pieces its stores wrote, last first; the mask block and the output block are not
  touched.
-/
import proofs.«119208_j72069551226903_1_alg».proof.Proof.KB_R4_Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun4_A (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond4_0 i) (hc1 : ¬cond4_1 i)
    (x0 : Vec F S1024x512 .f32) (x1 : Vec F S512x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a7 fullShare d)
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc4__matmul_act_kernel i a3 h3 a4 h4 a5 h5 a6 h6 a7 h7) K } := by
  refine ⟨?_, fun E K => ?run⟩
  case run =>
    simp only [cc4__matmul_act_kernel_eq_skeleton]; unfold cc4__matmul_act_kernel_skel
    unfold owns
    iintro ⟨⟨%f0, %hf0, H0⟩, ⟨%f1, %hf1, H1⟩, ⟨%d4, %f4, -, HS⟩, Hk⟩
    obtain rfl := h3.eq_unread hf0; obtain rfl := h4.eq_unread hf1
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.Kernel.Hand

end
-- ==== Proof.KB_R4_RunB.lean ====
/-
  Region 4, the body's run where 0 < k < 7: on whole buffers, the two operand blocks at their contents and the accumulator
  at what the point before left, the body adds the block product to the accumulator and stores nothing else.
-/
import proofs.«119208_j72069551226903_1_alg».proof.Proof.KB_R4_RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun4_B (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : ¬cond4_1 i)
    (x0 : Vec F S1024x512 .f32) (x1 : Vec F S512x1024 .f32) (xs : Vec F S1024x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a7 fullShare xs
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc4__matmul_act_kernel i a3 h3 a4 h4 a5 h5 a6 h6 a7 h7) K } := by
  refine ⟨?_, fun E K => ?run⟩
  case run =>
    simp only [cc4__matmul_act_kernel_eq_skeleton]; unfold cc4__matmul_act_kernel_skel
    unfold owns
    iintro ⟨⟨%f0, %hf0, H0⟩, ⟨%f1, %hf1, H1⟩, ⟨%fs, %hfs, HS⟩, Hk⟩
    obtain rfl := h3.eq_unread hf0; obtain rfl := h4.eq_unread hf1; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.Kernel.Hand

end
-- ==== Proof.KB_R4_RunC.lean ====
/-
  Region 4, the body's run where k = 7: on whole buffers, the two operand blocks and the mask block at their contents, the
  accumulator at what the point before left and the output block at anything, the body adds the last block product to the
  accumulator and stores the masked result into the output block.
-/
import proofs.«119208_j72069551226903_1_alg».proof.Proof.KB_R4_RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun4_C (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : cond4_1 i)
    (x0 : Vec F S1024x512 .f32) (x1 : Vec F S512x1024 .f32) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ (∃ d, owns (c : Thread nD τ) a6 fullShare d) ∗ owns (c : Thread nD τ) a7 fullShare xs
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L3)
                ∗ (∃ f, a7.view.loc (c : Thread nD τ) ↦[a7.view.set]{fullShare} a7.view.writes (Elt F) f LS)) -∗ K ⟨⟩))
          ⊢ wp frame (wpE (defs₀ (F := F)) Variants.none c none) E (cc4__matmul_act_kernel i a3 h3 a4 h4 a5 h5 a6 h6 a7 h7) K } := by
  refine ⟨?_, ?_, fun E K => ?run⟩
  case run =>
    simp only [cc4__matmul_act_kernel_eq_skeleton]; unfold cc4__matmul_act_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h3.eq_unread hf0; obtain rfl := h4.eq_unread hf1; obtain rfl := h5.eq_unread hf2; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HS

end Cert.Kernel.Hand

end
-- ==== Proof.KB_R4_Frame.lean ====
/-
  Region 4: what the accumulator and the output block hold after each grid point, the proof data of the region's pipeline
  at any entry contents `V`, and the body obligation.
  After a point with k = 0 the accumulator holds what that case's stores wrote over the two operand blocks; after a later
  point, what that case's stores wrote over the operand blocks and over what the point before left (a recursion on the point).
  The output block is stored where k = 7; elsewhere it is idle and what is recorded for it is a placeholder nothing consults.
  The invariant carries the accumulator at the recorded contents from one point to the next, beside the buffers the region
  does not describe and the generator register.
-/
import proofs.«119208_j72069551226903_1_alg».proof.Proof.KB_R4_RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scover4_A (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond4_0 i) (hc1 : ¬cond4_1 i)
    (x0 : Vec F S1024x512 .f32) (x1 : Vec F S512x1024 .f32) (y : S1024x1024.Idx) :
    ∃ pc ∈ (kernelRun4_A c i a3 h3 a4 h4 a5 h5 a6 h6 a7 h7 hc0 hc1 x0 x1).1, y ∈ pc.1.set :=
  View.cover_of_tiledL (kernelRun4_A c i a3 h3 a4 h4 a5 h5 a6 h6 a7 h7 hc0 hc1 x0 x1).1 S1024x1024.size (by sl_kernel_rfl) y
/-- The accumulator after a point with k = 0. -/
def sout4_A (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond4_0 i) (hc1 : ¬cond4_1 i)
    (x0 : Vec F S1024x512 .f32) (x1 : Vec F S512x1024 .f32) : Vec F S1024x1024 .f32 :=
  VS4.read (Elt F) (VS4.writes (Elt F) VS4.junk (kernelRun4_A c i a3 h3 a4 h4 a5 h5 a6 h6 a7 h7 hc0 hc1 x0 x1).1)

theorem scover4_B (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : ¬cond4_1 i)
    (x0 : Vec F S1024x512 .f32) (x1 : Vec F S512x1024 .f32) (xs : Vec F S1024x1024 .f32) (y : S1024x1024.Idx) :
    ∃ pc ∈ (kernelRun4_B c i a3 h3 a4 h4 a5 h5 a6 h6 a7 h7 hc0 hc1 x0 x1 xs).1, y ∈ pc.1.set :=
  View.cover_of_tiledL (kernelRun4_B c i a3 h3 a4 h4 a5 h5 a6 h6 a7 h7 hc0 hc1 x0 x1 xs).1 S1024x1024.size (by sl_kernel_rfl) y
/-- The accumulator after a point with 0 < k < 7, over what the point before left. -/
def sout4_B (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : ¬cond4_1 i)
    (x0 : Vec F S1024x512 .f32) (x1 : Vec F S512x1024 .f32) (xs : Vec F S1024x1024 .f32) : Vec F S1024x1024 .f32 :=
  VS4.read (Elt F) (VS4.writes (Elt F) VS4.junk (kernelRun4_B c i a3 h3 a4 h4 a5 h5 a6 h6 a7 h7 hc0 hc1 x0 x1 xs).1)

theorem cover4_C (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : cond4_1 i)
    (x0 : Vec F S1024x512 .f32) (x1 : Vec F S512x1024 .f32) (x2 : Vec F S1x1024 .f32) (xs : Vec F S1024x1024 .f32) (y : S1024x1024.Idx) :
    ∃ pc ∈ (kernelRun4_C c i a3 h3 a4 h4 a5 h5 a6 h6 a7 h7 hc0 hc1 x0 x1 x2 xs).1, y ∈ pc.1.set :=
  View.cover_of_tiledL (kernelRun4_C c i a3 h3 a4 h4 a5 h5 a6 h6 a7 h7 hc0 hc1 x0 x1 x2 xs).1 S1024x1024.size (by sl_kernel_rfl) y
/-- The output block after a point with k = 7. -/
def out4_C (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : cond4_1 i)
    (x0 : Vec F S1024x512 .f32) (x1 : Vec F S512x1024 .f32) (x2 : Vec F S1x1024 .f32) (xs : Vec F S1024x1024 .f32) : Vec F S1024x1024 .f32 :=
  VO4.read (Elt F) (VO4.writes (Elt F) VO4.junk (kernelRun4_C c i a3 h3 a4 h4 a5 h5 a6 h6 a7 h7 hc0 hc1 x0 x1 x2 xs).1)
theorem scover4_C (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : cond4_1 i)
    (x0 : Vec F S1024x512 .f32) (x1 : Vec F S512x1024 .f32) (x2 : Vec F S1x1024 .f32) (xs : Vec F S1024x1024 .f32) (y : S1024x1024.Idx) :
    ∃ pc ∈ (kernelRun4_C c i a3 h3 a4 h4 a5 h5 a6 h6 a7 h7 hc0 hc1 x0 x1 x2 xs).2.1, y ∈ pc.1.set :=
  View.cover_of_tiledL (kernelRun4_C c i a3 h3 a4 h4 a5 h5 a6 h6 a7 h7 hc0 hc1 x0 x1 x2 xs).2.1 S1024x1024.size (by sl_kernel_rfl) y
/-- The accumulator after a point with k = 7. -/
def sout4_C (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : cond4_1 i)
    (x0 : Vec F S1024x512 .f32) (x1 : Vec F S512x1024 .f32) (x2 : Vec F S1x1024 .f32) (xs : Vec F S1024x1024 .f32) : Vec F S1024x1024 .f32 :=
  VS4.read (Elt F) (VS4.writes (Elt F) VS4.junk (kernelRun4_C c i a3 h3 a4 h4 a5 h5 a6 h6 a7 h7 hc0 hc1 x0 x1 x2 xs).2.1)

/-- What is recorded for the output block at a point that does not store it: nothing reads it. -/
def idleOut4 : Vec F S1024x1024 .f32 := VO4.read (Elt F) VO4.junk

section
variable (V : (c : Dev nD) → (b : Ref sig .tc) → Buf (Elt F) ((c : Thread nD τ).loc b))

/-! ## Point by point -/

/-- The output block and the accumulator after the body at position `n`: the case the point is in, run on the point's
    operand blocks, the accumulator taken from the point before when k ≠ 0. -/
def outsAt4 (c : Dev nD) : (n : ℕ) → n < cfg4.N → Vec F S1024x1024 .f32 × Vec F S1024x1024 .f32
  | 0, hn => (idleOut4, sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 8 = 0 then
      if h1 : (n + 1) % 8 = 7 then
        False.elim (by omega)
      else
        (idleOut4, sout4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 8 = 7 then
        (out4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2,
         sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (idleOut4, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

theorem outsAt4_A (c : Dev nD) (t : Fin cfg4.N) (h0 : t.val % 8 = 0) (h1 : ¬t.val % 8 = 7) :
    outsAt4 V c t.val t.isLt = (idleOut4, sout4_A c (grid4.coords t) (ms4_0 t) (hs4_0 t) (ms4_1 t) (hs4_1 t) (ms4_2 t) (hs4_2 t) (ms4_3 t) (hs4_3 t) scM4 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

theorem outsAt4_B (c : Dev nD) (t : Fin cfg4.N) (h0 : ¬t.val % 8 = 0) (h1 : ¬t.val % 8 = 7) :
    outsAt4 V c t.val t.isLt = (idleOut4, sout4_B c (grid4.coords t) (ms4_0 t) (hs4_0 t) (ms4_1 t) (hs4_1 t) (ms4_2 t) (hs4_2 t) (ms4_3 t) (hs4_3 t) scM4 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 8 = 0) (h1 : t.val % 8 = 7) :
    outsAt4 V c t.val t.isLt = (out4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2,
      sout4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point, what the region hands the body; afterwards the accumulator at what the point
    before left, the buffers the region does not describe, the generator register. -/
def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare ((outsAt4 V c n hn).2)
      ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4 fullShare ((outsAt4 V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The arrays as the region finds them; after the body at a point each operand's buffer at its block and the output's at the
    recorded contents; the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

theorem leaves4_0 (c : Dev nD) (t : Fin cfg4.N) : (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) : (dat4 V c).leavesExact 1 t = owns (c : Thread nD τ) (ms4_1 t) fullShare (iblk4 V c 1 t) := by
  unfold Dat.leavesExact; rw [liveAt4_1 t, after4_1]
theorem leaves4_2 (c : Dev nD) (t : Fin cfg4.N) : (dat4 V c).leavesExact 2 t = owns (c : Thread nD τ) (ms4_2 t) fullShare (iblk4 V c 2 t) := by
  unfold Dat.leavesExact; rw [liveAt4_2 t, after4_2]

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2]
  have hN : t.val < 128 := lt_of_lt_of_eq t.isLt (show cfg4.N = 128 from N_4)
  by_cases h0 : t.val % 8 = 0
  · by_cases h1 : t.val % 8 = 7
    · exfalso; omega
    · rw [Dat.leavesExact_idle (dat4 V c) 3 t (idleAt4_3 t (fun h => h1 ((hcond4_1 t).mp h))) (noFlush4_3 t (fun h => h1 ((hcond4_1 t).mp h)))]
      rw [outsAt4_A V c t h0 h1]
      unfold sout4_A; (try dsimp only)
      by_cases hz : t.val = 0
      · rw [PhiS4_castSucc V c t, PhiS4_zero V c _ _ hz, PhiA4_eq]
        iintro ⟨⟨⟨HS, Hrest⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t)).2 Set.univ _)
        isplitl [H0]; · iexact H0
        isplitl [H1]; · iexact H1
        isplitl [HS]; · iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover4_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        iintro ⟨⟨⟨HS, Hrest⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t)).2 Set.univ _)
        isplitl [H0]; · iexact H0
        isplitl [H1]; · iexact H1
        isplitl [HS]; · iexists _; iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover4_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat4 V c).leavesExact 3 t = owns (c : Thread nD τ) (ms4_3 t) fullShare ((dat4 V c).after 3 t) from by
        unfold Dat.leavesExact; rw [liveAt4_3 t ((hcond4_1 t).mpr h1)], after4_3]
      rw [outsAt4_C V c t h0 h1]
      unfold out4_C sout4_C; (try dsimp only)
      rw [PhiS4_castSucc V c t, PhiS4_pos V c _ _ hz]
      iintro ⟨⟨⟨HS, Hrest⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover4_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C c _ _ _ _ _ _ _ _ _ _ _ _ _ _ _ _ _)
    · rw [Dat.leavesExact_idle (dat4 V c) 3 t (idleAt4_3 t (fun h => h1 ((hcond4_1 t).mp h))) (noFlush4_3 t (fun h => h1 ((hcond4_1 t).mp h)))]
      rw [outsAt4_B V c t h0 h1]
      unfold sout4_B; (try dsimp only)
      rw [PhiS4_castSucc V c t, PhiS4_pos V c _ _ hz]
      iintro ⟨⟨⟨HS, Hrest⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover4_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

/-- After any point but the first the invariant gives back what the region handed in: the accumulator's recorded contents
    are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS, Hrest⟩, Hg⟩
  isplitl [HS Hrest]
  · isplitl [HS]
    · iexists _; iexact HS
    iexact Hrest
  iexact Hg
theorem hout4 (c : Dev nD) : (dat4 V c).Φ (Fin.last cfg4.N) ⊢ Pipeline.ΦA spec4 c :=
  Phi_out4 V c _ (by rw [Fin.val_last]; have : cfg4.N = 128 := N_4; omega)

end

end Cert.Kernel.Hand

end
-- ==== Proof.KB_Run.lean ====
/-
  The program's run: @main is a stretch of host operations (the weight matrix by a scatter-add, the first hidden state, the mask
  row), five kernel regions, each one matrix-product step reading the previous one's output, and a last stretch of host
  operations (the logistic function of the last ten columns). The buffer contents at every boundary are a fold from the launch
  memory: a stretch applies its operations; a region leaves its output array at what its write-backs fold to and every other
  buffer as entered. Every weakly fair execution terminates with every unscoped buffer at the last boundary's contents; the
  arguments are written by no operation and no region.
-/
import proofs.«119208_j72069551226903_1_alg».proof.Proof.KB_R0_Frame
import proofs.«119208_j72069551226903_1_alg».proof.Proof.KB_R1_Frame
import proofs.«119208_j72069551226903_1_alg».proof.Proof.KB_R2_Frame
import proofs.«119208_j72069551226903_1_alg».proof.Proof.KB_R3_Frame
import proofs.«119208_j72069551226903_1_alg».proof.Proof.KB_R4_Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the operands as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the operands as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the operands as entered, the output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the operands as entered, the output's write-backs folded),
    every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves (the operands as entered, the output's write-backs folded),
    every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- After the last stretch of host operations. -/
abbrev W7 : Dev nD → Valuation τ sig (Elt F) := fun c => StableHlo.after hostOps5 (W6 m ρ c)

/-- `main_arg0` ends as launched: no host operation and no region writes it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` ends as launched: no host operation and no region writes it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` ends as launched: no host operation and no region writes it. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps5_fresh' : (hostOps5 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 as a segment: entered from every unscoped buffer at `W1`, left at `W2`. Its arrays are split out of
    the unscoped buffers and put back at what the pipeline leaves; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W2`, left at `W3`. Its arrays are split out of
    the unscoped buffers and put back at what the pipeline leaves; the generator register goes into the invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at `W3`, left at `W4`. Its arrays are split out of
    the unscoped buffers and put back at what the pipeline leaves; the generator register goes into the invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from every unscoped buffer at `W4`, left at `W5`. Its arrays are split out of
    the unscoped buffers and put back at what the pipeline leaves; the generator register goes into the invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from hout3 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered from every unscoped buffer at `W5`, left at `W6`. Its arrays are split out of
    the unscoped buffers and put back at what the pipeline leaves; the generator register goes into the invariant and comes
    back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m ρ 4 c).Φ (Fin.last _) ⊢ Pipeline.ΦA spec4 c from hout4 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ), .region (reg1 m ρ), .region (reg2 m ρ), .region (reg3 m ρ), .region (reg4 m ρ),
    .host (hseg hostOps5 hostOps5_sub hostOps5_fresh' (W6 m ρ)) ]
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the TensorCores
    terminates, nothing faulting, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

end Cert.Kernel.Hand

end
-- ==== Proof.KI_R0_Defs.lean ====
/-
  Region 0 of the program (the first of its five matrix-product steps): what the body's runs and the proof data are stated over.
  The grid is 4 × 4 × 8: an output block (i, j) of 1024 × 1024 is visited at eight consecutive points k = 0 … 7, one per block of 512
  along the contracted axis. The body zeroes its accumulator where k = 0 (the points ≡ 0 mod 8), adds one block product at every
  point, and stores the masked result into the output block where k = 7 (the points ≡ 7 mod 8); at the other points the output's
  buffer is left as found and is not written back. Here: the two conditions in closed form over the grid, where the output
  window is idle, each window's block of its array at a point (at any contents `V` the region may be entered from), and the
  accumulator split out of the buffers the region does not describe.
-/
import proofs.«119208_j72069551226903_1_alg».proof.Proof.Gen.KernelIdeal.Launch
import proofs.«119208_j72069551226903_1_alg».proof.Proof.Gen.KernelIdeal.Skeleton
import proofs.«119208_j72069551226903_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not (where it is not fetched its
    index has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not (where it is not fetched its
    index has not moved), for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not (where it is not fetched its
    index has not moved), for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two conditions, over the grid -/

/-- "k = 0": the accumulator is zeroed here. -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
/-- "k = 7": the output block is stored here. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where k ≠ 7 the body stores nothing into the output block, and the block is not written back there. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where k = 7 it is stored. -/
theorem liveAt0_3 : ∀ t : Fin cfg0.N, cond0_1 (grid0.coords t) → cfg0.idle 3 (grid0.coords t) = false := by decide +kernel

/-! ## The buffers the body is called with -/

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
/-- The accumulator: a whole buffer of the kernel's own, kept from point to point. -/
abbrev scM0 : Memref sig .tc .vmem S1024x1024 .f32 := Memref.whole cc0_scratch0
/-- A view through which the accumulator's and the output block's contents are stated. -/
abbrev VS0 : View sig .tc .vmem S1024x1024 .f32 := scM0.view
abbrev VO0 : View sig .tc .vmem S1024x1024 .f32 := (Memref.whole cc0_stg3_0 : Memref sig .tc .vmem S1024x1024 .f32).view

/-- What the region hands the body besides the windows: the accumulator at some contents, every other buffer the region
    does not describe, and the generator register. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.KernelIdeal.Hand

end
-- ==== Proof.KI_R0_RunA.lean ====
/-
  Region 0, the body's run where k = 0 (and k ≠ 7): on whole buffers, the two operand blocks at their contents and the
  accumulator at anything, the body zeroes the accumulator, adds the block product, and stores nothing else. What the
  accumulator ends with is recorded as the pieces its stores wrote, last first; the mask block and the output block are not
  touched.
-/
import proofs.«119208_j72069551226903_1_alg».proof.Proof.KI_R0_Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x512 .f32) (x1 : Vec F S512x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a7 fullShare d)
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc0__matmul_act_kernel i a3 h3 a4 h4 a5 h5 a6 h6 a7 h7) K } := by
  refine ⟨?_, fun E K => ?run⟩
  case run =>
    simp only [cc0__matmul_act_kernel_eq_skeleton]; unfold cc0__matmul_act_kernel_skel
    unfold owns
    iintro ⟨⟨%f0, %hf0, H0⟩, ⟨%f1, %hf1, H1⟩, ⟨%d4, %f4, -, HS⟩, Hk⟩
    obtain rfl := h3.eq_unread hf0; obtain rfl := h4.eq_unread hf1
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.KernelIdeal.Hand

end
-- ==== Proof.KI_R0_RunB.lean ====
/-
  Region 0, the body's run where 0 < k < 7: on whole buffers, the two operand blocks at their contents and the accumulator
  at what the point before left, the body adds the block product to the accumulator and stores nothing else.
-/
import proofs.«119208_j72069551226903_1_alg».proof.Proof.KI_R0_RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x512 .f32) (x1 : Vec F S512x1024 .f32) (xs : Vec F S1024x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a7 fullShare xs
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc0__matmul_act_kernel i a3 h3 a4 h4 a5 h5 a6 h6 a7 h7) K } := by
  refine ⟨?_, fun E K => ?run⟩
  case run =>
    simp only [cc0__matmul_act_kernel_eq_skeleton]; unfold cc0__matmul_act_kernel_skel
    unfold owns
    iintro ⟨⟨%f0, %hf0, H0⟩, ⟨%f1, %hf1, H1⟩, ⟨%fs, %hfs, HS⟩, Hk⟩
    obtain rfl := h3.eq_unread hf0; obtain rfl := h4.eq_unread hf1; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.KernelIdeal.Hand

end
-- ==== Proof.KI_R0_RunC.lean ====
/-
  Region 0, the body's run where k = 7: on whole buffers, the two operand blocks and the mask block at their contents, the
  accumulator at what the point before left and the output block at anything, the body adds the last block product to the
  accumulator and stores the masked result into the output block.
-/
import proofs.«119208_j72069551226903_1_alg».proof.Proof.KI_R0_RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S512x1024 .f32) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ (∃ d, owns (c : Thread nD τ) a6 fullShare d) ∗ owns (c : Thread nD τ) a7 fullShare xs
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L3)
                ∗ (∃ f, a7.view.loc (c : Thread nD τ) ↦[a7.view.set]{fullShare} a7.view.writes (Elt F) f LS)) -∗ K ⟨⟩))
          ⊢ wp frame (wpE (defs₀ (F := F)) Variants.none c none) E (cc0__matmul_act_kernel i a3 h3 a4 h4 a5 h5 a6 h6 a7 h7) K } := by
  refine ⟨?_, ?_, fun E K => ?run⟩
  case run =>
    simp only [cc0__matmul_act_kernel_eq_skeleton]; unfold cc0__matmul_act_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h3.eq_unread hf0; obtain rfl := h4.eq_unread hf1; obtain rfl := h5.eq_unread hf2; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HS

end Cert.KernelIdeal.Hand

end
-- ==== Proof.KI_R0_Frame.lean ====
/-
  Region 0: what the accumulator and the output block hold after each grid point, the proof data of the region's pipeline
  at any entry contents `V`, and the body obligation.
  After a point with k = 0 the accumulator holds what that case's stores wrote over the two operand blocks; after a later
  point, what that case's stores wrote over the operand blocks and over what the point before left (a recursion on the point).
  The output block is stored where k = 7; elsewhere it is idle and what is recorded for it is a placeholder nothing consults.
  The invariant carries the accumulator at the recorded contents from one point to the next, beside the buffers the region
  does not describe and the generator register.
-/
import proofs.«119208_j72069551226903_1_alg».proof.Proof.KI_R0_RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scover0_A (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x512 .f32) (x1 : Vec F S512x1024 .f32) (y : S1024x1024.Idx) :
    ∃ pc ∈ (kernelRun0_A c i a3 h3 a4 h4 a5 h5 a6 h6 a7 h7 hc0 hc1 x0 x1).1, y ∈ pc.1.set :=
  View.cover_of_tiledL (kernelRun0_A c i a3 h3 a4 h4 a5 h5 a6 h6 a7 h7 hc0 hc1 x0 x1).1 S1024x1024.size (by sl_kernel_rfl) y
/-- The accumulator after a point with k = 0. -/
def sout0_A (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x512 .f32) (x1 : Vec F S512x1024 .f32) : Vec F S1024x1024 .f32 :=
  VS0.read (Elt F) (VS0.writes (Elt F) VS0.junk (kernelRun0_A c i a3 h3 a4 h4 a5 h5 a6 h6 a7 h7 hc0 hc1 x0 x1).1)

theorem scover0_B (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x512 .f32) (x1 : Vec F S512x1024 .f32) (xs : Vec F S1024x1024 .f32) (y : S1024x1024.Idx) :
    ∃ pc ∈ (kernelRun0_B c i a3 h3 a4 h4 a5 h5 a6 h6 a7 h7 hc0 hc1 x0 x1 xs).1, y ∈ pc.1.set :=
  View.cover_of_tiledL (kernelRun0_B c i a3 h3 a4 h4 a5 h5 a6 h6 a7 h7 hc0 hc1 x0 x1 xs).1 S1024x1024.size (by sl_kernel_rfl) y
/-- The accumulator after a point with 0 < k < 7, over what the point before left. -/
def sout0_B (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x512 .f32) (x1 : Vec F S512x1024 .f32) (xs : Vec F S1024x1024 .f32) : Vec F S1024x1024 .f32 :=
  VS0.read (Elt F) (VS0.writes (Elt F) VS0.junk (kernelRun0_B c i a3 h3 a4 h4 a5 h5 a6 h6 a7 h7 hc0 hc1 x0 x1 xs).1)

theorem cover0_C (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S512x1024 .f32) (x2 : Vec F S1x1024 .f32) (xs : Vec F S1024x1024 .f32) (y : S1024x1024.Idx) :
    ∃ pc ∈ (kernelRun0_C c i a3 h3 a4 h4 a5 h5 a6 h6 a7 h7 hc0 hc1 x0 x1 x2 xs).1, y ∈ pc.1.set :=
  View.cover_of_tiledL (kernelRun0_C c i a3 h3 a4 h4 a5 h5 a6 h6 a7 h7 hc0 hc1 x0 x1 x2 xs).1 S1024x1024.size (by sl_kernel_rfl) y
/-- The output block after a point with k = 7. -/
def out0_C (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S512x1024 .f32) (x2 : Vec F S1x1024 .f32) (xs : Vec F S1024x1024 .f32) : Vec F S1024x1024 .f32 :=
  VO0.read (Elt F) (VO0.writes (Elt F) VO0.junk (kernelRun0_C c i a3 h3 a4 h4 a5 h5 a6 h6 a7 h7 hc0 hc1 x0 x1 x2 xs).1)
theorem scover0_C (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S512x1024 .f32) (x2 : Vec F S1x1024 .f32) (xs : Vec F S1024x1024 .f32) (y : S1024x1024.Idx) :
    ∃ pc ∈ (kernelRun0_C c i a3 h3 a4 h4 a5 h5 a6 h6 a7 h7 hc0 hc1 x0 x1 x2 xs).2.1, y ∈ pc.1.set :=
  View.cover_of_tiledL (kernelRun0_C c i a3 h3 a4 h4 a5 h5 a6 h6 a7 h7 hc0 hc1 x0 x1 x2 xs).2.1 S1024x1024.size (by sl_kernel_rfl) y
/-- The accumulator after a point with k = 7. -/
def sout0_C (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S512x1024 .f32) (x2 : Vec F S1x1024 .f32) (xs : Vec F S1024x1024 .f32) : Vec F S1024x1024 .f32 :=
  VS0.read (Elt F) (VS0.writes (Elt F) VS0.junk (kernelRun0_C c i a3 h3 a4 h4 a5 h5 a6 h6 a7 h7 hc0 hc1 x0 x1 x2 xs).2.1)

/-- What is recorded for the output block at a point that does not store it: nothing reads it. -/
def idleOut0 : Vec F S1024x1024 .f32 := VO0.read (Elt F) VO0.junk

section
variable (V : (c : Dev nD) → (b : Ref sig .tc) → Buf (Elt F) ((c : Thread nD τ).loc b))

/-! ## Point by point -/

/-- The output block and the accumulator after the body at position `n`: the case the point is in, run on the point's
    operand blocks, the accumulator taken from the point before when k ≠ 0. -/
def outsAt0 (c : Dev nD) : (n : ℕ) → n < cfg0.N → Vec F S1024x1024 .f32 × Vec F S1024x1024 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (idleOut0, sout0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idleOut0, sout0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point, what the region hands the body; afterwards the accumulator at what the point
    before left, the buffers the region does not describe, the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the region finds them; after the body at a point each operand's buffer at its block and the output's at the
    recorded contents; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 128 := lt_of_lt_of_eq t.isLt (show cfg0.N = 128 from N_0)
  by_cases h0 : t.val % 8 = 0
  · by_cases h1 : t.val % 8 = 7
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS, Hrest⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2 Set.univ _)
        isplitl [H0]; · iexact H0
        isplitl [H1]; · iexact H1
        isplitl [HS]; · iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover0_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS, Hrest⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2 Set.univ _)
        isplitl [H0]; · iexact H0
        isplitl [H1]; · iexact H1
        isplitl [HS]; · iexists _; iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover0_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sout0_C; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sout0_B; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover0_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives back what the region handed in: the accumulator's recorded contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]
    · iexists _; iexact HS
    iexact Hrest
  iexact Hg
theorem hout0 (c : Dev nD) : (dat0 V c).Φ (Fin.last cfg0.N) ⊢ Pipeline.ΦA spec0 c :=
  Phi_out0 V c _ (by rw [Fin.val_last]; have : cfg0.N = 128 := N_0; omega)

end

end Cert.KernelIdeal.Hand

end
-- ==== Proof.KI_R1_Defs.lean ====
/-
  Region 1 of the program (the second of its five matrix-product steps): what the body's runs and the proof data are stated over.
  The grid is 4 × 4 × 8: an output block (i, j) of 1024 × 1024 is visited at eight consecutive points k = 0 … 7, one per block of 512
  along the contracted axis. The body zeroes its accumulator where k = 0 (the points ≡ 0 mod 8), adds one block product at every
  point, and stores the masked result into the output block where k = 7 (the points ≡ 7 mod 8); at the other points the output's
  buffer is left as found and is not written back. Here: the two conditions in closed form over the grid, where the output
  window is idle, each window's block of its array at a point (at any contents `V` the region may be entered from), and the
  accumulator split out of the buffers the region does not describe.
-/
import proofs.«119208_j72069551226903_1_alg».proof.Proof.Gen.KernelIdeal.Launch
import proofs.«119208_j72069551226903_1_alg».proof.Proof.Gen.KernelIdeal.Skeleton
import proofs.«119208_j72069551226903_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not (where it is not fetched its
    index has not moved), for any proof data over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not (where it is not fetched its
    index has not moved), for any proof data over `V` whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not (where it is not fetched its
    index has not moved), for any proof data over `V` whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, over the grid -/

/-- "k = 0": the accumulator is zeroed here. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- "k = 7": the output block is stored here. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 7 the body stores nothing into the output block, and the block is not written back there. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where k = 7 it is stored. -/
theorem liveAt1_3 : ∀ t : Fin cfg1.N, cond1_1 (grid1.coords t) → cfg1.idle 3 (grid1.coords t) = false := by decide +kernel

/-! ## The buffers the body is called with -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole buffer of the kernel's own, kept from point to point. -/
abbrev scM1 : Memref sig .tc .vmem S1024x1024 .f32 := Memref.whole cc1_scratch0
/-- A view through which the accumulator's and the output block's contents are stated. -/
abbrev VS1 : View sig .tc .vmem S1024x1024 .f32 := scM1.view
abbrev VO1 : View sig .tc .vmem S1024x1024 .f32 := (Memref.whole cc1_stg3_0 : Memref sig .tc .vmem S1024x1024 .f32).view

/-- What the region hands the body besides the windows: the accumulator at some contents, every other buffer the region
    does not describe, and the generator register. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.KernelIdeal.Hand

end
-- ==== Proof.KI_R1_RunA.lean ====
/-
  Region 1, the body's run where k = 0 (and k ≠ 7): on whole buffers, the two operand blocks at their contents and the
  accumulator at anything, the body zeroes the accumulator, adds the block product, and stores nothing else. What the
  accumulator ends with is recorded as the pieces its stores wrote, last first; the mask block and the output block are not
  touched.
-/
import proofs.«119208_j72069551226903_1_alg».proof.Proof.KI_R1_Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond1_0 i) (hc1 : ¬cond1_1 i)
    (x0 : Vec F S1024x512 .f32) (x1 : Vec F S512x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a7 fullShare d)
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc1__matmul_act_kernel i a3 h3 a4 h4 a5 h5 a6 h6 a7 h7) K } := by
  refine ⟨?_, fun E K => ?run⟩
  case run =>
    simp only [cc1__matmul_act_kernel_eq_skeleton]; unfold cc1__matmul_act_kernel_skel
    unfold owns
    iintro ⟨⟨%f0, %hf0, H0⟩, ⟨%f1, %hf1, H1⟩, ⟨%d4, %f4, -, HS⟩, Hk⟩
    obtain rfl := h3.eq_unread hf0; obtain rfl := h4.eq_unread hf1
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.KernelIdeal.Hand

end
-- ==== Proof.KI_R1_RunB.lean ====
/-
  Region 1, the body's run where 0 < k < 7: on whole buffers, the two operand blocks at their contents and the accumulator
  at what the point before left, the body adds the block product to the accumulator and stores nothing else.
-/
import proofs.«119208_j72069551226903_1_alg».proof.Proof.KI_R1_RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : ¬cond1_1 i)
    (x0 : Vec F S1024x512 .f32) (x1 : Vec F S512x1024 .f32) (xs : Vec F S1024x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a7 fullShare xs
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc1__matmul_act_kernel i a3 h3 a4 h4 a5 h5 a6 h6 a7 h7) K } := by
  refine ⟨?_, fun E K => ?run⟩
  case run =>
    simp only [cc1__matmul_act_kernel_eq_skeleton]; unfold cc1__matmul_act_kernel_skel
    unfold owns
    iintro ⟨⟨%f0, %hf0, H0⟩, ⟨%f1, %hf1, H1⟩, ⟨%fs, %hfs, HS⟩, Hk⟩
    obtain rfl := h3.eq_unread hf0; obtain rfl := h4.eq_unread hf1; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.KernelIdeal.Hand

end
-- ==== Proof.KI_R1_RunC.lean ====
/-
  Region 1, the body's run where k = 7: on whole buffers, the two operand blocks and the mask block at their contents, the
  accumulator at what the point before left and the output block at anything, the body adds the last block product to the
  accumulator and stores the masked result into the output block.
-/
import proofs.«119208_j72069551226903_1_alg».proof.Proof.KI_R1_RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x512 .f32) (x1 : Vec F S512x1024 .f32) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ (∃ d, owns (c : Thread nD τ) a6 fullShare d) ∗ owns (c : Thread nD τ) a7 fullShare xs
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L3)
                ∗ (∃ f, a7.view.loc (c : Thread nD τ) ↦[a7.view.set]{fullShare} a7.view.writes (Elt F) f LS)) -∗ K ⟨⟩))
          ⊢ wp frame (wpE (defs₀ (F := F)) Variants.none c none) E (cc1__matmul_act_kernel i a3 h3 a4 h4 a5 h5 a6 h6 a7 h7) K } := by
  refine ⟨?_, ?_, fun E K => ?run⟩
  case run =>
    simp only [cc1__matmul_act_kernel_eq_skeleton]; unfold cc1__matmul_act_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h3.eq_unread hf0; obtain rfl := h4.eq_unread hf1; obtain rfl := h5.eq_unread hf2; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HS

end Cert.KernelIdeal.Hand

end
-- ==== Proof.KI_R1_Frame.lean ====
/-
  Region 1: what the accumulator and the output block hold after each grid point, the proof data of the region's pipeline
  at any entry contents `V`, and the body obligation.
  After a point with k = 0 the accumulator holds what that case's stores wrote over the two operand blocks; after a later
  point, what that case's stores wrote over the operand blocks and over what the point before left (a recursion on the point).
  The output block is stored where k = 7; elsewhere it is idle and what is recorded for it is a placeholder nothing consults.
  The invariant carries the accumulator at the recorded contents from one point to the next, beside the buffers the region
  does not describe and the generator register.
-/
import proofs.«119208_j72069551226903_1_alg».proof.Proof.KI_R1_RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scover1_A (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond1_0 i) (hc1 : ¬cond1_1 i)
    (x0 : Vec F S1024x512 .f32) (x1 : Vec F S512x1024 .f32) (y : S1024x1024.Idx) :
    ∃ pc ∈ (kernelRun1_A c i a3 h3 a4 h4 a5 h5 a6 h6 a7 h7 hc0 hc1 x0 x1).1, y ∈ pc.1.set :=
  View.cover_of_tiledL (kernelRun1_A c i a3 h3 a4 h4 a5 h5 a6 h6 a7 h7 hc0 hc1 x0 x1).1 S1024x1024.size (by sl_kernel_rfl) y
/-- The accumulator after a point with k = 0. -/
def sout1_A (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond1_0 i) (hc1 : ¬cond1_1 i)
    (x0 : Vec F S1024x512 .f32) (x1 : Vec F S512x1024 .f32) : Vec F S1024x1024 .f32 :=
  VS1.read (Elt F) (VS1.writes (Elt F) VS1.junk (kernelRun1_A c i a3 h3 a4 h4 a5 h5 a6 h6 a7 h7 hc0 hc1 x0 x1).1)

theorem scover1_B (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : ¬cond1_1 i)
    (x0 : Vec F S1024x512 .f32) (x1 : Vec F S512x1024 .f32) (xs : Vec F S1024x1024 .f32) (y : S1024x1024.Idx) :
    ∃ pc ∈ (kernelRun1_B c i a3 h3 a4 h4 a5 h5 a6 h6 a7 h7 hc0 hc1 x0 x1 xs).1, y ∈ pc.1.set :=
  View.cover_of_tiledL (kernelRun1_B c i a3 h3 a4 h4 a5 h5 a6 h6 a7 h7 hc0 hc1 x0 x1 xs).1 S1024x1024.size (by sl_kernel_rfl) y
/-- The accumulator after a point with 0 < k < 7, over what the point before left. -/
def sout1_B (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : ¬cond1_1 i)
    (x0 : Vec F S1024x512 .f32) (x1 : Vec F S512x1024 .f32) (xs : Vec F S1024x1024 .f32) : Vec F S1024x1024 .f32 :=
  VS1.read (Elt F) (VS1.writes (Elt F) VS1.junk (kernelRun1_B c i a3 h3 a4 h4 a5 h5 a6 h6 a7 h7 hc0 hc1 x0 x1 xs).1)

theorem cover1_C (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x512 .f32) (x1 : Vec F S512x1024 .f32) (x2 : Vec F S1x1024 .f32) (xs : Vec F S1024x1024 .f32) (y : S1024x1024.Idx) :
    ∃ pc ∈ (kernelRun1_C c i a3 h3 a4 h4 a5 h5 a6 h6 a7 h7 hc0 hc1 x0 x1 x2 xs).1, y ∈ pc.1.set :=
  View.cover_of_tiledL (kernelRun1_C c i a3 h3 a4 h4 a5 h5 a6 h6 a7 h7 hc0 hc1 x0 x1 x2 xs).1 S1024x1024.size (by sl_kernel_rfl) y
/-- The output block after a point with k = 7. -/
def out1_C (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x512 .f32) (x1 : Vec F S512x1024 .f32) (x2 : Vec F S1x1024 .f32) (xs : Vec F S1024x1024 .f32) : Vec F S1024x1024 .f32 :=
  VO1.read (Elt F) (VO1.writes (Elt F) VO1.junk (kernelRun1_C c i a3 h3 a4 h4 a5 h5 a6 h6 a7 h7 hc0 hc1 x0 x1 x2 xs).1)
theorem scover1_C (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x512 .f32) (x1 : Vec F S512x1024 .f32) (x2 : Vec F S1x1024 .f32) (xs : Vec F S1024x1024 .f32) (y : S1024x1024.Idx) :
    ∃ pc ∈ (kernelRun1_C c i a3 h3 a4 h4 a5 h5 a6 h6 a7 h7 hc0 hc1 x0 x1 x2 xs).2.1, y ∈ pc.1.set :=
  View.cover_of_tiledL (kernelRun1_C c i a3 h3 a4 h4 a5 h5 a6 h6 a7 h7 hc0 hc1 x0 x1 x2 xs).2.1 S1024x1024.size (by sl_kernel_rfl) y
/-- The accumulator after a point with k = 7. -/
def sout1_C (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x512 .f32) (x1 : Vec F S512x1024 .f32) (x2 : Vec F S1x1024 .f32) (xs : Vec F S1024x1024 .f32) : Vec F S1024x1024 .f32 :=
  VS1.read (Elt F) (VS1.writes (Elt F) VS1.junk (kernelRun1_C c i a3 h3 a4 h4 a5 h5 a6 h6 a7 h7 hc0 hc1 x0 x1 x2 xs).2.1)

/-- What is recorded for the output block at a point that does not store it: nothing reads it. -/
def idleOut1 : Vec F S1024x1024 .f32 := VO1.read (Elt F) VO1.junk

section
variable (V : (c : Dev nD) → (b : Ref sig .tc) → Buf (Elt F) ((c : Thread nD τ).loc b))

/-! ## Point by point -/

/-- The output block and the accumulator after the body at position `n`: the case the point is in, run on the point's
    operand blocks, the accumulator taken from the point before when k ≠ 0. -/
def outsAt1 (c : Dev nD) : (n : ℕ) → n < cfg1.N → Vec F S1024x1024 .f32 × Vec F S1024x1024 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (idleOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (idleOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point, what the region hands the body; afterwards the accumulator at what the point
    before left, the buffers the region does not describe, the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body at a point each operand's buffer at its block and the output's at the
    recorded contents; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 128 := lt_of_lt_of_eq t.isLt (show cfg1.N = 128 from N_1)
  by_cases h0 : t.val % 8 = 0
  · by_cases h1 : t.val % 8 = 7
    · exfalso; omega
    · rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t)).2 Set.univ _)
        isplitl [H0]; · iexact H0
        isplitl [H1]; · iexact H1
        isplitl [HS]; · iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover1_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t)).2 Set.univ _)
        isplitl [H0]; · iexact H0
        isplitl [H1]; · iexact H1
        isplitl [HS]; · iexists _; iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover1_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C sout1_C; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives back what the region handed in: the accumulator's recorded contents
    are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hrest⟩, Hg⟩
  isplitl [HS Hrest]
  · isplitl [HS]
    · iexists _; iexact HS
    iexact Hrest
  iexact Hg
theorem hout1 (c : Dev nD) : (dat1 V c).Φ (Fin.last cfg1.N) ⊢ Pipeline.ΦA spec1 c :=
  Phi_out1 V c _ (by rw [Fin.val_last]; have : cfg1.N = 128 := N_1; omega)

end

end Cert.KernelIdeal.Hand

end
-- ==== Proof.KI_R2_Defs.lean ====
/-
  Region 2 of the program (the third of its five matrix-product steps): what the body's runs and the proof data are stated over.
  The grid is 4 × 4 × 8: an output block (i, j) of 1024 × 1024 is visited at eight consecutive points k = 0 … 7, one per block of 512
  along the contracted axis. The body zeroes its accumulator where k = 0 (the points ≡ 0 mod 8), adds one block product at every
  point, and stores the masked result into the output block where k = 7 (the points ≡ 7 mod 8); at the other points the output's
  buffer is left as found and is not written back. Here: the two conditions in closed form over the grid, where the output
  window is idle, each window's block of its array at a point (at any contents `V` the region may be entered from), and the
  accumulator split out of the buffers the region does not describe.
-/
import proofs.«119208_j72069551226903_1_alg».proof.Proof.Gen.KernelIdeal.Launch
import proofs.«119208_j72069551226903_1_alg».proof.Proof.Gen.KernelIdeal.Skeleton
import proofs.«119208_j72069551226903_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not (where it is not fetched its
    index has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not (where it is not fetched its
    index has not moved), for any proof data over `V` whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not (where it is not fetched its
    index has not moved), for any proof data over `V` whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

/-! ## The body's two conditions, over the grid -/

/-- "k = 0": the accumulator is zeroed here. -/
abbrev cond2_0 (i : grid2.Coords) : Prop := (Scalar.cmpi .ne (Scalar.extui (Scalar.cmpi .eq (BitVec.ofNat 32 (i 2).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)
/-- "k = 7": the output block is stored here. -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where k ≠ 7 the body stores nothing into the output block, and the block is not written back there. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- Where k = 7 it is stored. -/
theorem liveAt2_3 : ∀ t : Fin cfg2.N, cond2_1 (grid2.coords t) → cfg2.idle 3 (grid2.coords t) = false := by decide +kernel

/-! ## The buffers the body is called with -/

abbrev ms2_0 (t : Fin cfg2.N) : Memref sig .tc .vmem S1024x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: a whole buffer of the kernel's own, kept from point to point. -/
abbrev scM2 : Memref sig .tc .vmem S1024x1024 .f32 := Memref.whole cc2_scratch0
/-- A view through which the accumulator's and the output block's contents are stated. -/
abbrev VS2 : View sig .tc .vmem S1024x1024 .f32 := scM2.view
abbrev VO2 : View sig .tc .vmem S1024x1024 .f32 := (Memref.whole cc2_stg3_0 : Memref sig .tc .vmem S1024x1024 .f32).view

/-- What the region hands the body besides the windows: the accumulator at some contents, every other buffer the region
    does not describe, and the generator register. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.KernelIdeal.Hand

end
-- ==== Proof.KI_R2_RunA.lean ====
/-
  Region 2, the body's run where k = 0 (and k ≠ 7): on whole buffers, the two operand blocks at their contents and the
  accumulator at anything, the body zeroes the accumulator, adds the block product, and stores nothing else. What the
  accumulator ends with is recorded as the pieces its stores wrote, last first; the mask block and the output block are not
  touched.
-/
import proofs.«119208_j72069551226903_1_alg».proof.Proof.KI_R2_Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun2_A (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond2_0 i) (hc1 : ¬cond2_1 i)
    (x0 : Vec F S1024x512 .f32) (x1 : Vec F S512x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a7 fullShare d)
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc2__matmul_act_kernel i a3 h3 a4 h4 a5 h5 a6 h6 a7 h7) K } := by
  refine ⟨?_, fun E K => ?run⟩
  case run =>
    simp only [cc2__matmul_act_kernel_eq_skeleton]; unfold cc2__matmul_act_kernel_skel
    unfold owns
    iintro ⟨⟨%f0, %hf0, H0⟩, ⟨%f1, %hf1, H1⟩, ⟨%d4, %f4, -, HS⟩, Hk⟩
    obtain rfl := h3.eq_unread hf0; obtain rfl := h4.eq_unread hf1
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.KernelIdeal.Hand

end
-- ==== Proof.KI_R2_RunB.lean ====
/-
  Region 2, the body's run where 0 < k < 7: on whole buffers, the two operand blocks at their contents and the accumulator
  at what the point before left, the body adds the block product to the accumulator and stores nothing else.
-/
import proofs.«119208_j72069551226903_1_alg».proof.Proof.KI_R2_RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun2_B (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : ¬cond2_1 i)
    (x0 : Vec F S1024x512 .f32) (x1 : Vec F S512x1024 .f32) (xs : Vec F S1024x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a7 fullShare xs
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc2__matmul_act_kernel i a3 h3 a4 h4 a5 h5 a6 h6 a7 h7) K } := by
  refine ⟨?_, fun E K => ?run⟩
  case run =>
    simp only [cc2__matmul_act_kernel_eq_skeleton]; unfold cc2__matmul_act_kernel_skel
    unfold owns
    iintro ⟨⟨%f0, %hf0, H0⟩, ⟨%f1, %hf1, H1⟩, ⟨%fs, %hfs, HS⟩, Hk⟩
    obtain rfl := h3.eq_unread hf0; obtain rfl := h4.eq_unread hf1; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.KernelIdeal.Hand

end
-- ==== Proof.KI_R2_RunC.lean ====
/-
  Region 2, the body's run where k = 7: on whole buffers, the two operand blocks and the mask block at their contents, the
  accumulator at what the point before left and the output block at anything, the body adds the last block product to the
  accumulator and stores the masked result into the output block.
-/
import proofs.«119208_j72069551226903_1_alg».proof.Proof.KI_R2_RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun2_C (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : cond2_1 i)
    (x0 : Vec F S1024x512 .f32) (x1 : Vec F S512x1024 .f32) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ (∃ d, owns (c : Thread nD τ) a6 fullShare d) ∗ owns (c : Thread nD τ) a7 fullShare xs
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L3)
                ∗ (∃ f, a7.view.loc (c : Thread nD τ) ↦[a7.view.set]{fullShare} a7.view.writes (Elt F) f LS)) -∗ K ⟨⟩))
          ⊢ wp frame (wpE (defs₀ (F := F)) Variants.none c none) E (cc2__matmul_act_kernel i a3 h3 a4 h4 a5 h5 a6 h6 a7 h7) K } := by
  refine ⟨?_, ?_, fun E K => ?run⟩
  case run =>
    simp only [cc2__matmul_act_kernel_eq_skeleton]; unfold cc2__matmul_act_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h3.eq_unread hf0; obtain rfl := h4.eq_unread hf1; obtain rfl := h5.eq_unread hf2; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HS

end Cert.KernelIdeal.Hand

end
-- ==== Proof.KI_R2_Frame.lean ====
/-
  Region 2: what the accumulator and the output block hold after each grid point, the proof data of the region's pipeline
  at any entry contents `V`, and the body obligation.
  After a point with k = 0 the accumulator holds what that case's stores wrote over the two operand blocks; after a later
  point, what that case's stores wrote over the operand blocks and over what the point before left (a recursion on the point).
  The output block is stored where k = 7; elsewhere it is idle and what is recorded for it is a placeholder nothing consults.
  The invariant carries the accumulator at the recorded contents from one point to the next, beside the buffers the region
  does not describe and the generator register.
-/
import proofs.«119208_j72069551226903_1_alg».proof.Proof.KI_R2_RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scover2_A (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond2_0 i) (hc1 : ¬cond2_1 i)
    (x0 : Vec F S1024x512 .f32) (x1 : Vec F S512x1024 .f32) (y : S1024x1024.Idx) :
    ∃ pc ∈ (kernelRun2_A c i a3 h3 a4 h4 a5 h5 a6 h6 a7 h7 hc0 hc1 x0 x1).1, y ∈ pc.1.set :=
  View.cover_of_tiledL (kernelRun2_A c i a3 h3 a4 h4 a5 h5 a6 h6 a7 h7 hc0 hc1 x0 x1).1 S1024x1024.size (by sl_kernel_rfl) y
/-- The accumulator after a point with k = 0. -/
def sout2_A (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond2_0 i) (hc1 : ¬cond2_1 i)
    (x0 : Vec F S1024x512 .f32) (x1 : Vec F S512x1024 .f32) : Vec F S1024x1024 .f32 :=
  VS2.read (Elt F) (VS2.writes (Elt F) VS2.junk (kernelRun2_A c i a3 h3 a4 h4 a5 h5 a6 h6 a7 h7 hc0 hc1 x0 x1).1)

theorem scover2_B (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : ¬cond2_1 i)
    (x0 : Vec F S1024x512 .f32) (x1 : Vec F S512x1024 .f32) (xs : Vec F S1024x1024 .f32) (y : S1024x1024.Idx) :
    ∃ pc ∈ (kernelRun2_B c i a3 h3 a4 h4 a5 h5 a6 h6 a7 h7 hc0 hc1 x0 x1 xs).1, y ∈ pc.1.set :=
  View.cover_of_tiledL (kernelRun2_B c i a3 h3 a4 h4 a5 h5 a6 h6 a7 h7 hc0 hc1 x0 x1 xs).1 S1024x1024.size (by sl_kernel_rfl) y
/-- The accumulator after a point with 0 < k < 7, over what the point before left. -/
def sout2_B (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : ¬cond2_1 i)
    (x0 : Vec F S1024x512 .f32) (x1 : Vec F S512x1024 .f32) (xs : Vec F S1024x1024 .f32) : Vec F S1024x1024 .f32 :=
  VS2.read (Elt F) (VS2.writes (Elt F) VS2.junk (kernelRun2_B c i a3 h3 a4 h4 a5 h5 a6 h6 a7 h7 hc0 hc1 x0 x1 xs).1)

theorem cover2_C (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : cond2_1 i)
    (x0 : Vec F S1024x512 .f32) (x1 : Vec F S512x1024 .f32) (x2 : Vec F S1x1024 .f32) (xs : Vec F S1024x1024 .f32) (y : S1024x1024.Idx) :
    ∃ pc ∈ (kernelRun2_C c i a3 h3 a4 h4 a5 h5 a6 h6 a7 h7 hc0 hc1 x0 x1 x2 xs).1, y ∈ pc.1.set :=
  View.cover_of_tiledL (kernelRun2_C c i a3 h3 a4 h4 a5 h5 a6 h6 a7 h7 hc0 hc1 x0 x1 x2 xs).1 S1024x1024.size (by sl_kernel_rfl) y
/-- The output block after a point with k = 7. -/
def out2_C (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : cond2_1 i)
    (x0 : Vec F S1024x512 .f32) (x1 : Vec F S512x1024 .f32) (x2 : Vec F S1x1024 .f32) (xs : Vec F S1024x1024 .f32) : Vec F S1024x1024 .f32 :=
  VO2.read (Elt F) (VO2.writes (Elt F) VO2.junk (kernelRun2_C c i a3 h3 a4 h4 a5 h5 a6 h6 a7 h7 hc0 hc1 x0 x1 x2 xs).1)
theorem scover2_C (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : cond2_1 i)
    (x0 : Vec F S1024x512 .f32) (x1 : Vec F S512x1024 .f32) (x2 : Vec F S1x1024 .f32) (xs : Vec F S1024x1024 .f32) (y : S1024x1024.Idx) :
    ∃ pc ∈ (kernelRun2_C c i a3 h3 a4 h4 a5 h5 a6 h6 a7 h7 hc0 hc1 x0 x1 x2 xs).2.1, y ∈ pc.1.set :=
  View.cover_of_tiledL (kernelRun2_C c i a3 h3 a4 h4 a5 h5 a6 h6 a7 h7 hc0 hc1 x0 x1 x2 xs).2.1 S1024x1024.size (by sl_kernel_rfl) y
/-- The accumulator after a point with k = 7. -/
def sout2_C (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : cond2_1 i)
    (x0 : Vec F S1024x512 .f32) (x1 : Vec F S512x1024 .f32) (x2 : Vec F S1x1024 .f32) (xs : Vec F S1024x1024 .f32) : Vec F S1024x1024 .f32 :=
  VS2.read (Elt F) (VS2.writes (Elt F) VS2.junk (kernelRun2_C c i a3 h3 a4 h4 a5 h5 a6 h6 a7 h7 hc0 hc1 x0 x1 x2 xs).2.1)

/-- What is recorded for the output block at a point that does not store it: nothing reads it. -/
def idleOut2 : Vec F S1024x1024 .f32 := VO2.read (Elt F) VO2.junk

section
variable (V : (c : Dev nD) → (b : Ref sig .tc) → Buf (Elt F) ((c : Thread nD τ).loc b))

/-! ## Point by point -/

/-- The output block and the accumulator after the body at position `n`: the case the point is in, run on the point's
    operand blocks, the accumulator taken from the point before when k ≠ 0. -/
def outsAt2 (c : Dev nD) : (n : ℕ) → n < cfg2.N → Vec F S1024x1024 .f32 × Vec F S1024x1024 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      if h1 : (n + 1) % 8 = 7 then
        False.elim (by omega)
      else
        (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 8 = 7 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (idleOut2, sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (idleOut2, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point, what the region hands the body; afterwards the accumulator at what the point
    before left, the buffers the region does not describe, the generator register. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; after the body at a point each operand's buffer at its block and the output's at the
    recorded contents; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2]
  have hN : t.val < 128 := lt_of_lt_of_eq t.isLt (show cfg2.N = 128 from N_2)
  by_cases h0 : t.val % 8 = 0
  · by_cases h1 : t.val % 8 = 7
    · exfalso; omega
    · rw [Dat.leavesExact_idle (dat2 V c) 3 t (idleAt2_3 t (fun h => h1 ((hcond2_1 t).mp h))) (noFlush2_3 t (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨HS, Hrest⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t)).2 Set.univ _)
        isplitl [H0]; · iexact H0
        isplitl [H1]; · iexact H1
        isplitl [HS]; · iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover2_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS, Hrest⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t)).2 Set.univ _)
        isplitl [H0]; · iexact H0
        isplitl [H1]; · iexact H1
        isplitl [HS]; · iexists _; iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover2_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C sout2_C; (try dsimp only)
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover2_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B; (try dsimp only)
      rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover2_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

/-- After any point but the first the invariant gives back what the region handed in: the accumulator's recorded contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, Hrest⟩, Hg⟩
  isplitl [HS Hrest]
  · isplitl [HS]
    · iexists _; iexact HS
    iexact Hrest
  iexact Hg
theorem hout2 (c : Dev nD) : (dat2 V c).Φ (Fin.last cfg2.N) ⊢ Pipeline.ΦA spec2 c :=
  Phi_out2 V c _ (by rw [Fin.val_last]; have : cfg2.N = 128 := N_2; omega)

end

end Cert.KernelIdeal.Hand

end
-- ==== Proof.KI_R3_Defs.lean ====
/-
  Region 3 of the program (the fourth of its five matrix-product steps): what the body's runs and the proof data are stated over.
  The grid is 4 × 4 × 8: an output block (i, j) of 1024 × 1024 is visited at eight consecutive points k = 0 … 7, one per block of 512
  along the contracted axis. The body zeroes its accumulator where k = 0 (the points ≡ 0 mod 8), adds one block product at every
  point, and stores the masked result into the output block where k = 7 (the points ≡ 7 mod 8); at the other points the output's
  buffer is left as found and is not written back. Here: the two conditions in closed form over the grid, where the output
  window is idle, each window's block of its array at a point (at any contents `V` the region may be entered from), and the
  accumulator split out of the buffers the region does not describe.
-/
import proofs.«119208_j72069551226903_1_alg».proof.Proof.Gen.KernelIdeal.Launch
import proofs.«119208_j72069551226903_1_alg».proof.Proof.Gen.KernelIdeal.Skeleton
import proofs.«119208_j72069551226903_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds its block at every point, fetched there or not (where it is not fetched its
    index has not moved), for any proof data over `V` whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds its block at every point, fetched there or not (where it is not fetched its
    index has not moved), for any proof data over `V` whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds its block at every point, fetched there or not (where it is not fetched its
    index has not moved), for any proof data over `V` whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end

/-! ## The body's two conditions, over the grid -/

/-- "k = 0": the accumulator is zeroed here. -/
abbrev cond3_0 (i : grid3.Coords) : Prop := (Scalar.cmpi .ne (Scalar.extui (Scalar.cmpi .eq (BitVec.ofNat 32 (i 2).val) 0#32)) 0#32) = 1#1
/-- It holds at the points ≡ 0 (mod 8). -/
theorem hcond3_0 : ∀ t : Fin cfg3.N, cond3_0 (grid3.coords t) ↔ t.val % 8 = 0 :=
  (by decide +kernel : ∀ t : Fin grid3.N, cond3_0 (grid3.coords t) ↔ t.val % 8 = 0)
/-- "k = 7": the output block is stored here. -/
abbrev cond3_1 (i : grid3.Coords) : Prop := k3_cond2 i = 1#1
/-- It holds at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Where k ≠ 7 the body stores nothing into the output block, and the block is not written back there. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
/-- Where k = 7 it is stored. -/
theorem liveAt3_3 : ∀ t : Fin cfg3.N, cond3_1 (grid3.coords t) → cfg3.idle 3 (grid3.coords t) = false := by decide +kernel

/-! ## The buffers the body is called with -/

abbrev ms3_0 (t : Fin cfg3.N) : Memref sig .tc .vmem S1024x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .f32 := win3_3.stage (cfg3.slots t 3)
abbrev hs3_3 (t : Fin cfg3.N) : (ms3_3 t).IsWhole := hstage3_3 ((cfg3.slots t 3).cast nbuf3_3)
/-- The accumulator: a whole buffer of the kernel's own, kept from point to point. -/
abbrev scM3 : Memref sig .tc .vmem S1024x1024 .f32 := Memref.whole cc3_scratch0
/-- A view through which the accumulator's and the output block's contents are stated. -/
abbrev VS3 : View sig .tc .vmem S1024x1024 .f32 := scM3.view
abbrev VO3 : View sig .tc .vmem S1024x1024 .f32 := (Memref.whole cc3_stg3_0 : Memref sig .tc .vmem S1024x1024 .f32).view

/-- What the region hands the body besides the windows: the accumulator at some contents, every other buffer the region
    does not describe, and the generator register. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.KernelIdeal.Hand

end
-- ==== Proof.KI_R3_RunA.lean ====
/-
  Region 3, the body's run where k = 0 (and k ≠ 7): on whole buffers, the two operand blocks at their contents and the
  accumulator at anything, the body zeroes the accumulator, adds the block product, and stores nothing else. What the
  accumulator ends with is recorded as the pieces its stores wrote, last first; the mask block and the output block are not
  touched.
-/
import proofs.«119208_j72069551226903_1_alg».proof.Proof.KI_R3_Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun3_A (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond3_0 i) (hc1 : ¬cond3_1 i)
    (x0 : Vec F S1024x512 .f32) (x1 : Vec F S512x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a7 fullShare d)
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc3__matmul_act_kernel i a3 h3 a4 h4 a5 h5 a6 h6 a7 h7) K } := by
  refine ⟨?_, fun E K => ?run⟩
  case run =>
    simp only [cc3__matmul_act_kernel_eq_skeleton]; unfold cc3__matmul_act_kernel_skel
    unfold owns
    iintro ⟨⟨%f0, %hf0, H0⟩, ⟨%f1, %hf1, H1⟩, ⟨%d4, %f4, -, HS⟩, Hk⟩
    obtain rfl := h3.eq_unread hf0; obtain rfl := h4.eq_unread hf1
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.KernelIdeal.Hand

end
-- ==== Proof.KI_R3_RunB.lean ====
/-
  Region 3, the body's run where 0 < k < 7: on whole buffers, the two operand blocks at their contents and the accumulator
  at what the point before left, the body adds the block product to the accumulator and stores nothing else.
-/
import proofs.«119208_j72069551226903_1_alg».proof.Proof.KI_R3_RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun3_B (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : ¬cond3_1 i)
    (x0 : Vec F S1024x512 .f32) (x1 : Vec F S512x1024 .f32) (xs : Vec F S1024x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a7 fullShare xs
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc3__matmul_act_kernel i a3 h3 a4 h4 a5 h5 a6 h6 a7 h7) K } := by
  refine ⟨?_, fun E K => ?run⟩
  case run =>
    simp only [cc3__matmul_act_kernel_eq_skeleton]; unfold cc3__matmul_act_kernel_skel
    unfold owns
    iintro ⟨⟨%f0, %hf0, H0⟩, ⟨%f1, %hf1, H1⟩, ⟨%fs, %hfs, HS⟩, Hk⟩
    obtain rfl := h3.eq_unread hf0; obtain rfl := h4.eq_unread hf1; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.KernelIdeal.Hand

end
-- ==== Proof.KI_R3_RunC.lean ====
/-
  Region 3, the body's run where k = 7: on whole buffers, the two operand blocks and the mask block at their contents, the
  accumulator at what the point before left and the output block at anything, the body adds the last block product to the
  accumulator and stores the masked result into the output block.
-/
import proofs.«119208_j72069551226903_1_alg».proof.Proof.KI_R3_RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun3_C (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : cond3_1 i)
    (x0 : Vec F S1024x512 .f32) (x1 : Vec F S512x1024 .f32) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ (∃ d, owns (c : Thread nD τ) a6 fullShare d) ∗ owns (c : Thread nD τ) a7 fullShare xs
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L3)
                ∗ (∃ f, a7.view.loc (c : Thread nD τ) ↦[a7.view.set]{fullShare} a7.view.writes (Elt F) f LS)) -∗ K ⟨⟩))
          ⊢ wp frame (wpE (defs₀ (F := F)) Variants.none c none) E (cc3__matmul_act_kernel i a3 h3 a4 h4 a5 h5 a6 h6 a7 h7) K } := by
  refine ⟨?_, ?_, fun E K => ?run⟩
  case run =>
    simp only [cc3__matmul_act_kernel_eq_skeleton]; unfold cc3__matmul_act_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h3.eq_unread hf0; obtain rfl := h4.eq_unread hf1; obtain rfl := h5.eq_unread hf2; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HS

end Cert.KernelIdeal.Hand

end
-- ==== Proof.KI_R3_Frame.lean ====
/-
  Region 3: what the accumulator and the output block hold after each grid point, the proof data of the region's pipeline
  at any entry contents `V`, and the body obligation.
  After a point with k = 0 the accumulator holds what that case's stores wrote over the two operand blocks; after a later
  point, what that case's stores wrote over the operand blocks and over what the point before left (a recursion on the point).
  The output block is stored where k = 7; elsewhere it is idle and what is recorded for it is a placeholder nothing consults.
  The invariant carries the accumulator at the recorded contents from one point to the next, beside the buffers the region
  does not describe and the generator register.
-/
import proofs.«119208_j72069551226903_1_alg».proof.Proof.KI_R3_RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scover3_A (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond3_0 i) (hc1 : ¬cond3_1 i)
    (x0 : Vec F S1024x512 .f32) (x1 : Vec F S512x1024 .f32) (y : S1024x1024.Idx) :
    ∃ pc ∈ (kernelRun3_A c i a3 h3 a4 h4 a5 h5 a6 h6 a7 h7 hc0 hc1 x0 x1).1, y ∈ pc.1.set :=
  View.cover_of_tiledL (kernelRun3_A c i a3 h3 a4 h4 a5 h5 a6 h6 a7 h7 hc0 hc1 x0 x1).1 S1024x1024.size (by sl_kernel_rfl) y
/-- The accumulator after a point with k = 0. -/
def sout3_A (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond3_0 i) (hc1 : ¬cond3_1 i)
    (x0 : Vec F S1024x512 .f32) (x1 : Vec F S512x1024 .f32) : Vec F S1024x1024 .f32 :=
  VS3.read (Elt F) (VS3.writes (Elt F) VS3.junk (kernelRun3_A c i a3 h3 a4 h4 a5 h5 a6 h6 a7 h7 hc0 hc1 x0 x1).1)

theorem scover3_B (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : ¬cond3_1 i)
    (x0 : Vec F S1024x512 .f32) (x1 : Vec F S512x1024 .f32) (xs : Vec F S1024x1024 .f32) (y : S1024x1024.Idx) :
    ∃ pc ∈ (kernelRun3_B c i a3 h3 a4 h4 a5 h5 a6 h6 a7 h7 hc0 hc1 x0 x1 xs).1, y ∈ pc.1.set :=
  View.cover_of_tiledL (kernelRun3_B c i a3 h3 a4 h4 a5 h5 a6 h6 a7 h7 hc0 hc1 x0 x1 xs).1 S1024x1024.size (by sl_kernel_rfl) y
/-- The accumulator after a point with 0 < k < 7, over what the point before left. -/
def sout3_B (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : ¬cond3_1 i)
    (x0 : Vec F S1024x512 .f32) (x1 : Vec F S512x1024 .f32) (xs : Vec F S1024x1024 .f32) : Vec F S1024x1024 .f32 :=
  VS3.read (Elt F) (VS3.writes (Elt F) VS3.junk (kernelRun3_B c i a3 h3 a4 h4 a5 h5 a6 h6 a7 h7 hc0 hc1 x0 x1 xs).1)

theorem cover3_C (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : cond3_1 i)
    (x0 : Vec F S1024x512 .f32) (x1 : Vec F S512x1024 .f32) (x2 : Vec F S1x1024 .f32) (xs : Vec F S1024x1024 .f32) (y : S1024x1024.Idx) :
    ∃ pc ∈ (kernelRun3_C c i a3 h3 a4 h4 a5 h5 a6 h6 a7 h7 hc0 hc1 x0 x1 x2 xs).1, y ∈ pc.1.set :=
  View.cover_of_tiledL (kernelRun3_C c i a3 h3 a4 h4 a5 h5 a6 h6 a7 h7 hc0 hc1 x0 x1 x2 xs).1 S1024x1024.size (by sl_kernel_rfl) y
/-- The output block after a point with k = 7. -/
def out3_C (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : cond3_1 i)
    (x0 : Vec F S1024x512 .f32) (x1 : Vec F S512x1024 .f32) (x2 : Vec F S1x1024 .f32) (xs : Vec F S1024x1024 .f32) : Vec F S1024x1024 .f32 :=
  VO3.read (Elt F) (VO3.writes (Elt F) VO3.junk (kernelRun3_C c i a3 h3 a4 h4 a5 h5 a6 h6 a7 h7 hc0 hc1 x0 x1 x2 xs).1)
theorem scover3_C (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : cond3_1 i)
    (x0 : Vec F S1024x512 .f32) (x1 : Vec F S512x1024 .f32) (x2 : Vec F S1x1024 .f32) (xs : Vec F S1024x1024 .f32) (y : S1024x1024.Idx) :
    ∃ pc ∈ (kernelRun3_C c i a3 h3 a4 h4 a5 h5 a6 h6 a7 h7 hc0 hc1 x0 x1 x2 xs).2.1, y ∈ pc.1.set :=
  View.cover_of_tiledL (kernelRun3_C c i a3 h3 a4 h4 a5 h5 a6 h6 a7 h7 hc0 hc1 x0 x1 x2 xs).2.1 S1024x1024.size (by sl_kernel_rfl) y
/-- The accumulator after a point with k = 7. -/
def sout3_C (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : cond3_1 i)
    (x0 : Vec F S1024x512 .f32) (x1 : Vec F S512x1024 .f32) (x2 : Vec F S1x1024 .f32) (xs : Vec F S1024x1024 .f32) : Vec F S1024x1024 .f32 :=
  VS3.read (Elt F) (VS3.writes (Elt F) VS3.junk (kernelRun3_C c i a3 h3 a4 h4 a5 h5 a6 h6 a7 h7 hc0 hc1 x0 x1 x2 xs).2.1)

/-- What is recorded for the output block at a point that does not store it: nothing reads it. -/
def idleOut3 : Vec F S1024x1024 .f32 := VO3.read (Elt F) VO3.junk

section
variable (V : (c : Dev nD) → (b : Ref sig .tc) → Buf (Elt F) ((c : Thread nD τ).loc b))

/-! ## Point by point -/

/-- The output block and the accumulator after the body at position `n`: the case the point is in, run on the point's
    operand blocks, the accumulator taken from the point before when k ≠ 0. -/
def outsAt3 (c : Dev nD) : (n : ℕ) → n < cfg3.N → Vec F S1024x1024 .f32 × Vec F S1024x1024 .f32
  | 0, hn => (idleOut3, sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 8 = 0 then
      if h1 : (n + 1) % 8 = 7 then
        False.elim (by omega)
      else
        (idleOut3, sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 8 = 7 then
        (out3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2,
         sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (idleOut3, sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (idleOut3, sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (idleOut3, sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2,
      sout3_C c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point, what the region hands the body; afterwards the accumulator at what the point
    before left, the buffers the region does not describe, the generator register. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare ((outsAt3 V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body at a point each operand's buffer at its block and the output's at the
    recorded contents; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 128 := lt_of_lt_of_eq t.isLt (show cfg3.N = 128 from N_3)
  by_cases h0 : t.val % 8 = 0
  · by_cases h1 : t.val % 8 = 7
    · exfalso; omega
    · rw [Dat.leavesExact_idle (dat3 V c) 3 t (idleAt3_3 t (fun h => h1 ((hcond3_1 t).mp h))) (noFlush3_3 t (fun h => h1 ((hcond3_1 t).mp h)))]
      rw [outsAt3_A V c t h0 h1]
      unfold sout3_A; (try dsimp only)
      by_cases hz : t.val = 0
      · rw [PhiS3_castSucc V c t, PhiS3_zero V c _ _ hz, PhiA3_eq]
        iintro ⟨⟨⟨HS, Hrest⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t)).2 Set.univ _)
        isplitl [H0]; · iexact H0
        isplitl [H1]; · iexact H1
        isplitl [HS]; · iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover3_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS, Hrest⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t)).2 Set.univ _)
        isplitl [H0]; · iexact H0
        isplitl [H1]; · iexact H1
        isplitl [HS]; · iexists _; iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover3_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat3 V c).leavesExact 3 t = owns (c : Thread nD τ) (ms3_3 t) fullShare ((dat3 V c).after 3 t) from by
        unfold Dat.leavesExact; rw [liveAt3_3 t ((hcond3_1 t).mpr h1)], after3_3]
      rw [outsAt3_C V c t h0 h1]
      unfold out3_C sout3_C; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover3_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C c _ _ _ _ _ _ _ _ _ _ _ _ _ _ _ _ _)
    · rw [Dat.leavesExact_idle (dat3 V c) 3 t (idleAt3_3 t (fun h => h1 ((hcond3_1 t).mp h))) (noFlush3_3 t (fun h => h1 ((hcond3_1 t).mp h)))]
      rw [outsAt3_B V c t h0 h1]
      unfold sout3_B; (try dsimp only)
      rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover3_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

/-- After any point but the first the invariant gives back what the region handed in: the accumulator's recorded contents
    are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, Hrest⟩, Hg⟩
  isplitl [HS Hrest]
  · isplitl [HS]
    · iexists _; iexact HS
    iexact Hrest
  iexact Hg
theorem hout3 (c : Dev nD) : (dat3 V c).Φ (Fin.last cfg3.N) ⊢ Pipeline.ΦA spec3 c :=
  Phi_out3 V c _ (by rw [Fin.val_last]; have : cfg3.N = 128 := N_3; omega)

end

end Cert.KernelIdeal.Hand

end
-- ==== Proof.KI_R4_Defs.lean ====
/-
  Region 4 of the program (the fifth of its five matrix-product steps): what the body's runs and the proof data are stated over.
  The grid is 4 × 4 × 8: an output block (i, j) of 1024 × 1024 is visited at eight consecutive points k = 0 … 7, one per block of 512
  along the contracted axis. The body zeroes its accumulator where k = 0 (the points ≡ 0 mod 8), adds one block product at every
  point, and stores the masked result into the output block where k = 7 (the points ≡ 7 mod 8); at the other points the output's
  buffer is left as found and is not written back. Here: the two conditions in closed form over the grid, where the output
  window is idle, each window's block of its array at a point (at any contents `V` the region may be entered from), and the
  accumulator split out of the buffers the region does not describe.
-/
import proofs.«119208_j72069551226903_1_alg».proof.Proof.Gen.KernelIdeal.Launch
import proofs.«119208_j72069551226903_1_alg».proof.Proof.Gen.KernelIdeal.Skeleton
import proofs.«119208_j72069551226903_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current buffer holds its block at every point, fetched there or not (where it is not fetched its
    index has not moved), for any proof data over `V` whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current buffer holds its block at every point, fetched there or not (where it is not fetched its
    index has not moved), for any proof data over `V` whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current buffer holds its block at every point, fetched there or not (where it is not fetched its
    index has not moved), for any proof data over `V` whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

end

/-! ## The body's two conditions, over the grid -/

/-- "k = 0": the accumulator is zeroed here. -/
abbrev cond4_0 (i : grid4.Coords) : Prop := (Scalar.cmpi .ne (Scalar.extui (Scalar.cmpi .eq (BitVec.ofNat 32 (i 2).val) 0#32)) 0#32) = 1#1
/-- It holds at the points ≡ 0 (mod 8). -/
theorem hcond4_0 : ∀ t : Fin cfg4.N, cond4_0 (grid4.coords t) ↔ t.val % 8 = 0 :=
  (by decide +kernel : ∀ t : Fin grid4.N, cond4_0 (grid4.coords t) ↔ t.val % 8 = 0)
/-- "k = 7": the output block is stored here. -/
abbrev cond4_1 (i : grid4.Coords) : Prop := k4_cond2 i = 1#1
/-- It holds at the points ≡ 7 (mod 8). -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Where k ≠ 7 the body stores nothing into the output block, and the block is not written back there. -/
theorem idleAt4_3 : ∀ t : Fin cfg4.N, ¬cond4_1 (grid4.coords t) → cfg4.idle 3 (grid4.coords t) = true := by decide +kernel
theorem noFlush4_3 : ∀ t : Fin cfg4.N, ¬cond4_1 (grid4.coords t) → (cfg4.win 3).flush t = false := by decide +kernel
/-- Where k = 7 it is stored. -/
theorem liveAt4_3 : ∀ t : Fin cfg4.N, cond4_1 (grid4.coords t) → cfg4.idle 3 (grid4.coords t) = false := by decide +kernel

/-! ## The buffers the body is called with -/

abbrev ms4_0 (t : Fin cfg4.N) : Memref sig .tc .vmem S1024x512 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x1024 .f32 := win4_3.stage (cfg4.slots t 3)
abbrev hs4_3 (t : Fin cfg4.N) : (ms4_3 t).IsWhole := hstage4_3 ((cfg4.slots t 3).cast nbuf4_3)
/-- The accumulator: a whole buffer of the kernel's own, kept from point to point. -/
abbrev scM4 : Memref sig .tc .vmem S1024x1024 .f32 := Memref.whole cc4_scratch0
/-- A view through which the accumulator's and the output block's contents are stated. -/
abbrev VS4 : View sig .tc .vmem S1024x1024 .f32 := scM4.view
abbrev VO4 : View sig .tc .vmem S1024x1024 .f32 := (Memref.whole cc4_stg3_0 : Memref sig .tc .vmem S1024x1024 .f32).view

/-- What the region hands the body besides the windows: the accumulator at some contents, every other buffer the region
    does not describe, and the generator register. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

end Cert.KernelIdeal.Hand

end
-- ==== Proof.KI_R4_RunA.lean ====
/-
  Region 4, the body's run where k = 0 (and k ≠ 7): on whole buffers, the two operand blocks at their contents and the
  accumulator at anything, the body zeroes the accumulator, adds the block product, and stores nothing else. What the
  accumulator ends with is recorded as the pieces its stores wrote, last first; the mask block and the output block are not
  touched.
-/
import proofs.«119208_j72069551226903_1_alg».proof.Proof.KI_R4_Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun4_A (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond4_0 i) (hc1 : ¬cond4_1 i)
    (x0 : Vec F S1024x512 .f32) (x1 : Vec F S512x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ (∃ d, owns (c : Thread nD τ) a7 fullShare d)
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc4__matmul_act_kernel i a3 h3 a4 h4 a5 h5 a6 h6 a7 h7) K } := by
  refine ⟨?_, fun E K => ?run⟩
  case run =>
    simp only [cc4__matmul_act_kernel_eq_skeleton]; unfold cc4__matmul_act_kernel_skel
    unfold owns
    iintro ⟨⟨%f0, %hf0, H0⟩, ⟨%f1, %hf1, H1⟩, ⟨%d4, %f4, -, HS⟩, Hk⟩
    obtain rfl := h3.eq_unread hf0; obtain rfl := h4.eq_unread hf1
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.KernelIdeal.Hand

end
-- ==== Proof.KI_R4_RunB.lean ====
/-
  Region 4, the body's run where 0 < k < 7: on whole buffers, the two operand blocks at their contents and the accumulator
  at what the point before left, the body adds the block product to the accumulator and stores nothing else.
-/
import proofs.«119208_j72069551226903_1_alg».proof.Proof.KI_R4_RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun4_B (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : ¬cond4_1 i)
    (x0 : Vec F S1024x512 .f32) (x1 : Vec F S512x1024 .f32) (xs : Vec F S1024x1024 .f32) :
    { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a7 fullShare xs
            ∗ (iprop(owns (c : Thread nD τ) a3 fullShare x0 ∗ owns (c : Thread nD τ) a4 fullShare x1
                ∗ (∃ f, a7.view.loc (c : Thread nD τ) ↦[a7.view.set]{fullShare} a7.view.writes (Elt F) f LS)) -∗ K ⟨⟩))
          ⊢ wp frame (wpE (defs₀ (F := F)) Variants.none c none) E (cc4__matmul_act_kernel i a3 h3 a4 h4 a5 h5 a6 h6 a7 h7) K } := by
  refine ⟨?_, fun E K => ?run⟩
  case run =>
    simp only [cc4__matmul_act_kernel_eq_skeleton]; unfold cc4__matmul_act_kernel_skel
    unfold owns
    iintro ⟨⟨%f0, %hf0, H0⟩, ⟨%f1, %hf1, H1⟩, ⟨%fs, %hfs, HS⟩, Hk⟩
    obtain rfl := h3.eq_unread hf0; obtain rfl := h4.eq_unread hf1; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    iexists _; iexact HS

end Cert.KernelIdeal.Hand

end
-- ==== Proof.KI_R4_RunC.lean ====
/-
  Region 4, the body's run where k = 7: on whole buffers, the two operand blocks and the mask block at their contents, the
  accumulator at what the point before left and the output block at anything, the body adds the last block product to the
  accumulator and stores the masked result into the output block.
-/
import proofs.«119208_j72069551226903_1_alg».proof.Proof.KI_R4_RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun4_C (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : cond4_1 i)
    (x0 : Vec F S1024x512 .f32) (x1 : Vec F S512x1024 .f32) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ (∃ d, owns (c : Thread nD τ) a6 fullShare d) ∗ owns (c : Thread nD τ) a7 fullShare xs
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L3)
                ∗ (∃ f, a7.view.loc (c : Thread nD τ) ↦[a7.view.set]{fullShare} a7.view.writes (Elt F) f LS)) -∗ K ⟨⟩))
          ⊢ wp frame (wpE (defs₀ (F := F)) Variants.none c none) E (cc4__matmul_act_kernel i a3 h3 a4 h4 a5 h5 a6 h6 a7 h7) K } := by
  refine ⟨?_, ?_, fun E K => ?run⟩
  case run =>
    simp only [cc4__matmul_act_kernel_eq_skeleton]; unfold cc4__matmul_act_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := h3.eq_unread hf0; obtain rfl := h4.eq_unread hf1; obtain rfl := h5.eq_unread hf2; obtain rfl := h7.eq_unread hfs
    sl_exec (disch := first | exact hc0 | exact hc1)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HS

end Cert.KernelIdeal.Hand

end
-- ==== Proof.KI_R4_Frame.lean ====
/-
  Region 4: what the accumulator and the output block hold after each grid point, the proof data of the region's pipeline
  at any entry contents `V`, and the body obligation.
  After a point with k = 0 the accumulator holds what that case's stores wrote over the two operand blocks; after a later
  point, what that case's stores wrote over the operand blocks and over what the point before left (a recursion on the point).
  The output block is stored where k = 7; elsewhere it is idle and what is recorded for it is a placeholder nothing consults.
  The invariant carries the accumulator at the recorded contents from one point to the next, beside the buffers the region
  does not describe and the generator register.
-/
import proofs.«119208_j72069551226903_1_alg».proof.Proof.KI_R4_RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scover4_A (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond4_0 i) (hc1 : ¬cond4_1 i)
    (x0 : Vec F S1024x512 .f32) (x1 : Vec F S512x1024 .f32) (y : S1024x1024.Idx) :
    ∃ pc ∈ (kernelRun4_A c i a3 h3 a4 h4 a5 h5 a6 h6 a7 h7 hc0 hc1 x0 x1).1, y ∈ pc.1.set :=
  View.cover_of_tiledL (kernelRun4_A c i a3 h3 a4 h4 a5 h5 a6 h6 a7 h7 hc0 hc1 x0 x1).1 S1024x1024.size (by sl_kernel_rfl) y
/-- The accumulator after a point with k = 0. -/
def sout4_A (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond4_0 i) (hc1 : ¬cond4_1 i)
    (x0 : Vec F S1024x512 .f32) (x1 : Vec F S512x1024 .f32) : Vec F S1024x1024 .f32 :=
  VS4.read (Elt F) (VS4.writes (Elt F) VS4.junk (kernelRun4_A c i a3 h3 a4 h4 a5 h5 a6 h6 a7 h7 hc0 hc1 x0 x1).1)

theorem scover4_B (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : ¬cond4_1 i)
    (x0 : Vec F S1024x512 .f32) (x1 : Vec F S512x1024 .f32) (xs : Vec F S1024x1024 .f32) (y : S1024x1024.Idx) :
    ∃ pc ∈ (kernelRun4_B c i a3 h3 a4 h4 a5 h5 a6 h6 a7 h7 hc0 hc1 x0 x1 xs).1, y ∈ pc.1.set :=
  View.cover_of_tiledL (kernelRun4_B c i a3 h3 a4 h4 a5 h5 a6 h6 a7 h7 hc0 hc1 x0 x1 xs).1 S1024x1024.size (by sl_kernel_rfl) y
/-- The accumulator after a point with 0 < k < 7, over what the point before left. -/
def sout4_B (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : ¬cond4_1 i)
    (x0 : Vec F S1024x512 .f32) (x1 : Vec F S512x1024 .f32) (xs : Vec F S1024x1024 .f32) : Vec F S1024x1024 .f32 :=
  VS4.read (Elt F) (VS4.writes (Elt F) VS4.junk (kernelRun4_B c i a3 h3 a4 h4 a5 h5 a6 h6 a7 h7 hc0 hc1 x0 x1 xs).1)

theorem cover4_C (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : cond4_1 i)
    (x0 : Vec F S1024x512 .f32) (x1 : Vec F S512x1024 .f32) (x2 : Vec F S1x1024 .f32) (xs : Vec F S1024x1024 .f32) (y : S1024x1024.Idx) :
    ∃ pc ∈ (kernelRun4_C c i a3 h3 a4 h4 a5 h5 a6 h6 a7 h7 hc0 hc1 x0 x1 x2 xs).1, y ∈ pc.1.set :=
  View.cover_of_tiledL (kernelRun4_C c i a3 h3 a4 h4 a5 h5 a6 h6 a7 h7 hc0 hc1 x0 x1 x2 xs).1 S1024x1024.size (by sl_kernel_rfl) y
/-- The output block after a point with k = 7. -/
def out4_C (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : cond4_1 i)
    (x0 : Vec F S1024x512 .f32) (x1 : Vec F S512x1024 .f32) (x2 : Vec F S1x1024 .f32) (xs : Vec F S1024x1024 .f32) : Vec F S1024x1024 .f32 :=
  VO4.read (Elt F) (VO4.writes (Elt F) VO4.junk (kernelRun4_C c i a3 h3 a4 h4 a5 h5 a6 h6 a7 h7 hc0 hc1 x0 x1 x2 xs).1)
theorem scover4_C (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : cond4_1 i)
    (x0 : Vec F S1024x512 .f32) (x1 : Vec F S512x1024 .f32) (x2 : Vec F S1x1024 .f32) (xs : Vec F S1024x1024 .f32) (y : S1024x1024.Idx) :
    ∃ pc ∈ (kernelRun4_C c i a3 h3 a4 h4 a5 h5 a6 h6 a7 h7 hc0 hc1 x0 x1 x2 xs).2.1, y ∈ pc.1.set :=
  View.cover_of_tiledL (kernelRun4_C c i a3 h3 a4 h4 a5 h5 a6 h6 a7 h7 hc0 hc1 x0 x1 x2 xs).2.1 S1024x1024.size (by sl_kernel_rfl) y
/-- The accumulator after a point with k = 7. -/
def sout4_C (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : cond4_1 i)
    (x0 : Vec F S1024x512 .f32) (x1 : Vec F S512x1024 .f32) (x2 : Vec F S1x1024 .f32) (xs : Vec F S1024x1024 .f32) : Vec F S1024x1024 .f32 :=
  VS4.read (Elt F) (VS4.writes (Elt F) VS4.junk (kernelRun4_C c i a3 h3 a4 h4 a5 h5 a6 h6 a7 h7 hc0 hc1 x0 x1 x2 xs).2.1)

/-- What is recorded for the output block at a point that does not store it: nothing reads it. -/
def idleOut4 : Vec F S1024x1024 .f32 := VO4.read (Elt F) VO4.junk

section
variable (V : (c : Dev nD) → (b : Ref sig .tc) → Buf (Elt F) ((c : Thread nD τ).loc b))

/-! ## Point by point -/

/-- The output block and the accumulator after the body at position `n`: the case the point is in, run on the point's
    operand blocks, the accumulator taken from the point before when k ≠ 0. -/
def outsAt4 (c : Dev nD) : (n : ℕ) → n < cfg4.N → Vec F S1024x1024 .f32 × Vec F S1024x1024 .f32
  | 0, hn => (idleOut4, sout4_A c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 8 = 0 then
      if h1 : (n + 1) % 8 = 7 then
        False.elim (by omega)
      else
        (idleOut4, sout4_A c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 8 = 7 then
        (out4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2,
         sout4_C c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (idleOut4, sout4_B c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

theorem outsAt4_A (c : Dev nD) (t : Fin cfg4.N) (h0 : t.val % 8 = 0) (h1 : ¬t.val % 8 = 7) :
    outsAt4 V c t.val t.isLt = (idleOut4, sout4_A c (grid4.coords t) (ms4_0 t) (hs4_0 t) (ms4_1 t) (hs4_1 t) (ms4_2 t) (hs4_2 t) (ms4_3 t) (hs4_3 t) scM4 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

theorem outsAt4_B (c : Dev nD) (t : Fin cfg4.N) (h0 : ¬t.val % 8 = 0) (h1 : ¬t.val % 8 = 7) :
    outsAt4 V c t.val t.isLt = (idleOut4, sout4_B c (grid4.coords t) (ms4_0 t) (hs4_0 t) (ms4_1 t) (hs4_1 t) (ms4_2 t) (hs4_2 t) (ms4_3 t) (hs4_3 t) scM4 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 8 = 0) (h1 : t.val % 8 = 7) :
    outsAt4 V c t.val t.isLt = (out4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2,
      sout4_C c (grid4.coords t) (ms4_0 t) (hs4_0 t) (ms4_1 t) (hs4_1 t) (ms4_2 t) (hs4_2 t) (ms4_3 t) (hs4_3 t) scM4 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point, what the region hands the body; afterwards the accumulator at what the point
    before left, the buffers the region does not describe, the generator register. -/
def PhiS4 (c : Dev nD) : (n : ℕ) → n ≤ cfg4.N → sProp 𝕄
  | 0, _ => Pipeline.ΦA spec4 c
  | n + 1, hn => iprop(iprop(owns (c : Thread nD τ) scM4 fullShare ((outsAt4 V c n hn).2)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(owns (c : Thread nD τ) scM4 fullShare ((outsAt4 V c n hn).2)
      ∗ Pipeline.scopedRestBut (Ix := Unit) (Name := ℕ) (U := UR sig nD τ) (Lvl := ℕ) (Val := Elt F) spec4 c [cc4_scratch0]) ∗ (∃ r, prngReg c r)) := rfl
theorem PhiS4_pos (c : Dev nD) (n : ℕ) (h : n ≤ cfg4.N) (hz : n ≠ 0) :
    PhiS4 V c n h = iprop(iprop(owns (c : Thread nD τ) scM4 fullShare ((outsAt4 V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The proof data -/

/-- The arrays as the region finds them; after the body at a point each operand's buffer at its block and the output's at the
    recorded contents; the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

theorem leaves4_0 (c : Dev nD) (t : Fin cfg4.N) : (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) : (dat4 V c).leavesExact 1 t = owns (c : Thread nD τ) (ms4_1 t) fullShare (iblk4 V c 1 t) := by
  unfold Dat.leavesExact; rw [liveAt4_1 t, after4_1]
theorem leaves4_2 (c : Dev nD) (t : Fin cfg4.N) : (dat4 V c).leavesExact 2 t = owns (c : Thread nD τ) (ms4_2 t) fullShare (iblk4 V c 2 t) := by
  unfold Dat.leavesExact; rw [liveAt4_2 t, after4_2]

set_option maxHeartbeats 4800000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2]
  have hN : t.val < 128 := lt_of_lt_of_eq t.isLt (show cfg4.N = 128 from N_4)
  by_cases h0 : t.val % 8 = 0
  · by_cases h1 : t.val % 8 = 7
    · exfalso; omega
    · rw [Dat.leavesExact_idle (dat4 V c) 3 t (idleAt4_3 t (fun h => h1 ((hcond4_1 t).mp h))) (noFlush4_3 t (fun h => h1 ((hcond4_1 t).mp h)))]
      rw [outsAt4_A V c t h0 h1]
      unfold sout4_A; (try dsimp only)
      by_cases hz : t.val = 0
      · rw [PhiS4_castSucc V c t, PhiS4_zero V c _ _ hz, PhiA4_eq]
        iintro ⟨⟨⟨HS, Hrest⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t)).2 Set.univ _)
        isplitl [H0]; · iexact H0
        isplitl [H1]; · iexact H1
        isplitl [HS]; · iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover4_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        iintro ⟨⟨⟨HS, Hrest⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t)).2 Set.univ _)
        isplitl [H0]; · iexact H0
        isplitl [H1]; · iexact H1
        isplitl [HS]; · iexists _; iexact HS
        iintro ⟨H0, H1, ⟨%es, HS⟩⟩
        isplitl [HS Hrest Hg]
        · isplitl [HS Hrest]
          · isplitl [HS]
            · unfold owns; iexists _; isplitr
              swap; · iexact HS
              ipureintro; exact View.read_writes_of_cover _ _ _ _ _ (scover4_A c _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat4 V c).leavesExact 3 t = owns (c : Thread nD τ) (ms4_3 t) fullShare ((dat4 V c).after 3 t) from by
        unfold Dat.leavesExact; rw [liveAt4_3 t ((hcond4_1 t).mpr h1)], after4_3]
      rw [outsAt4_C V c t h0 h1]
      unfold out4_C sout4_C; (try dsimp only)
      rw [PhiS4_castSucc V c t, PhiS4_pos V c _ _ hz]
      iintro ⟨⟨⟨HS, Hrest⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover4_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C c _ _ _ _ _ _ _ _ _ _ _ _ _ _ _ _ _)
    · rw [Dat.leavesExact_idle (dat4 V c) 3 t (idleAt4_3 t (fun h => h1 ((hcond4_1 t).mp h))) (noFlush4_3 t (fun h => h1 ((hcond4_1 t).mp h)))]
      rw [outsAt4_B V c t h0 h1]
      unfold sout4_B; (try dsimp only)
      rw [PhiS4_castSucc V c t, PhiS4_pos V c _ _ hz]
      iintro ⟨⟨⟨HS, Hrest⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) _).2 Set.univ _)
      isplitl [H0]; · iexact H0
      isplitl [H1]; · iexact H1
      isplitl [HS]; · iexact HS
      iintro ⟨H0, H1, ⟨%es, HS⟩⟩
      isplitl [HS Hrest Hg]
      · isplitl [HS Hrest]
        · isplitl [HS]
          · unfold owns; iexists _; isplitr
            swap; · iexact HS
            ipureintro; exact View.read_writes_of_cover _ _ _ _ _ (scover4_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The body obligation, at every point. -/
theorem body_obligation4 (c : Dev nD) : BodyObligation (dat4 (F := F) V c) (defs₀ (F := F)) Variants.none () Set.univ := fun t => by
  rw [bigSep_W4, bigSep_W4]
  exact sound_body4 V c t

/-- After any point but the first the invariant gives back what the region handed in: the accumulator's recorded contents
    are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS, Hrest⟩, Hg⟩
  isplitl [HS Hrest]
  · isplitl [HS]
    · iexists _; iexact HS
    iexact Hrest
  iexact Hg
theorem hout4 (c : Dev nD) : (dat4 V c).Φ (Fin.last cfg4.N) ⊢ Pipeline.ΦA spec4 c :=
  Phi_out4 V c _ (by rw [Fin.val_last]; have : cfg4.N = 128 := N_4; omega)

end

end Cert.KernelIdeal.Hand

end
-- ==== Proof.KI_Run.lean ====
/-
  The program's run: @main is a stretch of host operations (the weight matrix by a scatter-add, the first hidden state, the mask
  row), five kernel regions, each one matrix-product step reading the previous one's output, and a last stretch of host
  operations (the logistic function of the last ten columns). The buffer contents at every boundary are a fold from the launch
  memory: a stretch applies its operations; a region leaves its output array at what its write-backs fold to and every other
  buffer as entered. Every weakly fair execution terminates with every unscoped buffer at the last boundary's contents; the
  arguments are written by no operation and no region.
-/
import proofs.«119208_j72069551226903_1_alg».proof.Proof.KI_R0_Frame
import proofs.«119208_j72069551226903_1_alg».proof.Proof.KI_R1_Frame
import proofs.«119208_j72069551226903_1_alg».proof.Proof.KI_R2_Frame
import proofs.«119208_j72069551226903_1_alg».proof.Proof.KI_R3_Frame
import proofs.«119208_j72069551226903_1_alg».proof.Proof.KI_R4_Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the operands as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the operands as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the operands as entered, the output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- At region 3's exit: its arrays at what the pipeline leaves (the operands as entered, the output's write-backs folded),
    every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- At region 4's exit: its arrays at what the pipeline leaves (the operands as entered, the output's write-backs folded),
    every other buffer as entered. -/
def W6 (c : Dev nD) : Valuation τ sig (Elt F) :=
  Pipeline.withArrays spec4 c (W5 m ρ c) fun w => (dat4 (V5 m ρ) c).arrAt w cfg4.N
theorem W6_arr (c : Dev nD) (w : Fin cfg4.W) :
    W6 m ρ c (Proc.devRef .tc (Pipeline.arrRef spec4 w)) = (dat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
abbrev V6 : (c : Dev nD) → (b : Ref sig .tc) → Buf (Elt F) ((c : Thread nD τ).loc b) := fun c b => W6 m ρ c b
theorem hF4 (c : Dev nD) (w : Fin cfg4.W) : (dat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- After the last stretch of host operations. -/
abbrev W7 : Dev nD → Valuation τ sig (Elt F) := fun c => StableHlo.after hostOps5 (W6 m ρ c)

/-- `main_arg0` ends as launched: no host operation and no region writes it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- `main_arg1` ends as launched: no host operation and no region writes it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- `main_arg2` ends as launched: no host operation and no region writes it. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
  | ⟨4, _⟩ => fun c => dat4 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem hostOps5_fresh' : (hostOps5 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 as a segment: entered from every unscoped buffer at `W1`, left at `W2`. Its arrays are split out of
    the unscoped buffers and put back at what the pipeline leaves; the generator register goes into the invariant and comes
    back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at `W2`, left at `W3`. Its arrays are split out of
    the unscoped buffers and put back at what the pipeline leaves; the generator register goes into the invariant and comes
    back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at `W3`, left at `W4`. Its arrays are split out of
    the unscoped buffers and put back at what the pipeline leaves; the generator register goes into the invariant and comes
    back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from every unscoped buffer at `W4`, left at `W5`. Its arrays are split out of
    the unscoped buffers and put back at what the pipeline leaves; the generator register goes into the invariant and comes
    back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m ρ 3 c).Φ (Fin.last _) ⊢ Pipeline.ΦA spec3 c from hout3 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered from every unscoped buffer at `W5`, left at `W6`. Its arrays are split out of
    the unscoped buffers and put back at what the pipeline leaves; the generator register goes into the invariant and comes
    back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m ρ 4 c).Φ (Fin.last _) ⊢ Pipeline.ΦA spec4 c from hout4 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ), .region (reg1 m ρ), .region (reg2 m ρ), .region (reg3 m ρ), .region (reg4 m ρ),
    .host (hseg hostOps5 hostOps5_sub hostOps5_fresh' (W6 m ρ)) ]
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the TensorCores
    terminates, nothing faulting, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

end Cert.KernelIdeal.Hand

end
-- ==== Proof.KI_R0_Pieces.lean ====
/-
  Region 0: what each case's stores leave, as the body's arithmetic. Every store of the body writes a whole buffer, so a buffer
  ends holding its last store's payload: after a point with k = 0 the accumulator is the block product added to the zero
  fill; after a later point, the block product added to what the point before left; and where k = 7 the output block is the
  masked formula of that accumulator and the mask block.
-/
import proofs.«119208_j72069551226903_1_alg».proof.Proof.KI_R0_Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz0 : (![0, 0] : Fin 2 → Nat) = fun _ => 0 := funext fun a => by fin_cases a <;> rfl

theorem sout0_A_eq (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x512 .f32) (x1 : Vec F S512x1024 .f32) :
    sout0_A c i a3 h3 a4 h4 a5 h5 a6 h6 a7 h7 hc0 hc1 x0 x1 = k0_pay2 (k0_pay1 (F := F)) x0 x1 := by
  unfold sout0_A
  rw [View.read_writes_eq_canon _ _ _ (scover0_A c i a3 h3 a4 h4 a5 h5 a6 h6 a7 h7 hc0 hc1 x0 x1)]
  unfold kernelRun0_A
  dsimp only
  sl_unfold_run_names
  rw [View.canon_cons_unit_zero hz0]
  rw [View.readCov_unit_zero _ hz0]
  simp only [View.readAt_eq_ld, h3.read_unread, h4.read_unread, View.ld_unit_zero (S := S1024x512) hz0, View.ld_unit_zero (S := S512x1024) hz0]

theorem sout0_B_eq (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x512 .f32) (x1 : Vec F S512x1024 .f32) (xs : Vec F S1024x1024 .f32) :
    sout0_B c i a3 h3 a4 h4 a5 h5 a6 h6 a7 h7 hc0 hc1 x0 x1 xs = k0_pay2 xs x0 x1 := by
  unfold sout0_B
  rw [View.read_writes_eq_canon _ _ _ (scover0_B c i a3 h3 a4 h4 a5 h5 a6 h6 a7 h7 hc0 hc1 x0 x1 xs)]
  unfold kernelRun0_B
  dsimp only
  try sl_unfold_run_names
  rw [View.canon_cons_unit_zero hz0]
  simp only [View.readAt_eq_ld, h3.read_unread, h4.read_unread, h7.read_unread, View.ld_unit_zero (S := S1024x512) hz0, View.ld_unit_zero (S := S512x1024) hz0, View.ld_unit_zero (S := S1024x1024) hz0]

theorem sout0_C_eq (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S512x1024 .f32) (x2 : Vec F S1x1024 .f32) (xs : Vec F S1024x1024 .f32) :
    sout0_C c i a3 h3 a4 h4 a5 h5 a6 h6 a7 h7 hc0 hc1 x0 x1 x2 xs = k0_pay2 xs x0 x1 := by
  unfold sout0_C
  rw [View.read_writes_eq_canon _ _ _ (scover0_C c i a3 h3 a4 h4 a5 h5 a6 h6 a7 h7 hc0 hc1 x0 x1 x2 xs)]
  unfold kernelRun0_C
  dsimp only
  try sl_unfold_run_names
  rw [View.canon_cons_unit_zero hz0]
  simp only [View.readAt_eq_ld, h3.read_unread, h4.read_unread, h7.read_unread, View.ld_unit_zero (S := S1024x512) hz0, View.ld_unit_zero (S := S512x1024) hz0, View.ld_unit_zero (S := S1024x1024) hz0]

theorem out0_C_eq (c : Dev nD) (i : grid0.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S512x1024 .f32) (x2 : Vec F S1x1024 .f32) (xs : Vec F S1024x1024 .f32) :
    out0_C c i a3 h3 a4 h4 a5 h5 a6 h6 a7 h7 hc0 hc1 x0 x1 x2 xs = k0_pay3 (k0_pay2 xs x0 x1) x2 := by
  unfold out0_C
  rw [View.read_writes_eq_canon _ _ _ (cover0_C c i a3 h3 a4 h4 a5 h5 a6 h6 a7 h7 hc0 hc1 x0 x1 x2 xs)]
  unfold kernelRun0_C
  dsimp only
  sl_unfold_run_names
  rw [View.canon_cons_unit_zero hz0]
  rw [View.readCov_unit_zero _ hz0]
  simp only [View.readAt_eq_ld, h3.read_unread, h4.read_unread, h5.read_unread, h7.read_unread, View.ld_unit_zero (S := S1024x512) hz0, View.ld_unit_zero (S := S512x1024) hz0, View.ld_unit_zero (S := S1024x1024) hz0, View.ld_unit_zero (S := S1x1024) hz0]

end Cert.KernelIdeal.Hand

end
-- ==== Proof.Spec.lean ====
/-
  The pure mathematics of the message-passing step at the exact instance (floats are extended reals):
  a sum over 4096 coordinates is the left-nested sum of 8 block sums of 512, the accumulation of block
  sums into a zeroed accumulator, the masked step at one element and the dot product at one element.
  No program is imported.
-/
import Mathlib.Algebra.BigOperators.Fin
import Idealize.ShloMosaic.PureOps.Ideal
import Idealize.ShloMosaic.PureOps.Ideal.Laws
import Idealize.ShloMosaic.Lib.ValueIdx

noncomputable section

open scoped BigOperators

namespace Cert.Bridge

open Idealize.ShloMosaic

/-- A coordinate below 4096 is a block number below 8 and a position below 512 inside the block. -/
def blockEquiv : Fin 8 × Fin 512 ≃ Fin 4096 where
  toFun p := ⟨512 * p.1.val + p.2.val, by have := p.1.isLt; have := p.2.isLt; omega⟩
  invFun k := (⟨k.val / 512, by have := k.isLt; omega⟩, ⟨k.val % 512, by omega⟩)
  left_inv := by
    rintro ⟨⟨b, hb⟩, ⟨r, hr⟩⟩
    refine Prod.ext (Fin.ext ?_) (Fin.ext ?_)
    · show (512 * b + r) / 512 = b
      omega
    · show (512 * b + r) % 512 = r
      omega
  right_inv := by
    rintro ⟨k, hk⟩
    refine Fin.ext ?_
    show 512 * (k / 512) + k % 512 = k
    omega

/-- A sum over the 4096 coordinates is the sum over the 8 blocks of the sums over the 512 positions of a block:
    addition of extended reals is a commutative monoid, so no finiteness is needed. -/
theorem sum_blocks (f : Fin 4096 → EReal) :
    (∑ k : Fin 4096, f k) = ∑ b : Fin 8, ∑ r : Fin 512, f ⟨512 * b.val + r.val, by omega⟩ := by
  rw [← Equiv.sum_comp blockEquiv f, Fintype.sum_prod_type]
  rfl

/-- The accumulation the kernel performs along the contracted axis: the first block sum is added to a zeroed
    accumulator, every later one to what has been accumulated so far. -/
def accUpTo (g : Fin 8 → EReal) : (n : ℕ) → n < 8 → EReal
  | 0, h => 0 + g ⟨0, h⟩
  | n + 1, h => accUpTo g n (by omega) + g ⟨n + 1, h⟩

/-- After the last block the accumulator holds the sum of the 8 block sums. -/
theorem accUpTo_last (g : Fin 8 → EReal) : accUpTo g 7 (by omega) = ∑ b : Fin 8, g b := by
  rw [Fin.sum_univ_eight]
  simp only [accUpTo, zero_add]
  rfl

/-- The f32 word of 1.0 is the extended real 1. -/
theorem ofBits_one_f32 : Ideal.ofBits .f32 0x3F800000#32 = 1 :=
  IdealRules.sign_bit.ideal_onePat .f32

/-- One element of the masked step: where the mask is 1 the raw value passes, where it is 0 its positive part. -/
def stepVal (mk s : EReal) : EReal := mk * s + (1 - mk) * max s 0

/-- One element of the product of two 4096 × 4096 arrays given by coordinates. -/
def dotVal (h : Fin 4096 → Fin 4096 → EReal) (W : Fin 4096 → Fin 4096 → EReal) (i j : Fin 4096) : EReal :=
  ∑ k : Fin 4096, h i k * W k j

/-- The dot product at one element, by blocks of 512 along the contracted axis, accumulated as the kernel does. -/
theorem dotVal_eq_acc (h : Fin 4096 → Fin 4096 → EReal) (W : Fin 4096 → Fin 4096 → EReal) (i j : Fin 4096) :
    dotVal h W i j
      = accUpTo (fun b => ∑ r : Fin 512, h i ⟨512 * b.val + r.val, by omega⟩ * W ⟨512 * b.val + r.val, by omega⟩ j) 7 (by omega) := by
  rw [accUpTo_last]
  exact sum_blocks fun k => h i k * W k j

end Cert.Bridge

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.PayIdeal.lean ====
/-
  The three values a kernel invocation stores, read at one element, at the exact instance (floats are extended
  reals): the zeroed accumulator, the accumulator plus the product of the two loaded blocks, and the masked step
  applied to the accumulator. The five kernels of the program are textually the same function.
-/
import Idealize.ShloMosaic.Lib.Pipeline.Value
import proofs.«119208_j72069551226903_1_alg».proof.Proof.Spec
import proofs.«119208_j72069551226903_1_alg».proof.Proof.LibDot
import proofs.«119208_j72069551226903_1_alg».proof.Proof.Gen.KernelIdeal.Skeleton

noncomputable section

open scoped BigOperators

namespace Cert.Bridge

open Idealize.ShloMosaic Idealize.ShloMosaic.ValueIdx
open Cert.KernelIdeal

/-- A broadcast of a row [1, 1024] over 1024 rows reads the row at the column. -/
theorem rowBroadcast_apply (x : FVec Ideal S1x1024 .f32) (p q : Fin 1024) :
    broadcastTo S1024x1024 x Gen.broadcasts_S1x1024_S1024x1024 (ix2 p q) = x (ix2 0 q) := by
  refine broadcastTo_apply x _ (ix2 p q) (ix2 0 q) fun a => ?_
  match a with
  | ⟨0, _⟩ => rfl
  | ⟨1, _⟩ => rfl

/-! ## Kernel 0 -/

/-- The value stored at the first step along the contracted axis is the zero accumulator. -/
theorem k0_pay1_apply (j : S1024x1024.Idx) : Gen.k0_pay1 (F := Ideal) j = 0 := by
  unfold Gen.k0_pay1
  rw [shapeCast_self]
  exact Ideal.ofBits_zero_f32

/-- The value stored at every step: the accumulator plus the product of the loaded blocks, whose rounding to the
    narrower format is the identity on extended reals. -/
theorem k0_pay2_apply (v3 : Vec Ideal S1024x1024 .f32) (v4 : Vec Ideal S1024x512 .f32) (v7 : Vec Ideal S512x1024 .f32)
    (p q : Fin 1024) :
    Gen.k0_pay2 v3 v4 v7 (ix2 p q) = v3 (ix2 p q) + ∑ k : Fin 512, v4 (ix2 p k) * v7 (ix2 k q) := by
  unfold Gen.k0_pay2
  rw [shapeCast_self, shapeCast_self, shapeCast_self, addf_apply]
  refine congrArg (v3 (ix2 p q) + ·) ?_
  exact Cert.LibDot.matmul_zero_plain_apply dot_S1024x512_S512x1024_S1024x1024_1_0_0_1_n_n rfl rfl rfl rfl rfl rfl none
    (truncf .bf16 v4 Gen.bitsLt_bf16_f32) (truncf .bf16 v7 Gen.bitsLt_bf16_f32) (ix2 p q)

/-- The value stored at the last step: the masked step of the accumulator, the mask read at the column. -/
theorem k0_pay3_apply (v18 : Vec Ideal S1024x1024 .f32) (v19 : Vec Ideal S1x1024 .f32) (p q : Fin 1024) :
    Gen.k0_pay3 v18 v19 (ix2 p q) = stepVal (v19 (ix2 0 q)) (v18 (ix2 p q)) := by
  unfold Gen.k0_pay3
  rw [shapeCast_self, shapeCast_self, addf_apply, mulf_apply, mulf_apply, subf_apply, maximumf_apply,
    rowBroadcast_apply]
  show v19 (ix2 0 q) * v18 (ix2 p q)
      + (Ideal.ofBits .f32 0x3F800000#32 - v19 (ix2 0 q)) * max (v18 (ix2 p q)) (Ideal.ofBits .f32 0x00000000#32) = _
  rw [ofBits_one_f32, Ideal.ofBits_zero_f32]
  rfl

/-! ## Kernel 1 -/

/-- The value stored at the first step along the contracted axis is the zero accumulator. -/
theorem k1_pay1_apply (j : S1024x1024.Idx) : Gen.k1_pay1 (F := Ideal) j = 0 := by
  unfold Gen.k1_pay1
  rw [shapeCast_self]
  exact Ideal.ofBits_zero_f32

/-- The value stored at every step: the accumulator plus the product of the loaded blocks, whose rounding to the
    narrower format is the identity on extended reals. -/
theorem k1_pay2_apply (v3 : Vec Ideal S1024x1024 .f32) (v4 : Vec Ideal S1024x512 .f32) (v7 : Vec Ideal S512x1024 .f32)
    (p q : Fin 1024) :
    Gen.k1_pay2 v3 v4 v7 (ix2 p q) = v3 (ix2 p q) + ∑ k : Fin 512, v4 (ix2 p k) * v7 (ix2 k q) := by
  unfold Gen.k1_pay2
  rw [shapeCast_self, shapeCast_self, shapeCast_self, addf_apply]
  refine congrArg (v3 (ix2 p q) + ·) ?_
  exact Cert.LibDot.matmul_zero_plain_apply dot_S1024x512_S512x1024_S1024x1024_1_0_0_1_n_n rfl rfl rfl rfl rfl rfl none
    (truncf .bf16 v4 Gen.bitsLt_bf16_f32) (truncf .bf16 v7 Gen.bitsLt_bf16_f32) (ix2 p q)

/-- The value stored at the last step: the masked step of the accumulator, the mask read at the column. -/
theorem k1_pay3_apply (v18 : Vec Ideal S1024x1024 .f32) (v19 : Vec Ideal S1x1024 .f32) (p q : Fin 1024) :
    Gen.k1_pay3 v18 v19 (ix2 p q) = stepVal (v19 (ix2 0 q)) (v18 (ix2 p q)) := by
  unfold Gen.k1_pay3
  rw [shapeCast_self, shapeCast_self, addf_apply, mulf_apply, mulf_apply, subf_apply, maximumf_apply,
    rowBroadcast_apply]
  show v19 (ix2 0 q) * v18 (ix2 p q)
      + (Ideal.ofBits .f32 0x3F800000#32 - v19 (ix2 0 q)) * max (v18 (ix2 p q)) (Ideal.ofBits .f32 0x00000000#32) = _
  rw [ofBits_one_f32, Ideal.ofBits_zero_f32]
  rfl

/-! ## Kernel 2 -/

/-- The value stored at the first step along the contracted axis is the zero accumulator. -/
theorem k2_pay1_apply (j : S1024x1024.Idx) : Gen.k2_pay1 (F := Ideal) j = 0 := by
  unfold Gen.k2_pay1
  rw [shapeCast_self]
  exact Ideal.ofBits_zero_f32

/-- The value stored at every step: the accumulator plus the product of the loaded blocks, whose rounding to the
    narrower format is the identity on extended reals. -/
theorem k2_pay2_apply (v3 : Vec Ideal S1024x1024 .f32) (v4 : Vec Ideal S1024x512 .f32) (v7 : Vec Ideal S512x1024 .f32)
    (p q : Fin 1024) :
    Gen.k2_pay2 v3 v4 v7 (ix2 p q) = v3 (ix2 p q) + ∑ k : Fin 512, v4 (ix2 p k) * v7 (ix2 k q) := by
  unfold Gen.k2_pay2
  rw [shapeCast_self, shapeCast_self, shapeCast_self, addf_apply]
  refine congrArg (v3 (ix2 p q) + ·) ?_
  exact Cert.LibDot.matmul_zero_plain_apply dot_S1024x512_S512x1024_S1024x1024_1_0_0_1_n_n rfl rfl rfl rfl rfl rfl none
    (truncf .bf16 v4 Gen.bitsLt_bf16_f32) (truncf .bf16 v7 Gen.bitsLt_bf16_f32) (ix2 p q)

/-- The value stored at the last step: the masked step of the accumulator, the mask read at the column. -/
theorem k2_pay3_apply (v18 : Vec Ideal S1024x1024 .f32) (v19 : Vec Ideal S1x1024 .f32) (p q : Fin 1024) :
    Gen.k2_pay3 v18 v19 (ix2 p q) = stepVal (v19 (ix2 0 q)) (v18 (ix2 p q)) := by
  unfold Gen.k2_pay3
  rw [shapeCast_self, shapeCast_self, addf_apply, mulf_apply, mulf_apply, subf_apply, maximumf_apply,
    rowBroadcast_apply]
  show v19 (ix2 0 q) * v18 (ix2 p q)
      + (Ideal.ofBits .f32 0x3F800000#32 - v19 (ix2 0 q)) * max (v18 (ix2 p q)) (Ideal.ofBits .f32 0x00000000#32) = _
  rw [ofBits_one_f32, Ideal.ofBits_zero_f32]
  rfl

/-! ## Kernel 3 -/

/-- The value stored at the first step along the contracted axis is the zero accumulator. -/
theorem k3_pay1_apply (j : S1024x1024.Idx) : Gen.k3_pay1 (F := Ideal) j = 0 := by
  unfold Gen.k3_pay1
  rw [shapeCast_self]
  exact Ideal.ofBits_zero_f32

/-- The value stored at every step: the accumulator plus the product of the loaded blocks, whose rounding to the
    narrower format is the identity on extended reals. -/
theorem k3_pay2_apply (v3 : Vec Ideal S1024x1024 .f32) (v4 : Vec Ideal S1024x512 .f32) (v7 : Vec Ideal S512x1024 .f32)
    (p q : Fin 1024) :
    Gen.k3_pay2 v3 v4 v7 (ix2 p q) = v3 (ix2 p q) + ∑ k : Fin 512, v4 (ix2 p k) * v7 (ix2 k q) := by
  unfold Gen.k3_pay2
  rw [shapeCast_self, shapeCast_self, shapeCast_self, addf_apply]
  refine congrArg (v3 (ix2 p q) + ·) ?_
  exact Cert.LibDot.matmul_zero_plain_apply dot_S1024x512_S512x1024_S1024x1024_1_0_0_1_n_n rfl rfl rfl rfl rfl rfl none
    (truncf .bf16 v4 Gen.bitsLt_bf16_f32) (truncf .bf16 v7 Gen.bitsLt_bf16_f32) (ix2 p q)

/-- The value stored at the last step: the masked step of the accumulator, the mask read at the column. -/
theorem k3_pay3_apply (v18 : Vec Ideal S1024x1024 .f32) (v19 : Vec Ideal S1x1024 .f32) (p q : Fin 1024) :
    Gen.k3_pay3 v18 v19 (ix2 p q) = stepVal (v19 (ix2 0 q)) (v18 (ix2 p q)) := by
  unfold Gen.k3_pay3
  rw [shapeCast_self, shapeCast_self, addf_apply, mulf_apply, mulf_apply, subf_apply, maximumf_apply,
    rowBroadcast_apply]
  show v19 (ix2 0 q) * v18 (ix2 p q)
      + (Ideal.ofBits .f32 0x3F800000#32 - v19 (ix2 0 q)) * max (v18 (ix2 p q)) (Ideal.ofBits .f32 0x00000000#32) = _
  rw [ofBits_one_f32, Ideal.ofBits_zero_f32]
  rfl

/-! ## Kernel 4 -/

/-- The value stored at the first step along the contracted axis is the zero accumulator. -/
theorem k4_pay1_apply (j : S1024x1024.Idx) : Gen.k4_pay1 (F := Ideal) j = 0 := by
  unfold Gen.k4_pay1
  rw [shapeCast_self]
  exact Ideal.ofBits_zero_f32

/-- The value stored at every step: the accumulator plus the product of the loaded blocks, whose rounding to the
    narrower format is the identity on extended reals. -/
theorem k4_pay2_apply (v3 : Vec Ideal S1024x1024 .f32) (v4 : Vec Ideal S1024x512 .f32) (v7 : Vec Ideal S512x1024 .f32)
    (p q : Fin 1024) :
    Gen.k4_pay2 v3 v4 v7 (ix2 p q) = v3 (ix2 p q) + ∑ k : Fin 512, v4 (ix2 p k) * v7 (ix2 k q) := by
  unfold Gen.k4_pay2
  rw [shapeCast_self, shapeCast_self, shapeCast_self, addf_apply]
  refine congrArg (v3 (ix2 p q) + ·) ?_
  exact Cert.LibDot.matmul_zero_plain_apply dot_S1024x512_S512x1024_S1024x1024_1_0_0_1_n_n rfl rfl rfl rfl rfl rfl none
    (truncf .bf16 v4 Gen.bitsLt_bf16_f32) (truncf .bf16 v7 Gen.bitsLt_bf16_f32) (ix2 p q)

/-- The value stored at the last step: the masked step of the accumulator, the mask read at the column. -/
theorem k4_pay3_apply (v18 : Vec Ideal S1024x1024 .f32) (v19 : Vec Ideal S1x1024 .f32) (p q : Fin 1024) :
    Gen.k4_pay3 v18 v19 (ix2 p q) = stepVal (v19 (ix2 0 q)) (v18 (ix2 p q)) := by
  unfold Gen.k4_pay3
  rw [shapeCast_self, shapeCast_self, addf_apply, mulf_apply, mulf_apply, subf_apply, maximumf_apply,
    rowBroadcast_apply]
  show v19 (ix2 0 q) * v18 (ix2 p q)
      + (Ideal.ofBits .f32 0x3F800000#32 - v19 (ix2 0 q)) * max (v18 (ix2 p q)) (Ideal.ofBits .f32 0x00000000#32) = _
  rw [ofBits_one_f32, Ideal.ofBits_zero_f32]
  rfl

end Cert.Bridge

end
-- ==== Proof.KI_ValCommon.lean ====
/-
  What the five regions' value proofs share, over the extended reals: the block sums of a contraction over 4096 cut in eight
  blocks of 512, the left-nested accumulation of those sums, and one step of the recurrence as a function of whole arrays:
  at (i, j) the masked formula of  Σ_k h(i, k) · w(k, j).
-/
import proofs.«119208_j72069551226903_1_alg».proof.Proof.PayIdeal

noncomputable section

namespace Cert.KernelIdeal.Hand

open Idealize.ShloMosaic Idealize.ShloMosaic.ValueIdx Cert.Bridge Cert.KernelIdeal

/-- Block sum `b` of the contraction at entry (i, j): the 512 products of block `b` of row `i` of `h` and of column `j` of `w`. -/
def gblkOf (h w : Vec Ideal S4096x4096 .f32) (i j : Fin 4096) : Fin 8 → EReal := fun b =>
  ∑ r : Fin 512, h (ix2 i ⟨512 * b.val + r.val, by have := b.isLt; have := r.isLt; omega⟩) * w (ix2 ⟨512 * b.val + r.val, by have := b.isLt; have := r.isLt; omega⟩ j)

/-- One step at entry (a, b): the masked formula of the whole contraction. -/
def stepAt (h w : Vec Ideal S4096x4096 .f32) (mk : Vec Ideal S1x4096 .f32) (a b : Fin 4096) : EReal :=
  stepVal (mk (ix2 (0 : Fin 1) b)) (dotVal (fun a b => h (ix2 a b)) (fun a b => w (ix2 a b)) a b)
/-- One step, as an array. -/
def stepArr (h w : Vec Ideal S4096x4096 .f32) (mk : Vec Ideal S1x4096 .f32) : Vec Ideal S4096x4096 .f32 := fun i =>
  stepAt h w mk (i 0) (i 1)

theorem accUpTo_first (g : Fin 8 → EReal) (k : ℕ) (h : k < 8) (hk : k = 0) : accUpTo g k h = 0 + g ⟨k, h⟩ := by
  subst hk; rfl
theorem accUpTo_next (g : Fin 8 → EReal) (k k' : ℕ) (h : k < 8) (h' : k' < 8) (hk : k' = k + 1) :
    accUpTo g k' h' = accUpTo g k h + g ⟨k', h'⟩ := by
  subst hk; rfl
theorem accUpTo_at7 (g : Fin 8 → EReal) (k : ℕ) (h : k < 8) (hk : k = 7) : accUpTo g k h = accUpTo g 7 (by omega) := by
  subst hk; rfl

/-- A block product at (p, q), when the two blocks are block `kb` of row `i` of `h` and of column `j` of `w`, is block sum `kb`. -/
theorem bsum_gen (h w : Vec Ideal S4096x4096 .f32) (x0 : Vec Ideal S1024x512 .f32) (x1 : Vec Ideal S512x1024 .f32)
    (kb : Fin 8) (p q : Fin 1024) (i j : Fin 4096)
    (hx0 : ∀ r : Fin 512, x0 (ix2 p r) = h (ix2 i ⟨512 * kb.val + r.val, by have := kb.isLt; have := r.isLt; omega⟩))
    (hx1 : ∀ r : Fin 512, x1 (ix2 r q) = w (ix2 ⟨512 * kb.val + r.val, by have := kb.isLt; have := r.isLt; omega⟩ j)) :
    (∑ k : Fin 512, x0 (ix2 p k) * x1 (ix2 k q)) = gblkOf h w i j kb := by
  unfold gblkOf
  exact Finset.sum_congr rfl fun r _ => by rw [hx0 r, hx1 r]

/-- The step at (a, b) from the eight block sums. -/
theorem stepAt_eq (h w : Vec Ideal S4096x4096 .f32) (mk : Vec Ideal S1x4096 .f32) (a b : Fin 4096) :
    stepAt h w mk a b = stepVal (mk (ix2 (0 : Fin 1) b)) (accUpTo (gblkOf h w a b) 7 (by omega)) := by
  unfold stepAt
  rw [dotVal_eq_acc]
  rfl
theorem stepArr_ix2 (h w : Vec Ideal S4096x4096 .f32) (mk : Vec Ideal S1x4096 .f32) (a b : Fin 4096) :
    stepArr h w mk (ix2 a b) = stepAt h w mk a b := rfl

end Cert.KernelIdeal.Hand

end
-- ==== Proof.KI_R0_Val.lean ====
/-
  Region 0, read as values over the extended reals: the region leaves in its output array, at entry (i, j), the masked formula
  of the whole contraction  Σ_k h(i, k) · w(k, j)  of the hidden state `h` and the weight matrix `w` it was entered with.
  A grid point t = (i', j', k) reads rows 1024 i' … of `h` and columns 1024 j' … of `w`, block k of 512 along the contracted axis.
  After the point the accumulator holds, at (p, q), the left-nested sum of the block sums 0 … k (it starts from the zero fill);
  where k = 7 the output block is stored with the masked formula of that sum, the eight block sums being the whole sum.
  The output blocks tile the array, each written back once (where k = 7), so the array ends as one function of `h`, `w` and the mask row.
-/
import proofs.«119208_j72069551226903_1_alg».proof.Proof.KI_R0_Pieces
import proofs.«119208_j72069551226903_1_alg».proof.Proof.KI_ValCommon

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx Cert.Bridge

section
variable (V : (c : Dev nD) → (b : Ref sig .tc) → Buf (Elt Ideal) ((c : Thread nD τ).loc b))

/-! ## Which rows and columns a point reads -/

theorem idx0_0 : ∀ t : Fin cfg0.N, win0_0.index t 0 = t.val / 32 ∧ win0_0.index t 1 = t.val % 8 :=
  (by decide +kernel : ∀ t : Fin grid0.N, win0_0.index t 0 = t.val / 32 ∧ win0_0.index t 1 = t.val % 8)
theorem idx0_1 : ∀ t : Fin cfg0.N, win0_1.index t 0 = t.val % 8 ∧ win0_1.index t 1 = t.val / 8 % 4 :=
  (by decide +kernel : ∀ t : Fin grid0.N, win0_1.index t 0 = t.val % 8 ∧ win0_1.index t 1 = t.val / 8 % 4)
theorem idx0_2 : ∀ t : Fin cfg0.N, win0_2.index t 0 = 0 ∧ win0_2.index t 1 = t.val / 8 % 4 :=
  (by decide +kernel : ∀ t : Fin grid0.N, win0_2.index t 0 = 0 ∧ win0_2.index t 1 = t.val / 8 % 4)
theorem idx0_3 : ∀ t : Fin cfg0.N, win0_3.index t 0 = t.val / 32 ∧ win0_3.index t 1 = t.val / 8 % 4 :=
  (by decide +kernel : ∀ t : Fin grid0.N, win0_3.index t 0 = t.val / 32 ∧ win0_3.index t 1 = t.val / 8 % 4)

/-- The hidden state's block at a point, entry (p, r): row 1024 (t / 32) + p, column 512 (t mod 8) + r of the array. -/
theorem hblk0_apply (c : Dev nD) (t : Fin cfg0.N) (y : S1024x512.Idx) (i : S4096x4096.Idx)
    (h0 : (i 0).val = 1024 * (t.val / 32) + (y 0).val) (h1 : (i 1).val = 512 * (t.val % 8) + (y 1).val) :
    (iblk0 V c 0 t : Vec Ideal S1024x512 .f32) y = V c main_v21 i := by
  unfold iblk0
  rw [View.read_apply]
  show V c main_v21 _ = V c main_v21 i
  refine congrArg _ ?_
  funext a
  apply Fin.ext
  match a with
  | ⟨0, _⟩ => show win0_0.index t 0 * 1024 + 1 * (y 0).val = (i 0).val; rw [(idx0_0 t).1]; omega
  | ⟨1, _⟩ => show win0_0.index t 1 * 512 + 1 * (y 1).val = (i 1).val; rw [(idx0_0 t).2]; omega

/-- The weight matrix's block at a point, entry (r, q): row 512 (t mod 8) + r, column 1024 (t / 8 mod 4) + q. -/
theorem wblk0_apply (c : Dev nD) (t : Fin cfg0.N) (y : S512x1024.Idx) (i : S4096x4096.Idx)
    (h0 : (i 0).val = 512 * (t.val % 8) + (y 0).val) (h1 : (i 1).val = 1024 * (t.val / 8 % 4) + (y 1).val) :
    (iblk0 V c 1 t : Vec Ideal S512x1024 .f32) y = V c main_v18 i := by
  unfold iblk0
  rw [View.read_apply]
  show V c main_v18 _ = V c main_v18 i
  refine congrArg _ ?_
  funext a
  apply Fin.ext
  match a with
  | ⟨0, _⟩ => show win0_1.index t 0 * 512 + 1 * (y 0).val = (i 0).val; rw [(idx0_1 t).1]; omega
  | ⟨1, _⟩ => show win0_1.index t 1 * 1024 + 1 * (y 1).val = (i 1).val; rw [(idx0_1 t).2]; omega

/-- The mask row's block at a point, entry (0, q): column 1024 (t / 8 mod 4) + q. -/
theorem mblk0_apply (c : Dev nD) (t : Fin cfg0.N) (y : S1x1024.Idx) (i : S1x4096.Idx)
    (h0 : (i 0).val = (y 0).val) (h1 : (i 1).val = 1024 * (t.val / 8 % 4) + (y 1).val) :
    (iblk0 V c 2 t : Vec Ideal S1x1024 .f32) y = V c main_v25 i := by
  unfold iblk0
  rw [View.read_apply]
  show V c main_v25 _ = V c main_v25 i
  refine congrArg _ ?_
  funext a
  apply Fin.ext
  match a with
  | ⟨0, _⟩ => show win0_2.index t 0 * 1 + 1 * (y 0).val = (i 0).val; rw [(idx0_2 t).1]; omega
  | ⟨1, _⟩ => show win0_2.index t 1 * 1024 + 1 * (y 1).val = (i 1).val; rw [(idx0_2 t).2]; omega

/-! ## The accumulator, point by point -/

/-- After point `n` the accumulator holds, at (p, q), the left-nested sum of the block sums 0 … n mod 8 of the array entry
    the point's block places (p, q) at. -/
theorem acc0_apply (c : Dev nD) : ∀ (n : ℕ) (hn : n < cfg0.N) (p q : Fin 1024) (i j : Fin 4096)
    (hi : i.val = 1024 * (n / 32) + p.val) (hj : j.val = 1024 * (n / 8 % 4) + q.val),
    (outsAt0 V c n hn).2 (ix2 p q) = accUpTo (gblkOf (V c main_v21) (V c main_v18) i j) (n % 8) (Nat.mod_lt _ (by decide)) := by
  intro n
  induction n using Nat.strong_induction_on with
  | _ n ih =>
    intro hn p q i j hi hj
    have hN : n < 128 := lt_of_lt_of_eq hn N_0
    have hb := bsum_gen (V c main_v21) (V c main_v18) (iblk0 V c 0 ⟨n, hn⟩) (iblk0 V c 1 ⟨n, hn⟩) ⟨n % 8, Nat.mod_lt _ (by decide)⟩ p q i j
      (fun r => hblk0_apply V c ⟨n, hn⟩ (ix2 p r) (ix2 i ⟨512 * (n % 8) + r.val, by have := r.isLt; omega⟩) hi rfl)
      (fun r => wblk0_apply V c ⟨n, hn⟩ (ix2 r q) (ix2 ⟨512 * (n % 8) + r.val, by have := r.isLt; omega⟩ j) rfl hj)
    by_cases h0 : n % 8 = 0
    · have h1 : ¬ n % 8 = 7 := by omega
      rw [outsAt0_A V c ⟨n, hn⟩ h0 h1]
      dsimp only
      rw [sout0_A_eq, k0_pay2_apply, k0_pay1_apply, hb]
      exact (accUpTo_first _ _ _ h0).symm
    · have hz : n ≠ 0 := fun hz => h0 (by rw [hz])
      have hprev := ih (n - 1) (by omega) (Nat.lt_of_le_of_lt (Nat.sub_le _ _) hn) p q i j (by omega) (by omega)
      by_cases h1 : n % 8 = 7
      · rw [outsAt0_C V c ⟨n, hn⟩ h0 h1]
        dsimp only
        rw [sout0_C_eq, k0_pay2_apply, hprev, hb]
        exact (accUpTo_next _ ((n - 1) % 8) (n % 8) _ _ (by omega)).symm
      · rw [outsAt0_B V c ⟨n, hn⟩ h0 h1]
        dsimp only
        rw [sout0_B_eq, k0_pay2_apply, hprev, hb]
        exact (accUpTo_next _ ((n - 1) % 8) (n % 8) _ _ (by omega)).symm

/-! ## The region's result -/

/-- What the region leaves in its output array: one step of the recurrence on the arrays it was entered with. -/
def G0 (c : Dev nD) : Vec Ideal S4096x4096 .f32 := stepArr (V c main_v21) (V c main_v18) (V c main_v25)

/-- Where k = 7 the stored output block holds, at (p, q), the step at the array entry (a, b) the block places (p, q) at. -/
theorem out0_apply (c : Dev nD) (t : Fin cfg0.N) (h1 : t.val % 8 = 7) (p q : Fin 1024) (a b : Fin 4096)
    (hi : a.val = 1024 * (t.val / 32) + p.val) (hj : b.val = 1024 * (t.val / 8 % 4) + q.val) :
    (outsAt0 V c t.val t.isLt).1 (ix2 p q) = stepAt (V c main_v21) (V c main_v18) (V c main_v25) a b := by
  have h0 : ¬ t.val % 8 = 0 := by omega
  have hacc := acc0_apply V c t.val t.isLt p q a b hi hj
  rw [outsAt0_C V c t h0 h1] at hacc ⊢
  dsimp only at hacc ⊢
  rw [out0_C_eq, k0_pay3_apply]
  rw [sout0_C_eq] at hacc
  rw [hacc, stepAt_eq, mblk0_apply V c t (ix2 (0 : Fin 1) q) (ix2 (0 : Fin 1) b) rfl hj, accUpTo_at7 _ _ _ h1]

theorem xsize0_3 : ∀ t : Fin cfg0.N, win0_3.xsize (grid0.coords t) 0 = 1024 ∧ win0_3.xsize (grid0.coords t) 1 = 1024 :=
  (by decide +kernel : ∀ t : Fin grid0.N, win0_3.xsize (grid0.coords t) 0 = 1024 ∧ win0_3.xsize (grid0.coords t) 1 = 1024)

/-- What a write-back writes is the result read through the block. -/
theorem flushed0_eq (c : Dev nD) (t : Fin cfg0.N) (hf : (cfg0.win 3).flush t = true) :
    (dat0 V c).flushed 3 t = ((cfg0.win 3).blk t).view.read (Elt Ideal) (G0 V c) := by
  have h1 : t.val % 8 = 7 := (flush0_3 t).mp hf
  show (cfg0.win 3).cut (grid0.coords t) ((dat0 V c).after 3 t) = _
  rw [after0_3]
  funext y
  rw [View.read_apply]
  obtain ⟨p, q, rfl⟩ : ∃ (p q : Fin 1024), y = ix2 p q := ⟨y 0, y 1, eq_ix2 y⟩
  show _ = stepAt (V c main_v21) (V c main_v18) (V c main_v25) ⟨win0_3.index t 0 * 1024 + 1 * p.val, by have := (idx0_3 t).1; have hN : t.val < 128 := lt_of_lt_of_eq t.isLt N_0; have := p.isLt; omega⟩ ⟨win0_3.index t 1 * 1024 + 1 * q.val, by have := (idx0_3 t).2; have := q.isLt; omega⟩
  refine out0_apply V c t h1 p q _ _ ?_ ?_
  · show win0_3.index t 0 * 1024 + 1 * p.val = _; rw [(idx0_3 t).1]; omega
  · show win0_3.index t 1 * 1024 + 1 * q.val = _; rw [(idx0_3 t).2]; omega

/-- Every entry of the output array is in the block of a point that writes back. -/
theorem cover0 (i : S4096x4096.Idx) : ∃ t : Fin cfg0.N, (cfg0.win 3).flush t = true ∧ i ∈ ((cfg0.win 3).blk t).view.set := by
  have h0 : (i 0 : Nat) < 4096 := (i 0).isLt
  have h1 : (i 1 : Nat) < 4096 := (i 1).isLt
  have hN : cfg0.N = 128 := N_0
  have ht : 8 * (4 * ((i 0).val / 1024) + (i 1).val / 1024) + 7 < cfg0.N := by rw [hN]; omega
  refine ⟨⟨8 * (4 * ((i 0).val / 1024) + (i 1).val / 1024) + 7, ht⟩, (flush0_3 _).mpr (by show (8 * (4 * ((i 0).val / 1024) + (i 1).val / 1024) + 7) % 8 = 7; omega), ?_⟩
  show i ∈ ((View.whole main_v26).slice (win0_3.rect ⟨8 * (4 * ((i 0).val / 1024) + (i 1).val / 1024) + 7, ht⟩)).set
  rw [View.set_slice_whole, Rect.mem_set_unit]
  intro a
  match a with
  | ⟨0, _⟩ =>
    show win0_3.index ⟨8 * (4 * ((i 0).val / 1024) + (i 1).val / 1024) + 7, ht⟩ 0 * win0_3.size 0 ≤ (i 0 : Nat) ∧ (i 0 : Nat) < win0_3.index ⟨8 * (4 * ((i 0).val / 1024) + (i 1).val / 1024) + 7, ht⟩ 0 * win0_3.size 0 + win0_3.xsize (grid0.coords ⟨8 * (4 * ((i 0).val / 1024) + (i 1).val / 1024) + 7, ht⟩) 0
    rw [(idx0_3 _).1, (xsize0_3 _).1]
    show (8 * (4 * ((i 0).val / 1024) + (i 1).val / 1024) + 7) / 32 * 1024 ≤ (i 0 : Nat) ∧ (i 0 : Nat) < (8 * (4 * ((i 0).val / 1024) + (i 1).val / 1024) + 7) / 32 * 1024 + 1024
    omega
  | ⟨1, _⟩ =>
    show win0_3.index ⟨8 * (4 * ((i 0).val / 1024) + (i 1).val / 1024) + 7, ht⟩ 1 * win0_3.size 1 ≤ (i 1 : Nat) ∧ (i 1 : Nat) < win0_3.index ⟨8 * (4 * ((i 0).val / 1024) + (i 1).val / 1024) + 7, ht⟩ 1 * win0_3.size 1 + win0_3.xsize (grid0.coords ⟨8 * (4 * ((i 0).val / 1024) + (i 1).val / 1024) + 7, ht⟩) 1
    rw [(idx0_3 _).2, (xsize0_3 _).2]
    show (8 * (4 * ((i 0).val / 1024) + (i 1).val / 1024) + 7) / 8 % 4 * 1024 ≤ (i 1 : Nat) ∧ (i 1 : Nat) < (8 * (4 * ((i 0).val / 1024) + (i 1).val / 1024) + 7) / 8 % 4 * 1024 + 1024
    omega

/-- The output array after the region. -/
theorem final0 (c : Dev nD) : (dat0 V c).arrAt 3 cfg0.N = G0 V c :=
  (dat0 V c).arrAt_eq_of_cover 3 (G0 V c) (flushed0_eq V c) cover0

end

end Cert.KernelIdeal.Hand

end
-- ==== Proof.KI_R1_Pieces.lean ====
/-
  Region 1: what each case's stores leave, as the body's arithmetic. Every store of the body writes a whole buffer, so a buffer
  ends holding its last store's payload: after a point with k = 0 the accumulator is the block product added to the zero
  fill; after a later point, the block product added to what the point before left; and where k = 7 the output block is the
  masked formula of that accumulator and the mask block.
-/
import proofs.«119208_j72069551226903_1_alg».proof.Proof.KI_R1_Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

theorem sout1_A_eq (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond1_0 i) (hc1 : ¬cond1_1 i)
    (x0 : Vec F S1024x512 .f32) (x1 : Vec F S512x1024 .f32) :
    sout1_A c i a3 h3 a4 h4 a5 h5 a6 h6 a7 h7 hc0 hc1 x0 x1 = k1_pay2 (k1_pay1 (F := F)) x0 x1 := by
  unfold sout1_A
  rw [View.read_writes_eq_canon _ _ _ (scover1_A c i a3 h3 a4 h4 a5 h5 a6 h6 a7 h7 hc0 hc1 x0 x1)]
  unfold kernelRun1_A
  dsimp only
  sl_unfold_run_names
  rw [View.canon_cons_unit_zero hz1]
  rw [View.readCov_unit_zero _ hz1]
  simp only [View.readAt_eq_ld, h3.read_unread, h4.read_unread, View.ld_unit_zero (S := S1024x512) hz1, View.ld_unit_zero (S := S512x1024) hz1]

theorem sout1_B_eq (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : ¬cond1_1 i)
    (x0 : Vec F S1024x512 .f32) (x1 : Vec F S512x1024 .f32) (xs : Vec F S1024x1024 .f32) :
    sout1_B c i a3 h3 a4 h4 a5 h5 a6 h6 a7 h7 hc0 hc1 x0 x1 xs = k1_pay2 xs x0 x1 := by
  unfold sout1_B
  rw [View.read_writes_eq_canon _ _ _ (scover1_B c i a3 h3 a4 h4 a5 h5 a6 h6 a7 h7 hc0 hc1 x0 x1 xs)]
  unfold kernelRun1_B
  dsimp only
  try sl_unfold_run_names
  rw [View.canon_cons_unit_zero hz1]
  simp only [View.readAt_eq_ld, h3.read_unread, h4.read_unread, h7.read_unread, View.ld_unit_zero (S := S1024x512) hz1, View.ld_unit_zero (S := S512x1024) hz1, View.ld_unit_zero (S := S1024x1024) hz1]

theorem sout1_C_eq (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x512 .f32) (x1 : Vec F S512x1024 .f32) (x2 : Vec F S1x1024 .f32) (xs : Vec F S1024x1024 .f32) :
    sout1_C c i a3 h3 a4 h4 a5 h5 a6 h6 a7 h7 hc0 hc1 x0 x1 x2 xs = k1_pay2 xs x0 x1 := by
  unfold sout1_C
  rw [View.read_writes_eq_canon _ _ _ (scover1_C c i a3 h3 a4 h4 a5 h5 a6 h6 a7 h7 hc0 hc1 x0 x1 x2 xs)]
  unfold kernelRun1_C
  dsimp only
  try sl_unfold_run_names
  rw [View.canon_cons_unit_zero hz1]
  simp only [View.readAt_eq_ld, h3.read_unread, h4.read_unread, h7.read_unread, View.ld_unit_zero (S := S1024x512) hz1, View.ld_unit_zero (S := S512x1024) hz1, View.ld_unit_zero (S := S1024x1024) hz1]

theorem out1_C_eq (c : Dev nD) (i : grid1.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond1_0 i) (hc1 : cond1_1 i)
    (x0 : Vec F S1024x512 .f32) (x1 : Vec F S512x1024 .f32) (x2 : Vec F S1x1024 .f32) (xs : Vec F S1024x1024 .f32) :
    out1_C c i a3 h3 a4 h4 a5 h5 a6 h6 a7 h7 hc0 hc1 x0 x1 x2 xs = k1_pay3 (k1_pay2 xs x0 x1) x2 := by
  unfold out1_C
  rw [View.read_writes_eq_canon _ _ _ (cover1_C c i a3 h3 a4 h4 a5 h5 a6 h6 a7 h7 hc0 hc1 x0 x1 x2 xs)]
  unfold kernelRun1_C
  dsimp only
  sl_unfold_run_names
  rw [View.canon_cons_unit_zero hz1]
  rw [View.readCov_unit_zero _ hz1]
  simp only [View.readAt_eq_ld, h3.read_unread, h4.read_unread, h5.read_unread, h7.read_unread, View.ld_unit_zero (S := S1024x512) hz1, View.ld_unit_zero (S := S512x1024) hz1, View.ld_unit_zero (S := S1024x1024) hz1, View.ld_unit_zero (S := S1x1024) hz1]

end Cert.KernelIdeal.Hand

end
-- ==== Proof.KI_R1_Val.lean ====
/-
  Region 1, read as values over the extended reals: the region leaves in its output array, at entry (i, j), the masked formula
  of the whole contraction  Σ_k h(i, k) · w(k, j)  of the hidden state `h` and the weight matrix `w` it was entered with.
  A grid point t = (i', j', k) reads rows 1024 i' … of `h` and columns 1024 j' … of `w`, block k of 512 along the contracted axis.
  After the point the accumulator holds, at (p, q), the left-nested sum of the block sums 0 … k (it starts from the zero fill);
  where k = 7 the output block is stored with the masked formula of that sum, the eight block sums being the whole sum.
  The output blocks tile the array, each written back once (where k = 7), so the array ends as one function of `h`, `w` and the mask row.
-/
import proofs.«119208_j72069551226903_1_alg».proof.Proof.KI_R1_Pieces
import proofs.«119208_j72069551226903_1_alg».proof.Proof.KI_ValCommon

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx Cert.Bridge

section
variable (V : (c : Dev nD) → (b : Ref sig .tc) → Buf (Elt Ideal) ((c : Thread nD τ).loc b))

/-! ## Which rows and columns a point reads -/

theorem idx1_0 : ∀ t : Fin cfg1.N, win1_0.index t 0 = t.val / 32 ∧ win1_0.index t 1 = t.val % 8 :=
  (by decide +kernel : ∀ t : Fin grid1.N, win1_0.index t 0 = t.val / 32 ∧ win1_0.index t 1 = t.val % 8)
theorem idx1_1 : ∀ t : Fin cfg1.N, win1_1.index t 0 = t.val % 8 ∧ win1_1.index t 1 = t.val / 8 % 4 :=
  (by decide +kernel : ∀ t : Fin grid1.N, win1_1.index t 0 = t.val % 8 ∧ win1_1.index t 1 = t.val / 8 % 4)
theorem idx1_2 : ∀ t : Fin cfg1.N, win1_2.index t 0 = 0 ∧ win1_2.index t 1 = t.val / 8 % 4 :=
  (by decide +kernel : ∀ t : Fin grid1.N, win1_2.index t 0 = 0 ∧ win1_2.index t 1 = t.val / 8 % 4)
theorem idx1_3 : ∀ t : Fin cfg1.N, win1_3.index t 0 = t.val / 32 ∧ win1_3.index t 1 = t.val / 8 % 4 :=
  (by decide +kernel : ∀ t : Fin grid1.N, win1_3.index t 0 = t.val / 32 ∧ win1_3.index t 1 = t.val / 8 % 4)

/-- The hidden state's block at a point, entry (p, r): row 1024 (t / 32) + p, column 512 (t mod 8) + r of the array. -/
theorem hblk1_apply (c : Dev nD) (t : Fin cfg1.N) (y : S1024x512.Idx) (i : S4096x4096.Idx)
    (h0 : (i 0).val = 1024 * (t.val / 32) + (y 0).val) (h1 : (i 1).val = 512 * (t.val % 8) + (y 1).val) :
    (iblk1 V c 0 t : Vec Ideal S1024x512 .f32) y = V c main_v26 i := by
  unfold iblk1
  rw [View.read_apply]
  show V c main_v26 _ = V c main_v26 i
  refine congrArg _ ?_
  funext a
  apply Fin.ext
  match a with
  | ⟨0, _⟩ => show win1_0.index t 0 * 1024 + 1 * (y 0).val = (i 0).val; rw [(idx1_0 t).1]; omega
  | ⟨1, _⟩ => show win1_0.index t 1 * 512 + 1 * (y 1).val = (i 1).val; rw [(idx1_0 t).2]; omega

/-- The weight matrix's block at a point, entry (r, q): row 512 (t mod 8) + r, column 1024 (t / 8 mod 4) + q. -/
theorem wblk1_apply (c : Dev nD) (t : Fin cfg1.N) (y : S512x1024.Idx) (i : S4096x4096.Idx)
    (h0 : (i 0).val = 512 * (t.val % 8) + (y 0).val) (h1 : (i 1).val = 1024 * (t.val / 8 % 4) + (y 1).val) :
    (iblk1 V c 1 t : Vec Ideal S512x1024 .f32) y = V c main_v18 i := by
  unfold iblk1
  rw [View.read_apply]
  show V c main_v18 _ = V c main_v18 i
  refine congrArg _ ?_
  funext a
  apply Fin.ext
  match a with
  | ⟨0, _⟩ => show win1_1.index t 0 * 512 + 1 * (y 0).val = (i 0).val; rw [(idx1_1 t).1]; omega
  | ⟨1, _⟩ => show win1_1.index t 1 * 1024 + 1 * (y 1).val = (i 1).val; rw [(idx1_1 t).2]; omega

/-- The mask row's block at a point, entry (0, q): column 1024 (t / 8 mod 4) + q. -/
theorem mblk1_apply (c : Dev nD) (t : Fin cfg1.N) (y : S1x1024.Idx) (i : S1x4096.Idx)
    (h0 : (i 0).val = (y 0).val) (h1 : (i 1).val = 1024 * (t.val / 8 % 4) + (y 1).val) :
    (iblk1 V c 2 t : Vec Ideal S1x1024 .f32) y = V c main_v25 i := by
  unfold iblk1
  rw [View.read_apply]
  show V c main_v25 _ = V c main_v25 i
  refine congrArg _ ?_
  funext a
  apply Fin.ext
  match a with
  | ⟨0, _⟩ => show win1_2.index t 0 * 1 + 1 * (y 0).val = (i 0).val; rw [(idx1_2 t).1]; omega
  | ⟨1, _⟩ => show win1_2.index t 1 * 1024 + 1 * (y 1).val = (i 1).val; rw [(idx1_2 t).2]; omega

/-! ## The accumulator, point by point -/

/-- After point `n` the accumulator holds, at (p, q), the left-nested sum of the block sums 0 … n mod 8 of the array entry
    the point's block places (p, q) at. -/
theorem acc1_apply (c : Dev nD) : ∀ (n : ℕ) (hn : n < cfg1.N) (p q : Fin 1024) (i j : Fin 4096)
    (hi : i.val = 1024 * (n / 32) + p.val) (hj : j.val = 1024 * (n / 8 % 4) + q.val),
    (outsAt1 V c n hn).2 (ix2 p q) = accUpTo (gblkOf (V c main_v26) (V c main_v18) i j) (n % 8) (Nat.mod_lt _ (by decide)) := by
  intro n
  induction n using Nat.strong_induction_on with
  | _ n ih =>
    intro hn p q i j hi hj
    have hN : n < 128 := lt_of_lt_of_eq hn N_1
    have hb := bsum_gen (V c main_v26) (V c main_v18) (iblk1 V c 0 ⟨n, hn⟩) (iblk1 V c 1 ⟨n, hn⟩) ⟨n % 8, Nat.mod_lt _ (by decide)⟩ p q i j
      (fun r => hblk1_apply V c ⟨n, hn⟩ (ix2 p r) (ix2 i ⟨512 * (n % 8) + r.val, by have := r.isLt; omega⟩) hi rfl)
      (fun r => wblk1_apply V c ⟨n, hn⟩ (ix2 r q) (ix2 ⟨512 * (n % 8) + r.val, by have := r.isLt; omega⟩ j) rfl hj)
    by_cases h0 : n % 8 = 0
    · have h1 : ¬ n % 8 = 7 := by omega
      rw [outsAt1_A V c ⟨n, hn⟩ h0 h1]
      dsimp only
      rw [sout1_A_eq, k1_pay2_apply, k1_pay1_apply, hb]
      exact (accUpTo_first _ _ _ h0).symm
    · have hz : n ≠ 0 := fun hz => h0 (by rw [hz])
      have hprev := ih (n - 1) (by omega) (Nat.lt_of_le_of_lt (Nat.sub_le _ _) hn) p q i j (by omega) (by omega)
      by_cases h1 : n % 8 = 7
      · rw [outsAt1_C V c ⟨n, hn⟩ h0 h1]
        dsimp only
        rw [sout1_C_eq, k1_pay2_apply, hprev, hb]
        exact (accUpTo_next _ ((n - 1) % 8) (n % 8) _ _ (by omega)).symm
      · rw [outsAt1_B V c ⟨n, hn⟩ h0 h1]
        dsimp only
        rw [sout1_B_eq, k1_pay2_apply, hprev, hb]
        exact (accUpTo_next _ ((n - 1) % 8) (n % 8) _ _ (by omega)).symm

/-! ## The region's result -/

/-- What the region leaves in its output array: one step of the recurrence on the arrays it was entered with. -/
def G1 (c : Dev nD) : Vec Ideal S4096x4096 .f32 := stepArr (V c main_v26) (V c main_v18) (V c main_v25)

/-- Where k = 7 the stored output block holds, at (p, q), the step at the array entry (a, b) the block places (p, q) at. -/
theorem out1_apply (c : Dev nD) (t : Fin cfg1.N) (h1 : t.val % 8 = 7) (p q : Fin 1024) (a b : Fin 4096)
    (hi : a.val = 1024 * (t.val / 32) + p.val) (hj : b.val = 1024 * (t.val / 8 % 4) + q.val) :
    (outsAt1 V c t.val t.isLt).1 (ix2 p q) = stepAt (V c main_v26) (V c main_v18) (V c main_v25) a b := by
  have h0 : ¬ t.val % 8 = 0 := by omega
  have hacc := acc1_apply V c t.val t.isLt p q a b hi hj
  rw [outsAt1_C V c t h0 h1] at hacc ⊢
  dsimp only at hacc ⊢
  rw [out1_C_eq, k1_pay3_apply]
  rw [sout1_C_eq] at hacc
  rw [hacc, stepAt_eq, mblk1_apply V c t (ix2 (0 : Fin 1) q) (ix2 (0 : Fin 1) b) rfl hj, accUpTo_at7 _ _ _ h1]

theorem xsize1_3 : ∀ t : Fin cfg1.N, win1_3.xsize (grid1.coords t) 0 = 1024 ∧ win1_3.xsize (grid1.coords t) 1 = 1024 :=
  (by decide +kernel : ∀ t : Fin grid1.N, win1_3.xsize (grid1.coords t) 0 = 1024 ∧ win1_3.xsize (grid1.coords t) 1 = 1024)

/-- What a write-back writes is the result read through the block. -/
theorem flushed1_eq (c : Dev nD) (t : Fin cfg1.N) (hf : (cfg1.win 3).flush t = true) :
    (dat1 V c).flushed 3 t = ((cfg1.win 3).blk t).view.read (Elt Ideal) (G1 V c) := by
  have h1 : t.val % 8 = 7 := (flush1_3 t).mp hf
  show (cfg1.win 3).cut (grid1.coords t) ((dat1 V c).after 3 t) = _
  rw [after1_3]
  funext y
  rw [View.read_apply]
  obtain ⟨p, q, rfl⟩ : ∃ (p q : Fin 1024), y = ix2 p q := ⟨y 0, y 1, eq_ix2 y⟩
  show _ = stepAt (V c main_v26) (V c main_v18) (V c main_v25) ⟨win1_3.index t 0 * 1024 + 1 * p.val, by have := (idx1_3 t).1; have hN : t.val < 128 := lt_of_lt_of_eq t.isLt N_1; have := p.isLt; omega⟩ ⟨win1_3.index t 1 * 1024 + 1 * q.val, by have := (idx1_3 t).2; have := q.isLt; omega⟩
  refine out1_apply V c t h1 p q _ _ ?_ ?_
  · show win1_3.index t 0 * 1024 + 1 * p.val = _; rw [(idx1_3 t).1]; omega
  · show win1_3.index t 1 * 1024 + 1 * q.val = _; rw [(idx1_3 t).2]; omega

/-- Every entry of the output array is in the block of a point that writes back. -/
theorem cover1 (i : S4096x4096.Idx) : ∃ t : Fin cfg1.N, (cfg1.win 3).flush t = true ∧ i ∈ ((cfg1.win 3).blk t).view.set := by
  have h0 : (i 0 : Nat) < 4096 := (i 0).isLt
  have h1 : (i 1 : Nat) < 4096 := (i 1).isLt
  have hN : cfg1.N = 128 := N_1
  have ht : 8 * (4 * ((i 0).val / 1024) + (i 1).val / 1024) + 7 < cfg1.N := by rw [hN]; omega
  refine ⟨⟨8 * (4 * ((i 0).val / 1024) + (i 1).val / 1024) + 7, ht⟩, (flush1_3 _).mpr (by show (8 * (4 * ((i 0).val / 1024) + (i 1).val / 1024) + 7) % 8 = 7; omega), ?_⟩
  show i ∈ ((View.whole main_v27).slice (win1_3.rect ⟨8 * (4 * ((i 0).val / 1024) + (i 1).val / 1024) + 7, ht⟩)).set
  rw [View.set_slice_whole, Rect.mem_set_unit]
  intro a
  match a with
  | ⟨0, _⟩ =>
    show win1_3.index ⟨8 * (4 * ((i 0).val / 1024) + (i 1).val / 1024) + 7, ht⟩ 0 * win1_3.size 0 ≤ (i 0 : Nat) ∧ (i 0 : Nat) < win1_3.index ⟨8 * (4 * ((i 0).val / 1024) + (i 1).val / 1024) + 7, ht⟩ 0 * win1_3.size 0 + win1_3.xsize (grid1.coords ⟨8 * (4 * ((i 0).val / 1024) + (i 1).val / 1024) + 7, ht⟩) 0
    rw [(idx1_3 _).1, (xsize1_3 _).1]
    show (8 * (4 * ((i 0).val / 1024) + (i 1).val / 1024) + 7) / 32 * 1024 ≤ (i 0 : Nat) ∧ (i 0 : Nat) < (8 * (4 * ((i 0).val / 1024) + (i 1).val / 1024) + 7) / 32 * 1024 + 1024
    omega
  | ⟨1, _⟩ =>
    show win1_3.index ⟨8 * (4 * ((i 0).val / 1024) + (i 1).val / 1024) + 7, ht⟩ 1 * win1_3.size 1 ≤ (i 1 : Nat) ∧ (i 1 : Nat) < win1_3.index ⟨8 * (4 * ((i 0).val / 1024) + (i 1).val / 1024) + 7, ht⟩ 1 * win1_3.size 1 + win1_3.xsize (grid1.coords ⟨8 * (4 * ((i 0).val / 1024) + (i 1).val / 1024) + 7, ht⟩) 1
    rw [(idx1_3 _).2, (xsize1_3 _).2]
    show (8 * (4 * ((i 0).val / 1024) + (i 1).val / 1024) + 7) / 8 % 4 * 1024 ≤ (i 1 : Nat) ∧ (i 1 : Nat) < (8 * (4 * ((i 0).val / 1024) + (i 1).val / 1024) + 7) / 8 % 4 * 1024 + 1024
    omega

/-- The output array after the region. -/
theorem final1 (c : Dev nD) : (dat1 V c).arrAt 3 cfg1.N = G1 V c :=
  (dat1 V c).arrAt_eq_of_cover 3 (G1 V c) (flushed1_eq V c) cover1

end

end Cert.KernelIdeal.Hand

end
-- ==== Proof.KI_R2_Pieces.lean ====
/-
  Region 2: what each case's stores leave, as the body's arithmetic. Every store of the body writes a whole buffer, so a buffer
  ends holding its last store's payload: after a point with k = 0 the accumulator is the block product added to the zero
  fill; after a later point, the block product added to what the point before left; and where k = 7 the output block is the
  masked formula of that accumulator and the mask block.
-/
import proofs.«119208_j72069551226903_1_alg».proof.Proof.KI_R2_Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem sout2_A_eq (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond2_0 i) (hc1 : ¬cond2_1 i)
    (x0 : Vec F S1024x512 .f32) (x1 : Vec F S512x1024 .f32) :
    sout2_A c i a3 h3 a4 h4 a5 h5 a6 h6 a7 h7 hc0 hc1 x0 x1 = k2_pay2 (k2_pay1 (F := F)) x0 x1 := by
  unfold sout2_A
  rw [View.read_writes_eq_canon _ _ _ (scover2_A c i a3 h3 a4 h4 a5 h5 a6 h6 a7 h7 hc0 hc1 x0 x1)]
  unfold kernelRun2_A
  dsimp only
  sl_unfold_run_names
  rw [View.canon_cons_unit_zero hz2]
  rw [View.readCov_unit_zero _ hz2]
  simp only [View.readAt_eq_ld, h3.read_unread, h4.read_unread, View.ld_unit_zero (S := S1024x512) hz2, View.ld_unit_zero (S := S512x1024) hz2]

theorem sout2_B_eq (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : ¬cond2_1 i)
    (x0 : Vec F S1024x512 .f32) (x1 : Vec F S512x1024 .f32) (xs : Vec F S1024x1024 .f32) :
    sout2_B c i a3 h3 a4 h4 a5 h5 a6 h6 a7 h7 hc0 hc1 x0 x1 xs = k2_pay2 xs x0 x1 := by
  unfold sout2_B
  rw [View.read_writes_eq_canon _ _ _ (scover2_B c i a3 h3 a4 h4 a5 h5 a6 h6 a7 h7 hc0 hc1 x0 x1 xs)]
  unfold kernelRun2_B
  dsimp only
  try sl_unfold_run_names
  rw [View.canon_cons_unit_zero hz2]
  simp only [View.readAt_eq_ld, h3.read_unread, h4.read_unread, h7.read_unread, View.ld_unit_zero (S := S1024x512) hz2, View.ld_unit_zero (S := S512x1024) hz2, View.ld_unit_zero (S := S1024x1024) hz2]

theorem sout2_C_eq (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : cond2_1 i)
    (x0 : Vec F S1024x512 .f32) (x1 : Vec F S512x1024 .f32) (x2 : Vec F S1x1024 .f32) (xs : Vec F S1024x1024 .f32) :
    sout2_C c i a3 h3 a4 h4 a5 h5 a6 h6 a7 h7 hc0 hc1 x0 x1 x2 xs = k2_pay2 xs x0 x1 := by
  unfold sout2_C
  rw [View.read_writes_eq_canon _ _ _ (scover2_C c i a3 h3 a4 h4 a5 h5 a6 h6 a7 h7 hc0 hc1 x0 x1 x2 xs)]
  unfold kernelRun2_C
  dsimp only
  try sl_unfold_run_names
  rw [View.canon_cons_unit_zero hz2]
  simp only [View.readAt_eq_ld, h3.read_unread, h4.read_unread, h7.read_unread, View.ld_unit_zero (S := S1024x512) hz2, View.ld_unit_zero (S := S512x1024) hz2, View.ld_unit_zero (S := S1024x1024) hz2]

theorem out2_C_eq (c : Dev nD) (i : grid2.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond2_0 i) (hc1 : cond2_1 i)
    (x0 : Vec F S1024x512 .f32) (x1 : Vec F S512x1024 .f32) (x2 : Vec F S1x1024 .f32) (xs : Vec F S1024x1024 .f32) :
    out2_C c i a3 h3 a4 h4 a5 h5 a6 h6 a7 h7 hc0 hc1 x0 x1 x2 xs = k2_pay3 (k2_pay2 xs x0 x1) x2 := by
  unfold out2_C
  rw [View.read_writes_eq_canon _ _ _ (cover2_C c i a3 h3 a4 h4 a5 h5 a6 h6 a7 h7 hc0 hc1 x0 x1 x2 xs)]
  unfold kernelRun2_C
  dsimp only
  sl_unfold_run_names
  rw [View.canon_cons_unit_zero hz2]
  rw [View.readCov_unit_zero _ hz2]
  simp only [View.readAt_eq_ld, h3.read_unread, h4.read_unread, h5.read_unread, h7.read_unread, View.ld_unit_zero (S := S1024x512) hz2, View.ld_unit_zero (S := S512x1024) hz2, View.ld_unit_zero (S := S1024x1024) hz2, View.ld_unit_zero (S := S1x1024) hz2]

end Cert.KernelIdeal.Hand

end
-- ==== Proof.KI_R2_Val.lean ====
/-
  Region 2, read as values over the extended reals: the region leaves in its output array, at entry (i, j), the masked formula
  of the whole contraction  Σ_k h(i, k) · w(k, j)  of the hidden state `h` and the weight matrix `w` it was entered with.
  A grid point t = (i', j', k) reads rows 1024 i' … of `h` and columns 1024 j' … of `w`, block k of 512 along the contracted axis.
  After the point the accumulator holds, at (p, q), the left-nested sum of the block sums 0 … k (it starts from the zero fill);
  where k = 7 the output block is stored with the masked formula of that sum, the eight block sums being the whole sum.
  The output blocks tile the array, each written back once (where k = 7), so the array ends as one function of `h`, `w` and the mask row.
-/
import proofs.«119208_j72069551226903_1_alg».proof.Proof.KI_R2_Pieces
import proofs.«119208_j72069551226903_1_alg».proof.Proof.KI_ValCommon

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx Cert.Bridge

section
variable (V : (c : Dev nD) → (b : Ref sig .tc) → Buf (Elt Ideal) ((c : Thread nD τ).loc b))

/-! ## Which rows and columns a point reads -/

theorem idx2_0 : ∀ t : Fin cfg2.N, win2_0.index t 0 = t.val / 32 ∧ win2_0.index t 1 = t.val % 8 :=
  (by decide +kernel : ∀ t : Fin grid2.N, win2_0.index t 0 = t.val / 32 ∧ win2_0.index t 1 = t.val % 8)
theorem idx2_1 : ∀ t : Fin cfg2.N, win2_1.index t 0 = t.val % 8 ∧ win2_1.index t 1 = t.val / 8 % 4 :=
  (by decide +kernel : ∀ t : Fin grid2.N, win2_1.index t 0 = t.val % 8 ∧ win2_1.index t 1 = t.val / 8 % 4)
theorem idx2_2 : ∀ t : Fin cfg2.N, win2_2.index t 0 = 0 ∧ win2_2.index t 1 = t.val / 8 % 4 :=
  (by decide +kernel : ∀ t : Fin grid2.N, win2_2.index t 0 = 0 ∧ win2_2.index t 1 = t.val / 8 % 4)
theorem idx2_3 : ∀ t : Fin cfg2.N, win2_3.index t 0 = t.val / 32 ∧ win2_3.index t 1 = t.val / 8 % 4 :=
  (by decide +kernel : ∀ t : Fin grid2.N, win2_3.index t 0 = t.val / 32 ∧ win2_3.index t 1 = t.val / 8 % 4)

/-- The hidden state's block at a point, entry (p, r): row 1024 (t / 32) + p, column 512 (t mod 8) + r of the array. -/
theorem hblk2_apply (c : Dev nD) (t : Fin cfg2.N) (y : S1024x512.Idx) (i : S4096x4096.Idx)
    (h0 : (i 0).val = 1024 * (t.val / 32) + (y 0).val) (h1 : (i 1).val = 512 * (t.val % 8) + (y 1).val) :
    (iblk2 V c 0 t : Vec Ideal S1024x512 .f32) y = V c main_v27 i := by
  unfold iblk2
  rw [View.read_apply]
  show V c main_v27 _ = V c main_v27 i
  refine congrArg _ ?_
  funext a
  apply Fin.ext
  match a with
  | ⟨0, _⟩ => show win2_0.index t 0 * 1024 + 1 * (y 0).val = (i 0).val; rw [(idx2_0 t).1]; omega
  | ⟨1, _⟩ => show win2_0.index t 1 * 512 + 1 * (y 1).val = (i 1).val; rw [(idx2_0 t).2]; omega

/-- The weight matrix's block at a point, entry (r, q): row 512 (t mod 8) + r, column 1024 (t / 8 mod 4) + q. -/
theorem wblk2_apply (c : Dev nD) (t : Fin cfg2.N) (y : S512x1024.Idx) (i : S4096x4096.Idx)
    (h0 : (i 0).val = 512 * (t.val % 8) + (y 0).val) (h1 : (i 1).val = 1024 * (t.val / 8 % 4) + (y 1).val) :
    (iblk2 V c 1 t : Vec Ideal S512x1024 .f32) y = V c main_v18 i := by
  unfold iblk2
  rw [View.read_apply]
  show V c main_v18 _ = V c main_v18 i
  refine congrArg _ ?_
  funext a
  apply Fin.ext
  match a with
  | ⟨0, _⟩ => show win2_1.index t 0 * 512 + 1 * (y 0).val = (i 0).val; rw [(idx2_1 t).1]; omega
  | ⟨1, _⟩ => show win2_1.index t 1 * 1024 + 1 * (y 1).val = (i 1).val; rw [(idx2_1 t).2]; omega

/-- The mask row's block at a point, entry (0, q): column 1024 (t / 8 mod 4) + q. -/
theorem mblk2_apply (c : Dev nD) (t : Fin cfg2.N) (y : S1x1024.Idx) (i : S1x4096.Idx)
    (h0 : (i 0).val = (y 0).val) (h1 : (i 1).val = 1024 * (t.val / 8 % 4) + (y 1).val) :
    (iblk2 V c 2 t : Vec Ideal S1x1024 .f32) y = V c main_v25 i := by
  unfold iblk2
  rw [View.read_apply]
  show V c main_v25 _ = V c main_v25 i
  refine congrArg _ ?_
  funext a
  apply Fin.ext
  match a with
  | ⟨0, _⟩ => show win2_2.index t 0 * 1 + 1 * (y 0).val = (i 0).val; rw [(idx2_2 t).1]; omega
  | ⟨1, _⟩ => show win2_2.index t 1 * 1024 + 1 * (y 1).val = (i 1).val; rw [(idx2_2 t).2]; omega

/-! ## The accumulator, point by point -/

/-- After point `n` the accumulator holds, at (p, q), the left-nested sum of the block sums 0 … n mod 8 of the array entry
    the point's block places (p, q) at. -/
theorem acc2_apply (c : Dev nD) : ∀ (n : ℕ) (hn : n < cfg2.N) (p q : Fin 1024) (i j : Fin 4096)
    (hi : i.val = 1024 * (n / 32) + p.val) (hj : j.val = 1024 * (n / 8 % 4) + q.val),
    (outsAt2 V c n hn).2 (ix2 p q) = accUpTo (gblkOf (V c main_v27) (V c main_v18) i j) (n % 8) (Nat.mod_lt _ (by decide)) := by
  intro n
  induction n using Nat.strong_induction_on with
  | _ n ih =>
    intro hn p q i j hi hj
    have hN : n < 128 := lt_of_lt_of_eq hn N_2
    have hb := bsum_gen (V c main_v27) (V c main_v18) (iblk2 V c 0 ⟨n, hn⟩) (iblk2 V c 1 ⟨n, hn⟩) ⟨n % 8, Nat.mod_lt _ (by decide)⟩ p q i j
      (fun r => hblk2_apply V c ⟨n, hn⟩ (ix2 p r) (ix2 i ⟨512 * (n % 8) + r.val, by have := r.isLt; omega⟩) hi rfl)
      (fun r => wblk2_apply V c ⟨n, hn⟩ (ix2 r q) (ix2 ⟨512 * (n % 8) + r.val, by have := r.isLt; omega⟩ j) rfl hj)
    by_cases h0 : n % 8 = 0
    · have h1 : ¬ n % 8 = 7 := by omega
      rw [outsAt2_A V c ⟨n, hn⟩ h0 h1]
      dsimp only
      rw [sout2_A_eq, k2_pay2_apply, k2_pay1_apply, hb]
      exact (accUpTo_first _ _ _ h0).symm
    · have hz : n ≠ 0 := fun hz => h0 (by rw [hz])
      have hprev := ih (n - 1) (by omega) (Nat.lt_of_le_of_lt (Nat.sub_le _ _) hn) p q i j (by omega) (by omega)
      by_cases h1 : n % 8 = 7
      · rw [outsAt2_C V c ⟨n, hn⟩ h0 h1]
        dsimp only
        rw [sout2_C_eq, k2_pay2_apply, hprev, hb]
        exact (accUpTo_next _ ((n - 1) % 8) (n % 8) _ _ (by omega)).symm
      · rw [outsAt2_B V c ⟨n, hn⟩ h0 h1]
        dsimp only
        rw [sout2_B_eq, k2_pay2_apply, hprev, hb]
        exact (accUpTo_next _ ((n - 1) % 8) (n % 8) _ _ (by omega)).symm

/-! ## The region's result -/

/-- What the region leaves in its output array: one step of the recurrence on the arrays it was entered with. -/
def G2 (c : Dev nD) : Vec Ideal S4096x4096 .f32 := stepArr (V c main_v27) (V c main_v18) (V c main_v25)

/-- Where k = 7 the stored output block holds, at (p, q), the step at the array entry (a, b) the block places (p, q) at. -/
theorem out2_apply (c : Dev nD) (t : Fin cfg2.N) (h1 : t.val % 8 = 7) (p q : Fin 1024) (a b : Fin 4096)
    (hi : a.val = 1024 * (t.val / 32) + p.val) (hj : b.val = 1024 * (t.val / 8 % 4) + q.val) :
    (outsAt2 V c t.val t.isLt).1 (ix2 p q) = stepAt (V c main_v27) (V c main_v18) (V c main_v25) a b := by
  have h0 : ¬ t.val % 8 = 0 := by omega
  have hacc := acc2_apply V c t.val t.isLt p q a b hi hj
  rw [outsAt2_C V c t h0 h1] at hacc ⊢
  dsimp only at hacc ⊢
  rw [out2_C_eq, k2_pay3_apply]
  rw [sout2_C_eq] at hacc
  rw [hacc, stepAt_eq, mblk2_apply V c t (ix2 (0 : Fin 1) q) (ix2 (0 : Fin 1) b) rfl hj, accUpTo_at7 _ _ _ h1]

theorem xsize2_3 : ∀ t : Fin cfg2.N, win2_3.xsize (grid2.coords t) 0 = 1024 ∧ win2_3.xsize (grid2.coords t) 1 = 1024 :=
  (by decide +kernel : ∀ t : Fin grid2.N, win2_3.xsize (grid2.coords t) 0 = 1024 ∧ win2_3.xsize (grid2.coords t) 1 = 1024)

/-- What a write-back writes is the result read through the block. -/
theorem flushed2_eq (c : Dev nD) (t : Fin cfg2.N) (hf : (cfg2.win 3).flush t = true) :
    (dat2 V c).flushed 3 t = ((cfg2.win 3).blk t).view.read (Elt Ideal) (G2 V c) := by
  have h1 : t.val % 8 = 7 := (flush2_3 t).mp hf
  show (cfg2.win 3).cut (grid2.coords t) ((dat2 V c).after 3 t) = _
  rw [after2_3]
  funext y
  rw [View.read_apply]
  obtain ⟨p, q, rfl⟩ : ∃ (p q : Fin 1024), y = ix2 p q := ⟨y 0, y 1, eq_ix2 y⟩
  show _ = stepAt (V c main_v27) (V c main_v18) (V c main_v25) ⟨win2_3.index t 0 * 1024 + 1 * p.val, by have := (idx2_3 t).1; have hN : t.val < 128 := lt_of_lt_of_eq t.isLt N_2; have := p.isLt; omega⟩ ⟨win2_3.index t 1 * 1024 + 1 * q.val, by have := (idx2_3 t).2; have := q.isLt; omega⟩
  refine out2_apply V c t h1 p q _ _ ?_ ?_
  · show win2_3.index t 0 * 1024 + 1 * p.val = _; rw [(idx2_3 t).1]; omega
  · show win2_3.index t 1 * 1024 + 1 * q.val = _; rw [(idx2_3 t).2]; omega

/-- Every entry of the output array is in the block of a point that writes back. -/
theorem cover2 (i : S4096x4096.Idx) : ∃ t : Fin cfg2.N, (cfg2.win 3).flush t = true ∧ i ∈ ((cfg2.win 3).blk t).view.set := by
  have h0 : (i 0 : Nat) < 4096 := (i 0).isLt
  have h1 : (i 1 : Nat) < 4096 := (i 1).isLt
  have hN : cfg2.N = 128 := N_2
  have ht : 8 * (4 * ((i 0).val / 1024) + (i 1).val / 1024) + 7 < cfg2.N := by rw [hN]; omega
  refine ⟨⟨8 * (4 * ((i 0).val / 1024) + (i 1).val / 1024) + 7, ht⟩, (flush2_3 _).mpr (by show (8 * (4 * ((i 0).val / 1024) + (i 1).val / 1024) + 7) % 8 = 7; omega), ?_⟩
  show i ∈ ((View.whole main_v28).slice (win2_3.rect ⟨8 * (4 * ((i 0).val / 1024) + (i 1).val / 1024) + 7, ht⟩)).set
  rw [View.set_slice_whole, Rect.mem_set_unit]
  intro a
  match a with
  | ⟨0, _⟩ =>
    show win2_3.index ⟨8 * (4 * ((i 0).val / 1024) + (i 1).val / 1024) + 7, ht⟩ 0 * win2_3.size 0 ≤ (i 0 : Nat) ∧ (i 0 : Nat) < win2_3.index ⟨8 * (4 * ((i 0).val / 1024) + (i 1).val / 1024) + 7, ht⟩ 0 * win2_3.size 0 + win2_3.xsize (grid2.coords ⟨8 * (4 * ((i 0).val / 1024) + (i 1).val / 1024) + 7, ht⟩) 0
    rw [(idx2_3 _).1, (xsize2_3 _).1]
    show (8 * (4 * ((i 0).val / 1024) + (i 1).val / 1024) + 7) / 32 * 1024 ≤ (i 0 : Nat) ∧ (i 0 : Nat) < (8 * (4 * ((i 0).val / 1024) + (i 1).val / 1024) + 7) / 32 * 1024 + 1024
    omega
  | ⟨1, _⟩ =>
    show win2_3.index ⟨8 * (4 * ((i 0).val / 1024) + (i 1).val / 1024) + 7, ht⟩ 1 * win2_3.size 1 ≤ (i 1 : Nat) ∧ (i 1 : Nat) < win2_3.index ⟨8 * (4 * ((i 0).val / 1024) + (i 1).val / 1024) + 7, ht⟩ 1 * win2_3.size 1 + win2_3.xsize (grid2.coords ⟨8 * (4 * ((i 0).val / 1024) + (i 1).val / 1024) + 7, ht⟩) 1
    rw [(idx2_3 _).2, (xsize2_3 _).2]
    show (8 * (4 * ((i 0).val / 1024) + (i 1).val / 1024) + 7) / 8 % 4 * 1024 ≤ (i 1 : Nat) ∧ (i 1 : Nat) < (8 * (4 * ((i 0).val / 1024) + (i 1).val / 1024) + 7) / 8 % 4 * 1024 + 1024
    omega

/-- The output array after the region. -/
theorem final2 (c : Dev nD) : (dat2 V c).arrAt 3 cfg2.N = G2 V c :=
  (dat2 V c).arrAt_eq_of_cover 3 (G2 V c) (flushed2_eq V c) cover2

end

end Cert.KernelIdeal.Hand

end
-- ==== Proof.KI_R3_Pieces.lean ====
/-
  Region 3: what each case's stores leave, as the body's arithmetic. Every store of the body writes a whole buffer, so a buffer
  ends holding its last store's payload: after a point with k = 0 the accumulator is the block product added to the zero
  fill; after a later point, the block product added to what the point before left; and where k = 7 the output block is the
  masked formula of that accumulator and the mask block.
-/
import proofs.«119208_j72069551226903_1_alg».proof.Proof.KI_R3_Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz3 : (![0, 0] : Fin 2 → Nat) = fun _ => 0 := funext fun a => by fin_cases a <;> rfl

theorem sout3_A_eq (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond3_0 i) (hc1 : ¬cond3_1 i)
    (x0 : Vec F S1024x512 .f32) (x1 : Vec F S512x1024 .f32) :
    sout3_A c i a3 h3 a4 h4 a5 h5 a6 h6 a7 h7 hc0 hc1 x0 x1 = k3_pay2 (k3_pay1 (F := F)) x0 x1 := by
  unfold sout3_A
  rw [View.read_writes_eq_canon _ _ _ (scover3_A c i a3 h3 a4 h4 a5 h5 a6 h6 a7 h7 hc0 hc1 x0 x1)]
  unfold kernelRun3_A
  dsimp only
  sl_unfold_run_names
  rw [View.canon_cons_unit_zero hz3]
  rw [View.readCov_unit_zero _ hz3]
  simp only [View.readAt_eq_ld, h3.read_unread, h4.read_unread, View.ld_unit_zero (S := S1024x512) hz3, View.ld_unit_zero (S := S512x1024) hz3]

theorem sout3_B_eq (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : ¬cond3_1 i)
    (x0 : Vec F S1024x512 .f32) (x1 : Vec F S512x1024 .f32) (xs : Vec F S1024x1024 .f32) :
    sout3_B c i a3 h3 a4 h4 a5 h5 a6 h6 a7 h7 hc0 hc1 x0 x1 xs = k3_pay2 xs x0 x1 := by
  unfold sout3_B
  rw [View.read_writes_eq_canon _ _ _ (scover3_B c i a3 h3 a4 h4 a5 h5 a6 h6 a7 h7 hc0 hc1 x0 x1 xs)]
  unfold kernelRun3_B
  dsimp only
  try sl_unfold_run_names
  rw [View.canon_cons_unit_zero hz3]
  simp only [View.readAt_eq_ld, h3.read_unread, h4.read_unread, h7.read_unread, View.ld_unit_zero (S := S1024x512) hz3, View.ld_unit_zero (S := S512x1024) hz3, View.ld_unit_zero (S := S1024x1024) hz3]

theorem sout3_C_eq (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : cond3_1 i)
    (x0 : Vec F S1024x512 .f32) (x1 : Vec F S512x1024 .f32) (x2 : Vec F S1x1024 .f32) (xs : Vec F S1024x1024 .f32) :
    sout3_C c i a3 h3 a4 h4 a5 h5 a6 h6 a7 h7 hc0 hc1 x0 x1 x2 xs = k3_pay2 xs x0 x1 := by
  unfold sout3_C
  rw [View.read_writes_eq_canon _ _ _ (scover3_C c i a3 h3 a4 h4 a5 h5 a6 h6 a7 h7 hc0 hc1 x0 x1 x2 xs)]
  unfold kernelRun3_C
  dsimp only
  try sl_unfold_run_names
  rw [View.canon_cons_unit_zero hz3]
  simp only [View.readAt_eq_ld, h3.read_unread, h4.read_unread, h7.read_unread, View.ld_unit_zero (S := S1024x512) hz3, View.ld_unit_zero (S := S512x1024) hz3, View.ld_unit_zero (S := S1024x1024) hz3]

theorem out3_C_eq (c : Dev nD) (i : grid3.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond3_0 i) (hc1 : cond3_1 i)
    (x0 : Vec F S1024x512 .f32) (x1 : Vec F S512x1024 .f32) (x2 : Vec F S1x1024 .f32) (xs : Vec F S1024x1024 .f32) :
    out3_C c i a3 h3 a4 h4 a5 h5 a6 h6 a7 h7 hc0 hc1 x0 x1 x2 xs = k3_pay3 (k3_pay2 xs x0 x1) x2 := by
  unfold out3_C
  rw [View.read_writes_eq_canon _ _ _ (cover3_C c i a3 h3 a4 h4 a5 h5 a6 h6 a7 h7 hc0 hc1 x0 x1 x2 xs)]
  unfold kernelRun3_C
  dsimp only
  sl_unfold_run_names
  rw [View.canon_cons_unit_zero hz3]
  rw [View.readCov_unit_zero _ hz3]
  simp only [View.readAt_eq_ld, h3.read_unread, h4.read_unread, h5.read_unread, h7.read_unread, View.ld_unit_zero (S := S1024x512) hz3, View.ld_unit_zero (S := S512x1024) hz3, View.ld_unit_zero (S := S1024x1024) hz3, View.ld_unit_zero (S := S1x1024) hz3]

end Cert.KernelIdeal.Hand

end
-- ==== Proof.KI_R3_Val.lean ====
/-
  Region 3, read as values over the extended reals: the region leaves in its output array, at entry (i, j), the masked formula
  of the whole contraction  Σ_k h(i, k) · w(k, j)  of the hidden state `h` and the weight matrix `w` it was entered with.
  A grid point t = (i', j', k) reads rows 1024 i' … of `h` and columns 1024 j' … of `w`, block k of 512 along the contracted axis.
  After the point the accumulator holds, at (p, q), the left-nested sum of the block sums 0 … k (it starts from the zero fill);
  where k = 7 the output block is stored with the masked formula of that sum, the eight block sums being the whole sum.
  The output blocks tile the array, each written back once (where k = 7), so the array ends as one function of `h`, `w` and the mask row.
-/
import proofs.«119208_j72069551226903_1_alg».proof.Proof.KI_R3_Pieces
import proofs.«119208_j72069551226903_1_alg».proof.Proof.KI_ValCommon

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx Cert.Bridge

section
variable (V : (c : Dev nD) → (b : Ref sig .tc) → Buf (Elt Ideal) ((c : Thread nD τ).loc b))

/-! ## Which rows and columns a point reads -/

theorem idx3_0 : ∀ t : Fin cfg3.N, win3_0.index t 0 = t.val / 32 ∧ win3_0.index t 1 = t.val % 8 :=
  (by decide +kernel : ∀ t : Fin grid3.N, win3_0.index t 0 = t.val / 32 ∧ win3_0.index t 1 = t.val % 8)
theorem idx3_1 : ∀ t : Fin cfg3.N, win3_1.index t 0 = t.val % 8 ∧ win3_1.index t 1 = t.val / 8 % 4 :=
  (by decide +kernel : ∀ t : Fin grid3.N, win3_1.index t 0 = t.val % 8 ∧ win3_1.index t 1 = t.val / 8 % 4)
theorem idx3_2 : ∀ t : Fin cfg3.N, win3_2.index t 0 = 0 ∧ win3_2.index t 1 = t.val / 8 % 4 :=
  (by decide +kernel : ∀ t : Fin grid3.N, win3_2.index t 0 = 0 ∧ win3_2.index t 1 = t.val / 8 % 4)
theorem idx3_3 : ∀ t : Fin cfg3.N, win3_3.index t 0 = t.val / 32 ∧ win3_3.index t 1 = t.val / 8 % 4 :=
  (by decide +kernel : ∀ t : Fin grid3.N, win3_3.index t 0 = t.val / 32 ∧ win3_3.index t 1 = t.val / 8 % 4)

/-- The hidden state's block at a point, entry (p, r): row 1024 (t / 32) + p, column 512 (t mod 8) + r of the array. -/
theorem hblk3_apply (c : Dev nD) (t : Fin cfg3.N) (y : S1024x512.Idx) (i : S4096x4096.Idx)
    (h0 : (i 0).val = 1024 * (t.val / 32) + (y 0).val) (h1 : (i 1).val = 512 * (t.val % 8) + (y 1).val) :
    (iblk3 V c 0 t : Vec Ideal S1024x512 .f32) y = V c main_v28 i := by
  unfold iblk3
  rw [View.read_apply]
  show V c main_v28 _ = V c main_v28 i
  refine congrArg _ ?_
  funext a
  apply Fin.ext
  match a with
  | ⟨0, _⟩ => show win3_0.index t 0 * 1024 + 1 * (y 0).val = (i 0).val; rw [(idx3_0 t).1]; omega
  | ⟨1, _⟩ => show win3_0.index t 1 * 512 + 1 * (y 1).val = (i 1).val; rw [(idx3_0 t).2]; omega

/-- The weight matrix's block at a point, entry (r, q): row 512 (t mod 8) + r, column 1024 (t / 8 mod 4) + q. -/
theorem wblk3_apply (c : Dev nD) (t : Fin cfg3.N) (y : S512x1024.Idx) (i : S4096x4096.Idx)
    (h0 : (i 0).val = 512 * (t.val % 8) + (y 0).val) (h1 : (i 1).val = 1024 * (t.val / 8 % 4) + (y 1).val) :
    (iblk3 V c 1 t : Vec Ideal S512x1024 .f32) y = V c main_v18 i := by
  unfold iblk3
  rw [View.read_apply]
  show V c main_v18 _ = V c main_v18 i
  refine congrArg _ ?_
  funext a
  apply Fin.ext
  match a with
  | ⟨0, _⟩ => show win3_1.index t 0 * 512 + 1 * (y 0).val = (i 0).val; rw [(idx3_1 t).1]; omega
  | ⟨1, _⟩ => show win3_1.index t 1 * 1024 + 1 * (y 1).val = (i 1).val; rw [(idx3_1 t).2]; omega

/-- The mask row's block at a point, entry (0, q): column 1024 (t / 8 mod 4) + q. -/
theorem mblk3_apply (c : Dev nD) (t : Fin cfg3.N) (y : S1x1024.Idx) (i : S1x4096.Idx)
    (h0 : (i 0).val = (y 0).val) (h1 : (i 1).val = 1024 * (t.val / 8 % 4) + (y 1).val) :
    (iblk3 V c 2 t : Vec Ideal S1x1024 .f32) y = V c main_v25 i := by
  unfold iblk3
  rw [View.read_apply]
  show V c main_v25 _ = V c main_v25 i
  refine congrArg _ ?_
  funext a
  apply Fin.ext
  match a with
  | ⟨0, _⟩ => show win3_2.index t 0 * 1 + 1 * (y 0).val = (i 0).val; rw [(idx3_2 t).1]; omega
  | ⟨1, _⟩ => show win3_2.index t 1 * 1024 + 1 * (y 1).val = (i 1).val; rw [(idx3_2 t).2]; omega

/-! ## The accumulator, point by point -/

/-- After point `n` the accumulator holds, at (p, q), the left-nested sum of the block sums 0 … n mod 8 of the array entry
    the point's block places (p, q) at. -/
theorem acc3_apply (c : Dev nD) : ∀ (n : ℕ) (hn : n < cfg3.N) (p q : Fin 1024) (i j : Fin 4096)
    (hi : i.val = 1024 * (n / 32) + p.val) (hj : j.val = 1024 * (n / 8 % 4) + q.val),
    (outsAt3 V c n hn).2 (ix2 p q) = accUpTo (gblkOf (V c main_v28) (V c main_v18) i j) (n % 8) (Nat.mod_lt _ (by decide)) := by
  intro n
  induction n using Nat.strong_induction_on with
  | _ n ih =>
    intro hn p q i j hi hj
    have hN : n < 128 := lt_of_lt_of_eq hn N_3
    have hb := bsum_gen (V c main_v28) (V c main_v18) (iblk3 V c 0 ⟨n, hn⟩) (iblk3 V c 1 ⟨n, hn⟩) ⟨n % 8, Nat.mod_lt _ (by decide)⟩ p q i j
      (fun r => hblk3_apply V c ⟨n, hn⟩ (ix2 p r) (ix2 i ⟨512 * (n % 8) + r.val, by have := r.isLt; omega⟩) hi rfl)
      (fun r => wblk3_apply V c ⟨n, hn⟩ (ix2 r q) (ix2 ⟨512 * (n % 8) + r.val, by have := r.isLt; omega⟩ j) rfl hj)
    by_cases h0 : n % 8 = 0
    · have h1 : ¬ n % 8 = 7 := by omega
      rw [outsAt3_A V c ⟨n, hn⟩ h0 h1]
      dsimp only
      rw [sout3_A_eq, k3_pay2_apply, k3_pay1_apply, hb]
      exact (accUpTo_first _ _ _ h0).symm
    · have hz : n ≠ 0 := fun hz => h0 (by rw [hz])
      have hprev := ih (n - 1) (by omega) (Nat.lt_of_le_of_lt (Nat.sub_le _ _) hn) p q i j (by omega) (by omega)
      by_cases h1 : n % 8 = 7
      · rw [outsAt3_C V c ⟨n, hn⟩ h0 h1]
        dsimp only
        rw [sout3_C_eq, k3_pay2_apply, hprev, hb]
        exact (accUpTo_next _ ((n - 1) % 8) (n % 8) _ _ (by omega)).symm
      · rw [outsAt3_B V c ⟨n, hn⟩ h0 h1]
        dsimp only
        rw [sout3_B_eq, k3_pay2_apply, hprev, hb]
        exact (accUpTo_next _ ((n - 1) % 8) (n % 8) _ _ (by omega)).symm

/-! ## The region's result -/

/-- What the region leaves in its output array: one step of the recurrence on the arrays it was entered with. -/
def G3 (c : Dev nD) : Vec Ideal S4096x4096 .f32 := stepArr (V c main_v28) (V c main_v18) (V c main_v25)

/-- Where k = 7 the stored output block holds, at (p, q), the step at the array entry (a, b) the block places (p, q) at. -/
theorem out3_apply (c : Dev nD) (t : Fin cfg3.N) (h1 : t.val % 8 = 7) (p q : Fin 1024) (a b : Fin 4096)
    (hi : a.val = 1024 * (t.val / 32) + p.val) (hj : b.val = 1024 * (t.val / 8 % 4) + q.val) :
    (outsAt3 V c t.val t.isLt).1 (ix2 p q) = stepAt (V c main_v28) (V c main_v18) (V c main_v25) a b := by
  have h0 : ¬ t.val % 8 = 0 := by omega
  have hacc := acc3_apply V c t.val t.isLt p q a b hi hj
  rw [outsAt3_C V c t h0 h1] at hacc ⊢
  dsimp only at hacc ⊢
  rw [out3_C_eq, k3_pay3_apply]
  rw [sout3_C_eq] at hacc
  rw [hacc, stepAt_eq, mblk3_apply V c t (ix2 (0 : Fin 1) q) (ix2 (0 : Fin 1) b) rfl hj, accUpTo_at7 _ _ _ h1]

theorem xsize3_3 : ∀ t : Fin cfg3.N, win3_3.xsize (grid3.coords t) 0 = 1024 ∧ win3_3.xsize (grid3.coords t) 1 = 1024 :=
  (by decide +kernel : ∀ t : Fin grid3.N, win3_3.xsize (grid3.coords t) 0 = 1024 ∧ win3_3.xsize (grid3.coords t) 1 = 1024)

/-- What a write-back writes is the result read through the block. -/
theorem flushed3_eq (c : Dev nD) (t : Fin cfg3.N) (hf : (cfg3.win 3).flush t = true) :
    (dat3 V c).flushed 3 t = ((cfg3.win 3).blk t).view.read (Elt Ideal) (G3 V c) := by
  have h1 : t.val % 8 = 7 := (flush3_3 t).mp hf
  show (cfg3.win 3).cut (grid3.coords t) ((dat3 V c).after 3 t) = _
  rw [after3_3]
  funext y
  rw [View.read_apply]
  obtain ⟨p, q, rfl⟩ : ∃ (p q : Fin 1024), y = ix2 p q := ⟨y 0, y 1, eq_ix2 y⟩
  show _ = stepAt (V c main_v28) (V c main_v18) (V c main_v25) ⟨win3_3.index t 0 * 1024 + 1 * p.val, by have := (idx3_3 t).1; have hN : t.val < 128 := lt_of_lt_of_eq t.isLt N_3; have := p.isLt; omega⟩ ⟨win3_3.index t 1 * 1024 + 1 * q.val, by have := (idx3_3 t).2; have := q.isLt; omega⟩
  refine out3_apply V c t h1 p q _ _ ?_ ?_
  · show win3_3.index t 0 * 1024 + 1 * p.val = _; rw [(idx3_3 t).1]; omega
  · show win3_3.index t 1 * 1024 + 1 * q.val = _; rw [(idx3_3 t).2]; omega

/-- Every entry of the output array is in the block of a point that writes back. -/
theorem cover3 (i : S4096x4096.Idx) : ∃ t : Fin cfg3.N, (cfg3.win 3).flush t = true ∧ i ∈ ((cfg3.win 3).blk t).view.set := by
  have h0 : (i 0 : Nat) < 4096 := (i 0).isLt
  have h1 : (i 1 : Nat) < 4096 := (i 1).isLt
  have hN : cfg3.N = 128 := N_3
  have ht : 8 * (4 * ((i 0).val / 1024) + (i 1).val / 1024) + 7 < cfg3.N := by rw [hN]; omega
  refine ⟨⟨8 * (4 * ((i 0).val / 1024) + (i 1).val / 1024) + 7, ht⟩, (flush3_3 _).mpr (by show (8 * (4 * ((i 0).val / 1024) + (i 1).val / 1024) + 7) % 8 = 7; omega), ?_⟩
  show i ∈ ((View.whole main_v29).slice (win3_3.rect ⟨8 * (4 * ((i 0).val / 1024) + (i 1).val / 1024) + 7, ht⟩)).set
  rw [View.set_slice_whole, Rect.mem_set_unit]
  intro a
  match a with
  | ⟨0, _⟩ =>
    show win3_3.index ⟨8 * (4 * ((i 0).val / 1024) + (i 1).val / 1024) + 7, ht⟩ 0 * win3_3.size 0 ≤ (i 0 : Nat) ∧ (i 0 : Nat) < win3_3.index ⟨8 * (4 * ((i 0).val / 1024) + (i 1).val / 1024) + 7, ht⟩ 0 * win3_3.size 0 + win3_3.xsize (grid3.coords ⟨8 * (4 * ((i 0).val / 1024) + (i 1).val / 1024) + 7, ht⟩) 0
    rw [(idx3_3 _).1, (xsize3_3 _).1]
    show (8 * (4 * ((i 0).val / 1024) + (i 1).val / 1024) + 7) / 32 * 1024 ≤ (i 0 : Nat) ∧ (i 0 : Nat) < (8 * (4 * ((i 0).val / 1024) + (i 1).val / 1024) + 7) / 32 * 1024 + 1024
    omega
  | ⟨1, _⟩ =>
    show win3_3.index ⟨8 * (4 * ((i 0).val / 1024) + (i 1).val / 1024) + 7, ht⟩ 1 * win3_3.size 1 ≤ (i 1 : Nat) ∧ (i 1 : Nat) < win3_3.index ⟨8 * (4 * ((i 0).val / 1024) + (i 1).val / 1024) + 7, ht⟩ 1 * win3_3.size 1 + win3_3.xsize (grid3.coords ⟨8 * (4 * ((i 0).val / 1024) + (i 1).val / 1024) + 7, ht⟩) 1
    rw [(idx3_3 _).2, (xsize3_3 _).2]
    show (8 * (4 * ((i 0).val / 1024) + (i 1).val / 1024) + 7) / 8 % 4 * 1024 ≤ (i 1 : Nat) ∧ (i 1 : Nat) < (8 * (4 * ((i 0).val / 1024) + (i 1).val / 1024) + 7) / 8 % 4 * 1024 + 1024
    omega

/-- The output array after the region. -/
theorem final3 (c : Dev nD) : (dat3 V c).arrAt 3 cfg3.N = G3 V c :=
  (dat3 V c).arrAt_eq_of_cover 3 (G3 V c) (flushed3_eq V c) cover3

end

end Cert.KernelIdeal.Hand

end
-- ==== Proof.KI_R4_Pieces.lean ====
/-
  Region 4: what each case's stores leave, as the body's arithmetic. Every store of the body writes a whole buffer, so a buffer
  ends holding its last store's payload: after a point with k = 0 the accumulator is the block product added to the zero
  fill; after a later point, the block product added to what the point before left; and where k = 7 the output block is the
  masked formula of that accumulator and the mask block.
-/
import proofs.«119208_j72069551226903_1_alg».proof.Proof.KI_R4_Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz4 : (![0, 0] : Fin 2 → Nat) = fun _ => 0 := funext fun a => by fin_cases a <;> rfl

theorem sout4_A_eq (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond4_0 i) (hc1 : ¬cond4_1 i)
    (x0 : Vec F S1024x512 .f32) (x1 : Vec F S512x1024 .f32) :
    sout4_A c i a3 h3 a4 h4 a5 h5 a6 h6 a7 h7 hc0 hc1 x0 x1 = k4_pay2 (k4_pay1 (F := F)) x0 x1 := by
  unfold sout4_A
  rw [View.read_writes_eq_canon _ _ _ (scover4_A c i a3 h3 a4 h4 a5 h5 a6 h6 a7 h7 hc0 hc1 x0 x1)]
  unfold kernelRun4_A
  dsimp only
  sl_unfold_run_names
  rw [View.canon_cons_unit_zero hz4]
  rw [View.readCov_unit_zero _ hz4]
  simp only [View.readAt_eq_ld, h3.read_unread, h4.read_unread, View.ld_unit_zero (S := S1024x512) hz4, View.ld_unit_zero (S := S512x1024) hz4]

theorem sout4_B_eq (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : ¬cond4_1 i)
    (x0 : Vec F S1024x512 .f32) (x1 : Vec F S512x1024 .f32) (xs : Vec F S1024x1024 .f32) :
    sout4_B c i a3 h3 a4 h4 a5 h5 a6 h6 a7 h7 hc0 hc1 x0 x1 xs = k4_pay2 xs x0 x1 := by
  unfold sout4_B
  rw [View.read_writes_eq_canon _ _ _ (scover4_B c i a3 h3 a4 h4 a5 h5 a6 h6 a7 h7 hc0 hc1 x0 x1 xs)]
  unfold kernelRun4_B
  dsimp only
  try sl_unfold_run_names
  rw [View.canon_cons_unit_zero hz4]
  simp only [View.readAt_eq_ld, h3.read_unread, h4.read_unread, h7.read_unread, View.ld_unit_zero (S := S1024x512) hz4, View.ld_unit_zero (S := S512x1024) hz4, View.ld_unit_zero (S := S1024x1024) hz4]

theorem sout4_C_eq (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : cond4_1 i)
    (x0 : Vec F S1024x512 .f32) (x1 : Vec F S512x1024 .f32) (x2 : Vec F S1x1024 .f32) (xs : Vec F S1024x1024 .f32) :
    sout4_C c i a3 h3 a4 h4 a5 h5 a6 h6 a7 h7 hc0 hc1 x0 x1 x2 xs = k4_pay2 xs x0 x1 := by
  unfold sout4_C
  rw [View.read_writes_eq_canon _ _ _ (scover4_C c i a3 h3 a4 h4 a5 h5 a6 h6 a7 h7 hc0 hc1 x0 x1 x2 xs)]
  unfold kernelRun4_C
  dsimp only
  try sl_unfold_run_names
  rw [View.canon_cons_unit_zero hz4]
  simp only [View.readAt_eq_ld, h3.read_unread, h4.read_unread, h7.read_unread, View.ld_unit_zero (S := S1024x512) hz4, View.ld_unit_zero (S := S512x1024) hz4, View.ld_unit_zero (S := S1024x1024) hz4]

theorem out4_C_eq (c : Dev nD) (i : grid4.Coords) (a3 : Memref sig .tc .vmem S1024x512 .f32) (h3 : a3.IsWhole) (a4 : Memref sig .tc .vmem S512x1024 .f32) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond4_0 i) (hc1 : cond4_1 i)
    (x0 : Vec F S1024x512 .f32) (x1 : Vec F S512x1024 .f32) (x2 : Vec F S1x1024 .f32) (xs : Vec F S1024x1024 .f32) :
    out4_C c i a3 h3 a4 h4 a5 h5 a6 h6 a7 h7 hc0 hc1 x0 x1 x2 xs = k4_pay3 (k4_pay2 xs x0 x1) x2 := by
  unfold out4_C
  rw [View.read_writes_eq_canon _ _ _ (cover4_C c i a3 h3 a4 h4 a5 h5 a6 h6 a7 h7 hc0 hc1 x0 x1 x2 xs)]
  unfold kernelRun4_C
  dsimp only
  sl_unfold_run_names
  rw [View.canon_cons_unit_zero hz4]
  rw [View.readCov_unit_zero _ hz4]
  simp only [View.readAt_eq_ld, h3.read_unread, h4.read_unread, h5.read_unread, h7.read_unread, View.ld_unit_zero (S := S1024x512) hz4, View.ld_unit_zero (S := S512x1024) hz4, View.ld_unit_zero (S := S1024x1024) hz4, View.ld_unit_zero (S := S1x1024) hz4]

end Cert.KernelIdeal.Hand

end
-- ==== Proof.KI_R4_Val.lean ====
/-
  Region 4, read as values over the extended reals: the region leaves in its output array, at entry (i, j), the masked formula
  of the whole contraction  Σ_k h(i, k) · w(k, j)  of the hidden state `h` and the weight matrix `w` it was entered with.
  A grid point t = (i', j', k) reads rows 1024 i' … of `h` and columns 1024 j' … of `w`, block k of 512 along the contracted axis.
  After the point the accumulator holds, at (p, q), the left-nested sum of the block sums 0 … k (it starts from the zero fill);
  where k = 7 the output block is stored with the masked formula of that sum, the eight block sums being the whole sum.
  The output blocks tile the array, each written back once (where k = 7), so the array ends as one function of `h`, `w` and the mask row.
-/
import proofs.«119208_j72069551226903_1_alg».proof.Proof.KI_R4_Pieces
import proofs.«119208_j72069551226903_1_alg».proof.Proof.KI_ValCommon

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx Cert.Bridge

section
variable (V : (c : Dev nD) → (b : Ref sig .tc) → Buf (Elt Ideal) ((c : Thread nD τ).loc b))

/-! ## Which rows and columns a point reads -/

theorem idx4_0 : ∀ t : Fin cfg4.N, win4_0.index t 0 = t.val / 32 ∧ win4_0.index t 1 = t.val % 8 :=
  (by decide +kernel : ∀ t : Fin grid4.N, win4_0.index t 0 = t.val / 32 ∧ win4_0.index t 1 = t.val % 8)
theorem idx4_1 : ∀ t : Fin cfg4.N, win4_1.index t 0 = t.val % 8 ∧ win4_1.index t 1 = t.val / 8 % 4 :=
  (by decide +kernel : ∀ t : Fin grid4.N, win4_1.index t 0 = t.val % 8 ∧ win4_1.index t 1 = t.val / 8 % 4)
theorem idx4_2 : ∀ t : Fin cfg4.N, win4_2.index t 0 = 0 ∧ win4_2.index t 1 = t.val / 8 % 4 :=
  (by decide +kernel : ∀ t : Fin grid4.N, win4_2.index t 0 = 0 ∧ win4_2.index t 1 = t.val / 8 % 4)
theorem idx4_3 : ∀ t : Fin cfg4.N, win4_3.index t 0 = t.val / 32 ∧ win4_3.index t 1 = t.val / 8 % 4 :=
  (by decide +kernel : ∀ t : Fin grid4.N, win4_3.index t 0 = t.val / 32 ∧ win4_3.index t 1 = t.val / 8 % 4)

/-- The hidden state's block at a point, entry (p, r): row 1024 (t / 32) + p, column 512 (t mod 8) + r of the array. -/
theorem hblk4_apply (c : Dev nD) (t : Fin cfg4.N) (y : S1024x512.Idx) (i : S4096x4096.Idx)
    (h0 : (i 0).val = 1024 * (t.val / 32) + (y 0).val) (h1 : (i 1).val = 512 * (t.val % 8) + (y 1).val) :
    (iblk4 V c 0 t : Vec Ideal S1024x512 .f32) y = V c main_v29 i := by
  unfold iblk4
  rw [View.read_apply]
  show V c main_v29 _ = V c main_v29 i
  refine congrArg _ ?_
  funext a
  apply Fin.ext
  match a with
  | ⟨0, _⟩ => show win4_0.index t 0 * 1024 + 1 * (y 0).val = (i 0).val; rw [(idx4_0 t).1]; omega
  | ⟨1, _⟩ => show win4_0.index t 1 * 512 + 1 * (y 1).val = (i 1).val; rw [(idx4_0 t).2]; omega

/-- The weight matrix's block at a point, entry (r, q): row 512 (t mod 8) + r, column 1024 (t / 8 mod 4) + q. -/
theorem wblk4_apply (c : Dev nD) (t : Fin cfg4.N) (y : S512x1024.Idx) (i : S4096x4096.Idx)
    (h0 : (i 0).val = 512 * (t.val % 8) + (y 0).val) (h1 : (i 1).val = 1024 * (t.val / 8 % 4) + (y 1).val) :
    (iblk4 V c 1 t : Vec Ideal S512x1024 .f32) y = V c main_v18 i := by
  unfold iblk4
  rw [View.read_apply]
  show V c main_v18 _ = V c main_v18 i
  refine congrArg _ ?_
  funext a
  apply Fin.ext
  match a with
  | ⟨0, _⟩ => show win4_1.index t 0 * 512 + 1 * (y 0).val = (i 0).val; rw [(idx4_1 t).1]; omega
  | ⟨1, _⟩ => show win4_1.index t 1 * 1024 + 1 * (y 1).val = (i 1).val; rw [(idx4_1 t).2]; omega

/-- The mask row's block at a point, entry (0, q): column 1024 (t / 8 mod 4) + q. -/
theorem mblk4_apply (c : Dev nD) (t : Fin cfg4.N) (y : S1x1024.Idx) (i : S1x4096.Idx)
    (h0 : (i 0).val = (y 0).val) (h1 : (i 1).val = 1024 * (t.val / 8 % 4) + (y 1).val) :
    (iblk4 V c 2 t : Vec Ideal S1x1024 .f32) y = V c main_v25 i := by
  unfold iblk4
  rw [View.read_apply]
  show V c main_v25 _ = V c main_v25 i
  refine congrArg _ ?_
  funext a
  apply Fin.ext
  match a with
  | ⟨0, _⟩ => show win4_2.index t 0 * 1 + 1 * (y 0).val = (i 0).val; rw [(idx4_2 t).1]; omega
  | ⟨1, _⟩ => show win4_2.index t 1 * 1024 + 1 * (y 1).val = (i 1).val; rw [(idx4_2 t).2]; omega

/-! ## The accumulator, point by point -/

/-- After point `n` the accumulator holds, at (p, q), the left-nested sum of the block sums 0 … n mod 8 of the array entry
    the point's block places (p, q) at. -/
theorem acc4_apply (c : Dev nD) : ∀ (n : ℕ) (hn : n < cfg4.N) (p q : Fin 1024) (i j : Fin 4096)
    (hi : i.val = 1024 * (n / 32) + p.val) (hj : j.val = 1024 * (n / 8 % 4) + q.val),
    (outsAt4 V c n hn).2 (ix2 p q) = accUpTo (gblkOf (V c main_v29) (V c main_v18) i j) (n % 8) (Nat.mod_lt _ (by decide)) := by
  intro n
  induction n using Nat.strong_induction_on with
  | _ n ih =>
    intro hn p q i j hi hj
    have hN : n < 128 := lt_of_lt_of_eq hn N_4
    have hb := bsum_gen (V c main_v29) (V c main_v18) (iblk4 V c 0 ⟨n, hn⟩) (iblk4 V c 1 ⟨n, hn⟩) ⟨n % 8, Nat.mod_lt _ (by decide)⟩ p q i j
      (fun r => hblk4_apply V c ⟨n, hn⟩ (ix2 p r) (ix2 i ⟨512 * (n % 8) + r.val, by have := r.isLt; omega⟩) hi rfl)
      (fun r => wblk4_apply V c ⟨n, hn⟩ (ix2 r q) (ix2 ⟨512 * (n % 8) + r.val, by have := r.isLt; omega⟩ j) rfl hj)
    by_cases h0 : n % 8 = 0
    · have h1 : ¬ n % 8 = 7 := by omega
      rw [outsAt4_A V c ⟨n, hn⟩ h0 h1]
      dsimp only
      rw [sout4_A_eq, k4_pay2_apply, k4_pay1_apply, hb]
      exact (accUpTo_first _ _ _ h0).symm
    · have hz : n ≠ 0 := fun hz => h0 (by rw [hz])
      have hprev := ih (n - 1) (by omega) (Nat.lt_of_le_of_lt (Nat.sub_le _ _) hn) p q i j (by omega) (by omega)
      by_cases h1 : n % 8 = 7
      · rw [outsAt4_C V c ⟨n, hn⟩ h0 h1]
        dsimp only
        rw [sout4_C_eq, k4_pay2_apply, hprev, hb]
        exact (accUpTo_next _ ((n - 1) % 8) (n % 8) _ _ (by omega)).symm
      · rw [outsAt4_B V c ⟨n, hn⟩ h0 h1]
        dsimp only
        rw [sout4_B_eq, k4_pay2_apply, hprev, hb]
        exact (accUpTo_next _ ((n - 1) % 8) (n % 8) _ _ (by omega)).symm

/-! ## The region's result -/

/-- What the region leaves in its output array: one step of the recurrence on the arrays it was entered with. -/
def G4 (c : Dev nD) : Vec Ideal S4096x4096 .f32 := stepArr (V c main_v29) (V c main_v18) (V c main_v25)

/-- Where k = 7 the stored output block holds, at (p, q), the step at the array entry (a, b) the block places (p, q) at. -/
theorem out4_apply (c : Dev nD) (t : Fin cfg4.N) (h1 : t.val % 8 = 7) (p q : Fin 1024) (a b : Fin 4096)
    (hi : a.val = 1024 * (t.val / 32) + p.val) (hj : b.val = 1024 * (t.val / 8 % 4) + q.val) :
    (outsAt4 V c t.val t.isLt).1 (ix2 p q) = stepAt (V c main_v29) (V c main_v18) (V c main_v25) a b := by
  have h0 : ¬ t.val % 8 = 0 := by omega
  have hacc := acc4_apply V c t.val t.isLt p q a b hi hj
  rw [outsAt4_C V c t h0 h1] at hacc ⊢
  dsimp only at hacc ⊢
  rw [out4_C_eq, k4_pay3_apply]
  rw [sout4_C_eq] at hacc
  rw [hacc, stepAt_eq, mblk4_apply V c t (ix2 (0 : Fin 1) q) (ix2 (0 : Fin 1) b) rfl hj, accUpTo_at7 _ _ _ h1]

theorem xsize4_3 : ∀ t : Fin cfg4.N, win4_3.xsize (grid4.coords t) 0 = 1024 ∧ win4_3.xsize (grid4.coords t) 1 = 1024 :=
  (by decide +kernel : ∀ t : Fin grid4.N, win4_3.xsize (grid4.coords t) 0 = 1024 ∧ win4_3.xsize (grid4.coords t) 1 = 1024)

/-- What a write-back writes is the result read through the block. -/
theorem flushed4_eq (c : Dev nD) (t : Fin cfg4.N) (hf : (cfg4.win 3).flush t = true) :
    (dat4 V c).flushed 3 t = ((cfg4.win 3).blk t).view.read (Elt Ideal) (G4 V c) := by
  have h1 : t.val % 8 = 7 := (flush4_3 t).mp hf
  show (cfg4.win 3).cut (grid4.coords t) ((dat4 V c).after 3 t) = _
  rw [after4_3]
  funext y
  rw [View.read_apply]
  obtain ⟨p, q, rfl⟩ : ∃ (p q : Fin 1024), y = ix2 p q := ⟨y 0, y 1, eq_ix2 y⟩
  show _ = stepAt (V c main_v29) (V c main_v18) (V c main_v25) ⟨win4_3.index t 0 * 1024 + 1 * p.val, by have := (idx4_3 t).1; have hN : t.val < 128 := lt_of_lt_of_eq t.isLt N_4; have := p.isLt; omega⟩ ⟨win4_3.index t 1 * 1024 + 1 * q.val, by have := (idx4_3 t).2; have := q.isLt; omega⟩
  refine out4_apply V c t h1 p q _ _ ?_ ?_
  · show win4_3.index t 0 * 1024 + 1 * p.val = _; rw [(idx4_3 t).1]; omega
  · show win4_3.index t 1 * 1024 + 1 * q.val = _; rw [(idx4_3 t).2]; omega

/-- Every entry of the output array is in the block of a point that writes back. -/
theorem cover4 (i : S4096x4096.Idx) : ∃ t : Fin cfg4.N, (cfg4.win 3).flush t = true ∧ i ∈ ((cfg4.win 3).blk t).view.set := by
  have h0 : (i 0 : Nat) < 4096 := (i 0).isLt
  have h1 : (i 1 : Nat) < 4096 := (i 1).isLt
  have hN : cfg4.N = 128 := N_4
  have ht : 8 * (4 * ((i 0).val / 1024) + (i 1).val / 1024) + 7 < cfg4.N := by rw [hN]; omega
  refine ⟨⟨8 * (4 * ((i 0).val / 1024) + (i 1).val / 1024) + 7, ht⟩, (flush4_3 _).mpr (by show (8 * (4 * ((i 0).val / 1024) + (i 1).val / 1024) + 7) % 8 = 7; omega), ?_⟩
  show i ∈ ((View.whole main_v30).slice (win4_3.rect ⟨8 * (4 * ((i 0).val / 1024) + (i 1).val / 1024) + 7, ht⟩)).set
  rw [View.set_slice_whole, Rect.mem_set_unit]
  intro a
  match a with
  | ⟨0, _⟩ =>
    show win4_3.index ⟨8 * (4 * ((i 0).val / 1024) + (i 1).val / 1024) + 7, ht⟩ 0 * win4_3.size 0 ≤ (i 0 : Nat) ∧ (i 0 : Nat) < win4_3.index ⟨8 * (4 * ((i 0).val / 1024) + (i 1).val / 1024) + 7, ht⟩ 0 * win4_3.size 0 + win4_3.xsize (grid4.coords ⟨8 * (4 * ((i 0).val / 1024) + (i 1).val / 1024) + 7, ht⟩) 0
    rw [(idx4_3 _).1, (xsize4_3 _).1]
    show (8 * (4 * ((i 0).val / 1024) + (i 1).val / 1024) + 7) / 32 * 1024 ≤ (i 0 : Nat) ∧ (i 0 : Nat) < (8 * (4 * ((i 0).val / 1024) + (i 1).val / 1024) + 7) / 32 * 1024 + 1024
    omega
  | ⟨1, _⟩ =>
    show win4_3.index ⟨8 * (4 * ((i 0).val / 1024) + (i 1).val / 1024) + 7, ht⟩ 1 * win4_3.size 1 ≤ (i 1 : Nat) ∧ (i 1 : Nat) < win4_3.index ⟨8 * (4 * ((i 0).val / 1024) + (i 1).val / 1024) + 7, ht⟩ 1 * win4_3.size 1 + win4_3.xsize (grid4.coords ⟨8 * (4 * ((i 0).val / 1024) + (i 1).val / 1024) + 7, ht⟩) 1
    rw [(idx4_3 _).2, (xsize4_3 _).2]
    show (8 * (4 * ((i 0).val / 1024) + (i 1).val / 1024) + 7) / 8 % 4 * 1024 ≤ (i 1 : Nat) ∧ (i 1 : Nat) < (8 * (4 * ((i 0).val / 1024) + (i 1).val / 1024) + 7) / 8 % 4 * 1024 + 1024
    omega

/-- The output array after the region. -/
theorem final4 (c : Dev nD) : (dat4 V c).arrAt 3 cfg4.N = G4 V c :=
  (dat4 V c).arrAt_eq_of_cover 3 (G4 V c) (flushed4_eq V c) cover4

end

end Cert.KernelIdeal.Hand

end
-- ==== Proof.MaskEq.lean ====
/-
  The mask of the output columns. The kernel's program writes it as a row [1, 4096] (ones scattered into the last
  10 columns of a zero row), the reference as a vector [4096] (ones scattered into its last 10 entries). A scatter
  whose body returns the update, of a constant update, read at an index: the constant where some update lands on
  the index, the operand elsewhere. For both programs an update lands on column j exactly when 4086 ≤ j, so the two
  masks agree at every column: one where 4086 ≤ j, zero elsewhere.
-/
import Idealize.ShloMosaic.Lib.ValueIdx
import proofs.«119208_j72069551226903_1_alg».proof.Proof.Spec
import proofs.«119208_j72069551226903_1_alg».proof.Proof.Gen.KernelIdeal
import proofs.«119208_j72069551226903_1_alg».proof.Proof.Gen.ReferenceIdeal

noncomputable section

namespace Cert.Bridge

open Idealize.ShloMosaic Idealize.ShloMosaic.ValueIdx

/-! ## A scatter read at an index -/

section ScatterRead
variable {α : Type} {s si u : Shape} {w : Nat}

/-- One update of a scatter: the update index `n` (in row-major order) rewrites the element it lands on. -/
def scatterStep (d : ScatterDims s si u) (f : α → α → α) (idx : IVec si w) (upd : u.Idx → α) :
    (s.Idx → α) → Fin u.numel → (s.Idx → α) := fun r n =>
  match d.resultIdx? (u.rowMajor.symm n) idx with
  | some i => fun i' => if i' = i then f (r i) (upd (u.rowMajor.symm n)) else r i'
  | none => r

/-- The scatter is the fold of its updates in row-major order. -/
theorem scatter_eq_foldl (d : ScatterDims s si u) (f : α → α → α) (x : s.Idx → α) (idx : IVec si w) (upd : u.Idx → α) :
    Host.scatter d f x idx upd = (List.finRange u.numel).foldl (scatterStep d f idx upd) x := rfl

/-- An update that does not land on `i` leaves the element at `i`. -/
theorem scatterStep_of_ne (d : ScatterDims s si u) (f : α → α → α) (idx : IVec si w) (upd : u.Idx → α)
    (r : s.Idx → α) (n : Fin u.numel) (i : s.Idx) (h : d.resultIdx? (u.rowMajor.symm n) idx ≠ some i) :
    scatterStep d f idx upd r n i = r i := by
  unfold scatterStep
  cases hr : d.resultIdx? (u.rowMajor.symm n) idx with
  | none => rfl
  | some i0 =>
    have hne : i ≠ i0 := fun e => h (by rw [hr, e])
    exact if_neg hne

/-- An update that lands on `i` puts the body's value there. -/
theorem scatterStep_of_eq (d : ScatterDims s si u) (f : α → α → α) (idx : IVec si w) (upd : u.Idx → α)
    (r : s.Idx → α) (n : Fin u.numel) (i : s.Idx) (h : d.resultIdx? (u.rowMajor.symm n) idx = some i) :
    scatterStep d f idx upd r n i = f (r i) (upd (u.rowMajor.symm n)) := by
  unfold scatterStep
  rw [h]
  exact if_pos rfl

/-- Updates none of which lands on `i` leave the element at `i`. -/
theorem foldl_scatterStep_miss (d : ScatterDims s si u) (f : α → α → α) (idx : IVec si w) (upd : u.Idx → α) (i : s.Idx)
    (L : List (Fin u.numel)) (h : ∀ n ∈ L, d.resultIdx? (u.rowMajor.symm n) idx ≠ some i) (x : s.Idx → α) :
    L.foldl (scatterStep d f idx upd) x i = x i := by
  induction L generalizing x with
  | nil => rfl
  | cons n L ih =>
    rw [List.foldl_cons, ih (fun m hm => h m (List.mem_cons_of_mem _ hm)),
      scatterStep_of_ne d f idx upd x n i (h n List.mem_cons_self)]

/-- When the body returns the update and every update is `c`: if some update lands on `i`, the element is `c`. -/
theorem foldl_scatterStep_hit (d : ScatterDims s si u) (f : α → α → α) (hf : ∀ a b, f a b = b) (idx : IVec si w)
    (upd : u.Idx → α) (c : α) (hu : ∀ j, upd j = c) (i : s.Idx)
    (L : List (Fin u.numel)) (h : ∃ n ∈ L, d.resultIdx? (u.rowMajor.symm n) idx = some i) (x : s.Idx → α) :
    L.foldl (scatterStep d f idx upd) x i = c := by
  induction L generalizing x with
  | nil => obtain ⟨n, hn, _⟩ := h; exact absurd hn List.not_mem_nil
  | cons n L ih =>
    rw [List.foldl_cons]
    by_cases hL : ∃ m ∈ L, d.resultIdx? (u.rowMajor.symm m) idx = some i
    · exact ih hL _
    · obtain ⟨m, hm, hmi⟩ := h
      have hmn : m = n := by
        rcases List.mem_cons.mp hm with e | e
        · exact e
        · exact absurd ⟨m, e, hmi⟩ hL
      subst hmn
      rw [foldl_scatterStep_miss d f idx upd i L (fun k hk e => hL ⟨k, hk, e⟩),
        scatterStep_of_eq d f idx upd x m i hmi, hf, hu]

/-- A scatter none of whose updates lands on `i` reads the operand at `i`. -/
theorem scatter_apply_miss (d : ScatterDims s si u) (f : α → α → α) (x : s.Idx → α) (idx : IVec si w) (upd : u.Idx → α)
    (i : s.Idx) (h : ∀ j : u.Idx, d.resultIdx? j idx ≠ some i) : Host.scatter d f x idx upd i = x i := by
  rw [scatter_eq_foldl]
  exact foldl_scatterStep_miss d f idx upd i _ (fun n _ => h _) x

/-- A scatter whose body returns the update, of a constant update `c`, reads `c` where some update lands. -/
theorem scatter_apply_hit (d : ScatterDims s si u) (f : α → α → α) (hf : ∀ a b, f a b = b) (x : s.Idx → α)
    (idx : IVec si w) (upd : u.Idx → α) (c : α) (hu : ∀ j, upd j = c) (i : s.Idx) (j : u.Idx)
    (h : d.resultIdx? j idx = some i) : Host.scatter d f x idx upd i = c := by
  rw [scatter_eq_foldl]
  refine foldl_scatterStep_hit d f hf idx upd c hu i _ ⟨u.rowMajor j, List.mem_finRange _, ?_⟩ x
  rw [Equiv.symm_apply_apply]
  exact h

end ScatterRead

/-! ## The kernel's mask row -/

/-- The kernel program's scatter indices: the one start column 4086. -/
abbrev idxK : IVec Cert.KernelIdeal.S1 32 :=
  broadcastInDim Cert.KernelIdeal.S1 ![] Cert.KernelIdeal.Gen.bcast_S_S1 (constantI Cert.KernelIdeal.S_ 32 4086#32)

/-- The kernel program's mask row. -/
abbrev kernelMask : FVec Ideal Cert.KernelIdeal.S1x4096 .f32 :=
  Host.scatter Cert.KernelIdeal.scatter_S1x4096_S1_S1x10_01_n_1_0 (fun _ b => b)
    (broadcastInDim Cert.KernelIdeal.S1x4096 ![] Cert.KernelIdeal.Gen.bcast_S_S1x4096 (constant (F := Ideal) Cert.KernelIdeal.S_ .f32 0x00000000#32))
    idxK
    (broadcastInDim Cert.KernelIdeal.S1x10 ![] Cert.KernelIdeal.Gen.bcast_S_S1x10 (constant (F := Ideal) Cert.KernelIdeal.S_ .f32 0x3F800000#32))

/-- Update (a, b) of the kernel's scatter lands on column 4086 + b of the row. -/
theorem kernel_resultIdx (y : Cert.KernelIdeal.S1x10.Idx) :
    Cert.KernelIdeal.scatter_S1x4096_S1_S1x10_01_n_1_0.resultIdx? y idxK
      = some (ix2 (0 : Fin 1) (⟨4086 + (y 1).val, by have := idx2_lt1 y; omega⟩ : Fin 4096)) := by
  have hy0 : (y 0).val = 0 := by have := idx2_lt0 y; omega
  have hy1 : (y 1).val < 10 := idx2_lt1 y
  have hs0 : ∀ h, Cert.KernelIdeal.scatter_S1x4096_S1_S1x10_01_n_1_0.start y idxK ⟨0, h⟩ = 0 := fun _ => rfl
  have hs1 : ∀ h, Cert.KernelIdeal.scatter_S1x4096_S1_S1x10_01_n_1_0.start y idxK ⟨1, h⟩ = 4086 := fun _ => rfl
  have hw0 : ∀ h, Cert.KernelIdeal.scatter_S1x4096_S1_S1x10_01_n_1_0.window y ⟨0, h⟩ = (y 0).val := fun _ => rfl
  have hw1 : ∀ h, Cert.KernelIdeal.scatter_S1x4096_S1_S1x10_01_n_1_0.window y ⟨1, h⟩ = (y 1).val := fun _ => rfl
  have hall : ∀ a, 0 ≤ Cert.KernelIdeal.scatter_S1x4096_S1_S1x10_01_n_1_0.start y idxK a + Cert.KernelIdeal.scatter_S1x4096_S1_S1x10_01_n_1_0.window y a
      ∧ Cert.KernelIdeal.scatter_S1x4096_S1_S1x10_01_n_1_0.start y idxK a + Cert.KernelIdeal.scatter_S1x4096_S1_S1x10_01_n_1_0.window y a < Cert.KernelIdeal.S1x4096.size a := by
    intro a
    match a with
    | ⟨0, h⟩ =>
      rw [hs0, hw0, hy0]
      refine ⟨by omega, ?_⟩
      show (0 : Int) + ((0 : ℕ) : Int) < ((1 : ℕ) : Int)
      omega
    | ⟨1, h⟩ =>
      rw [hs1, hw1]
      refine ⟨by omega, ?_⟩
      show (4086 : Int) + ((y 1).val : Int) < ((4096 : ℕ) : Int)
      omega
  unfold ScatterDims.resultIdx?
  rw [dif_pos hall]
  refine congrArg some (funext fun a => ?_)
  match a with
  | ⟨0, h⟩ =>
    refine Fin.ext ?_
    have e : (ix2 (0 : Fin 1) (⟨4086 + (y 1).val, by omega⟩ : Fin 4096) ⟨0, h⟩).val = 0 := rfl
    rw [e]
    simp only [hs0, hw0, hy0]
    omega
  | ⟨1, h⟩ =>
    refine Fin.ext ?_
    have e : (ix2 (0 : Fin 1) (⟨4086 + (y 1).val, by omega⟩ : Fin 4096) ⟨1, h⟩).val = 4086 + (y 1).val := rfl
    rw [e]
    simp only [hs1, hw1]
    omega

/-- The kernel's mask row at column `j`: the word of 1.0 from column 4086 on, the word of 0.0 before. -/
theorem kernelMask_apply (j : Fin 4096) :
    kernelMask (ix2 (0 : Fin 1) j)
      = if 4086 ≤ j.val then Ideal.ofBits .f32 0x3F800000#32 else Ideal.ofBits .f32 0x00000000#32 := by
  by_cases hj : 4086 ≤ j.val
  · rw [if_pos hj]
    refine scatter_apply_hit _ _ (fun _ _ => rfl) _ _ _ _ (fun _ => rfl) _
      (ix2 (0 : Fin 1) (⟨j.val - 4086, by have := j.isLt; omega⟩ : Fin 10)) ?_
    rw [kernel_resultIdx]
    refine congrArg some (congrArg (ix2 (0 : Fin 1)) (Fin.ext ?_))
    show 4086 + (j.val - 4086) = j.val
    omega
  · rw [if_neg hj]
    refine (scatter_apply_miss _ _ _ _ _ _ fun y e => ?_).trans rfl
    rw [kernel_resultIdx] at e
    have e1 := congrArg (fun (i : Cert.KernelIdeal.S1x4096.Idx) => (i 1).val) (Option.some.inj e)
    have : 4086 + (y 1).val = j.val := e1
    omega

/-! ## The reference's mask vector -/

/-- The reference's scatter indices: the one start entry 4086. -/
abbrev idxR : IVec Cert.ReferenceIdeal.S1 32 :=
  broadcastInDim Cert.ReferenceIdeal.S1 ![] Cert.ReferenceIdeal.Gen.bcast_S_S1 (constantI Cert.ReferenceIdeal.S_ 32 4086#32)

/-- The reference's mask vector. -/
abbrev refMask : FVec Ideal Cert.ReferenceIdeal.S4096 .f32 :=
  Host.scatter Cert.ReferenceIdeal.scatter_S4096_S1_S10_0_n_0_0 (fun _ b => b)
    (broadcastInDim Cert.ReferenceIdeal.S4096 ![] Cert.ReferenceIdeal.Gen.bcast_S_S4096 (constant (F := Ideal) Cert.ReferenceIdeal.S_ .f32 0x00000000#32))
    idxR
    (broadcastInDim Cert.ReferenceIdeal.S10 ![] Cert.ReferenceIdeal.Gen.bcast_S_S10 (constant (F := Ideal) Cert.ReferenceIdeal.S_ .f32 0x3F800000#32))

/-- Update b of the reference's scatter lands on entry 4086 + b. -/
theorem ref_resultIdx (y : Cert.ReferenceIdeal.S10.Idx) :
    Cert.ReferenceIdeal.scatter_S4096_S1_S10_0_n_0_0.resultIdx? y idxR
      = some (ix1 (⟨4086 + (y 0).val, by have : (y 0).val < 10 := (y 0).isLt; omega⟩ : Fin 4096)) := by
  have hy0 : (y 0).val < 10 := (y 0).isLt
  have hs0 : ∀ h, Cert.ReferenceIdeal.scatter_S4096_S1_S10_0_n_0_0.start y idxR ⟨0, h⟩ = 4086 := fun _ => rfl
  have hw0 : ∀ h, Cert.ReferenceIdeal.scatter_S4096_S1_S10_0_n_0_0.window y ⟨0, h⟩ = (y 0).val := fun _ => rfl
  have hall : ∀ a, 0 ≤ Cert.ReferenceIdeal.scatter_S4096_S1_S10_0_n_0_0.start y idxR a + Cert.ReferenceIdeal.scatter_S4096_S1_S10_0_n_0_0.window y a
      ∧ Cert.ReferenceIdeal.scatter_S4096_S1_S10_0_n_0_0.start y idxR a + Cert.ReferenceIdeal.scatter_S4096_S1_S10_0_n_0_0.window y a < Cert.ReferenceIdeal.S4096.size a := by
    intro a
    match a with
    | ⟨0, h⟩ =>
      rw [hs0, hw0]
      refine ⟨by omega, ?_⟩
      show (4086 : Int) + ((y 0).val : Int) < ((4096 : ℕ) : Int)
      omega
  unfold ScatterDims.resultIdx?
  rw [dif_pos hall]
  refine congrArg some (funext fun a => ?_)
  match a with
  | ⟨0, h⟩ =>
    refine Fin.ext ?_
    have e : (ix1 (⟨4086 + (y 0).val, by omega⟩ : Fin 4096) ⟨0, h⟩).val = 4086 + (y 0).val := rfl
    rw [e]
    simp only [hs0, hw0]
    omega

/-- The reference's mask vector at entry `j`: the word of 1.0 from entry 4086 on, the word of 0.0 before. -/
theorem refMask_apply (j : Fin 4096) :
    refMask (ix1 j)
      = if 4086 ≤ j.val then Ideal.ofBits .f32 0x3F800000#32 else Ideal.ofBits .f32 0x00000000#32 := by
  by_cases hj : 4086 ≤ j.val
  · rw [if_pos hj]
    refine scatter_apply_hit _ _ (fun _ _ => rfl) _ _ _ _ (fun _ => rfl) _
      (ix1 (⟨j.val - 4086, by have := j.isLt; omega⟩ : Fin 10)) ?_
    rw [ref_resultIdx]
    refine congrArg some (congrArg ix1 (Fin.ext ?_))
    show 4086 + (j.val - 4086) = j.val
    omega
  · rw [if_neg hj]
    refine (scatter_apply_miss _ _ _ _ _ _ fun y e => ?_).trans rfl
    rw [ref_resultIdx] at e
    have e1 := congrArg (fun (i : Cert.ReferenceIdeal.S4096.Idx) => (i 0).val) (Option.some.inj e)
    have : 4086 + (y 0).val = j.val := e1
    omega

/-! ## The two masks agree -/

/-- The kernel's mask row at (0, j) is the reference's mask vector at j. -/
theorem mask_eq (j : Fin 4096) : kernelMask (ix2 (0 : Fin 1) j) = refMask (ix1 j) :=
  (kernelMask_apply j).trans (refMask_apply j).symm

/-- The same over the two programs' printed terms. -/
theorem mask_eq_terms (j : Fin 4096) :
    Host.scatter Cert.KernelIdeal.scatter_S1x4096_S1_S1x10_01_n_1_0 (fun _ b => b)
        (broadcastInDim Cert.KernelIdeal.S1x4096 ![] Cert.KernelIdeal.Gen.bcast_S_S1x4096 (constant (F := Ideal) Cert.KernelIdeal.S_ .f32 0x00000000#32))
        (broadcastInDim Cert.KernelIdeal.S1 ![] Cert.KernelIdeal.Gen.bcast_S_S1 (constantI Cert.KernelIdeal.S_ 32 4086#32))
        (broadcastInDim Cert.KernelIdeal.S1x10 ![] Cert.KernelIdeal.Gen.bcast_S_S1x10 (constant (F := Ideal) Cert.KernelIdeal.S_ .f32 0x3F800000#32))
        (ix2 (0 : Fin 1) j)
      = Host.scatter Cert.ReferenceIdeal.scatter_S4096_S1_S10_0_n_0_0 (fun _ b => b)
        (broadcastInDim Cert.ReferenceIdeal.S4096 ![] Cert.ReferenceIdeal.Gen.bcast_S_S4096 (constant (F := Ideal) Cert.ReferenceIdeal.S_ .f32 0x00000000#32))
        (broadcastInDim Cert.ReferenceIdeal.S1 ![] Cert.ReferenceIdeal.Gen.bcast_S_S1 (constantI Cert.ReferenceIdeal.S_ 32 4086#32))
        (broadcastInDim Cert.ReferenceIdeal.S10 ![] Cert.ReferenceIdeal.Gen.bcast_S_S10 (constant (F := Ideal) Cert.ReferenceIdeal.S_ .f32 0x3F800000#32))
        (ix1 j) :=
  mask_eq j

/-- The mask as numbers: 1 from column 4086 on, 0 before. -/
theorem refMask_apply_num (j : Fin 4096) : refMask (ix1 j) = if 4086 ≤ j.val then 1 else 0 := by
  rw [refMask_apply, ofBits_one_f32, Ideal.ofBits_zero_f32]

end Cert.Bridge

end
-- ==== Proof.RefSide.lean ====
/-
  The reference side at the exact instance (floats are extended reals). One iteration of the reference read at one
  element is the masked step of the dot product of the previous state with the weight array; the five iterations
  are stated over the stages of the reference read one operation at a time, with the initial state, the weight array
  and the mask kept as they are; the reference's result is its last nine operations applied to the fifth state.
-/
import Idealize.ShloMosaic.Lib.Pipeline.Value
import proofs.«119208_j72069551226903_1_alg».proof.Proof.Spec
import proofs.«119208_j72069551226903_1_alg».proof.Proof.LibDot
import proofs.«119208_j72069551226903_1_alg».proof.Proof.MaskEq
import proofs.«119208_j72069551226903_1_alg».proof.Proof.RefStages

noncomputable section

open scoped BigOperators

namespace Cert.Bridge

open Idealize.ShloMosaic Idealize.ShloMosaic.ValueIdx
open Cert.ReferenceIdeal Cert.ReferenceIdeal.Gen

/-- The mask vector broadcast to a row and then over the rows reads the vector at the column. -/
theorem maskBroadcast_apply (v : FVec Ideal S4096 .f32) (i j : Fin 4096) :
    broadcastInDim S4096x4096 ![0, 1] bcast_S1x4096_S4096x4096_0_1 (broadcastInDim S1x4096 ![1] bcast_S4096_S1x4096_1 v) (ix2 i j)
      = v (ix1 j) := by
  rw [broadcastInDim_apply ![0, 1] bcast_S1x4096_S4096x4096_0_1 _ (ix2 i j) (ix2 (0 : Fin 1) j) (fun a => by
    match a with
    | ⟨0, _⟩ => rfl
    | ⟨1, _⟩ => rfl)]
  exact broadcastInDim_apply ![1] bcast_S4096_S1x4096_1 v (ix2 (0 : Fin 1) j) (ix1 j) (fun a => by
    match a with
    | ⟨0, _⟩ => rfl)

/-- One iteration of the reference, read at one element: the product with the weights at (i, j), then the masked
    step with the mask read at column j. -/
theorem ref_step_generic (h W : FVec Ideal S4096x4096 .f32) (mk : FVec Ideal S4096 .f32) (i j : Fin 4096) :
    (addf
        (mulf (broadcastInDim S4096x4096 ![0, 1] bcast_S1x4096_S4096x4096_0_1 (broadcastInDim S1x4096 ![1] bcast_S4096_S1x4096_1 mk))
          (Host.dotGeneral dot_S4096x4096_S4096x4096_S4096x4096_1_0_0_1_n_n none h W))
        (mulf
          (broadcastInDim S4096x4096 ![0, 1] bcast_S1x4096_S4096x4096_0_1 (broadcastInDim S1x4096 ![1] bcast_S4096_S1x4096_1
            (subf (broadcastInDim S4096 ![] bcast_S_S4096 (constant (F := Ideal) S_ .f32 0x3F800000#32)) mk)))
          (maximumf (Host.dotGeneral dot_S4096x4096_S4096x4096_S4096x4096_1_0_0_1_n_n none h W)
            (broadcastInDim S4096x4096 ![] bcast_S_S4096x4096 (constant (F := Ideal) S_ .f32 0x00000000#32))))) (ix2 i j)
      = stepVal (mk (ix1 j)) (∑ k : Fin 4096, h (ix2 i k) * W (ix2 k j)) := by
  have hdot : Host.dotGeneral dot_S4096x4096_S4096x4096_S4096x4096_1_0_0_1_n_n none h W (ix2 i j)
      = ∑ k : Fin 4096, h (ix2 i k) * W (ix2 k j) :=
    Cert.LibDot.dotGeneral_plain_apply dot_S4096x4096_S4096x4096_S4096x4096_1_0_0_1_n_n rfl rfl rfl rfl rfl rfl none .single
      h W (ix2 i j)
  generalize Host.dotGeneral dot_S4096x4096_S4096x4096_S4096x4096_1_0_0_1_n_n none h W = D at hdot ⊢
  rw [addf_apply, mulf_apply, mulf_apply, maximumf_apply, maskBroadcast_apply, maskBroadcast_apply, subf_apply, hdot]
  show mk (ix1 j) * _ + (Ideal.ofBits .f32 0x3F800000#32 - mk (ix1 j)) * max _ (Ideal.ofBits .f32 0x00000000#32) = _
  rw [ofBits_one_f32, Ideal.ofBits_zero_f32]
  rfl

/-! ## One iteration as a function of the state, the weights and the mask -/

/-- One iteration of the reference as the reference spells it: the product with the weights, the mask broadcast over
    the rows times it, plus one minus the mask broadcast over the rows times its positive part. -/
def stepFn (h W : FVec Ideal S4096x4096 .f32) (mk : FVec Ideal S4096 .f32) : FVec Ideal S4096x4096 .f32 :=
  addf
    (mulf (broadcastInDim S4096x4096 ![0, 1] bcast_S1x4096_S4096x4096_0_1 (broadcastInDim S1x4096 ![1] bcast_S4096_S1x4096_1 mk))
      (Host.dotGeneral dot_S4096x4096_S4096x4096_S4096x4096_1_0_0_1_n_n none h W))
    (mulf
      (broadcastInDim S4096x4096 ![0, 1] bcast_S1x4096_S4096x4096_0_1 (broadcastInDim S1x4096 ![1] bcast_S4096_S1x4096_1
        (subf (broadcastInDim S4096 ![] bcast_S_S4096 (constant (F := Ideal) S_ .f32 0x3F800000#32)) mk)))
      (maximumf (Host.dotGeneral dot_S4096x4096_S4096x4096_S4096x4096_1_0_0_1_n_n none h W)
        (broadcastInDim S4096x4096 ![] bcast_S_S4096x4096 (constant (F := Ideal) S_ .f32 0x00000000#32))))

/-- The iteration read at one element. -/
theorem stepFn_apply (h W : FVec Ideal S4096x4096 .f32) (mk : FVec Ideal S4096 .f32) (i j : Fin 4096) :
    stepFn h W mk (ix2 i j) = stepVal (mk (ix1 j)) (∑ k : Fin 4096, h (ix2 i k) * W (ix2 k j)) :=
  ref_step_generic h W mk i j

/-! ## The five iterations, over the stages of the reference read one operation at a time -/

/-- Iteration 1 of the reference at one element: the masked step of the product of the previous state with the weights. -/
theorem ref_step1 (x0 : (⟨S4096x784, .f32⟩ : BufTy).Contents (Elt Ideal)) (x1 : (⟨S200000, .f32⟩ : BufTy).Contents (Elt Ideal)) (x2 : (⟨S2x200000, .i32⟩ : BufTy).Contents (Elt Ideal)) (i j : Fin 4096) :
    Read.val_main_v36 (F := Ideal) x0 x1 x2 (ix2 i j)
      = stepVal (Read.val_main_v25 (F := Ideal) (ix1 j))
          (∑ k : Fin 4096, (Read.val_main_v21 (F := Ideal) x0) (ix2 i k) * Read.val_main_v18 (F := Ideal) x1 x2 (ix2 k j)) := by
  unfold Read.val_main_v36 Read.val_main_v29 Read.val_main_v35 Read.val_main_v28 Read.val_main_v27 Read.val_main_v34 Read.val_main_v33 Read.val_main_v31 Read.val_main_v30 Read.val_main_cst_8 Read.val_main_v32 Read.val_main_call0_v0 Read.val_main_call0_cst Read.val_main_v26
  exact ref_step_generic _ _ _ i j

/-- Iteration 2 of the reference at one element: the masked step of the product of the previous state with the weights. -/
theorem ref_step2 (x0 : (⟨S4096x784, .f32⟩ : BufTy).Contents (Elt Ideal)) (x1 : (⟨S200000, .f32⟩ : BufTy).Contents (Elt Ideal)) (x2 : (⟨S2x200000, .i32⟩ : BufTy).Contents (Elt Ideal)) (i j : Fin 4096) :
    Read.val_main_v47 (F := Ideal) x0 x1 x2 (ix2 i j)
      = stepVal (Read.val_main_v25 (F := Ideal) (ix1 j))
          (∑ k : Fin 4096, (Read.val_main_v36 (F := Ideal) x0 x1 x2) (ix2 i k) * Read.val_main_v18 (F := Ideal) x1 x2 (ix2 k j)) := by
  unfold Read.val_main_v47 Read.val_main_v40 Read.val_main_v46 Read.val_main_v39 Read.val_main_v38 Read.val_main_v45 Read.val_main_v44 Read.val_main_v42 Read.val_main_v41 Read.val_main_cst_9 Read.val_main_v43 Read.val_main_call1_v0 Read.val_main_call1_cst Read.val_main_v37
  exact ref_step_generic _ _ _ i j

/-- Iteration 3 of the reference at one element: the masked step of the product of the previous state with the weights. -/
theorem ref_step3 (x0 : (⟨S4096x784, .f32⟩ : BufTy).Contents (Elt Ideal)) (x1 : (⟨S200000, .f32⟩ : BufTy).Contents (Elt Ideal)) (x2 : (⟨S2x200000, .i32⟩ : BufTy).Contents (Elt Ideal)) (i j : Fin 4096) :
    Read.val_main_v58 (F := Ideal) x0 x1 x2 (ix2 i j)
      = stepVal (Read.val_main_v25 (F := Ideal) (ix1 j))
          (∑ k : Fin 4096, (Read.val_main_v47 (F := Ideal) x0 x1 x2) (ix2 i k) * Read.val_main_v18 (F := Ideal) x1 x2 (ix2 k j)) := by
  unfold Read.val_main_v58 Read.val_main_v51 Read.val_main_v57 Read.val_main_v50 Read.val_main_v49 Read.val_main_v56 Read.val_main_v55 Read.val_main_v53 Read.val_main_v52 Read.val_main_cst_10 Read.val_main_v54 Read.val_main_call2_v0 Read.val_main_call2_cst Read.val_main_v48
  exact ref_step_generic _ _ _ i j

/-- Iteration 4 of the reference at one element: the masked step of the product of the previous state with the weights. -/
theorem ref_step4 (x0 : (⟨S4096x784, .f32⟩ : BufTy).Contents (Elt Ideal)) (x1 : (⟨S200000, .f32⟩ : BufTy).Contents (Elt Ideal)) (x2 : (⟨S2x200000, .i32⟩ : BufTy).Contents (Elt Ideal)) (i j : Fin 4096) :
    Read.val_main_v69 (F := Ideal) x0 x1 x2 (ix2 i j)
      = stepVal (Read.val_main_v25 (F := Ideal) (ix1 j))
          (∑ k : Fin 4096, (Read.val_main_v58 (F := Ideal) x0 x1 x2) (ix2 i k) * Read.val_main_v18 (F := Ideal) x1 x2 (ix2 k j)) := by
  unfold Read.val_main_v69 Read.val_main_v62 Read.val_main_v68 Read.val_main_v61 Read.val_main_v60 Read.val_main_v67 Read.val_main_v66 Read.val_main_v64 Read.val_main_v63 Read.val_main_cst_11 Read.val_main_v65 Read.val_main_call3_v0 Read.val_main_call3_cst Read.val_main_v59
  exact ref_step_generic _ _ _ i j

/-- Iteration 5 of the reference at one element: the masked step of the product of the previous state with the weights. -/
theorem ref_step5 (x0 : (⟨S4096x784, .f32⟩ : BufTy).Contents (Elt Ideal)) (x1 : (⟨S200000, .f32⟩ : BufTy).Contents (Elt Ideal)) (x2 : (⟨S2x200000, .i32⟩ : BufTy).Contents (Elt Ideal)) (i j : Fin 4096) :
    Read.val_main_v80 (F := Ideal) x0 x1 x2 (ix2 i j)
      = stepVal (Read.val_main_v25 (F := Ideal) (ix1 j))
          (∑ k : Fin 4096, (Read.val_main_v69 (F := Ideal) x0 x1 x2) (ix2 i k) * Read.val_main_v18 (F := Ideal) x1 x2 (ix2 k j)) := by
  unfold Read.val_main_v80 Read.val_main_v73 Read.val_main_v79 Read.val_main_v72 Read.val_main_v71 Read.val_main_v78 Read.val_main_v77 Read.val_main_v75 Read.val_main_v74 Read.val_main_cst_12 Read.val_main_v76 Read.val_main_call4_v0 Read.val_main_call4_cst Read.val_main_v70
  exact ref_step_generic _ _ _ i j

/-! ## The tail: the last 10 columns through the logistic function, as the reference spells it -/

/-- The reference's last nine operations as one function of the fifth state: the slice of columns 4086 … 4095, then
    1 / (1 + exp (−x)) spelt with the host's operations. -/
def tailFn (H : FVec Ideal S4096x4096 .f32) : FVec Ideal S4096x10 .f32 :=
  Host.divf (F := Ideal) (broadcastInDim S4096x10 ![] bcast_S_S4096x10 (constant (F := Ideal) S_ .f32 0x3F800000#32))
    (addf (broadcastInDim S4096x10 ![] bcast_S_S4096x10 (constant (F := Ideal) S_ .f32 0x3F800000#32))
      (Host.exp (F := Ideal) (Host.negf (F := Ideal) (extractStridedSlice S4096x10 ![0, 4086] H slices_S4096x4096_S4096x10_0_4086))))

/-- The reference's result is the tail of its fifth state. -/
theorem ref_result (x0 : (⟨S4096x784, .f32⟩ : BufTy).Contents (Elt Ideal)) (x1 : (⟨S200000, .f32⟩ : BufTy).Contents (Elt Ideal)) (x2 : (⟨S2x200000, .i32⟩ : BufTy).Contents (Elt Ideal)) :
    Read.val_main_v87 (F := Ideal) x0 x1 x2 = tailFn (Read.val_main_v80 (F := Ideal) x0 x1 x2) := by
  unfold Read.val_main_v87 Read.val_main_v86 Read.val_main_cst_14 Read.val_main_v85 Read.val_main_v84 Read.val_main_cst_13
    Read.val_main_v83 Read.val_main_v82 Read.val_main_v81 tailFn
  rfl

/-- The reference's mask stage is the mask vector: ones scattered into the last 10 entries of a zero vector. -/
theorem val_main_v25_eq : Read.val_main_v25 (F := Ideal) = refMask := by
  unfold Read.val_main_v25 Read.val_main_v22 Read.val_main_cst_5 Read.val_main_v23 Read.val_main_c_6 Read.val_main_v24 Read.val_main_cst_7
  rfl

/-- The kernel program's last nine operations are, operation for operation, the reference's: the same tail. -/
theorem kernel_tail_eq (H : FVec Ideal Cert.KernelIdeal.S4096x4096 .f32) :
    Host.divf (F := Ideal)
        (broadcastInDim Cert.KernelIdeal.S4096x10 ![] Cert.KernelIdeal.Gen.bcast_S_S4096x10 (constant (F := Ideal) Cert.KernelIdeal.S_ .f32 0x3F800000#32))
        (addf (broadcastInDim Cert.KernelIdeal.S4096x10 ![] Cert.KernelIdeal.Gen.bcast_S_S4096x10 (constant (F := Ideal) Cert.KernelIdeal.S_ .f32 0x3F800000#32))
          (Host.exp (F := Ideal) (Host.negf (F := Ideal)
            (extractStridedSlice Cert.KernelIdeal.S4096x10 ![0, 4086] H Cert.KernelIdeal.Gen.slices_S4096x4096_S4096x10_0_4086))))
      = tailFn H := rfl

/-! ## The stages as iterations -/

/-- The stage after iteration 1 is the iteration applied to the stage before it. -/
theorem val_main_v36_eq (x0 : (⟨S4096x784, .f32⟩ : BufTy).Contents (Elt Ideal)) (x1 : (⟨S200000, .f32⟩ : BufTy).Contents (Elt Ideal)) (x2 : (⟨S2x200000, .i32⟩ : BufTy).Contents (Elt Ideal)) :
    Read.val_main_v36 (F := Ideal) x0 x1 x2
      = stepFn (Read.val_main_v21 (F := Ideal) x0) (Read.val_main_v18 (F := Ideal) x1 x2) (Read.val_main_v25 (F := Ideal)) := by
  unfold Read.val_main_v36 Read.val_main_v29 Read.val_main_v35 Read.val_main_v28 Read.val_main_v27 Read.val_main_v34 Read.val_main_v33 Read.val_main_v31 Read.val_main_v30 Read.val_main_cst_8 Read.val_main_v32 Read.val_main_call0_v0 Read.val_main_call0_cst Read.val_main_v26 stepFn
  rfl

/-- The stage after iteration 2 is the iteration applied to the stage before it. -/
theorem val_main_v47_eq (x0 : (⟨S4096x784, .f32⟩ : BufTy).Contents (Elt Ideal)) (x1 : (⟨S200000, .f32⟩ : BufTy).Contents (Elt Ideal)) (x2 : (⟨S2x200000, .i32⟩ : BufTy).Contents (Elt Ideal)) :
    Read.val_main_v47 (F := Ideal) x0 x1 x2
      = stepFn (Read.val_main_v36 (F := Ideal) x0 x1 x2) (Read.val_main_v18 (F := Ideal) x1 x2) (Read.val_main_v25 (F := Ideal)) := by
  unfold Read.val_main_v47 Read.val_main_v40 Read.val_main_v46 Read.val_main_v39 Read.val_main_v38 Read.val_main_v45 Read.val_main_v44 Read.val_main_v42 Read.val_main_v41 Read.val_main_cst_9 Read.val_main_v43 Read.val_main_call1_v0 Read.val_main_call1_cst Read.val_main_v37 stepFn
  rfl

/-- The stage after iteration 3 is the iteration applied to the stage before it. -/
theorem val_main_v58_eq (x0 : (⟨S4096x784, .f32⟩ : BufTy).Contents (Elt Ideal)) (x1 : (⟨S200000, .f32⟩ : BufTy).Contents (Elt Ideal)) (x2 : (⟨S2x200000, .i32⟩ : BufTy).Contents (Elt Ideal)) :
    Read.val_main_v58 (F := Ideal) x0 x1 x2
      = stepFn (Read.val_main_v47 (F := Ideal) x0 x1 x2) (Read.val_main_v18 (F := Ideal) x1 x2) (Read.val_main_v25 (F := Ideal)) := by
  unfold Read.val_main_v58 Read.val_main_v51 Read.val_main_v57 Read.val_main_v50 Read.val_main_v49 Read.val_main_v56 Read.val_main_v55 Read.val_main_v53 Read.val_main_v52 Read.val_main_cst_10 Read.val_main_v54 Read.val_main_call2_v0 Read.val_main_call2_cst Read.val_main_v48 stepFn
  rfl

/-- The stage after iteration 4 is the iteration applied to the stage before it. -/
theorem val_main_v69_eq (x0 : (⟨S4096x784, .f32⟩ : BufTy).Contents (Elt Ideal)) (x1 : (⟨S200000, .f32⟩ : BufTy).Contents (Elt Ideal)) (x2 : (⟨S2x200000, .i32⟩ : BufTy).Contents (Elt Ideal)) :
    Read.val_main_v69 (F := Ideal) x0 x1 x2
      = stepFn (Read.val_main_v58 (F := Ideal) x0 x1 x2) (Read.val_main_v18 (F := Ideal) x1 x2) (Read.val_main_v25 (F := Ideal)) := by
  unfold Read.val_main_v69 Read.val_main_v62 Read.val_main_v68 Read.val_main_v61 Read.val_main_v60 Read.val_main_v67 Read.val_main_v66 Read.val_main_v64 Read.val_main_v63 Read.val_main_cst_11 Read.val_main_v65 Read.val_main_call3_v0 Read.val_main_call3_cst Read.val_main_v59 stepFn
  rfl

/-- The stage after iteration 5 is the iteration applied to the stage before it. -/
theorem val_main_v80_eq (x0 : (⟨S4096x784, .f32⟩ : BufTy).Contents (Elt Ideal)) (x1 : (⟨S200000, .f32⟩ : BufTy).Contents (Elt Ideal)) (x2 : (⟨S2x200000, .i32⟩ : BufTy).Contents (Elt Ideal)) :
    Read.val_main_v80 (F := Ideal) x0 x1 x2
      = stepFn (Read.val_main_v69 (F := Ideal) x0 x1 x2) (Read.val_main_v18 (F := Ideal) x1 x2) (Read.val_main_v25 (F := Ideal)) := by
  unfold Read.val_main_v80 Read.val_main_v73 Read.val_main_v79 Read.val_main_v72 Read.val_main_v71 Read.val_main_v78 Read.val_main_v77 Read.val_main_v75 Read.val_main_v74 Read.val_main_cst_12 Read.val_main_v76 Read.val_main_call4_v0 Read.val_main_call4_cst Read.val_main_v70 stepFn
  rfl

end Cert.Bridge

end
-- ==== Proof.KI_Value.lean ====
/-
  The idealized kernel's result as one function of the arguments, and that it is the reference's.
  The weight matrix and the mask row are written by the first stretch of host operations and by no region; each region's
  output array is one step of the recurrence on the previous region's output; so the fifth region's output is the fifth
  iterate from the first hidden state, and the result is the logistic tail of its last ten columns. The reference computes the
  same iterate: its step is the same masked formula of the same contraction (its mask a vector broadcast over the rows, the
  kernel's a row: equal entry by entry), from the same weight matrix and first hidden state (the same host operations of
  the same arguments), through the same tail.
-/
import proofs.«119208_j72069551226903_1_alg».proof.Proof.KI_Run
import proofs.«119208_j72069551226903_1_alg».proof.Proof.KI_R0_Val
import proofs.«119208_j72069551226903_1_alg».proof.Proof.KI_R1_Val
import proofs.«119208_j72069551226903_1_alg».proof.Proof.KI_R2_Val
import proofs.«119208_j72069551226903_1_alg».proof.Proof.KI_R3_Val
import proofs.«119208_j72069551226903_1_alg».proof.Proof.KI_R4_Val
import proofs.«119208_j72069551226903_1_alg».proof.Proof.RefSide
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen Cert.Bridge

variable (m : (ℓ : Loc nD τ sig) → Buf (Elt Ideal) ℓ) (ρ : Dev nD → PrngReg)

/-! ## One step, in the kernel's spelling and in the reference's -/

/-- The kernel's step (a mask row, blocks of the arrays) and the reference's (a mask vector broadcast over the rows, whole
    arrays) are one function when the arrays agree and the masks agree entry by entry. -/
theorem step_bridge (hK wK : Vec Ideal S4096x4096 .f32) (mkK : Vec Ideal S1x4096 .f32)
    (hR wR : FVec Ideal Cert.ReferenceIdeal.S4096x4096 .f32) (mkR : FVec Ideal Cert.ReferenceIdeal.S4096 .f32)
    (hh : hK = hR) (hw : wK = wR) (hm : ∀ b : Fin 4096, mkK (ix2 (0 : Fin 1) b) = mkR (ix1 b)) :
    stepArr hK wK mkK = stepFn hR wR mkR := by
  subst hh hw
  funext i
  obtain ⟨a, b, rfl⟩ : ∃ (a b : Fin 4096), i = ix2 a b := ⟨i 0, i 1, eq_ix2 i⟩
  rw [stepArr_ix2, stepFn_apply]
  unfold stepAt dotVal
  rw [hm b]

/-! ## The weight matrix and the mask row pass through the regions -/

theorem V2_v18 (c : Dev nD) : V2 m ρ c main_v18 = V1 m ρ c main_v18 := (W2_arr m ρ c 1).trans (((dat0 (V1 m ρ) c).arrAt_in 1 rfl _).trans (A_eq0 (V1 m ρ) c 1))
theorem V3_v18 (c : Dev nD) : V3 m ρ c main_v18 = V1 m ρ c main_v18 := ((W3_arr m ρ c 1).trans (((dat1 (V2 m ρ) c).arrAt_in 1 rfl _).trans (A_eq1 (V2 m ρ) c 1))).trans (V2_v18 m ρ c)
theorem V4_v18 (c : Dev nD) : V4 m ρ c main_v18 = V1 m ρ c main_v18 := ((W4_arr m ρ c 1).trans (((dat2 (V3 m ρ) c).arrAt_in 1 rfl _).trans (A_eq2 (V3 m ρ) c 1))).trans (V3_v18 m ρ c)
theorem V5_v18 (c : Dev nD) : V5 m ρ c main_v18 = V1 m ρ c main_v18 := ((W5_arr m ρ c 1).trans (((dat3 (V4 m ρ) c).arrAt_in 1 rfl _).trans (A_eq3 (V4 m ρ) c 1))).trans (V4_v18 m ρ c)
theorem V2_v25 (c : Dev nD) : V2 m ρ c main_v25 = V1 m ρ c main_v25 := (W2_arr m ρ c 2).trans (((dat0 (V1 m ρ) c).arrAt_in 2 rfl _).trans (A_eq0 (V1 m ρ) c 2))
theorem V3_v25 (c : Dev nD) : V3 m ρ c main_v25 = V1 m ρ c main_v25 := ((W3_arr m ρ c 2).trans (((dat1 (V2 m ρ) c).arrAt_in 2 rfl _).trans (A_eq1 (V2 m ρ) c 2))).trans (V2_v25 m ρ c)
theorem V4_v25 (c : Dev nD) : V4 m ρ c main_v25 = V1 m ρ c main_v25 := ((W4_arr m ρ c 2).trans (((dat2 (V3 m ρ) c).arrAt_in 2 rfl _).trans (A_eq2 (V3 m ρ) c 2))).trans (V3_v25 m ρ c)
theorem V5_v25 (c : Dev nD) : V5 m ρ c main_v25 = V1 m ρ c main_v25 := ((W5_arr m ρ c 2).trans (((dat3 (V4 m ρ) c).arrAt_in 2 rfl _).trans (A_eq3 (V4 m ρ) c 2))).trans (V4_v25 m ρ c)

/-! ## The hidden states -/

/-- The n-th hidden state on core `c`: the first from the host stretch, each next one step on. -/
def Hs (c : Dev nD) : ℕ → Vec Ideal S4096x4096 .f32
  | 0 => V1 m ρ c main_v21
  | n + 1 => stepArr (Hs c n) (V1 m ρ c main_v18) (V1 m ρ c main_v25)

theorem out0_eq (c : Dev nD) : V2 m ρ c main_v26 = Hs m ρ c 1 :=
  (W2_arr m ρ c 3).trans (final0 (V1 m ρ) c)
theorem out1_eq (c : Dev nD) : V3 m ρ c main_v27 = Hs m ρ c 2 := by
  refine (W3_arr m ρ c 3).trans ((final1 (V2 m ρ) c).trans ?_)
  unfold G1; rw [out0_eq, V2_v18, V2_v25]; rfl
theorem out2_eq (c : Dev nD) : V4 m ρ c main_v28 = Hs m ρ c 3 := by
  refine (W4_arr m ρ c 3).trans ((final2 (V3 m ρ) c).trans ?_)
  unfold G2; rw [out1_eq, V3_v18, V3_v25]; rfl
theorem out3_eq (c : Dev nD) : V5 m ρ c main_v29 = Hs m ρ c 4 := by
  refine (W5_arr m ρ c 3).trans ((final3 (V4 m ρ) c).trans ?_)
  unfold G3; rw [out2_eq, V4_v18, V4_v25]; rfl
theorem out4_eq (c : Dev nD) : W6 m ρ c (Proc.devRef .tc main_v30) = Hs m ρ c 5 := by
  refine (W6_arr m ρ c 3).trans ((final4 (V5 m ρ) c).trans ?_)
  unfold G4; rw [out3_eq, V5_v18, V5_v25]; rfl

/-! ## The host stretches -/

/-- The first hidden state, the weight matrix and the mask row are the reference's, of the same arguments. -/
theorem V1_v21 (c : Dev nD) : (V1 m ρ c main_v21 : Vec Ideal S4096x4096 .f32)
    = Cert.ReferenceIdeal.Read.val_main_v21 (F := Ideal) (m ((c : Thread nD τ).loc main_arg0)) := by
  show StableHlo.after hostOps0 (W0 m ρ c) (Proc.devRef .tc main_v21) = _
  after_results
  rfl
set_option maxHeartbeats 4000000 in
theorem V1_v18 (c : Dev nD) : (V1 m ρ c main_v18 : Vec Ideal S4096x4096 .f32)
    = Cert.ReferenceIdeal.Read.val_main_v18 (F := Ideal) (m ((c : Thread nD τ).loc main_arg1)) (m ((c : Thread nD τ).loc main_arg2)) := by
  show StableHlo.after hostOps0 (W0 m ρ c) (Proc.devRef .tc main_v18) = _
  after_results_simp <;> rfl
theorem V1_v25 (c : Dev nD) : (V1 m ρ c main_v25 : Vec Ideal S1x4096 .f32) = kernelMask := by
  show StableHlo.after hostOps0 (W0 m ρ c) (Proc.devRef .tc main_v25) = _
  after_results
/-- The result is the tail of the fifth region's output. -/
theorem W7_v37 (c : Dev nD) : W7 m ρ c (Proc.devRef .tc main_v37) = tailFn (W6 m ρ c (Proc.devRef .tc main_v30)) := by
  show StableHlo.after hostOps5 (W6 m ρ c) (Proc.devRef .tc main_v37) = _
  generalize W6 m ρ c = Wv
  after_results
  exact kernel_tail_eq _

/-! ## The kernel's iterates are the reference's -/

theorem mask_agree (c : Dev nD) (b : Fin 4096) :
    (V1 m ρ c main_v25 : Vec Ideal S1x4096 .f32) (ix2 (0 : Fin 1) b) = Cert.ReferenceIdeal.Read.val_main_v25 (F := Ideal) (ix1 b) := by
  rw [V1_v25, val_main_v25_eq]; exact mask_eq b

theorem Hs_ref (c : Dev nD) :
    Hs m ρ c 5 = Cert.ReferenceIdeal.Read.val_main_v80 (F := Ideal) (m ((c : Thread nD τ).loc main_arg0)) (m ((c : Thread nD τ).loc main_arg1)) (m ((c : Thread nD τ).loc main_arg2)) := by
  have s1 : Hs m ρ c 1 = Cert.ReferenceIdeal.Read.val_main_v36 (F := Ideal) (m ((c : Thread nD τ).loc main_arg0)) (m ((c : Thread nD τ).loc main_arg1)) (m ((c : Thread nD τ).loc main_arg2)) := by
    rw [val_main_v36_eq]; exact step_bridge _ _ _ _ _ _ (V1_v21 m ρ c) (V1_v18 m ρ c) (mask_agree m ρ c)
  have s2 : Hs m ρ c 2 = Cert.ReferenceIdeal.Read.val_main_v47 (F := Ideal) (m ((c : Thread nD τ).loc main_arg0)) (m ((c : Thread nD τ).loc main_arg1)) (m ((c : Thread nD τ).loc main_arg2)) := by
    rw [val_main_v47_eq]; exact step_bridge _ _ _ _ _ _ s1 (V1_v18 m ρ c) (mask_agree m ρ c)
  have s3 : Hs m ρ c 3 = Cert.ReferenceIdeal.Read.val_main_v58 (F := Ideal) (m ((c : Thread nD τ).loc main_arg0)) (m ((c : Thread nD τ).loc main_arg1)) (m ((c : Thread nD τ).loc main_arg2)) := by
    rw [val_main_v58_eq]; exact step_bridge _ _ _ _ _ _ s2 (V1_v18 m ρ c) (mask_agree m ρ c)
  have s4 : Hs m ρ c 4 = Cert.ReferenceIdeal.Read.val_main_v69 (F := Ideal) (m ((c : Thread nD τ).loc main_arg0)) (m ((c : Thread nD τ).loc main_arg1)) (m ((c : Thread nD τ).loc main_arg2)) := by
    rw [val_main_v69_eq]; exact step_bridge _ _ _ _ _ _ s3 (V1_v18 m ρ c) (mask_agree m ρ c)
  rw [val_main_v80_eq]; exact step_bridge _ _ _ _ _ _ s4 (V1_v18 m ρ c) (mask_agree m ρ c)

/-- The kernel's result is the reference's result stage of the same arguments. -/
theorem result_eq (c : Dev nD) : W7 m ρ c (Proc.devRef .tc main_v37)
    = Cert.ReferenceIdeal.Read.val_main_v87 (F := Ideal) (m ((c : Thread nD τ).loc main_arg0)) (m ((c : Thread nD τ).loc main_arg1)) (m ((c : Thread nD τ).loc main_arg2)) := by
  rw [W7_v37, out4_eq, Hs_ref, ← ref_result]

/-- THE VALUE RUN: every weakly fair execution terminates with the result at the reference's result stage of the launch
    arguments, the arguments unchanged. -/
theorem value_run : θ_run defs (onTc (τ := τ) (main (F := Ideal))) ⟨m, fun _ => 0, ρ⟩ (fun r => ∀ c : Dev nD,
      r.2.mem ((c.tc : Thread nD τ).loc main_v37) = Cert.ReferenceIdeal.Read.val_main_v87 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v37 (by decide))).trans (result_eq m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

end Cert.KernelIdeal.Hand

end
-- ==== Proof.RefRun.lean ====
/-
  The reference program's @main as the list of its 115 host operations, in order (an outlined function's
  operations stand in its call's place), and its run: from any memory with zero counters every weakly fair
  execution of @main terminates, and every buffer of a device ends at the fold of the operations' results over
  the device's launch contents.
-/
import proofs.«119208_j72069551226903_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 115 operations, in order (a called function's operations stand in its call's place, spelt `TRef.…`). -/
abbrev ops : List (HloOp τ sig (Elt F)) :=
  [ nullary main_cst (constant S_ .f32 0x00000000#32),
    unary main_cst main_v0 (broadcastInDim S4096x4096 ![] bcast_S_S4096x4096 : (⟨S_, .f32⟩ : BufTy).Contents (Elt F) → (⟨S4096x4096, .f32⟩ : BufTy).Contents (Elt F)),
    unary main_arg2 main_v1 ((extractStridedSlice S1x200000 ![0, 0] · slices_S2x200000_S1x200000_0_0) : (⟨S2x200000, .i32⟩ : BufTy).Contents (Elt F) → (⟨S1x200000, .i32⟩ : BufTy).Contents (Elt F)),
    reshape main_v1 main_v2 rfl shapeCasts_S1x200000_S200000,
    unary main_arg2 main_v3 ((extractStridedSlice S1x200000 ![1, 0] · slices_S2x200000_S1x200000_1_0) : (⟨S2x200000, .i32⟩ : BufTy).Contents (Elt F) → (⟨S1x200000, .i32⟩ : BufTy).Contents (Elt F)),
    reshape main_v3 main_v4 rfl shapeCasts_S1x200000_S200000,
    nullary main_c (constantI S_ 32 0#32),
    unary main_c main_v5 (broadcastInDim S200000 ![] bcast_S_S200000 : (⟨S_, .i32⟩ : BufTy).Contents (Elt F) → (⟨S200000, .i32⟩ : BufTy).Contents (Elt F)),
    binary main_v2 main_v5 main_v6 (cmpi .slt : (⟨S200000, .i32⟩ : BufTy).Contents (Elt F) → (⟨S200000, .i32⟩ : BufTy).Contents (Elt F) → (⟨S200000, .i1⟩ : BufTy).Contents (Elt F)),
    nullary main_c_0 (constantI S_ 32 4096#32),
    unary main_c_0 main_v7 (broadcastInDim S200000 ![] bcast_S_S200000 : (⟨S_, .i32⟩ : BufTy).Contents (Elt F) → (⟨S200000, .i32⟩ : BufTy).Contents (Elt F)),
    binary main_v2 main_v7 main_v8 (addi : (⟨S200000, .i32⟩ : BufTy).Contents (Elt F) → (⟨S200000, .i32⟩ : BufTy).Contents (Elt F) → (⟨S200000, .i32⟩ : BufTy).Contents (Elt F)),
    ternary main_v6 main_v8 main_v2 main_v9 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    nullary main_c_1 (constantI S_ 32 0#32),
    unary main_c_1 main_v10 (broadcastInDim S200000 ![] bcast_S_S200000 : (⟨S_, .i32⟩ : BufTy).Contents (Elt F) → (⟨S200000, .i32⟩ : BufTy).Contents (Elt F)),
    binary main_v4 main_v10 main_v11 (cmpi .slt : (⟨S200000, .i32⟩ : BufTy).Contents (Elt F) → (⟨S200000, .i32⟩ : BufTy).Contents (Elt F) → (⟨S200000, .i1⟩ : BufTy).Contents (Elt F)),
    nullary main_c_2 (constantI S_ 32 4096#32),
    unary main_c_2 main_v12 (broadcastInDim S200000 ![] bcast_S_S200000 : (⟨S_, .i32⟩ : BufTy).Contents (Elt F) → (⟨S200000, .i32⟩ : BufTy).Contents (Elt F)),
    binary main_v4 main_v12 main_v13 (addi : (⟨S200000, .i32⟩ : BufTy).Contents (Elt F) → (⟨S200000, .i32⟩ : BufTy).Contents (Elt F) → (⟨S200000, .i32⟩ : BufTy).Contents (Elt F)),
    ternary main_v11 main_v13 main_v4 main_v14 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v9 main_v15 (broadcastInDim S200000x1 ![0] bcast_S200000_S200000x1_0 : (⟨S200000, .i32⟩ : BufTy).Contents (Elt F) → (⟨S200000x1, .i32⟩ : BufTy).Contents (Elt F)),
    unary main_v14 main_v16 (broadcastInDim S200000x1 ![0] bcast_S200000_S200000x1_0 : (⟨S200000, .i32⟩ : BufTy).Contents (Elt F) → (⟨S200000x1, .i32⟩ : BufTy).Contents (Elt F)),
    binary main_v15 main_v16 main_v17 ((fun a b => concatenate S200000x2 1 [⟨S200000x1, a⟩, ⟨S200000x1, b⟩] concatenates_S200000x1_S200000x1_S200000x2_d1) : (⟨S200000x1, .i32⟩ : BufTy).Contents (Elt F) → (⟨S200000x1, .i32⟩ : BufTy).Contents (Elt F) → (⟨S200000x2, .i32⟩ : BufTy).Contents (Elt F)),
    ternary main_v0 main_v17 main_arg1 main_v18 ((fun x i u => Host.scatterAdd scatter_S4096x4096_S200000x2_S200000_n_01_01_1 x i u) : (⟨S4096x4096, .f32⟩ : BufTy).Contents (Elt F) → (⟨S200000x2, .i32⟩ : BufTy).Contents (Elt F) → (⟨S200000, .f32⟩ : BufTy).Contents (Elt F) → (⟨S4096x4096, .f32⟩ : BufTy).Contents (Elt F)),
    nullary main_cst_3 (constant S_ .f32 0x00000000#32),
    unary main_cst_3 main_v19 (broadcastInDim S4096x4096 ![] bcast_S_S4096x4096 : (⟨S_, .f32⟩ : BufTy).Contents (Elt F) → (⟨S4096x4096, .f32⟩ : BufTy).Contents (Elt F)),
    nullary main_c_4 (constantI S_ 32 0#32),
    unary main_c_4 main_v20 (broadcastInDim S1 ![] bcast_S_S1 : (⟨S_, .i32⟩ : BufTy).Contents (Elt F) → (⟨S1, .i32⟩ : BufTy).Contents (Elt F)),
    ternary main_v19 main_v20 main_arg0 main_v21 ((fun x i u => Host.scatter scatter_S4096x4096_S1_S4096x784_01_n_1_0 (fun _ b => b) x i u) : (⟨S4096x4096, .f32⟩ : BufTy).Contents (Elt F) → (⟨S1, .i32⟩ : BufTy).Contents (Elt F) → (⟨S4096x784, .f32⟩ : BufTy).Contents (Elt F) → (⟨S4096x4096, .f32⟩ : BufTy).Contents (Elt F)),
    nullary main_cst_5 (constant S_ .f32 0x00000000#32),
    unary main_cst_5 main_v22 (broadcastInDim S4096 ![] bcast_S_S4096 : (⟨S_, .f32⟩ : BufTy).Contents (Elt F) → (⟨S4096, .f32⟩ : BufTy).Contents (Elt F)),
    nullary main_c_6 (constantI S_ 32 4086#32),
    unary main_c_6 main_v23 (broadcastInDim S1 ![] bcast_S_S1 : (⟨S_, .i32⟩ : BufTy).Contents (Elt F) → (⟨S1, .i32⟩ : BufTy).Contents (Elt F)),
    nullary main_cst_7 (constant S_ .f32 0x3F800000#32),
    unary main_cst_7 main_v24 (broadcastInDim S10 ![] bcast_S_S10 : (⟨S_, .f32⟩ : BufTy).Contents (Elt F) → (⟨S10, .f32⟩ : BufTy).Contents (Elt F)),
    ternary main_v22 main_v23 main_v24 main_v25 ((fun x i u => Host.scatter scatter_S4096_S1_S10_0_n_0_0 (fun _ b => b) x i u) : (⟨S4096, .f32⟩ : BufTy).Contents (Elt F) → (⟨S1, .i32⟩ : BufTy).Contents (Elt F) → (⟨S10, .f32⟩ : BufTy).Contents (Elt F) → (⟨S4096, .f32⟩ : BufTy).Contents (Elt F)),
    binary main_v21 main_v18 main_v26 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_v25 main_v27 (broadcastInDim S1x4096 ![1] bcast_S4096_S1x4096_1 : (⟨S4096, .f32⟩ : BufTy).Contents (Elt F) → (⟨S1x4096, .f32⟩ : BufTy).Contents (Elt F)),
    unary main_v27 main_v28 (broadcastInDim S4096x4096 ![0, 1] bcast_S1x4096_S4096x4096_0_1 : (⟨S1x4096, .f32⟩ : BufTy).Contents (Elt F) → (⟨S4096x4096, .f32⟩ : BufTy).Contents (Elt F)),
    binary main_v28 main_v26 main_v29 (mulf : (⟨S4096x4096, .f32⟩ : BufTy).Contents (Elt F) → (⟨S4096x4096, .f32⟩ : BufTy).Contents (Elt F) → (⟨S4096x4096, .f32⟩ : BufTy).Contents (Elt F)),
    nullary main_cst_8 (constant S_ .f32 0x3F800000#32),
    unary main_cst_8 main_v30 (broadcastInDim S4096 ![] bcast_S_S4096 : (⟨S_, .f32⟩ : BufTy).Contents (Elt F) → (⟨S4096, .f32⟩ : BufTy).Contents (Elt F)),
    binary main_v30 main_v25 main_v31 (subf : (⟨S4096, .f32⟩ : BufTy).Contents (Elt F) → (⟨S4096, .f32⟩ : BufTy).Contents (Elt F) → (⟨S4096, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x4096, .f32⟩) main_call0_v0) (broadcastInDim S4096x4096 ![] bcast_S_S4096x4096),
    TRef.binary (TRef.of (T := ⟨S4096x4096, .f32⟩) main_v26) (TRef.of (T := ⟨S4096x4096, .f32⟩) main_call0_v0) (TRef.of (T := ⟨S4096x4096, .f32⟩) main_v32) maximumf,
    unary main_v31 main_v33 (broadcastInDim S1x4096 ![1] bcast_S4096_S1x4096_1 : (⟨S4096, .f32⟩ : BufTy).Contents (Elt F) → (⟨S1x4096, .f32⟩ : BufTy).Contents (Elt F)),
    unary main_v33 main_v34 (broadcastInDim S4096x4096 ![0, 1] bcast_S1x4096_S4096x4096_0_1 : (⟨S1x4096, .f32⟩ : BufTy).Contents (Elt F) → (⟨S4096x4096, .f32⟩ : BufTy).Contents (Elt F)),
    binary main_v34 main_v32 main_v35 (mulf : (⟨S4096x4096, .f32⟩ : BufTy).Contents (Elt F) → (⟨S4096x4096, .f32⟩ : BufTy).Contents (Elt F) → (⟨S4096x4096, .f32⟩ : BufTy).Contents (Elt F)),
    binary main_v29 main_v35 main_v36 (addf : (⟨S4096x4096, .f32⟩ : BufTy).Contents (Elt F) → (⟨S4096x4096, .f32⟩ : BufTy).Contents (Elt F) → (⟨S4096x4096, .f32⟩ : BufTy).Contents (Elt F)),
    binary main_v36 main_v18 main_v37 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_v25 main_v38 (broadcastInDim S1x4096 ![1] bcast_S4096_S1x4096_1 : (⟨S4096, .f32⟩ : BufTy).Contents (Elt F) → (⟨S1x4096, .f32⟩ : BufTy).Contents (Elt F)),
    unary main_v38 main_v39 (broadcastInDim S4096x4096 ![0, 1] bcast_S1x4096_S4096x4096_0_1 : (⟨S1x4096, .f32⟩ : BufTy).Contents (Elt F) → (⟨S4096x4096, .f32⟩ : BufTy).Contents (Elt F)),
    binary main_v39 main_v37 main_v40 (mulf : (⟨S4096x4096, .f32⟩ : BufTy).Contents (Elt F) → (⟨S4096x4096, .f32⟩ : BufTy).Contents (Elt F) → (⟨S4096x4096, .f32⟩ : BufTy).Contents (Elt F)),
    nullary main_cst_9 (constant S_ .f32 0x3F800000#32),
    unary main_cst_9 main_v41 (broadcastInDim S4096 ![] bcast_S_S4096 : (⟨S_, .f32⟩ : BufTy).Contents (Elt F) → (⟨S4096, .f32⟩ : BufTy).Contents (Elt F)),
    binary main_v41 main_v25 main_v42 (subf : (⟨S4096, .f32⟩ : BufTy).Contents (Elt F) → (⟨S4096, .f32⟩ : BufTy).Contents (Elt F) → (⟨S4096, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x4096, .f32⟩) main_call1_v0) (broadcastInDim S4096x4096 ![] bcast_S_S4096x4096),
    TRef.binary (TRef.of (T := ⟨S4096x4096, .f32⟩) main_v37) (TRef.of (T := ⟨S4096x4096, .f32⟩) main_call1_v0) (TRef.of (T := ⟨S4096x4096, .f32⟩) main_v43) maximumf,
    unary main_v42 main_v44 (broadcastInDim S1x4096 ![1] bcast_S4096_S1x4096_1 : (⟨S4096, .f32⟩ : BufTy).Contents (Elt F) → (⟨S1x4096, .f32⟩ : BufTy).Contents (Elt F)),
    unary main_v44 main_v45 (broadcastInDim S4096x4096 ![0, 1] bcast_S1x4096_S4096x4096_0_1 : (⟨S1x4096, .f32⟩ : BufTy).Contents (Elt F) → (⟨S4096x4096, .f32⟩ : BufTy).Contents (Elt F)),
    binary main_v45 main_v43 main_v46 (mulf : (⟨S4096x4096, .f32⟩ : BufTy).Contents (Elt F) → (⟨S4096x4096, .f32⟩ : BufTy).Contents (Elt F) → (⟨S4096x4096, .f32⟩ : BufTy).Contents (Elt F)),
    binary main_v40 main_v46 main_v47 (addf : (⟨S4096x4096, .f32⟩ : BufTy).Contents (Elt F) → (⟨S4096x4096, .f32⟩ : BufTy).Contents (Elt F) → (⟨S4096x4096, .f32⟩ : BufTy).Contents (Elt F)),
    binary main_v47 main_v18 main_v48 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_v25 main_v49 (broadcastInDim S1x4096 ![1] bcast_S4096_S1x4096_1 : (⟨S4096, .f32⟩ : BufTy).Contents (Elt F) → (⟨S1x4096, .f32⟩ : BufTy).Contents (Elt F)),
    unary main_v49 main_v50 (broadcastInDim S4096x4096 ![0, 1] bcast_S1x4096_S4096x4096_0_1 : (⟨S1x4096, .f32⟩ : BufTy).Contents (Elt F) → (⟨S4096x4096, .f32⟩ : BufTy).Contents (Elt F)),
    binary main_v50 main_v48 main_v51 (mulf : (⟨S4096x4096, .f32⟩ : BufTy).Contents (Elt F) → (⟨S4096x4096, .f32⟩ : BufTy).Contents (Elt F) → (⟨S4096x4096, .f32⟩ : BufTy).Contents (Elt F)),
    nullary main_cst_10 (constant S_ .f32 0x3F800000#32),
    unary main_cst_10 main_v52 (broadcastInDim S4096 ![] bcast_S_S4096 : (⟨S_, .f32⟩ : BufTy).Contents (Elt F) → (⟨S4096, .f32⟩ : BufTy).Contents (Elt F)),
    binary main_v52 main_v25 main_v53 (subf : (⟨S4096, .f32⟩ : BufTy).Contents (Elt F) → (⟨S4096, .f32⟩ : BufTy).Contents (Elt F) → (⟨S4096, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x4096, .f32⟩) main_call2_v0) (broadcastInDim S4096x4096 ![] bcast_S_S4096x4096),
    TRef.binary (TRef.of (T := ⟨S4096x4096, .f32⟩) main_v48) (TRef.of (T := ⟨S4096x4096, .f32⟩) main_call2_v0) (TRef.of (T := ⟨S4096x4096, .f32⟩) main_v54) maximumf,
    unary main_v53 main_v55 (broadcastInDim S1x4096 ![1] bcast_S4096_S1x4096_1 : (⟨S4096, .f32⟩ : BufTy).Contents (Elt F) → (⟨S1x4096, .f32⟩ : BufTy).Contents (Elt F)),
    unary main_v55 main_v56 (broadcastInDim S4096x4096 ![0, 1] bcast_S1x4096_S4096x4096_0_1 : (⟨S1x4096, .f32⟩ : BufTy).Contents (Elt F) → (⟨S4096x4096, .f32⟩ : BufTy).Contents (Elt F)),
    binary main_v56 main_v54 main_v57 (mulf : (⟨S4096x4096, .f32⟩ : BufTy).Contents (Elt F) → (⟨S4096x4096, .f32⟩ : BufTy).Contents (Elt F) → (⟨S4096x4096, .f32⟩ : BufTy).Contents (Elt F)),
    binary main_v51 main_v57 main_v58 (addf : (⟨S4096x4096, .f32⟩ : BufTy).Contents (Elt F) → (⟨S4096x4096, .f32⟩ : BufTy).Contents (Elt F) → (⟨S4096x4096, .f32⟩ : BufTy).Contents (Elt F)),
    binary main_v58 main_v18 main_v59 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_v25 main_v60 (broadcastInDim S1x4096 ![1] bcast_S4096_S1x4096_1 : (⟨S4096, .f32⟩ : BufTy).Contents (Elt F) → (⟨S1x4096, .f32⟩ : BufTy).Contents (Elt F)),
    unary main_v60 main_v61 (broadcastInDim S4096x4096 ![0, 1] bcast_S1x4096_S4096x4096_0_1 : (⟨S1x4096, .f32⟩ : BufTy).Contents (Elt F) → (⟨S4096x4096, .f32⟩ : BufTy).Contents (Elt F)),
    binary main_v61 main_v59 main_v62 (mulf : (⟨S4096x4096, .f32⟩ : BufTy).Contents (Elt F) → (⟨S4096x4096, .f32⟩ : BufTy).Contents (Elt F) → (⟨S4096x4096, .f32⟩ : BufTy).Contents (Elt F)),
    nullary main_cst_11 (constant S_ .f32 0x3F800000#32),
    unary main_cst_11 main_v63 (broadcastInDim S4096 ![] bcast_S_S4096 : (⟨S_, .f32⟩ : BufTy).Contents (Elt F) → (⟨S4096, .f32⟩ : BufTy).Contents (Elt F)),
    binary main_v63 main_v25 main_v64 (subf : (⟨S4096, .f32⟩ : BufTy).Contents (Elt F) → (⟨S4096, .f32⟩ : BufTy).Contents (Elt F) → (⟨S4096, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4096x4096, .f32⟩) main_call3_v0) (broadcastInDim S4096x4096 ![] bcast_S_S4096x4096),
    TRef.binary (TRef.of (T := ⟨S4096x4096, .f32⟩) main_v59) (TRef.of (T := ⟨S4096x4096, .f32⟩) main_call3_v0) (TRef.of (T := ⟨S4096x4096, .f32⟩) main_v65) maximumf,
    unary main_v64 main_v66 (broadcastInDim S1x4096 ![1] bcast_S4096_S1x4096_1 : (⟨S4096, .f32⟩ : BufTy).Contents (Elt F) → (⟨S1x4096, .f32⟩ : BufTy).Contents (Elt F)),
    unary main_v66 main_v67 (broadcastInDim S4096x4096 ![0, 1] bcast_S1x4096_S4096x4096_0_1 : (⟨S1x4096, .f32⟩ : BufTy).Contents (Elt F) → (⟨S4096x4096, .f32⟩ : BufTy).Contents (Elt F)),
    binary main_v67 main_v65 main_v68 (mulf : (⟨S4096x4096, .f32⟩ : BufTy).Contents (Elt F) → (⟨S4096x4096, .f32⟩ : BufTy).Contents (Elt F) → (⟨S4096x4096, .f32⟩ : BufTy).Contents (Elt F)),
    binary main_v62 main_v68 main_v69 (addf : (⟨S4096x4096, .f32⟩ : BufTy).Contents (Elt F) → (⟨S4096x4096, .f32⟩ : BufTy).Contents (Elt F) → (⟨S4096x4096, .f32⟩ : BufTy).Contents (Elt F)),
    binary main_v69 main_v18 main_v70 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_v25 main_v71 (broadcastInDim S1x4096 ![1] bcast_S4096_S1x4096_1 : (⟨S4096, .f32⟩ : BufTy).Contents (Elt F) → (⟨S1x4096, .f32⟩ : BufTy).Contents (Elt F)),
    unary main_v71 main_v72 (broadcastInDim S4096x4096 ![0, 1] bcast_S1x4096_S4096x4096_0_1 : (⟨S1x4096, .f32⟩ : BufTy).Contents (Elt F) → (⟨S4096x4096, .f32⟩ : BufTy).Contents (Elt F)),
    binary main_v72 main_v70 main_v73 (mulf : (⟨S4096x4096, .f32⟩ : BufTy).Contents (Elt F) → (⟨S4096x4096, .f32⟩ : BufTy).Contents (Elt F) → (⟨S4096x4096, .f32⟩ : BufTy).Contents (Elt F)),
    nullary main_cst_12 (constant S_ .f32 0x3F800000#32),
    unary main_cst_12 main_v74 (broadcastInDim S4096 ![] bcast_S_S4096 : (⟨S_, .f32⟩ : BufTy).Contents (Elt F) → (⟨S4096, .f32⟩ : BufTy).Contents (Elt F)),
    binary main_v74 main_v25 main_v75 (subf : (⟨S4096, .f32⟩ : BufTy).Contents (Elt F) → (⟨S4096, .f32⟩ : BufTy).Contents (Elt F) → (⟨S4096, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4096x4096, .f32⟩) main_call4_v0) (broadcastInDim S4096x4096 ![] bcast_S_S4096x4096),
    TRef.binary (TRef.of (T := ⟨S4096x4096, .f32⟩) main_v70) (TRef.of (T := ⟨S4096x4096, .f32⟩) main_call4_v0) (TRef.of (T := ⟨S4096x4096, .f32⟩) main_v76) maximumf,
    unary main_v75 main_v77 (broadcastInDim S1x4096 ![1] bcast_S4096_S1x4096_1 : (⟨S4096, .f32⟩ : BufTy).Contents (Elt F) → (⟨S1x4096, .f32⟩ : BufTy).Contents (Elt F)),
    unary main_v77 main_v78 (broadcastInDim S4096x4096 ![0, 1] bcast_S1x4096_S4096x4096_0_1 : (⟨S1x4096, .f32⟩ : BufTy).Contents (Elt F) → (⟨S4096x4096, .f32⟩ : BufTy).Contents (Elt F)),
    binary main_v78 main_v76 main_v79 (mulf : (⟨S4096x4096, .f32⟩ : BufTy).Contents (Elt F) → (⟨S4096x4096, .f32⟩ : BufTy).Contents (Elt F) → (⟨S4096x4096, .f32⟩ : BufTy).Contents (Elt F)),
    binary main_v73 main_v79 main_v80 (addf : (⟨S4096x4096, .f32⟩ : BufTy).Contents (Elt F) → (⟨S4096x4096, .f32⟩ : BufTy).Contents (Elt F) → (⟨S4096x4096, .f32⟩ : BufTy).Contents (Elt F)),
    unary main_v80 main_v81 ((extractStridedSlice S4096x10 ![0, 4086] · slices_S4096x4096_S4096x10_0_4086) : (⟨S4096x4096, .f32⟩ : BufTy).Contents (Elt F) → (⟨S4096x10, .f32⟩ : BufTy).Contents (Elt F)),
    unary main_v81 main_v82 (Host.negf : (⟨S4096x10, .f32⟩ : BufTy).Contents (Elt F) → (⟨S4096x10, .f32⟩ : BufTy).Contents (Elt F)),
    unary main_v82 main_v83 (Host.exp : (⟨S4096x10, .f32⟩ : BufTy).Contents (Elt F) → (⟨S4096x10, .f32⟩ : BufTy).Contents (Elt F)),
    nullary main_cst_13 (constant S_ .f32 0x3F800000#32),
    unary main_cst_13 main_v84 (broadcastInDim S4096x10 ![] bcast_S_S4096x10 : (⟨S_, .f32⟩ : BufTy).Contents (Elt F) → (⟨S4096x10, .f32⟩ : BufTy).Contents (Elt F)),
    binary main_v84 main_v83 main_v85 (addf : (⟨S4096x10, .f32⟩ : BufTy).Contents (Elt F) → (⟨S4096x10, .f32⟩ : BufTy).Contents (Elt F) → (⟨S4096x10, .f32⟩ : BufTy).Contents (Elt F)),
    nullary main_cst_14 (constant S_ .f32 0x3F800000#32),
    unary main_cst_14 main_v86 (broadcastInDim S4096x10 ![] bcast_S_S4096x10 : (⟨S_, .f32⟩ : BufTy).Contents (Elt F) → (⟨S4096x10, .f32⟩ : BufTy).Contents (Elt F)),
    binary main_v86 main_v85 main_v87 (Host.divf : (⟨S4096x10, .f32⟩ : BufTy).Contents (Elt F) → (⟨S4096x10, .f32⟩ : BufTy).Contents (Elt F) → (⟨S4096x10, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., unary_bufs_sub .., nullary_bufs_sub .., unary_bufs_sub .., ternary_bufs_sub .., nullary_bufs_sub .., unary_bufs_sub .., nullary_bufs_sub .., unary_bufs_sub .., nullary_bufs_sub .., unary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., unary_bufs_sub .., nullary_bufs_sub .., unary_bufs_sub .., binary_bufs_sub .., nullary_bufs_sub .., unary_bufs_sub .., binary_bufs_sub ..⟩

/-- On every device, for any float values, from any memory with zero counters: every weakly fair execution of
    @main terminates with every buffer at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.HandRun

end
-- ==== Proof.RefValue.lean ====
/-
  The reference program's run read back at the exact instance (floats are extended reals): after its 115 operations,
  run in order from any contents of the buffers, the result buffer holds the last stage of the reference read one
  operation at a time — a function of the three argument arrays — and the argument buffers hold what they held. The
  operations are cut into the prefix that builds the weight array, the initial state and the mask, the five
  iterations, and the tail; each part is read over arbitrary contents of the buffers it reads, so that no composed
  term over a whole array is ever formed.
-/
import proofs.«119208_j72069551226903_1_alg».proof.Proof.RefRun
import proofs.«119208_j72069551226903_1_alg».proof.Proof.RefSide

noncomputable section

namespace Cert.Bridge

open Cert.ReferenceIdeal Cert.ReferenceIdeal.Gen Idealize.ShloMosaic Idealize.ShloMosaic.TcCoe Idealize.SL.Sem Idealize.ShloMosaic.StableHlo

/-- Running two lists of operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-! ## The operations in seven parts -/

section Parts
variable {F : FTy → Type} [FloatOps F]

/-- Operations 1 … 36: the weight array, the initial state and the mask, from the arguments. -/
abbrev opsPre : List (HloOp τ sig (Elt F)) :=
  [ nullary main_cst (constant S_ .f32 0x00000000#32),
    unary main_cst main_v0 (broadcastInDim S4096x4096 ![] bcast_S_S4096x4096 : (⟨S_, .f32⟩ : BufTy).Contents (Elt F) → (⟨S4096x4096, .f32⟩ : BufTy).Contents (Elt F)),
    unary main_arg2 main_v1 ((extractStridedSlice S1x200000 ![0, 0] · slices_S2x200000_S1x200000_0_0) : (⟨S2x200000, .i32⟩ : BufTy).Contents (Elt F) → (⟨S1x200000, .i32⟩ : BufTy).Contents (Elt F)),
    reshape main_v1 main_v2 rfl shapeCasts_S1x200000_S200000,
    unary main_arg2 main_v3 ((extractStridedSlice S1x200000 ![1, 0] · slices_S2x200000_S1x200000_1_0) : (⟨S2x200000, .i32⟩ : BufTy).Contents (Elt F) → (⟨S1x200000, .i32⟩ : BufTy).Contents (Elt F)),
    reshape main_v3 main_v4 rfl shapeCasts_S1x200000_S200000,
    nullary main_c (constantI S_ 32 0#32),
    unary main_c main_v5 (broadcastInDim S200000 ![] bcast_S_S200000 : (⟨S_, .i32⟩ : BufTy).Contents (Elt F) → (⟨S200000, .i32⟩ : BufTy).Contents (Elt F)),
    binary main_v2 main_v5 main_v6 (cmpi .slt : (⟨S200000, .i32⟩ : BufTy).Contents (Elt F) → (⟨S200000, .i32⟩ : BufTy).Contents (Elt F) → (⟨S200000, .i1⟩ : BufTy).Contents (Elt F)),
    nullary main_c_0 (constantI S_ 32 4096#32),
    unary main_c_0 main_v7 (broadcastInDim S200000 ![] bcast_S_S200000 : (⟨S_, .i32⟩ : BufTy).Contents (Elt F) → (⟨S200000, .i32⟩ : BufTy).Contents (Elt F)),
    binary main_v2 main_v7 main_v8 (addi : (⟨S200000, .i32⟩ : BufTy).Contents (Elt F) → (⟨S200000, .i32⟩ : BufTy).Contents (Elt F) → (⟨S200000, .i32⟩ : BufTy).Contents (Elt F)),
    ternary main_v6 main_v8 main_v2 main_v9 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    nullary main_c_1 (constantI S_ 32 0#32),
    unary main_c_1 main_v10 (broadcastInDim S200000 ![] bcast_S_S200000 : (⟨S_, .i32⟩ : BufTy).Contents (Elt F) → (⟨S200000, .i32⟩ : BufTy).Contents (Elt F)),
    binary main_v4 main_v10 main_v11 (cmpi .slt : (⟨S200000, .i32⟩ : BufTy).Contents (Elt F) → (⟨S200000, .i32⟩ : BufTy).Contents (Elt F) → (⟨S200000, .i1⟩ : BufTy).Contents (Elt F)),
    nullary main_c_2 (constantI S_ 32 4096#32),
    unary main_c_2 main_v12 (broadcastInDim S200000 ![] bcast_S_S200000 : (⟨S_, .i32⟩ : BufTy).Contents (Elt F) → (⟨S200000, .i32⟩ : BufTy).Contents (Elt F)),
    binary main_v4 main_v12 main_v13 (addi : (⟨S200000, .i32⟩ : BufTy).Contents (Elt F) → (⟨S200000, .i32⟩ : BufTy).Contents (Elt F) → (⟨S200000, .i32⟩ : BufTy).Contents (Elt F)),
    ternary main_v11 main_v13 main_v4 main_v14 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v9 main_v15 (broadcastInDim S200000x1 ![0] bcast_S200000_S200000x1_0 : (⟨S200000, .i32⟩ : BufTy).Contents (Elt F) → (⟨S200000x1, .i32⟩ : BufTy).Contents (Elt F)),
    unary main_v14 main_v16 (broadcastInDim S200000x1 ![0] bcast_S200000_S200000x1_0 : (⟨S200000, .i32⟩ : BufTy).Contents (Elt F) → (⟨S200000x1, .i32⟩ : BufTy).Contents (Elt F)),
    binary main_v15 main_v16 main_v17 ((fun a b => concatenate S200000x2 1 [⟨S200000x1, a⟩, ⟨S200000x1, b⟩] concatenates_S200000x1_S200000x1_S200000x2_d1) : (⟨S200000x1, .i32⟩ : BufTy).Contents (Elt F) → (⟨S200000x1, .i32⟩ : BufTy).Contents (Elt F) → (⟨S200000x2, .i32⟩ : BufTy).Contents (Elt F)),
    ternary main_v0 main_v17 main_arg1 main_v18 ((fun x i u => Host.scatterAdd scatter_S4096x4096_S200000x2_S200000_n_01_01_1 x i u) : (⟨S4096x4096, .f32⟩ : BufTy).Contents (Elt F) → (⟨S200000x2, .i32⟩ : BufTy).Contents (Elt F) → (⟨S200000, .f32⟩ : BufTy).Contents (Elt F) → (⟨S4096x4096, .f32⟩ : BufTy).Contents (Elt F)),
    nullary main_cst_3 (constant S_ .f32 0x00000000#32),
    unary main_cst_3 main_v19 (broadcastInDim S4096x4096 ![] bcast_S_S4096x4096 : (⟨S_, .f32⟩ : BufTy).Contents (Elt F) → (⟨S4096x4096, .f32⟩ : BufTy).Contents (Elt F)),
    nullary main_c_4 (constantI S_ 32 0#32),
    unary main_c_4 main_v20 (broadcastInDim S1 ![] bcast_S_S1 : (⟨S_, .i32⟩ : BufTy).Contents (Elt F) → (⟨S1, .i32⟩ : BufTy).Contents (Elt F)),
    ternary main_v19 main_v20 main_arg0 main_v21 ((fun x i u => Host.scatter scatter_S4096x4096_S1_S4096x784_01_n_1_0 (fun _ b => b) x i u) : (⟨S4096x4096, .f32⟩ : BufTy).Contents (Elt F) → (⟨S1, .i32⟩ : BufTy).Contents (Elt F) → (⟨S4096x784, .f32⟩ : BufTy).Contents (Elt F) → (⟨S4096x4096, .f32⟩ : BufTy).Contents (Elt F)),
    nullary main_cst_5 (constant S_ .f32 0x00000000#32),
    unary main_cst_5 main_v22 (broadcastInDim S4096 ![] bcast_S_S4096 : (⟨S_, .f32⟩ : BufTy).Contents (Elt F) → (⟨S4096, .f32⟩ : BufTy).Contents (Elt F)),
    nullary main_c_6 (constantI S_ 32 4086#32),
    unary main_c_6 main_v23 (broadcastInDim S1 ![] bcast_S_S1 : (⟨S_, .i32⟩ : BufTy).Contents (Elt F) → (⟨S1, .i32⟩ : BufTy).Contents (Elt F)),
    nullary main_cst_7 (constant S_ .f32 0x3F800000#32),
    unary main_cst_7 main_v24 (broadcastInDim S10 ![] bcast_S_S10 : (⟨S_, .f32⟩ : BufTy).Contents (Elt F) → (⟨S10, .f32⟩ : BufTy).Contents (Elt F)),
    ternary main_v22 main_v23 main_v24 main_v25 ((fun x i u => Host.scatter scatter_S4096_S1_S10_0_n_0_0 (fun _ b => b) x i u) : (⟨S4096, .f32⟩ : BufTy).Contents (Elt F) → (⟨S1, .i32⟩ : BufTy).Contents (Elt F) → (⟨S10, .f32⟩ : BufTy).Contents (Elt F) → (⟨S4096, .f32⟩ : BufTy).Contents (Elt F)) ]

/-- Operations 37 … 50: iteration 1. -/
abbrev opsIt1 : List (HloOp τ sig (Elt F)) :=
  [ binary main_v21 main_v18 main_v26 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_v25 main_v27 (broadcastInDim S1x4096 ![1] bcast_S4096_S1x4096_1 : (⟨S4096, .f32⟩ : BufTy).Contents (Elt F) → (⟨S1x4096, .f32⟩ : BufTy).Contents (Elt F)),
    unary main_v27 main_v28 (broadcastInDim S4096x4096 ![0, 1] bcast_S1x4096_S4096x4096_0_1 : (⟨S1x4096, .f32⟩ : BufTy).Contents (Elt F) → (⟨S4096x4096, .f32⟩ : BufTy).Contents (Elt F)),
    binary main_v28 main_v26 main_v29 (mulf : (⟨S4096x4096, .f32⟩ : BufTy).Contents (Elt F) → (⟨S4096x4096, .f32⟩ : BufTy).Contents (Elt F) → (⟨S4096x4096, .f32⟩ : BufTy).Contents (Elt F)),
    nullary main_cst_8 (constant S_ .f32 0x3F800000#32),
    unary main_cst_8 main_v30 (broadcastInDim S4096 ![] bcast_S_S4096 : (⟨S_, .f32⟩ : BufTy).Contents (Elt F) → (⟨S4096, .f32⟩ : BufTy).Contents (Elt F)),
    binary main_v30 main_v25 main_v31 (subf : (⟨S4096, .f32⟩ : BufTy).Contents (Elt F) → (⟨S4096, .f32⟩ : BufTy).Contents (Elt F) → (⟨S4096, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x4096, .f32⟩) main_call0_v0) (broadcastInDim S4096x4096 ![] bcast_S_S4096x4096),
    TRef.binary (TRef.of (T := ⟨S4096x4096, .f32⟩) main_v26) (TRef.of (T := ⟨S4096x4096, .f32⟩) main_call0_v0) (TRef.of (T := ⟨S4096x4096, .f32⟩) main_v32) maximumf,
    unary main_v31 main_v33 (broadcastInDim S1x4096 ![1] bcast_S4096_S1x4096_1 : (⟨S4096, .f32⟩ : BufTy).Contents (Elt F) → (⟨S1x4096, .f32⟩ : BufTy).Contents (Elt F)),
    unary main_v33 main_v34 (broadcastInDim S4096x4096 ![0, 1] bcast_S1x4096_S4096x4096_0_1 : (⟨S1x4096, .f32⟩ : BufTy).Contents (Elt F) → (⟨S4096x4096, .f32⟩ : BufTy).Contents (Elt F)),
    binary main_v34 main_v32 main_v35 (mulf : (⟨S4096x4096, .f32⟩ : BufTy).Contents (Elt F) → (⟨S4096x4096, .f32⟩ : BufTy).Contents (Elt F) → (⟨S4096x4096, .f32⟩ : BufTy).Contents (Elt F)),
    binary main_v29 main_v35 main_v36 (addf : (⟨S4096x4096, .f32⟩ : BufTy).Contents (Elt F) → (⟨S4096x4096, .f32⟩ : BufTy).Contents (Elt F) → (⟨S4096x4096, .f32⟩ : BufTy).Contents (Elt F)) ]

/-- Operations 51 … 64: iteration 2. -/
abbrev opsIt2 : List (HloOp τ sig (Elt F)) :=
  [ binary main_v36 main_v18 main_v37 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_v25 main_v38 (broadcastInDim S1x4096 ![1] bcast_S4096_S1x4096_1 : (⟨S4096, .f32⟩ : BufTy).Contents (Elt F) → (⟨S1x4096, .f32⟩ : BufTy).Contents (Elt F)),
    unary main_v38 main_v39 (broadcastInDim S4096x4096 ![0, 1] bcast_S1x4096_S4096x4096_0_1 : (⟨S1x4096, .f32⟩ : BufTy).Contents (Elt F) → (⟨S4096x4096, .f32⟩ : BufTy).Contents (Elt F)),
    binary main_v39 main_v37 main_v40 (mulf : (⟨S4096x4096, .f32⟩ : BufTy).Contents (Elt F) → (⟨S4096x4096, .f32⟩ : BufTy).Contents (Elt F) → (⟨S4096x4096, .f32⟩ : BufTy).Contents (Elt F)),
    nullary main_cst_9 (constant S_ .f32 0x3F800000#32),
    unary main_cst_9 main_v41 (broadcastInDim S4096 ![] bcast_S_S4096 : (⟨S_, .f32⟩ : BufTy).Contents (Elt F) → (⟨S4096, .f32⟩ : BufTy).Contents (Elt F)),
    binary main_v41 main_v25 main_v42 (subf : (⟨S4096, .f32⟩ : BufTy).Contents (Elt F) → (⟨S4096, .f32⟩ : BufTy).Contents (Elt F) → (⟨S4096, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096x4096, .f32⟩) main_call1_v0) (broadcastInDim S4096x4096 ![] bcast_S_S4096x4096),
    TRef.binary (TRef.of (T := ⟨S4096x4096, .f32⟩) main_v37) (TRef.of (T := ⟨S4096x4096, .f32⟩) main_call1_v0) (TRef.of (T := ⟨S4096x4096, .f32⟩) main_v43) maximumf,
    unary main_v42 main_v44 (broadcastInDim S1x4096 ![1] bcast_S4096_S1x4096_1 : (⟨S4096, .f32⟩ : BufTy).Contents (Elt F) → (⟨S1x4096, .f32⟩ : BufTy).Contents (Elt F)),
    unary main_v44 main_v45 (broadcastInDim S4096x4096 ![0, 1] bcast_S1x4096_S4096x4096_0_1 : (⟨S1x4096, .f32⟩ : BufTy).Contents (Elt F) → (⟨S4096x4096, .f32⟩ : BufTy).Contents (Elt F)),
    binary main_v45 main_v43 main_v46 (mulf : (⟨S4096x4096, .f32⟩ : BufTy).Contents (Elt F) → (⟨S4096x4096, .f32⟩ : BufTy).Contents (Elt F) → (⟨S4096x4096, .f32⟩ : BufTy).Contents (Elt F)),
    binary main_v40 main_v46 main_v47 (addf : (⟨S4096x4096, .f32⟩ : BufTy).Contents (Elt F) → (⟨S4096x4096, .f32⟩ : BufTy).Contents (Elt F) → (⟨S4096x4096, .f32⟩ : BufTy).Contents (Elt F)) ]

/-- Operations 65 … 78: iteration 3. -/
abbrev opsIt3 : List (HloOp τ sig (Elt F)) :=
  [ binary main_v47 main_v18 main_v48 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_v25 main_v49 (broadcastInDim S1x4096 ![1] bcast_S4096_S1x4096_1 : (⟨S4096, .f32⟩ : BufTy).Contents (Elt F) → (⟨S1x4096, .f32⟩ : BufTy).Contents (Elt F)),
    unary main_v49 main_v50 (broadcastInDim S4096x4096 ![0, 1] bcast_S1x4096_S4096x4096_0_1 : (⟨S1x4096, .f32⟩ : BufTy).Contents (Elt F) → (⟨S4096x4096, .f32⟩ : BufTy).Contents (Elt F)),
    binary main_v50 main_v48 main_v51 (mulf : (⟨S4096x4096, .f32⟩ : BufTy).Contents (Elt F) → (⟨S4096x4096, .f32⟩ : BufTy).Contents (Elt F) → (⟨S4096x4096, .f32⟩ : BufTy).Contents (Elt F)),
    nullary main_cst_10 (constant S_ .f32 0x3F800000#32),
    unary main_cst_10 main_v52 (broadcastInDim S4096 ![] bcast_S_S4096 : (⟨S_, .f32⟩ : BufTy).Contents (Elt F) → (⟨S4096, .f32⟩ : BufTy).Contents (Elt F)),
    binary main_v52 main_v25 main_v53 (subf : (⟨S4096, .f32⟩ : BufTy).Contents (Elt F) → (⟨S4096, .f32⟩ : BufTy).Contents (Elt F) → (⟨S4096, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S4096x4096, .f32⟩) main_call2_v0) (broadcastInDim S4096x4096 ![] bcast_S_S4096x4096),
    TRef.binary (TRef.of (T := ⟨S4096x4096, .f32⟩) main_v48) (TRef.of (T := ⟨S4096x4096, .f32⟩) main_call2_v0) (TRef.of (T := ⟨S4096x4096, .f32⟩) main_v54) maximumf,
    unary main_v53 main_v55 (broadcastInDim S1x4096 ![1] bcast_S4096_S1x4096_1 : (⟨S4096, .f32⟩ : BufTy).Contents (Elt F) → (⟨S1x4096, .f32⟩ : BufTy).Contents (Elt F)),
    unary main_v55 main_v56 (broadcastInDim S4096x4096 ![0, 1] bcast_S1x4096_S4096x4096_0_1 : (⟨S1x4096, .f32⟩ : BufTy).Contents (Elt F) → (⟨S4096x4096, .f32⟩ : BufTy).Contents (Elt F)),
    binary main_v56 main_v54 main_v57 (mulf : (⟨S4096x4096, .f32⟩ : BufTy).Contents (Elt F) → (⟨S4096x4096, .f32⟩ : BufTy).Contents (Elt F) → (⟨S4096x4096, .f32⟩ : BufTy).Contents (Elt F)),
    binary main_v51 main_v57 main_v58 (addf : (⟨S4096x4096, .f32⟩ : BufTy).Contents (Elt F) → (⟨S4096x4096, .f32⟩ : BufTy).Contents (Elt F) → (⟨S4096x4096, .f32⟩ : BufTy).Contents (Elt F)) ]

/-- Operations 79 … 92: iteration 4. -/
abbrev opsIt4 : List (HloOp τ sig (Elt F)) :=
  [ binary main_v58 main_v18 main_v59 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_v25 main_v60 (broadcastInDim S1x4096 ![1] bcast_S4096_S1x4096_1 : (⟨S4096, .f32⟩ : BufTy).Contents (Elt F) → (⟨S1x4096, .f32⟩ : BufTy).Contents (Elt F)),
    unary main_v60 main_v61 (broadcastInDim S4096x4096 ![0, 1] bcast_S1x4096_S4096x4096_0_1 : (⟨S1x4096, .f32⟩ : BufTy).Contents (Elt F) → (⟨S4096x4096, .f32⟩ : BufTy).Contents (Elt F)),
    binary main_v61 main_v59 main_v62 (mulf : (⟨S4096x4096, .f32⟩ : BufTy).Contents (Elt F) → (⟨S4096x4096, .f32⟩ : BufTy).Contents (Elt F) → (⟨S4096x4096, .f32⟩ : BufTy).Contents (Elt F)),
    nullary main_cst_11 (constant S_ .f32 0x3F800000#32),
    unary main_cst_11 main_v63 (broadcastInDim S4096 ![] bcast_S_S4096 : (⟨S_, .f32⟩ : BufTy).Contents (Elt F) → (⟨S4096, .f32⟩ : BufTy).Contents (Elt F)),
    binary main_v63 main_v25 main_v64 (subf : (⟨S4096, .f32⟩ : BufTy).Contents (Elt F) → (⟨S4096, .f32⟩ : BufTy).Contents (Elt F) → (⟨S4096, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S4096x4096, .f32⟩) main_call3_v0) (broadcastInDim S4096x4096 ![] bcast_S_S4096x4096),
    TRef.binary (TRef.of (T := ⟨S4096x4096, .f32⟩) main_v59) (TRef.of (T := ⟨S4096x4096, .f32⟩) main_call3_v0) (TRef.of (T := ⟨S4096x4096, .f32⟩) main_v65) maximumf,
    unary main_v64 main_v66 (broadcastInDim S1x4096 ![1] bcast_S4096_S1x4096_1 : (⟨S4096, .f32⟩ : BufTy).Contents (Elt F) → (⟨S1x4096, .f32⟩ : BufTy).Contents (Elt F)),
    unary main_v66 main_v67 (broadcastInDim S4096x4096 ![0, 1] bcast_S1x4096_S4096x4096_0_1 : (⟨S1x4096, .f32⟩ : BufTy).Contents (Elt F) → (⟨S4096x4096, .f32⟩ : BufTy).Contents (Elt F)),
    binary main_v67 main_v65 main_v68 (mulf : (⟨S4096x4096, .f32⟩ : BufTy).Contents (Elt F) → (⟨S4096x4096, .f32⟩ : BufTy).Contents (Elt F) → (⟨S4096x4096, .f32⟩ : BufTy).Contents (Elt F)),
    binary main_v62 main_v68 main_v69 (addf : (⟨S4096x4096, .f32⟩ : BufTy).Contents (Elt F) → (⟨S4096x4096, .f32⟩ : BufTy).Contents (Elt F) → (⟨S4096x4096, .f32⟩ : BufTy).Contents (Elt F)) ]

/-- Operations 93 … 106: iteration 5. -/
abbrev opsIt5 : List (HloOp τ sig (Elt F)) :=
  [ binary main_v69 main_v18 main_v70 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_v25 main_v71 (broadcastInDim S1x4096 ![1] bcast_S4096_S1x4096_1 : (⟨S4096, .f32⟩ : BufTy).Contents (Elt F) → (⟨S1x4096, .f32⟩ : BufTy).Contents (Elt F)),
    unary main_v71 main_v72 (broadcastInDim S4096x4096 ![0, 1] bcast_S1x4096_S4096x4096_0_1 : (⟨S1x4096, .f32⟩ : BufTy).Contents (Elt F) → (⟨S4096x4096, .f32⟩ : BufTy).Contents (Elt F)),
    binary main_v72 main_v70 main_v73 (mulf : (⟨S4096x4096, .f32⟩ : BufTy).Contents (Elt F) → (⟨S4096x4096, .f32⟩ : BufTy).Contents (Elt F) → (⟨S4096x4096, .f32⟩ : BufTy).Contents (Elt F)),
    nullary main_cst_12 (constant S_ .f32 0x3F800000#32),
    unary main_cst_12 main_v74 (broadcastInDim S4096 ![] bcast_S_S4096 : (⟨S_, .f32⟩ : BufTy).Contents (Elt F) → (⟨S4096, .f32⟩ : BufTy).Contents (Elt F)),
    binary main_v74 main_v25 main_v75 (subf : (⟨S4096, .f32⟩ : BufTy).Contents (Elt F) → (⟨S4096, .f32⟩ : BufTy).Contents (Elt F) → (⟨S4096, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4096x4096, .f32⟩) main_call4_v0) (broadcastInDim S4096x4096 ![] bcast_S_S4096x4096),
    TRef.binary (TRef.of (T := ⟨S4096x4096, .f32⟩) main_v70) (TRef.of (T := ⟨S4096x4096, .f32⟩) main_call4_v0) (TRef.of (T := ⟨S4096x4096, .f32⟩) main_v76) maximumf,
    unary main_v75 main_v77 (broadcastInDim S1x4096 ![1] bcast_S4096_S1x4096_1 : (⟨S4096, .f32⟩ : BufTy).Contents (Elt F) → (⟨S1x4096, .f32⟩ : BufTy).Contents (Elt F)),
    unary main_v77 main_v78 (broadcastInDim S4096x4096 ![0, 1] bcast_S1x4096_S4096x4096_0_1 : (⟨S1x4096, .f32⟩ : BufTy).Contents (Elt F) → (⟨S4096x4096, .f32⟩ : BufTy).Contents (Elt F)),
    binary main_v78 main_v76 main_v79 (mulf : (⟨S4096x4096, .f32⟩ : BufTy).Contents (Elt F) → (⟨S4096x4096, .f32⟩ : BufTy).Contents (Elt F) → (⟨S4096x4096, .f32⟩ : BufTy).Contents (Elt F)),
    binary main_v73 main_v79 main_v80 (addf : (⟨S4096x4096, .f32⟩ : BufTy).Contents (Elt F) → (⟨S4096x4096, .f32⟩ : BufTy).Contents (Elt F) → (⟨S4096x4096, .f32⟩ : BufTy).Contents (Elt F)) ]

/-- Operations 107 … 115: the last 10 columns through the logistic function. -/
abbrev opsTail : List (HloOp τ sig (Elt F)) :=
  [ unary main_v80 main_v81 ((extractStridedSlice S4096x10 ![0, 4086] · slices_S4096x4096_S4096x10_0_4086) : (⟨S4096x4096, .f32⟩ : BufTy).Contents (Elt F) → (⟨S4096x10, .f32⟩ : BufTy).Contents (Elt F)),
    unary main_v81 main_v82 (Host.negf : (⟨S4096x10, .f32⟩ : BufTy).Contents (Elt F) → (⟨S4096x10, .f32⟩ : BufTy).Contents (Elt F)),
    unary main_v82 main_v83 (Host.exp : (⟨S4096x10, .f32⟩ : BufTy).Contents (Elt F) → (⟨S4096x10, .f32⟩ : BufTy).Contents (Elt F)),
    nullary main_cst_13 (constant S_ .f32 0x3F800000#32),
    unary main_cst_13 main_v84 (broadcastInDim S4096x10 ![] bcast_S_S4096x10 : (⟨S_, .f32⟩ : BufTy).Contents (Elt F) → (⟨S4096x10, .f32⟩ : BufTy).Contents (Elt F)),
    binary main_v84 main_v83 main_v85 (addf : (⟨S4096x10, .f32⟩ : BufTy).Contents (Elt F) → (⟨S4096x10, .f32⟩ : BufTy).Contents (Elt F) → (⟨S4096x10, .f32⟩ : BufTy).Contents (Elt F)),
    nullary main_cst_14 (constant S_ .f32 0x3F800000#32),
    unary main_cst_14 main_v86 (broadcastInDim S4096x10 ![] bcast_S_S4096x10 : (⟨S_, .f32⟩ : BufTy).Contents (Elt F) → (⟨S4096x10, .f32⟩ : BufTy).Contents (Elt F)),
    binary main_v86 main_v85 main_v87 (Host.divf : (⟨S4096x10, .f32⟩ : BufTy).Contents (Elt F) → (⟨S4096x10, .f32⟩ : BufTy).Contents (Elt F) → (⟨S4096x10, .f32⟩ : BufTy).Contents (Elt F)) ]

end Parts

set_option maxRecDepth 8192 in
/-- The 115 operations are the seven parts in order. -/
theorem ops_split : HandRun.ops (F := Ideal)
    = opsPre (F := Ideal) ++ (opsIt1 (F := Ideal) ++ (opsIt2 (F := Ideal) ++ (opsIt3 (F := Ideal) ++ (opsIt4 (F := Ideal) ++ (opsIt5 (F := Ideal) ++ opsTail (F := Ideal)))))) := rfl

/-! ## Each part over arbitrary contents -/

/-- The prefix writes the weight array, a function of the edge values and indices … -/
theorem after_opsPre_v18 (V : Valuation τ sig (Elt Ideal)) :
    after (opsPre (F := Ideal)) V (Proc.devRef .tc main_v18)
      = Read.val_main_v18 (F := Ideal) (V (Proc.devRef .tc main_arg1)) (V (Proc.devRef .tc main_arg2)) := by
  after_results_simp
  rfl
/-- … the initial state, a function of the input … -/
theorem after_opsPre_v21 (V : Valuation τ sig (Elt Ideal)) :
    after (opsPre (F := Ideal)) V (Proc.devRef .tc main_v21) = Read.val_main_v21 (F := Ideal) (V (Proc.devRef .tc main_arg0)) := by
  after_results_simp
  rfl
/-- … and the mask, a constant; -/
theorem after_opsPre_v25 (V : Valuation τ sig (Elt Ideal)) :
    after (opsPre (F := Ideal)) V (Proc.devRef .tc main_v25) = Read.val_main_v25 (F := Ideal) := by
  after_results_simp
  rfl
/-- it leaves the arguments. -/
theorem after_opsPre_main_arg0 (V : Valuation τ sig (Elt Ideal)) :
    after (opsPre (F := Ideal)) V (Proc.devRef .tc main_arg0) = V (Proc.devRef .tc main_arg0) := by
  after_results_simp
theorem after_opsPre_main_arg1 (V : Valuation τ sig (Elt Ideal)) :
    after (opsPre (F := Ideal)) V (Proc.devRef .tc main_arg1) = V (Proc.devRef .tc main_arg1) := by
  after_results_simp
theorem after_opsPre_main_arg2 (V : Valuation τ sig (Elt Ideal)) :
    after (opsPre (F := Ideal)) V (Proc.devRef .tc main_arg2) = V (Proc.devRef .tc main_arg2) := by
  after_results_simp

/-- Iteration 1's operations write the iteration of what the state, weight and mask buffers hold. -/
theorem after_opsIt1 (V : Valuation τ sig (Elt Ideal)) :
    after (opsIt1 (F := Ideal)) V (Proc.devRef .tc main_v36)
      = stepFn (V (Proc.devRef .tc main_v21)) (V (Proc.devRef .tc main_v18)) (V (Proc.devRef .tc main_v25)) := by
  after_results_simp
  rfl
theorem after_opsIt1_main_v18 (V : Valuation τ sig (Elt Ideal)) :
    after (opsIt1 (F := Ideal)) V (Proc.devRef .tc main_v18) = V (Proc.devRef .tc main_v18) := by
  after_results_simp
theorem after_opsIt1_main_v25 (V : Valuation τ sig (Elt Ideal)) :
    after (opsIt1 (F := Ideal)) V (Proc.devRef .tc main_v25) = V (Proc.devRef .tc main_v25) := by
  after_results_simp
theorem after_opsIt1_main_arg0 (V : Valuation τ sig (Elt Ideal)) :
    after (opsIt1 (F := Ideal)) V (Proc.devRef .tc main_arg0) = V (Proc.devRef .tc main_arg0) := by
  after_results_simp
theorem after_opsIt1_main_arg1 (V : Valuation τ sig (Elt Ideal)) :
    after (opsIt1 (F := Ideal)) V (Proc.devRef .tc main_arg1) = V (Proc.devRef .tc main_arg1) := by
  after_results_simp
theorem after_opsIt1_main_arg2 (V : Valuation τ sig (Elt Ideal)) :
    after (opsIt1 (F := Ideal)) V (Proc.devRef .tc main_arg2) = V (Proc.devRef .tc main_arg2) := by
  after_results_simp

/-- Iteration 2's operations write the iteration of what the state, weight and mask buffers hold. -/
theorem after_opsIt2 (V : Valuation τ sig (Elt Ideal)) :
    after (opsIt2 (F := Ideal)) V (Proc.devRef .tc main_v47)
      = stepFn (V (Proc.devRef .tc main_v36)) (V (Proc.devRef .tc main_v18)) (V (Proc.devRef .tc main_v25)) := by
  after_results_simp
  rfl
theorem after_opsIt2_main_v18 (V : Valuation τ sig (Elt Ideal)) :
    after (opsIt2 (F := Ideal)) V (Proc.devRef .tc main_v18) = V (Proc.devRef .tc main_v18) := by
  after_results_simp
theorem after_opsIt2_main_v25 (V : Valuation τ sig (Elt Ideal)) :
    after (opsIt2 (F := Ideal)) V (Proc.devRef .tc main_v25) = V (Proc.devRef .tc main_v25) := by
  after_results_simp
theorem after_opsIt2_main_arg0 (V : Valuation τ sig (Elt Ideal)) :
    after (opsIt2 (F := Ideal)) V (Proc.devRef .tc main_arg0) = V (Proc.devRef .tc main_arg0) := by
  after_results_simp
theorem after_opsIt2_main_arg1 (V : Valuation τ sig (Elt Ideal)) :
    after (opsIt2 (F := Ideal)) V (Proc.devRef .tc main_arg1) = V (Proc.devRef .tc main_arg1) := by
  after_results_simp
theorem after_opsIt2_main_arg2 (V : Valuation τ sig (Elt Ideal)) :
    after (opsIt2 (F := Ideal)) V (Proc.devRef .tc main_arg2) = V (Proc.devRef .tc main_arg2) := by
  after_results_simp

/-- Iteration 3's operations write the iteration of what the state, weight and mask buffers hold. -/
theorem after_opsIt3 (V : Valuation τ sig (Elt Ideal)) :
    after (opsIt3 (F := Ideal)) V (Proc.devRef .tc main_v58)
      = stepFn (V (Proc.devRef .tc main_v47)) (V (Proc.devRef .tc main_v18)) (V (Proc.devRef .tc main_v25)) := by
  after_results_simp
  rfl
theorem after_opsIt3_main_v18 (V : Valuation τ sig (Elt Ideal)) :
    after (opsIt3 (F := Ideal)) V (Proc.devRef .tc main_v18) = V (Proc.devRef .tc main_v18) := by
  after_results_simp
theorem after_opsIt3_main_v25 (V : Valuation τ sig (Elt Ideal)) :
    after (opsIt3 (F := Ideal)) V (Proc.devRef .tc main_v25) = V (Proc.devRef .tc main_v25) := by
  after_results_simp
theorem after_opsIt3_main_arg0 (V : Valuation τ sig (Elt Ideal)) :
    after (opsIt3 (F := Ideal)) V (Proc.devRef .tc main_arg0) = V (Proc.devRef .tc main_arg0) := by
  after_results_simp
theorem after_opsIt3_main_arg1 (V : Valuation τ sig (Elt Ideal)) :
    after (opsIt3 (F := Ideal)) V (Proc.devRef .tc main_arg1) = V (Proc.devRef .tc main_arg1) := by
  after_results_simp
theorem after_opsIt3_main_arg2 (V : Valuation τ sig (Elt Ideal)) :
    after (opsIt3 (F := Ideal)) V (Proc.devRef .tc main_arg2) = V (Proc.devRef .tc main_arg2) := by
  after_results_simp

/-- Iteration 4's operations write the iteration of what the state, weight and mask buffers hold. -/
theorem after_opsIt4 (V : Valuation τ sig (Elt Ideal)) :
    after (opsIt4 (F := Ideal)) V (Proc.devRef .tc main_v69)
      = stepFn (V (Proc.devRef .tc main_v58)) (V (Proc.devRef .tc main_v18)) (V (Proc.devRef .tc main_v25)) := by
  after_results_simp
  rfl
theorem after_opsIt4_main_v18 (V : Valuation τ sig (Elt Ideal)) :
    after (opsIt4 (F := Ideal)) V (Proc.devRef .tc main_v18) = V (Proc.devRef .tc main_v18) := by
  after_results_simp
theorem after_opsIt4_main_v25 (V : Valuation τ sig (Elt Ideal)) :
    after (opsIt4 (F := Ideal)) V (Proc.devRef .tc main_v25) = V (Proc.devRef .tc main_v25) := by
  after_results_simp
theorem after_opsIt4_main_arg0 (V : Valuation τ sig (Elt Ideal)) :
    after (opsIt4 (F := Ideal)) V (Proc.devRef .tc main_arg0) = V (Proc.devRef .tc main_arg0) := by
  after_results_simp
theorem after_opsIt4_main_arg1 (V : Valuation τ sig (Elt Ideal)) :
    after (opsIt4 (F := Ideal)) V (Proc.devRef .tc main_arg1) = V (Proc.devRef .tc main_arg1) := by
  after_results_simp
theorem after_opsIt4_main_arg2 (V : Valuation τ sig (Elt Ideal)) :
    after (opsIt4 (F := Ideal)) V (Proc.devRef .tc main_arg2) = V (Proc.devRef .tc main_arg2) := by
  after_results_simp

/-- Iteration 5's operations write the iteration of what the state, weight and mask buffers hold. -/
theorem after_opsIt5 (V : Valuation τ sig (Elt Ideal)) :
    after (opsIt5 (F := Ideal)) V (Proc.devRef .tc main_v80)
      = stepFn (V (Proc.devRef .tc main_v69)) (V (Proc.devRef .tc main_v18)) (V (Proc.devRef .tc main_v25)) := by
  after_results_simp
  rfl
theorem after_opsIt5_main_v18 (V : Valuation τ sig (Elt Ideal)) :
    after (opsIt5 (F := Ideal)) V (Proc.devRef .tc main_v18) = V (Proc.devRef .tc main_v18) := by
  after_results_simp
theorem after_opsIt5_main_v25 (V : Valuation τ sig (Elt Ideal)) :
    after (opsIt5 (F := Ideal)) V (Proc.devRef .tc main_v25) = V (Proc.devRef .tc main_v25) := by
  after_results_simp
theorem after_opsIt5_main_arg0 (V : Valuation τ sig (Elt Ideal)) :
    after (opsIt5 (F := Ideal)) V (Proc.devRef .tc main_arg0) = V (Proc.devRef .tc main_arg0) := by
  after_results_simp
theorem after_opsIt5_main_arg1 (V : Valuation τ sig (Elt Ideal)) :
    after (opsIt5 (F := Ideal)) V (Proc.devRef .tc main_arg1) = V (Proc.devRef .tc main_arg1) := by
  after_results_simp
theorem after_opsIt5_main_arg2 (V : Valuation τ sig (Elt Ideal)) :
    after (opsIt5 (F := Ideal)) V (Proc.devRef .tc main_arg2) = V (Proc.devRef .tc main_arg2) := by
  after_results_simp

/-- The tail's operations write the tail of what the fifth state's buffer holds. -/
theorem after_opsTail (V : Valuation τ sig (Elt Ideal)) :
    after (opsTail (F := Ideal)) V (Proc.devRef .tc main_v87) = tailFn (V (Proc.devRef .tc main_v80)) := by
  after_results_simp
  rfl
theorem after_opsTail_main_arg0 (V : Valuation τ sig (Elt Ideal)) :
    after (opsTail (F := Ideal)) V (Proc.devRef .tc main_arg0) = V (Proc.devRef .tc main_arg0) := by
  after_results_simp
theorem after_opsTail_main_arg1 (V : Valuation τ sig (Elt Ideal)) :
    after (opsTail (F := Ideal)) V (Proc.devRef .tc main_arg1) = V (Proc.devRef .tc main_arg1) := by
  after_results_simp
theorem after_opsTail_main_arg2 (V : Valuation τ sig (Elt Ideal)) :
    after (opsTail (F := Ideal)) V (Proc.devRef .tc main_arg2) = V (Proc.devRef .tc main_arg2) := by
  after_results_simp

/-! ## The whole run -/

/-- After the 115 operations the result buffer holds the reference's last stage, a function of what the three argument
    buffers held. -/
theorem ref_after (V : Valuation τ sig (Elt Ideal)) :
    after (HandRun.ops (F := Ideal)) V (Proc.devRef .tc main_v87)
      = Read.val_main_v87 (F := Ideal) (V (Proc.devRef .tc main_arg0)) (V (Proc.devRef .tc main_arg1)) (V (Proc.devRef .tc main_arg2)) := by
  rw [ops_split, after_append, after_append, after_append, after_append, after_append, after_append]
  rw [after_opsTail,
    after_opsIt5, after_opsIt4_main_v18, after_opsIt4_main_v25,
    after_opsIt4, after_opsIt3_main_v18, after_opsIt3_main_v25,
    after_opsIt3, after_opsIt2_main_v18, after_opsIt2_main_v25,
    after_opsIt2, after_opsIt1_main_v18, after_opsIt1_main_v25,
    after_opsIt1, after_opsPre_v21, after_opsPre_v18, after_opsPre_v25]
  rw [ref_result, val_main_v80_eq, val_main_v69_eq, val_main_v58_eq, val_main_v47_eq, val_main_v36_eq]

/-- The operations leave argument 0. -/
theorem ref_after_main_arg0 (V : Valuation τ sig (Elt Ideal)) :
    after (HandRun.ops (F := Ideal)) V (Proc.devRef .tc main_arg0) = V (Proc.devRef .tc main_arg0) := by
  rw [ops_split, after_append, after_append, after_append, after_append, after_append, after_append,
    after_opsTail_main_arg0, after_opsIt5_main_arg0, after_opsIt4_main_arg0, after_opsIt3_main_arg0, after_opsIt2_main_arg0,
    after_opsIt1_main_arg0, after_opsPre_main_arg0]

/-- The operations leave argument 1. -/
theorem ref_after_main_arg1 (V : Valuation τ sig (Elt Ideal)) :
    after (HandRun.ops (F := Ideal)) V (Proc.devRef .tc main_arg1) = V (Proc.devRef .tc main_arg1) := by
  rw [ops_split, after_append, after_append, after_append, after_append, after_append, after_append,
    after_opsTail_main_arg1, after_opsIt5_main_arg1, after_opsIt4_main_arg1, after_opsIt3_main_arg1, after_opsIt2_main_arg1,
    after_opsIt1_main_arg1, after_opsPre_main_arg1]

/-- The operations leave argument 2. -/
theorem ref_after_main_arg2 (V : Valuation τ sig (Elt Ideal)) :
    after (HandRun.ops (F := Ideal)) V (Proc.devRef .tc main_arg2) = V (Proc.devRef .tc main_arg2) := by
  rw [ops_split, after_append, after_append, after_append, after_append, after_append, after_append,
    after_opsTail_main_arg2, after_opsIt5_main_arg2, after_opsIt4_main_arg2, after_opsIt3_main_arg2, after_opsIt2_main_arg2,
    after_opsIt1_main_arg2, after_opsPre_main_arg2]

/-- The reference's run: from any memory with zero counters every weakly fair execution of @main terminates, the
    result is the reference's last stage of the arguments' launch contents, and the arguments are unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v87)
          = Read.val_main_v87 (F := Ideal) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v87).trans (ref_after _),
      (h c main_arg0).trans (ref_after_main_arg0 _),
      (h c main_arg1).trans (ref_after_main_arg1 _),
      (h c main_arg2).trans (ref_after_main_arg2 _)⟩)
    (HandRun.run_after m ρ)

/-- The same with the result as the tail of the fifth state. -/
theorem ref_run_tail (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v87)
          = tailFn (Read.val_main_v80 (F := Ideal) (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1).trans (ref_result _ _ _), (h c).2⟩) (ref_run m ρ)

end Cert.Bridge

end
-- ==== Proof.lean ====
/-
  The certificate: a dense 4096 × 4096 weight matrix is built from 200000 edges by a scatter-add, the first hidden state
  from the input, and five times the hidden state is multiplied by the weight matrix and passed through a masked
  rectifier — the last ten columns keep the raw product, the others its positive part —; the result is the logistic
  function of the last ten columns of the fifth state. The kernel tiles each product in 1024 × 1024 output blocks and
  accumulates it over eight blocks of 512 along the contracted axis, its operands rounded to bf16 on the way into the matrix
  unit; the reference takes each product whole. Over the extended reals the rounding is the identity and a sum over 4096
  is the left-nested sum of its eight block sums (addition there is commutative and associative, infinities included),
  so both compute one function of the arguments, and no finiteness of the inputs is used.
  Frames: each kernel region is run point by point (three cases of the body: first block, middle blocks, last block of
  an output block's run), the accumulator's contents carried in the region's invariant; the program is the regions
  and the two stretches of host operations composed. The reference's frame is its run with the result dropped.
  The idealization rewrote nothing, so there is nothing to preserve.
-/
import proofs.«119208_j72069551226903_1_alg».proof.Defs
import proofs.«119208_j72069551226903_1_alg».proof.Proof.Gen.Kernel
import proofs.«119208_j72069551226903_1_alg».proof.Proof.Gen.KernelIdeal
import proofs.«119208_j72069551226903_1_alg».proof.Proof.Gen.ReferenceIdeal
import proofs.«119208_j72069551226903_1_alg».proof.Proof.Gen.Pre_finite_inputs
import proofs.«119208_j72069551226903_1_alg».proof.Proof.KB_Run
import proofs.«119208_j72069551226903_1_alg».proof.Proof.KI_Value
import proofs.«119208_j72069551226903_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Bridge.ref_run m ρ)

/-- Both idealized programs end with the reference's last stage of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Hand.value_run m ρ, ?_⟩
  refine (θ_run Cert.ReferenceIdeal.defs _ _).mono (fun _ h c => ⟨(h c).1.trans ?_, (h c).2⟩) (Cert.Bridge.ref_run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
